-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S1x128 : S_.BroadcastsInDim S1x128 (![] : Fin 0 → Fin S1x128.rank)
  reducesTo_S1x128_S_d0_1 : S1x128.ReducesTo [0, 1] S_
  bcast_S_S8x128 : S_.BroadcastsInDim S8x128 (![] : Fin 0 → Fin S8x128.rank)
  reducesTo_S8x128_S_d0_1 : S8x128.ReducesTo [0, 1] S_

variable [Facts]

def fn_part3 {F : FTy → Type} [FloatOps F] (main_arg11 : FVec F S8x128 .f32) (main_arg12 : FVec F S8x128 .f32) (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S8x128 .f32 := Host.absf main_arg12
  let main_cst_22 : FVec F S_ .f32 := constant S_ .f32 0x7F800000#32
  let main_v60 : FVec F S8x128 .f32 := broadcastInDim S8x128 ![] bcast_S_S8x128 main_cst_22
  let main_v61 : IVec S8x128 1 := cmpf .olt main_v59 main_v60
  let main_c_23 : IVec S_ 1 := constantI S_ 1 1#1
  let main_v62 : IVec S_ 1 := (fun x v => Host.reduce IntOp.andi x v reducesTo_S8x128_S_d0_1 h_S_) main_v61 main_c_23
  let main_v63 : IVec S_ 1 := andi main_v58 main_v62
  main_v63

def fn_part2 {F : FTy → Type} [FloatOps F] (main_arg7 : FVec F S1024x128 .f32) (main_arg8 : FVec F S1x128 .f32) (main_arg9 : FVec F S8x128 .f32) (main_arg10 : FVec F S8x128 .f32) (main_arg11 : FVec F S8x128 .f32) (main_arg12 : FVec F S8x128 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S8x128 .f32 := Host.absf main_arg9
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  let main_v49 : FVec F S8x128 .f32 := Host.absf main_arg10
  let main_cst_18 : FVec F S_ .f32 := constant S_ .f32 0x7F800000#32
  let main_v50 : FVec F S8x128 .f32 := broadcastInDim S8x128 ![] bcast_S_S8x128 main_cst_18
  fn_part3 (F := F) main_arg11 main_arg12 main_v48 main_v49 main_v50

def fn_part1 {F : FTy → Type} [FloatOps F] (main_arg4 : FVec F S1x1024 .f32) (main_arg5 : FVec F S256x1024 .f32) (main_arg6 : FVec F S1x1024 .f32) (main_arg7 : FVec F S1024x128 .f32) (main_arg8 : FVec F S1x128 .f32) (main_arg9 : FVec F S8x128 .f32) (main_arg10 : FVec F S8x128 .f32) (main_arg11 : FVec F S8x128 .f32) (main_arg12 : FVec F S8x128 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x2048x256 .f32) (main_arg1 : FVec F S256x1024 .f32) (main_arg2 : FVec F S1x1024 .f32) (main_arg3 : FVec F S256x1024 .f32) (main_arg4 : FVec F S1x1024 .f32) (main_arg5 : FVec F S256x1024 .f32) (main_arg6 : FVec F S1x1024 .f32) (main_arg7 : FVec F S1024x128 .f32) (main_arg8 : FVec F S1x128 .f32) (main_arg9 : FVec F S8x128 .f32) (main_arg10 : FVec F S8x128 .f32) (main_arg11 : FVec F S8x128 .f32) (main_arg12 : FVec F S8x128 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_v13 main_v16
-- ==== Kernel.lean ====
abbrev S16x2048x256 : Shape := ⟨3, ![16, 2048, 256]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩
abbrev S256x2048 : Shape := ⟨2, ![256, 2048]⟩
abbrev S256x16x128 : Shape := ⟨3, ![256, 16, 128]⟩
abbrev S_ : Shape := ⟨0, ![]⟩
abbrev S256x16 : Shape := ⟨2, ![256, 16]⟩
abbrev S256x2064 : Shape := ⟨2, ![256, 2064]⟩
abbrev S1x2048 : Shape := ⟨2, ![1, 2048]⟩
abbrev S1x16x128 : Shape := ⟨3, ![1, 16, 128]⟩
abbrev S1x16 : Shape := ⟨2, ![1, 16]⟩
abbrev S1x2064 : Shape := ⟨2, ![1, 2064]⟩
abbrev S2064x1 : Shape := ⟨2, ![2064, 1]⟩
abbrev S128x8 : Shape := ⟨2, ![128, 8]⟩
abbrev S16x2048x128 : Shape := ⟨3, ![16, 2048, 128]⟩
abbrev S1x2048x256 : Shape := ⟨3, ![1, 2048, 256]⟩
abbrev S1x2048x128 : Shape := ⟨3, ![1, 2048, 128]⟩
abbrev S1152x2048 : Shape := ⟨2, ![1152, 2048]⟩
abbrev S2048x256 : Shape := ⟨2, ![2048, 256]⟩
abbrev S512x256 : Shape := ⟨2, ![512, 256]⟩
abbrev S2064x512 : Shape := ⟨2, ![2064, 512]⟩
abbrev S2048x512 : Shape := ⟨2, ![2048, 512]⟩
abbrev S16x512 : Shape := ⟨2, ![16, 512]⟩
abbrev S128x512 : Shape := ⟨2, ![128, 512]⟩
abbrev S512 : Shape := ⟨1, ![512]⟩
abbrev S1x512 : Shape := ⟨2, ![1, 512]⟩
abbrev S14x512 : Shape := ⟨2, ![14, 512]⟩
abbrev S144x2048 : Shape := ⟨2, ![144, 2048]⟩
abbrev S144x144 : Shape := ⟨2, ![144, 144]⟩
abbrev S128x128 : Shape := ⟨2, ![128, 128]⟩
abbrev S128x1 : Shape := ⟨2, ![128, 1]⟩
abbrev S1x1 : Shape := ⟨2, ![1, 1]⟩
abbrev S256x128 : Shape := ⟨2, ![256, 128]⟩
abbrev S2048x128 : Shape := ⟨2, ![2048, 128]⟩

abbrev nBuf : Space → Nat
  | .hbm => 34
  | .vmem => 16
  | .smem => 0
  | _ => 0

abbrev bufTy : (tb : Table) → Fin (tcTables nBuf tb) → BufTy
  | .hbm, ⟨0, _⟩ => ⟨S16x2048x256, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S1x1024, .f32⟩
  | .hbm, ⟨7, _⟩ => ⟨S1024x128, .f32⟩
  | .hbm, ⟨8, _⟩ => ⟨S1x128, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S256x2048, .f32⟩
  | .hbm, ⟨14, _⟩ => ⟨S256x16x128, .f32⟩
  | .hbm, ⟨15, _⟩ => ⟨S_, .f32⟩
  | .hbm, ⟨16, _⟩ => ⟨S256x16, .f32⟩
  | .hbm, ⟨17, _⟩ => ⟨S_, .f32⟩
  | .hbm, ⟨18, _⟩ => ⟨S256x16, .f32⟩
  | .hbm, ⟨19, _⟩ => ⟨S256x16, .f32⟩
  | .hbm, ⟨20, _⟩ => ⟨S256x2064, .f32⟩
  | .hbm, ⟨21, _⟩ => ⟨S256x2064, .bf16⟩
  | .hbm, ⟨22, _⟩ => ⟨S1x2048, .f32⟩
  | .hbm, ⟨23, _⟩ => ⟨S1x16x128, .f32⟩
  | .hbm, ⟨24, _⟩ => ⟨S_, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x2064, .f32⟩
  | .hbm, ⟨30, _⟩ => ⟨S2064x1, .f32⟩
  | .hbm, ⟨31, _⟩ => ⟨S128x8, .f32⟩
  | .hbm, ⟨32, _⟩ => ⟨S128x8, .f32⟩
  | .hbm, ⟨33, _⟩ => ⟨S16x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S256x2064, .bf16⟩
  | .local _ .vmem, ⟨3, _⟩ => ⟨S2064x1, .f32⟩
  | .local _ .vmem, ⟨4, _⟩ => ⟨S256x1024, .f32⟩
  | .local _ .vmem, ⟨5, _⟩ => ⟨S1x1024, .f32⟩
  | .local _ .vmem, ⟨6, _⟩ => ⟨S1024x128, .f32⟩
  | .local _ .vmem, ⟨7, _⟩ => ⟨S1x128, .f32⟩
  | .local _ .vmem, ⟨8, _⟩ => ⟨S128x8, .f32⟩
  | .local _ .vmem, ⟨9, _⟩ => ⟨S128x8, .f32⟩
  | .local _ .vmem, ⟨10, _⟩ => ⟨S8x128, .f32⟩
  | .local _ .vmem, ⟨11, _⟩ => ⟨S8x128, .f32⟩
  | .local _ .vmem, ⟨12, _⟩ => ⟨S1x2048x128, .f32⟩
  | .local _ .vmem, ⟨13, _⟩ => ⟨S1x2048x128, .f32⟩
  | .local _ .vmem, ⟨14, _⟩ => ⟨S1152x2048, .bf16⟩
  | .local _ .vmem, ⟨15, _⟩ => ⟨S1152x2048, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2064 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2064x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S256x1024_S256x1024_S256x2048_d1 : Shape.Concatenates [S256x1024, S256x1024] S256x2048 1
  shapeCasts_S256x2048_S256x16x128 : S256x2048.ShapeCasts S256x16x128
  reducesTo_S256x16x128_S256x16_d2 : S256x16x128.ReducesTo [2] S256x16
  h_S_ : 0 < S_.numel
  bcast_S_S256x16 : S_.BroadcastsInDim S256x16 (![] : Fin 0 → Fin S256x16.rank)
  concatenates_S256x2048_S256x16_S256x2064_d1 : Shape.Concatenates [S256x2048, S256x16] S256x2064 1
  bitsLt_bf16_f32 : FTy.bits .bf16 < FTy.bits .f32
  concatenates_S1x1024_S1x1024_S1x2048_d1 : Shape.Concatenates [S1x1024, S1x1024] S1x2048 1
  shapeCasts_S1x2048_S1x16x128 : S1x2048.ShapeCasts S1x16x128
  reducesTo_S1x16x128_S1x16_d2 : S1x16x128.ReducesTo [2] S1x16
  bcast_S_S1x16 : S_.BroadcastsInDim S1x16 (![] : Fin 0 → Fin S1x16.rank)
  concatenates_S1x2048_S1x16_S1x2064_d1 : Shape.Concatenates [S1x2048, S1x16] S1x2064 1
  transposes_S1x2064_S2064x1_1_0 : S1x2064.Transposes [1, 0] S2064x1
  transposes_S8x128_S128x8_1_0 : S8x128.Transposes [1, 0] S128x8
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  slices_S2048x256_o0_0_S512x256 : S2048x256.Slices ![0, 0] S512x256
  inb_S256x2064_S256x2064_0_0 : ∀ a, (![0, 0] : Fin 2 → Nat) a + S256x2064.size a ≤ S256x2064.size a
  h_S256x2064 : 0 < S256x2064.numel
  shapeCasts_S256x2064_S256x2064 : S256x2064.ShapeCasts S256x2064
  inb_S2064x1_S2064x1_0_0 : ∀ a, (![0, 0] : Fin 2 → Nat) a + S2064x1.size a ≤ S2064x1.size a
  h_S2064x1 : 0 < S2064x1.numel
  shapeCasts_S2064x1_S2064x1 : S2064x1.ShapeCasts S2064x1
  broadcasts_S2064x1_S2064x512 : S2064x1.Broadcasts S2064x512
  slices_S2064x512_o0_0_S2048x512 : S2064x512.Slices ![0, 0] S2048x512
  slices_S2064x512_o2048_0_S16x512 : S2064x512.Slices ![2048, 0] S16x512
  slices_S2064x512_o0_0_S128x512 : S2064x512.Slices ![0, 0] S128x512
  reduces_S128x512_S512 : S128x512.Reduces [0] S512
  shapeCasts_S512_S1x512 : S512.ShapeCasts S1x512
  slices_S2064x512_o128_0_S128x512 : S2064x512.Slices ![128, 0] S128x512
  slices_S2064x512_o256_0_S128x512 : S2064x512.Slices ![256, 0] S128x512
  slices_S2064x512_o384_0_S128x512 : S2064x512.Slices ![384, 0] S128x512
  slices_S2064x512_o512_0_S128x512 : S2064x512.Slices ![512, 0] S128x512
  slices_S2064x512_o640_0_S128x512 : S2064x512.Slices ![640, 0] S128x512
  slices_S2064x512_o768_0_S128x512 : S2064x512.Slices ![768, 0] S128x512
  slices_S2064x512_o896_0_S128x512 : S2064x512.Slices ![896, 0] S128x512
  slices_S2064x512_o1024_0_S128x512 : S2064x512.Slices ![1024, 0] S128x512
  slices_S2064x512_o1152_0_S128x512 : S2064x512.Slices ![1152, 0] S128x512
  slices_S2064x512_o1280_0_S128x512 : S2064x512.Slices ![1280, 0] S128x512
  slices_S2064x512_o1408_0_S128x512 : S2064x512.Slices ![1408, 0] S128x512
  slices_S2064x512_o1536_0_S128x512 : S2064x512.Slices ![1536, 0] S128x512
  slices_S2064x512_o1664_0_S128x512 : S2064x512.Slices ![1664, 0] S128x512
  slices_S2064x512_o1792_0_S128x512 : S2064x512.Slices ![1792, 0] S128x512
  slices_S2064x512_o1920_0_S128x512 : S2064x512.Slices ![1920, 0] S128x512
  concatenates_S1x512_S1x512_S1x512_S1x512_S1x512_S1x512_S1x512_S1x512_S1x512_S1x512_S1x512_S1x512_S1x512_S1x512_S1x512_S1x512_S16x512_d0 : Shape.Concatenates [S1x512, S1x512, S1x512, S1x512, S1x512, S1x512, S1x512, S1x512, S1x512, S1x512, S1x512, S1x512, S1x512, S1x512, S1x512, S1x512] S16x512 0
  slices_S2048x512_o0_0_S128x512 : S2048x512.Slices ![0, 0] S128x512
  slices_S16x512_o0_0_S1x512 : S16x512.Slices ![0, 0] S1x512
  broadcasts_S1x512_S128x512 : S1x512.Broadcasts S128x512
  inb_S1152x2048_S128x512_0_0 : ∀ a, (![0, 0] : Fin 2 → Nat) a + S128x512.size a ≤ S1152x2048.size a
  h_S128x512 : 0 < S128x512.numel
  shapeCasts_S128x512_S128x512 : S128x512.ShapeCasts S128x512
  packedbf16_S1152x2048_S128x512_0_0 : (Rect.unit (s := S1152x2048) ![0, 0] S128x512.size inb_S1152x2048_S128x512_0_0).PackedRows (EltTy.packing .bf16)
  concatenates_S1x512_S1x512_S14x512_S16x512_d0 : Shape.Concatenates [S1x512, S1x512, S14x512] S16x512 0
  inb_S1152x2048_S16x512_128_0 : ∀ a, (![128, 0] : Fin 2 → Nat) a + S16x512.size a ≤ S1152x2048.size a
  h_S16x512 : 0 < S16x512.numel
  shapeCasts_S16x512_S16x512 : S16x512.ShapeCasts S16x512
  packedbf16_S1152x2048_S16x512_128_0 : (Rect.unit (s := S1152x2048) ![128, 0] S16x512.size inb_S1152x2048_S16x512_128_0).PackedRows (EltTy.packing .bf16)
  slices_S2048x512_o128_0_S128x512 : S2048x512.Slices ![128, 0] S128x512
  slices_S16x512_o1_0_S1x512 : S16x512.Slices ![1, 0] S1x512
  inb_S1152x2048_S128x512_144_0 : ∀ a, (![144, 0] : Fin 2 → Nat) a + S128x512.size a ≤ S1152x2048.size a
  packedbf16_S1152x2048_S128x512_144_0 : (Rect.unit (s := S1152x2048) ![144, 0] S128x512.size inb_S1152x2048_S128x512_144_0).PackedRows (EltTy.packing .bf16)
  inb_S1152x2048_S16x512_272_0 : ∀ a, (![272, 0] : Fin 2 → Nat) a + S16x512.size a ≤ S1152x2048.size a
  packedbf16_S1152x2048_S16x512_272_0 : (Rect.unit (s := S1152x2048) ![272, 0] S16x512.size inb_S1152x2048_S16x512_272_0).PackedRows (EltTy.packing .bf16)
  slices_S2048x512_o256_0_S128x512 : S2048x512.Slices ![256, 0] S128x512
  slices_S16x512_o2_0_S1x512 : S16x512.Slices ![2, 0] S1x512
  inb_S1152x2048_S128x512_288_0 : ∀ a, (![288, 0] : Fin 2 → Nat) a + S128x512.size a ≤ S1152x2048.size a
  packedbf16_S1152x2048_S128x512_288_0 : (Rect.unit (s := S1152x2048) ![288, 0] S128x512.size inb_S1152x2048_S128x512_288_0).PackedRows (EltTy.packing .bf16)
  inb_S1152x2048_S16x512_416_0 : ∀ a, (![416, 0] : Fin 2 → Nat) a + S16x512.size a ≤ S1152x2048.size a
  packedbf16_S1152x2048_S16x512_416_0 : (Rect.unit (s := S1152x2048) ![416, 0] S16x512.size inb_S1152x2048_S16x512_416_0).PackedRows (EltTy.packing .bf16)
  slices_S2048x512_o384_0_S128x512 : S2048x512.Slices ![384, 0] S128x512
  slices_S16x512_o3_0_S1x512 : S16x512.Slices ![3, 0] S1x512
  inb_S1152x2048_S128x512_432_0 : ∀ a, (![432, 0] : Fin 2 → Nat) a + S128x512.size a ≤ S1152x2048.size a
  packedbf16_S1152x2048_S128x512_432_0 : (Rect.unit (s := S1152x2048) ![432, 0] S128x512.size inb_S1152x2048_S128x512_432_0).PackedRows (EltTy.packing .bf16)
  inb_S1152x2048_S16x512_560_0 : ∀ a, (![560, 0] : Fin 2 → Nat) a + S16x512.size a ≤ S1152x2048.size a
  packedbf16_S1152x2048_S16x512_560_0 : (Rect.unit (s := S1152x2048) ![560, 0] S16x512.size inb_S1152x2048_S16x512_560_0).PackedRows (EltTy.packing .bf16)
  slices_S2048x512_o512_0_S128x512 : S2048x512.Slices ![512, 0] S128x512
  slices_S16x512_o4_0_S1x512 : S16x512.Slices ![4, 0] S1x512
  inb_S1152x2048_S128x512_576_0 : ∀ a, (![576, 0] : Fin 2 → Nat) a + S128x512.size a ≤ S1152x2048.size a
  packedbf16_S1152x2048_S128x512_576_0 : (Rect.unit (s := S1152x2048) ![576, 0] S128x512.size inb_S1152x2048_S128x512_576_0).PackedRows (EltTy.packing .bf16)
  inb_S1152x2048_S16x512_704_0 : ∀ a, (![704, 0] : Fin 2 → Nat) a + S16x512.size a ≤ S1152x2048.size a
  packedbf16_S1152x2048_S16x512_704_0 : (Rect.unit (s := S1152x2048) ![704, 0] S16x512.size inb_S1152x2048_S16x512_704_0).PackedRows (EltTy.packing .bf16)
  slices_S2048x512_o640_0_S128x512 : S2048x512.Slices ![640, 0] S128x512
  slices_S16x512_o5_0_S1x512 : S16x512.Slices ![5, 0] S1x512
  inb_S1152x2048_S128x512_720_0 : ∀ a, (![720, 0] : Fin 2 → Nat) a + S128x512.size a ≤ S1152x2048.size a
  packedbf16_S1152x2048_S128x512_720_0 : (Rect.unit (s := S1152x2048) ![720, 0] S128x512.size inb_S1152x2048_S128x512_720_0).PackedRows (EltTy.packing .bf16)
  inb_S1152x2048_S16x512_848_0 : ∀ a, (![848, 0] : Fin 2 → Nat) a + S16x512.size a ≤ S1152x2048.size a
  packedbf16_S1152x2048_S16x512_848_0 : (Rect.unit (s := S1152x2048) ![848, 0] S16x512.size inb_S1152x2048_S16x512_848_0).PackedRows (EltTy.packing .bf16)
  slices_S2048x512_o768_0_S128x512 : S2048x512.Slices ![768, 0] S128x512
  slices_S16x512_o6_0_S1x512 : S16x512.Slices ![6, 0] S1x512
  inb_S1152x2048_S128x512_864_0 : ∀ a, (![864, 0] : Fin 2 → Nat) a + S128x512.size a ≤ S1152x2048.size a
  packedbf16_S1152x2048_S128x512_864_0 : (Rect.unit (s := S1152x2048) ![864, 0] S128x512.size inb_S1152x2048_S128x512_864_0).PackedRows (EltTy.packing .bf16)
  inb_S1152x2048_S16x512_992_0 : ∀ a, (![992, 0] : Fin 2 → Nat) a + S16x512.size a ≤ S1152x2048.size a
  packedbf16_S1152x2048_S16x512_992_0 : (Rect.unit (s := S1152x2048) ![992, 0] S16x512.size inb_S1152x2048_S16x512_992_0).PackedRows (EltTy.packing .bf16)
  slices_S2048x512_o896_0_S128x512 : S2048x512.Slices ![896, 0] S128x512
  slices_S16x512_o7_0_S1x512 : S16x512.Slices ![7, 0] S1x512
  inb_S1152x2048_S128x512_1008_0 : ∀ a, (![1008, 0] : Fin 2 → Nat) a + S128x512.size a ≤ S1152x2048.size a
  packedbf16_S1152x2048_S128x512_1008_0 : (Rect.unit (s := S1152x2048) ![1008, 0] S128x512.size inb_S1152x2048_S128x512_1008_0).PackedRows (EltTy.packing .bf16)
  inb_S1152x2048_S16x512_1136_0 : ∀ a, (![1136, 0] : Fin 2 → Nat) a + S16x512.size a ≤ S1152x2048.size a
  packedbf16_S1152x2048_S16x512_1136_0 : (Rect.unit (s := S1152x2048) ![1136, 0] S16x512.size inb_S1152x2048_S16x512_1136_0).PackedRows (EltTy.packing .bf16)
  slices_S2048x512_o1024_0_S128x512 : S2048x512.Slices ![1024, 0] S128x512
  slices_S16x512_o8_0_S1x512 : S16x512.Slices ![8, 0] S1x512
  slices_S2048x512_o1152_0_S128x512 : S2048x512.Slices ![1152, 0] S128x512
  slices_S16x512_o9_0_S1x512 : S16x512.Slices ![9, 0] S1x512
  slices_S2048x512_o1280_0_S128x512 : S2048x512.Slices ![1280, 0] S128x512
  slices_S16x512_o10_0_S1x512 : S16x512.Slices ![10, 0] S1x512
  slices_S2048x512_o1408_0_S128x512 : S2048x512.Slices ![1408, 0] S128x512
  slices_S16x512_o11_0_S1x512 : S16x512.Slices ![11, 0] S1x512
  slices_S2048x512_o1536_0_S128x512 : S2048x512.Slices ![1536, 0] S128x512
  slices_S16x512_o12_0_S1x512 : S16x512.Slices ![12, 0] S1x512
  slices_S2048x512_o1664_0_S128x512 : S2048x512.Slices ![1664, 0] S128x512
  slices_S16x512_o13_0_S1x512 : S16x512.Slices ![13, 0] S1x512
  slices_S2048x512_o1792_0_S128x512 : S2048x512.Slices ![1792, 0] S128x512
  slices_S16x512_o14_0_S1x512 : S16x512.Slices ![14, 0] S1x512
  slices_S2048x512_o1920_0_S128x512 : S2048x512.Slices ![1920, 0] S128x512
  slices_S16x512_o15_0_S1x512 : S16x512.Slices ![15, 0] S1x512
  slices_S2048x256_o512_0_S512x256 : S2048x256.Slices ![512, 0] S512x256
  inb_S1152x2048_S128x512_0_512 : ∀ a, (![0, 512] : Fin 2 → Nat) a + S128x512.size a ≤ S1152x2048.size a
  packedbf16_S1152x2048_S128x512_0_512 : (Rect.unit (s := S1152x2048) ![0, 512] S128x512.size inb_S1152x2048_S128x512_0_512).PackedRows (EltTy.packing .bf16)
  inb_S1152x2048_S16x512_128_512 : ∀ a, (![128, 512] : Fin 2 → Nat) a + S16x512.size a ≤ S1152x2048.size a
  packedbf16_S1152x2048_S16x512_128_512 : (Rect.unit (s := S1152x2048) ![128, 512] S16x512.size inb_S1152x2048_S16x512_128_512).PackedRows (EltTy.packing .bf16)
  inb_S1152x2048_S128x512_144_512 : ∀ a, (![144, 512] : Fin 2 → Nat) a + S128x512.size a ≤ S1152x2048.size a
  packedbf16_S1152x2048_S128x512_144_512 : (Rect.unit (s := S1152x2048) ![144, 512] S128x512.size inb_S1152x2048_S128x512_144_512).PackedRows (EltTy.packing .bf16)
  inb_S1152x2048_S16x512_272_512 : ∀ a, (![272, 512] : Fin 2 → Nat) a + S16x512.size a ≤ S1152x2048.size a
  packedbf16_S1152x2048_S16x512_272_512 : (Rect.unit (s := S1152x2048) ![272, 512] S16x512.size inb_S1152x2048_S16x512_272_512).PackedRows (EltTy.packing .bf16)
  inb_S1152x2048_S128x512_288_512 : ∀ a, (![288, 512] : Fin 2 → Nat) a + S128x512.size a ≤ S1152x2048.size a
  packedbf16_S1152x2048_S128x512_288_512 : (Rect.unit (s := S1152x2048) ![288, 512] S128x512.size inb_S1152x2048_S128x512_288_512).PackedRows (EltTy.packing .bf16)
  inb_S1152x2048_S16x512_416_512 : ∀ a, (![416, 512] : Fin 2 → Nat) a + S16x512.size a ≤ S1152x2048.size a
  packedbf16_S1152x2048_S16x512_416_512 : (Rect.unit (s := S1152x2048) ![416, 512] S16x512.size inb_S1152x2048_S16x512_416_512).PackedRows (EltTy.packing .bf16)
  inb_S1152x2048_S128x512_432_512 : ∀ a, (![432, 512] : Fin 2 → Nat) a + S128x512.size a ≤ S1152x2048.size a
  packedbf16_S1152x2048_S128x512_432_512 : (Rect.unit (s := S1152x2048) ![432, 512] S128x512.size inb_S1152x2048_S128x512_432_512).PackedRows (EltTy.packing .bf16)
  inb_S1152x2048_S16x512_560_512 : ∀ a, (![560, 512] : Fin 2 → Nat) a + S16x512.size a ≤ S1152x2048.size a
  packedbf16_S1152x2048_S16x512_560_512 : (Rect.unit (s := S1152x2048) ![560, 512] S16x512.size inb_S1152x2048_S16x512_560_512).PackedRows (EltTy.packing .bf16)
  inb_S1152x2048_S128x512_576_512 : ∀ a, (![576, 512] : Fin 2 → Nat) a + S128x512.size a ≤ S1152x2048.size a
  packedbf16_S1152x2048_S128x512_576_512 : (Rect.unit (s := S1152x2048) ![576, 512] S128x512.size inb_S1152x2048_S128x512_576_512).PackedRows (EltTy.packing .bf16)
  inb_S1152x2048_S16x512_704_512 : ∀ a, (![704, 512] : Fin 2 → Nat) a + S16x512.size a ≤ S1152x2048.size a
  packedbf16_S1152x2048_S16x512_704_512 : (Rect.unit (s := S1152x2048) ![704, 512] S16x512.size inb_S1152x2048_S16x512_704_512).PackedRows (EltTy.packing .bf16)
  inb_S1152x2048_S128x512_720_512 : ∀ a, (![720, 512] : Fin 2 → Nat) a + S128x512.size a ≤ S1152x2048.size a
  packedbf16_S1152x2048_S128x512_720_512 : (Rect.unit (s := S1152x2048) ![720, 512] S128x512.size inb_S1152x2048_S128x512_720_512).PackedRows (EltTy.packing .bf16)
  inb_S1152x2048_S16x512_848_512 : ∀ a, (![848, 512] : Fin 2 → Nat) a + S16x512.size a ≤ S1152x2048.size a
  packedbf16_S1152x2048_S16x512_848_512 : (Rect.unit (s := S1152x2048) ![848, 512] S16x512.size inb_S1152x2048_S16x512_848_512).PackedRows (EltTy.packing .bf16)
  inb_S1152x2048_S128x512_864_512 : ∀ a, (![864, 512] : Fin 2 → Nat) a + S128x512.size a ≤ S1152x2048.size a
  packedbf16_S1152x2048_S128x512_864_512 : (Rect.unit (s := S1152x2048) ![864, 512] S128x512.size inb_S1152x2048_S128x512_864_512).PackedRows (EltTy.packing .bf16)
  inb_S1152x2048_S16x512_992_512 : ∀ a, (![992, 512] : Fin 2 → Nat) a + S16x512.size a ≤ S1152x2048.size a
  packedbf16_S1152x2048_S16x512_992_512 : (Rect.unit (s := S1152x2048) ![992, 512] S16x512.size inb_S1152x2048_S16x512_992_512).PackedRows (EltTy.packing .bf16)
  inb_S1152x2048_S128x512_1008_512 : ∀ a, (![1008, 512] : Fin 2 → Nat) a + S128x512.size a ≤ S1152x2048.size a
  packedbf16_S1152x2048_S128x512_1008_512 : (Rect.unit (s := S1152x2048) ![1008, 512] S128x512.size inb_S1152x2048_S128x512_1008_512).PackedRows (EltTy.packing .bf16)
  inb_S1152x2048_S16x512_1136_512 : ∀ a, (![1136, 512] : Fin 2 → Nat) a + S16x512.size a ≤ S1152x2048.size a
  packedbf16_S1152x2048_S16x512_1136_512 : (Rect.unit (s := S1152x2048) ![1136, 512] S16x512.size inb_S1152x2048_S16x512_1136_512).PackedRows (EltTy.packing .bf16)
  slices_S2048x256_o1024_0_S512x256 : S2048x256.Slices ![1024, 0] S512x256
  inb_S1152x2048_S128x512_0_1024 : ∀ a, (![0, 1024] : Fin 2 → Nat) a + S128x512.size a ≤ S1152x2048.size a
  packedbf16_S1152x2048_S128x512_0_1024 : (Rect.unit (s := S1152x2048) ![0, 1024] S128x512.size inb_S1152x2048_S128x512_0_1024).PackedRows (EltTy.packing .bf16)
  inb_S1152x2048_S16x512_128_1024 : ∀ a, (![128, 1024] : Fin 2 → Nat) a + S16x512.size a ≤ S1152x2048.size a
  packedbf16_S1152x2048_S16x512_128_1024 : (Rect.unit (s := S1152x2048) ![128, 1024] S16x512.size inb_S1152x2048_S16x512_128_1024).PackedRows (EltTy.packing .bf16)
  inb_S1152x2048_S128x512_144_1024 : ∀ a, (![144, 1024] : Fin 2 → Nat) a + S128x512.size a ≤ S1152x2048.size a
  packedbf16_S1152x2048_S128x512_144_1024 : (Rect.unit (s := S1152x2048) ![144, 1024] S128x512.size inb_S1152x2048_S128x512_144_1024).PackedRows (EltTy.packing .bf16)
  inb_S1152x2048_S16x512_272_1024 : ∀ a, (![272, 1024] : Fin 2 → Nat) a + S16x512.size a ≤ S1152x2048.size a
  packedbf16_S1152x2048_S16x512_272_1024 : (Rect.unit (s := S1152x2048) ![272, 1024] S16x512.size inb_S1152x2048_S16x512_272_1024).PackedRows (EltTy.packing .bf16)
  inb_S1152x2048_S128x512_288_1024 : ∀ a, (![288, 1024] : Fin 2 → Nat) a + S128x512.size a ≤ S1152x2048.size a
  packedbf16_S1152x2048_S128x512_288_1024 : (Rect.unit (s := S1152x2048) ![288, 1024] S128x512.size inb_S1152x2048_S128x512_288_1024).PackedRows (EltTy.packing .bf16)
  inb_S1152x2048_S16x512_416_1024 : ∀ a, (![416, 1024] : Fin 2 → Nat) a + S16x512.size a ≤ S1152x2048.size a
  packedbf16_S1152x2048_S16x512_416_1024 : (Rect.unit (s := S1152x2048) ![416, 1024] S16x512.size inb_S1152x2048_S16x512_416_1024).PackedRows (EltTy.packing .bf16)
  inb_S1152x2048_S128x512_432_1024 : ∀ a, (![432, 1024] : Fin 2 → Nat) a + S128x512.size a ≤ S1152x2048.size a
  packedbf16_S1152x2048_S128x512_432_1024 : (Rect.unit (s := S1152x2048) ![432, 1024] S128x512.size inb_S1152x2048_S128x512_432_1024).PackedRows (EltTy.packing .bf16)
  inb_S1152x2048_S16x512_560_1024 : ∀ a, (![560, 1024] : Fin 2 → Nat) a + S16x512.size a ≤ S1152x2048.size a
  packedbf16_S1152x2048_S16x512_560_1024 : (Rect.unit (s := S1152x2048) ![560, 1024] S16x512.size inb_S1152x2048_S16x512_560_1024).PackedRows (EltTy.packing .bf16)
  inb_S1152x2048_S128x512_576_1024 : ∀ a, (![576, 1024] : Fin 2 → Nat) a + S128x512.size a ≤ S1152x2048.size a
  packedbf16_S1152x2048_S128x512_576_1024 : (Rect.unit (s := S1152x2048) ![576, 1024] S128x512.size inb_S1152x2048_S128x512_576_1024).PackedRows (EltTy.packing .bf16)
  inb_S1152x2048_S16x512_704_1024 : ∀ a, (![704, 1024] : Fin 2 → Nat) a + S16x512.size a ≤ S1152x2048.size a
  packedbf16_S1152x2048_S16x512_704_1024 : (Rect.unit (s := S1152x2048) ![704, 1024] S16x512.size inb_S1152x2048_S16x512_704_1024).PackedRows (EltTy.packing .bf16)
  inb_S1152x2048_S128x512_720_1024 : ∀ a, (![720, 1024] : Fin 2 → Nat) a + S128x512.size a ≤ S1152x2048.size a
  packedbf16_S1152x2048_S128x512_720_1024 : (Rect.unit (s := S1152x2048) ![720, 1024] S128x512.size inb_S1152x2048_S128x512_720_1024).PackedRows (EltTy.packing .bf16)
  inb_S1152x2048_S16x512_848_1024 : ∀ a, (![848, 1024] : Fin 2 → Nat) a + S16x512.size a ≤ S1152x2048.size a
  packedbf16_S1152x2048_S16x512_848_1024 : (Rect.unit (s := S1152x2048) ![848, 1024] S16x512.size inb_S1152x2048_S16x512_848_1024).PackedRows (EltTy.packing .bf16)
  inb_S1152x2048_S128x512_864_1024 : ∀ a, (![864, 1024] : Fin 2 → Nat) a + S128x512.size a ≤ S1152x2048.size a
  packedbf16_S1152x2048_S128x512_864_1024 : (Rect.unit (s := S1152x2048) ![864, 1024] S128x512.size inb_S1152x2048_S128x512_864_1024).PackedRows (EltTy.packing .bf16)
  inb_S1152x2048_S16x512_992_1024 : ∀ a, (![992, 1024] : Fin 2 → Nat) a + S16x512.size a ≤ S1152x2048.size a
  packedbf16_S1152x2048_S16x512_992_1024 : (Rect.unit (s := S1152x2048) ![992, 1024] S16x512.size inb_S1152x2048_S16x512_992_1024).PackedRows (EltTy.packing .bf16)
  inb_S1152x2048_S128x512_1008_1024 : ∀ a, (![1008, 1024] : Fin 2 → Nat) a + S128x512.size a ≤ S1152x2048.size a
  packedbf16_S1152x2048_S128x512_1008_1024 : (Rect.unit (s := S1152x2048) ![1008, 1024] S128x512.size inb_S1152x2048_S128x512_1008_1024).PackedRows (EltTy.packing .bf16)
  inb_S1152x2048_S16x512_1136_1024 : ∀ a, (![1136, 1024] : Fin 2 → Nat) a + S16x512.size a ≤ S1152x2048.size a
  packedbf16_S1152x2048_S16x512_1136_1024 : (Rect.unit (s := S1152x2048) ![1136, 1024] S16x512.size inb_S1152x2048_S16x512_1136_1024).PackedRows (EltTy.packing .bf16)
  slices_S2048x256_o1536_0_S512x256 : S2048x256.Slices ![1536, 0] S512x256
  inb_S1152x2048_S128x512_0_1536 : ∀ a, (![0, 1536] : Fin 2 → Nat) a + S128x512.size a ≤ S1152x2048.size a
  packedbf16_S1152x2048_S128x512_0_1536 : (Rect.unit (s := S1152x2048) ![0, 1536] S128x512.size inb_S1152x2048_S128x512_0_1536).PackedRows (EltTy.packing .bf16)
  inb_S1152x2048_S16x512_128_1536 : ∀ a, (![128, 1536] : Fin 2 → Nat) a + S16x512.size a ≤ S1152x2048.size a
  packedbf16_S1152x2048_S16x512_128_1536 : (Rect.unit (s := S1152x2048) ![128, 1536] S16x512.size inb_S1152x2048_S16x512_128_1536).PackedRows (EltTy.packing .bf16)
  inb_S1152x2048_S128x512_144_1536 : ∀ a, (![144, 1536] : Fin 2 → Nat) a + S128x512.size a ≤ S1152x2048.size a
  packedbf16_S1152x2048_S128x512_144_1536 : (Rect.unit (s := S1152x2048) ![144, 1536] S128x512.size inb_S1152x2048_S128x512_144_1536).PackedRows (EltTy.packing .bf16)
  inb_S1152x2048_S16x512_272_1536 : ∀ a, (![272, 1536] : Fin 2 → Nat) a + S16x512.size a ≤ S1152x2048.size a
  packedbf16_S1152x2048_S16x512_272_1536 : (Rect.unit (s := S1152x2048) ![272, 1536] S16x512.size inb_S1152x2048_S16x512_272_1536).PackedRows (EltTy.packing .bf16)
  inb_S1152x2048_S128x512_288_1536 : ∀ a, (![288, 1536] : Fin 2 → Nat) a + S128x512.size a ≤ S1152x2048.size a
  packedbf16_S1152x2048_S128x512_288_1536 : (Rect.unit (s := S1152x2048) ![288, 1536] S128x512.size inb_S1152x2048_S128x512_288_1536).PackedRows (EltTy.packing .bf16)
  inb_S1152x2048_S16x512_416_1536 : ∀ a, (![416, 1536] : Fin 2 → Nat) a + S16x512.size a ≤ S1152x2048.size a
  packedbf16_S1152x2048_S16x512_416_1536 : (Rect.unit (s := S1152x2048) ![416, 1536] S16x512.size inb_S1152x2048_S16x512_416_1536).PackedRows (EltTy.packing .bf16)
  inb_S1152x2048_S128x512_432_1536 : ∀ a, (![432, 1536] : Fin 2 → Nat) a + S128x512.size a ≤ S1152x2048.size a
  packedbf16_S1152x2048_S128x512_432_1536 : (Rect.unit (s := S1152x2048) ![432, 1536] S128x512.size inb_S1152x2048_S128x512_432_1536).PackedRows (EltTy.packing .bf16)
  inb_S1152x2048_S16x512_560_1536 : ∀ a, (![560, 1536] : Fin 2 → Nat) a + S16x512.size a ≤ S1152x2048.size a
  packedbf16_S1152x2048_S16x512_560_1536 : (Rect.unit (s := S1152x2048) ![560, 1536] S16x512.size inb_S1152x2048_S16x512_560_1536).PackedRows (EltTy.packing .bf16)
  inb_S1152x2048_S128x512_576_1536 : ∀ a, (![576, 1536] : Fin 2 → Nat) a + S128x512.size a ≤ S1152x2048.size a
  packedbf16_S1152x2048_S128x512_576_1536 : (Rect.unit (s := S1152x2048) ![576, 1536] S128x512.size inb_S1152x2048_S128x512_576_1536).PackedRows (EltTy.packing .bf16)
  inb_S1152x2048_S16x512_704_1536 : ∀ a, (![704, 1536] : Fin 2 → Nat) a + S16x512.size a ≤ S1152x2048.size a
  packedbf16_S1152x2048_S16x512_704_1536 : (Rect.unit (s := S1152x2048) ![704, 1536] S16x512.size inb_S1152x2048_S16x512_704_1536).PackedRows (EltTy.packing .bf16)
  inb_S1152x2048_S128x512_720_1536 : ∀ a, (![720, 1536] : Fin 2 → Nat) a + S128x512.size a ≤ S1152x2048.size a
  packedbf16_S1152x2048_S128x512_720_1536 : (Rect.unit (s := S1152x2048) ![720, 1536] S128x512.size inb_S1152x2048_S128x512_720_1536).PackedRows (EltTy.packing .bf16)
  inb_S1152x2048_S16x512_848_1536 : ∀ a, (![848, 1536] : Fin 2 → Nat) a + S16x512.size a ≤ S1152x2048.size a
  packedbf16_S1152x2048_S16x512_848_1536 : (Rect.unit (s := S1152x2048) ![848, 1536] S16x512.size inb_S1152x2048_S16x512_848_1536).PackedRows (EltTy.packing .bf16)
  inb_S1152x2048_S128x512_864_1536 : ∀ a, (![864, 1536] : Fin 2 → Nat) a + S128x512.size a ≤ S1152x2048.size a
  packedbf16_S1152x2048_S128x512_864_1536 : (Rect.unit (s := S1152x2048) ![864, 1536] S128x512.size inb_S1152x2048_S128x512_864_1536).PackedRows (EltTy.packing .bf16)
  inb_S1152x2048_S16x512_992_1536 : ∀ a, (![992, 1536] : Fin 2 → Nat) a + S16x512.size a ≤ S1152x2048.size a
  packedbf16_S1152x2048_S16x512_992_1536 : (Rect.unit (s := S1152x2048) ![992, 1536] S16x512.size inb_S1152x2048_S16x512_992_1536).PackedRows (EltTy.packing .bf16)
  inb_S1152x2048_S128x512_1008_1536 : ∀ a, (![1008, 1536] : Fin 2 → Nat) a + S128x512.size a ≤ S1152x2048.size a
  packedbf16_S1152x2048_S128x512_1008_1536 : (Rect.unit (s := S1152x2048) ![1008, 1536] S128x512.size inb_S1152x2048_S128x512_1008_1536).PackedRows (EltTy.packing .bf16)
  inb_S1152x2048_S16x512_1136_1536 : ∀ a, (![1136, 1536] : Fin 2 → Nat) a + S16x512.size a ≤ S1152x2048.size a
  packedbf16_S1152x2048_S16x512_1136_1536 : (Rect.unit (s := S1152x2048) ![1136, 1536] S16x512.size inb_S1152x2048_S16x512_1136_1536).PackedRows (EltTy.packing .bf16)
  inb_S1152x2048_S144x2048_0_0 : ∀ a, (![0, 0] : Fin 2 → Nat) a + S144x2048.size a ≤ S1152x2048.size a
  h_S144x2048 : 0 < S144x2048.numel
  slices_S144x144_o0_0_S128x128 : S144x144.Slices ![0, 0] S128x128
  slices_S144x144_o0_128_S128x1 : S144x144.Slices ![0, 128] S128x1
  slices_S144x144_o0_129_S128x1 : S144x144.Slices ![0, 129] S128x1
  slices_S144x144_o128_0_S1x128 : S144x144.Slices ![128, 0] S1x128
  slices_S144x144_o129_0_S1x128 : S144x144.Slices ![129, 0] S1x128
  slices_S144x144_o128_128_S1x1 : S144x144.Slices ![128, 128] S1x1
  slices_S144x144_o128_129_S1x1 : S144x144.Slices ![128, 129] S1x1
  slices_S144x144_o129_128_S1x1 : S144x144.Slices ![129, 128] S1x1
  inb_S128x8_S128x1_0_0 : ∀ a, (![0, 0] : Fin 2 → Nat) a + S128x1.size a ≤ S128x8.size a
  h_S128x1 : 0 < S128x1.numel
  shapeCasts_S128x1_S128x1 : S128x1.ShapeCasts S128x1
  inb_S8x128_S1x128_0_0 : ∀ a, (![0, 0] : Fin 2 → Nat) a + S1x128.size a ≤ S8x128.size a
  h_S1x128 : 0 < S1x128.numel
  broadcasts_S128x1_S128x128 : S128x1.Broadcasts S128x128
  broadcasts_S1x128_S128x128 : S1x128.Broadcasts S128x128
  broadcasts_S1x1_S128x128 : S1x1.Broadcasts S128x128
  broadcasts_S1x1_S128x1 : S1x1.Broadcasts S128x1
  broadcasts_S1x1_S1x128 : S1x1.Broadcasts S1x128
  inb_S1024x128_S128x128_0_0 : ∀ a, (![0, 0] : Fin 2 → Nat) a + S128x128.size a ≤ S1024x128.size a
  h_S128x128 : 0 < S128x128.numel
  inb_S1152x2048_S144x2048_144_0 : ∀ a, (![144, 0] : Fin 2 → Nat) a + S144x2048.size a ≤ S1152x2048.size a
  inb_S128x8_S128x1_0_1 : ∀ a, (![0, 1] : Fin 2 → Nat) a + S128x1.size a ≤ S128x8.size a
  inb_S8x128_S1x128_1_0 : ∀ a, (![1, 0] : Fin 2 → Nat) a + S1x128.size a ≤ S8x128.size a
  inb_S1024x128_S128x128_128_0 : ∀ a, (![128, 0] : Fin 2 → Nat) a + S128x128.size a ≤ S1024x128.size a
  inb_S1152x2048_S144x2048_288_0 : ∀ a, (![288, 0] : Fin 2 → Nat) a + S144x2048.size a ≤ S1152x2048.size a
  inb_S128x8_S128x1_0_2 : ∀ a, (![0, 2] : Fin 2 → Nat) a + S128x1.size a ≤ S128x8.size a
  inb_S8x128_S1x128_2_0 : ∀ a, (![2, 0] : Fin 2 → Nat) a + S1x128.size a ≤ S8x128.size a
  inb_S1024x128_S128x128_256_0 : ∀ a, (![256, 0] : Fin 2 → Nat) a + S128x128.size a ≤ S1024x128.size a
  inb_S1152x2048_S144x2048_432_0 : ∀ a, (![432, 0] : Fin 2 → Nat) a + S144x2048.size a ≤ S1152x2048.size a
  inb_S128x8_S128x1_0_3 : ∀ a, (![0, 3] : Fin 2 → Nat) a + S128x1.size a ≤ S128x8.size a
  inb_S8x128_S1x128_3_0 : ∀ a, (![3, 0] : Fin 2 → Nat) a + S1x128.size a ≤ S8x128.size a
  inb_S1024x128_S128x128_384_0 : ∀ a, (![384, 0] : Fin 2 → Nat) a + S128x128.size a ≤ S1024x128.size a
  inb_S1152x2048_S144x2048_576_0 : ∀ a, (![576, 0] : Fin 2 → Nat) a + S144x2048.size a ≤ S1152x2048.size a
  inb_S128x8_S128x1_0_4 : ∀ a, (![0, 4] : Fin 2 → Nat) a + S128x1.size a ≤ S128x8.size a
  inb_S8x128_S1x128_4_0 : ∀ a, (![4, 0] : Fin 2 → Nat) a + S1x128.size a ≤ S8x128.size a
  inb_S1024x128_S128x128_512_0 : ∀ a, (![512, 0] : Fin 2 → Nat) a + S128x128.size a ≤ S1024x128.size a
  inb_S1152x2048_S144x2048_720_0 : ∀ a, (![720, 0] : Fin 2 → Nat) a + S144x2048.size a ≤ S1152x2048.size a
  inb_S128x8_S128x1_0_5 : ∀ a, (![0, 5] : Fin 2 → Nat) a + S128x1.size a ≤ S128x8.size a
  inb_S8x128_S1x128_5_0 : ∀ a, (![5, 0] : Fin 2 → Nat) a + S1x128.size a ≤ S8x128.size a
  inb_S1024x128_S128x128_640_0 : ∀ a, (![640, 0] : Fin 2 → Nat) a + S128x128.size a ≤ S1024x128.size a
  inb_S1152x2048_S144x2048_864_0 : ∀ a, (![864, 0] : Fin 2 → Nat) a + S144x2048.size a ≤ S1152x2048.size a
  inb_S128x8_S128x1_0_6 : ∀ a, (![0, 6] : Fin 2 → Nat) a + S128x1.size a ≤ S128x8.size a
  inb_S8x128_S1x128_6_0 : ∀ a, (![6, 0] : Fin 2 → Nat) a + S1x128.size a ≤ S8x128.size a
  inb_S1024x128_S128x128_768_0 : ∀ a, (![768, 0] : Fin 2 → Nat) a + S128x128.size a ≤ S1024x128.size a
  inb_S1152x2048_S144x2048_1008_0 : ∀ a, (![1008, 0] : Fin 2 → Nat) a + S144x2048.size a ≤ S1152x2048.size a
  inb_S128x8_S128x1_0_7 : ∀ a, (![0, 7] : Fin 2 → Nat) a + S128x1.size a ≤ S128x8.size a
  inb_S8x128_S1x128_7_0 : ∀ a, (![7, 0] : Fin 2 → Nat) a + S1x128.size a ≤ S8x128.size a
  inb_S1024x128_S128x128_896_0 : ∀ a, (![896, 0] : Fin 2 → Nat) a + S128x128.size a ≤ S1024x128.size a
  concatenates_S128x128_S128x128_S128x128_S128x128_S128x128_S128x128_S128x128_S128x128_S1024x128_d0 : Shape.Concatenates [S128x128, S128x128, S128x128, S128x128, S128x128, S128x128, S128x128, S128x128] S1024x128 0
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  inb_S1x128_S1x128_0_0 : ∀ a, (![0, 0] : Fin 2 → Nat) a + S1x128.size a ≤ S1x128.size a
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S256x2064_S512x256_S2064x512_0_1_1_0_n_n_wf : DotDims.WF S256x2064 S512x256 S2064x512 [0] [1] [1] [0] [] []
  dot_S144x2048_S144x2048_S144x144_1_1_0_0_n_n_wf : DotDims.WF S144x2048 S144x2048 S144x144 [1] [1] [0] [0] [] []
  dot_S128x128_S128x128_S128x128_1_0_0_1_n_n_wf : DotDims.WF S128x128 S128x128 S128x128 [1] [0] [0] [1] [] []
  dot_S256x1024_S1024x128_S256x128_1_0_0_1_n_n_wf : DotDims.WF S256x1024 S1024x128 S256x128 [1] [0] [0] [1] [] []
  dot_S1x1024_S1024x128_S1x128_1_0_0_1_n_n_wf : DotDims.WF S1x1024 S1024x128 S1x128 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2064.size a ≤ S256x2064.size a
  hwx0_1 : ∀ i : grid0.Coords, EltTy.bits .bf16 = 32 ∨ (Rect.block (s := S256x2064) S256x2064.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2064x1.size a ≤ S2064x1.size a
  hwx0_2 : ∀ i : grid0.Coords, EltTy.bits .f32 = 32 ∨ (Rect.block (s := S2064x1) S2064x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x8.size a ≤ S128x8.size a
  hwx0_7 : ∀ i : grid0.Coords, EltTy.bits .f32 = 32 ∨ (Rect.block (s := S128x8) S128x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x8.size a ≤ S128x8.size a
  hwx0_8 : ∀ i : grid0.Coords, EltTy.bits .f32 = 32 ∨ (Rect.block (s := S128x8) S128x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S8x128.size a
  hwx0_9 : ∀ i : grid0.Coords, EltTy.bits .f32 = 32 ∨ (Rect.block (s := S8x128) S8x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S8x128.size a
  hwx0_10 : ∀ i : grid0.Coords, EltTy.bits .f32 = 32 ∨ (Rect.block (s := S8x128) S8x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2048x128.size a ≤ S16x2048x128.size a
  hwx0_11 : ∀ i : grid0.Coords, EltTy.bits .f32 = 32 ∨ (Rect.block (s := S16x2048x128) S1x2048x128.size (cc0_transform_11 i) (hinb0_11 i)).WholeWords (EltTy.packing .f32)

variable [Facts₀]

def dot_S256x2064_S512x256_S2064x512_0_1_1_0_n_n : DotDims S256x2064 S512x256 S2064x512 where
  lhsContracting := [0]
  rhsContracting := [1]
  lhsNonContracting := [1]
  rhsNonContracting := [0]
  lhsBatch := []
  rhsBatch := []
  wf := dot_S256x2064_S512x256_S2064x512_0_1_1_0_n_n_wf
def dot_S144x2048_S144x2048_S144x144_1_1_0_0_n_n : DotDims S144x2048 S144x2048 S144x144 where
  lhsContracting := [1]
  rhsContracting := [1]
  lhsNonContracting := [0]
  rhsNonContracting := [0]
  lhsBatch := []
  rhsBatch := []
  wf := dot_S144x2048_S144x2048_S144x144_1_1_0_0_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S1x1024_S1024x128_S1x128_1_0_0_1_n_n : DotDims S1x1024 S1024x128 S1x128 where
  lhsContracting := [1]
  rhsContracting := [0]
  lhsNonContracting := [0]
  rhsNonContracting := [1]
  lhsBatch := []
  rhsBatch := []
  wf := dot_S1x1024_S1024x128_S1x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x2064.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2064x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S8x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S8x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩
abbrev S16x8x128x128 : Shape := ⟨4, ![16, 8, 128, 128]⟩
abbrev S1x512x256 : Shape := ⟨3, ![1, 512, 256]⟩
abbrev S1x8x128x128 : Shape := ⟨4, ![1, 8, 128, 128]⟩
abbrev S512x256 : Shape := ⟨2, ![512, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1x128x128 : Shape := ⟨4, ![1, 1, 128, 128]⟩
abbrev S128x128 : Shape := ⟨2, ![128, 128]⟩
abbrev S16x2048x128 : Shape := ⟨3, ![16, 2048, 128]⟩
abbrev S1x512x128 : Shape := ⟨3, ![1, 512, 128]⟩

abbrev nBuf : Space → Nat
  | .hbm => 15
  | .vmem => 22
  | .smem => 0
  | _ => 0

abbrev bufTy : (tb : Table) → Fin (tcTables nBuf tb) → BufTy
  | .hbm, ⟨0, _⟩ => ⟨S16x2048x256, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S1x1024, .f32⟩
  | .hbm, ⟨7, _⟩ => ⟨S1024x128, .f32⟩
  | .hbm, ⟨8, _⟩ => ⟨S1x128, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S16x8x128x128, .f32⟩
  | .hbm, ⟨14, _⟩ => ⟨S16x2048x128, .f32⟩
  | .local _ .vmem, ⟨0, _⟩ => ⟨S1x512x256, .f32⟩
  | .local _ .vmem, ⟨1, _⟩ => ⟨S1x512x256, .f32⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x8x128x128, .f32⟩
  | .local _ .vmem, ⟨11, _⟩ => ⟨S1x8x128x128, .f32⟩
  | .local _ .vmem, ⟨12, _⟩ => ⟨S1x512x256, .f32⟩
  | .local _ .vmem, ⟨13, _⟩ => ⟨S1x512x256, .f32⟩
  | .local _ .vmem, ⟨14, _⟩ => ⟨S1x8x128x128, .f32⟩
  | .local _ .vmem, ⟨15, _⟩ => ⟨S1x8x128x128, .f32⟩
  | .local _ .vmem, ⟨16, _⟩ => ⟨S256x1024, .f32⟩
  | .local _ .vmem, ⟨17, _⟩ => ⟨S1x1024, .f32⟩
  | .local _ .vmem, ⟨18, _⟩ => ⟨S1024x128, .f32⟩
  | .local _ .vmem, ⟨19, _⟩ => ⟨S1x128, .f32⟩
  | .local _ .vmem, ⟨20, _⟩ => ⟨S1x512x128, .f32⟩
  | .local _ .vmem, ⟨21, _⟩ => ⟨S1x512x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x8x128x128_S1x8x128x128_0_0_0_0 : ∀ a, (![0, 0, 0, 0] : Fin 4 → Nat) a + S1x8x128x128.size a ≤ S1x8x128x128.size a
  h_S1x8x128x128 : 0 < S1x8x128x128.numel
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  slices_S512x1024_o0_0_S512x128 : S512x1024.Slices ![0, 0] S512x128
  inb_S8x128_S1x128_0_0 : ∀ a, (![0, 0] : Fin 2 → Nat) a + S1x128.size a ≤ S8x128.size a
  h_S1x128 : 0 < S1x128.numel
  reduces_S512x128_S512 : S512x128.Reduces [1] S512
  shapeCasts_S512_S512x1 : S512.ShapeCasts S512x1
  broadcasts_S512x1_S512x128 : S512x1.Broadcasts S512x128
  broadcasts_S1x128_S512x128 : S1x128.Broadcasts S512x128
  inb_S1x8x128x128_S1x1x128x128_0_0_0_0 : ∀ a, (![0, 0, 0, 0] : Fin 4 → Nat) a + S1x1x128x128.size a ≤ S1x8x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  slices_S512x1024_o0_128_S512x128 : S512x1024.Slices ![0, 128] S512x128
  inb_S8x128_S1x128_1_0 : ∀ a, (![1, 0] : Fin 2 → Nat) a + S1x128.size a ≤ S8x128.size a
  inb_S1x8x128x128_S1x1x128x128_0_1_0_0 : ∀ a, (![0, 1, 0, 0] : Fin 4 → Nat) a + S1x1x128x128.size a ≤ S1x8x128x128.size a
  slices_S512x1024_o0_256_S512x128 : S512x1024.Slices ![0, 256] S512x128
  inb_S8x128_S1x128_2_0 : ∀ a, (![2, 0] : Fin 2 → Nat) a + S1x128.size a ≤ S8x128.size a
  inb_S1x8x128x128_S1x1x128x128_0_2_0_0 : ∀ a, (![0, 2, 0, 0] : Fin 4 → Nat) a + S1x1x128x128.size a ≤ S1x8x128x128.size a
  slices_S512x1024_o0_384_S512x128 : S512x1024.Slices ![0, 384] S512x128
  inb_S8x128_S1x128_3_0 : ∀ a, (![3, 0] : Fin 2 → Nat) a + S1x128.size a ≤ S8x128.size a
  inb_S1x8x128x128_S1x1x128x128_0_3_0_0 : ∀ a, (![0, 3, 0, 0] : Fin 4 → Nat) a + S1x1x128x128.size a ≤ S1x8x128x128.size a
  slices_S512x1024_o0_512_S512x128 : S512x1024.Slices ![0, 512] S512x128
  inb_S8x128_S1x128_4_0 : ∀ a, (![4, 0] : Fin 2 → Nat) a + S1x128.size a ≤ S8x128.size a
  inb_S1x8x128x128_S1x1x128x128_0_4_0_0 : ∀ a, (![0, 4, 0, 0] : Fin 4 → Nat) a + S1x1x128x128.size a ≤ S1x8x128x128.size a
  slices_S512x1024_o0_640_S512x128 : S512x1024.Slices ![0, 640] S512x128
  inb_S8x128_S1x128_5_0 : ∀ a, (![5, 0] : Fin 2 → Nat) a + S1x128.size a ≤ S8x128.size a
  inb_S1x8x128x128_S1x1x128x128_0_5_0_0 : ∀ a, (![0, 5, 0, 0] : Fin 4 → Nat) a + S1x1x128x128.size a ≤ S1x8x128x128.size a
  slices_S512x1024_o0_768_S512x128 : S512x1024.Slices ![0, 768] S512x128
  inb_S8x128_S1x128_6_0 : ∀ a, (![6, 0] : Fin 2 → Nat) a + S1x128.size a ≤ S8x128.size a
  inb_S1x8x128x128_S1x1x128x128_0_6_0_0 : ∀ a, (![0, 6, 0, 0] : Fin 4 → Nat) a + S1x1x128x128.size a ≤ S1x8x128x128.size a
  slices_S512x1024_o0_896_S512x128 : S512x1024.Slices ![0, 896] S512x128
  inb_S8x128_S1x128_7_0 : ∀ a, (![7, 0] : Fin 2 → Nat) a + S1x128.size a ≤ S8x128.size a
  inb_S1x8x128x128_S1x1x128x128_0_7_0_0 : ∀ a, (![0, 7, 0, 0] : Fin 4 → Nat) a + S1x1x128x128.size a ≤ S1x8x128x128.size a
  inb_S1024x128_S128x128_0_0 : ∀ a, (![0, 0] : Fin 2 → Nat) a + S128x128.size a ≤ S1024x128.size a
  h_S128x128 : 0 < S128x128.numel
  inb_S1024x128_S128x128_128_0 : ∀ a, (![128, 0] : Fin 2 → Nat) a + S128x128.size a ≤ S1024x128.size a
  inb_S1024x128_S128x128_256_0 : ∀ a, (![256, 0] : Fin 2 → Nat) a + S128x128.size a ≤ S1024x128.size a
  inb_S1024x128_S128x128_384_0 : ∀ a, (![384, 0] : Fin 2 → Nat) a + S128x128.size a ≤ S1024x128.size a
  inb_S1024x128_S128x128_512_0 : ∀ a, (![512, 0] : Fin 2 → Nat) a + S128x128.size a ≤ S1024x128.size a
  inb_S1024x128_S128x128_640_0 : ∀ a, (![640, 0] : Fin 2 → Nat) a + S128x128.size a ≤ S1024x128.size a
  inb_S1024x128_S128x128_768_0 : ∀ a, (![768, 0] : Fin 2 → Nat) a + S128x128.size a ≤ S1024x128.size a
  inb_S1024x128_S128x128_896_0 : ∀ a, (![896, 0] : Fin 2 → Nat) a + S128x128.size a ≤ S1024x128.size a
  inb_S1x128_S1x128_0_0 : ∀ a, (![0, 0] : Fin 2 → Nat) a + S1x128.size a ≤ S1x128.size a
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x256_S256x1024_S512x1024_1_0_0_1_n_n_wf : DotDims.WF S512x256 S256x1024 S512x1024 [1] [0] [0] [1] [] []
  dot_S512x128_S512x128_S128x128_0_0_1_1_n_n_wf : DotDims.WF S512x128 S512x128 S128x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x128x128.size a ≤ S16x8x128x128.size a
  hwx0_9 : ∀ i : grid0.Coords, EltTy.bits .f32 = 32 ∨ (Rect.block (s := S16x8x128x128) S1x8x128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S16x2048x256.size a
  hwx1_0 : ∀ i : grid1.Coords, EltTy.bits .f32 = 32 ∨ (Rect.block (s := S16x2048x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x128x128.size a ≤ S16x8x128x128.size a
  hwx1_1 : ∀ i : grid1.Coords, EltTy.bits .f32 = 32 ∨ (Rect.block (s := S16x8x128x128) S1x8x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .f32 = 32 ∨ (Rect.block (s := S256x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .f32 = 32 ∨ (Rect.block (s := S1024x128) S1024x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x128.size a ≤ S16x2048x128.size a
  hwx1_6 : ∀ i : grid1.Coords, EltTy.bits .f32 = 32 ∨ (Rect.block (s := S16x2048x128) S1x512x128.size (cc1_transform_6 i) (hinb1_6 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x128_S512x128_S128x128_0_0_1_1_n_n : DotDims S512x128 S512x128 S128x128 where
  lhsContracting := [0]
  rhsContracting := [0]
  lhsNonContracting := [1]
  rhsNonContracting := [1]
  lhsBatch := []
  rhsBatch := []
  wf := dot_S512x128_S512x128_S128x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S8x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x8x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x512x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.RefRun.lean ====
/-
  The idealized reference's run with its result array named. Its @main is two kernel launches: the first leaves the
  attention maps LN(K_h)ᵀ LN(V_h), accumulated over the four sequence tiles of a batch row, in an intermediate array;
  the second reads that array and writes the result. After the run the result array is what the second launch's
  write-backs leave of it (the second pipeline's folded array, entered at the first pipeline's exit contents), and the
  argument arrays are as launched.
-/
import proofs.«148891_g2000303815147335_pallasbulk_1180_8_alg».proof.Defs
import proofs.«148891_g2000303815147335_pallasbulk_1180_8_alg».proof.Proof.Gen.ReferenceIdeal.Frame

set_option maxRecDepth 16384

noncomputable section

namespace Cert.ReferenceIdeal.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates without a fault; the result array then holds the second
    launch's folded write-backs, and every argument array is unchanged. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 6),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c),
       (h c _ (mem_uc main_arg12 (by decide))).trans (W2_main_arg12 m ρ c)⟩)

end Cert.ReferenceIdeal.RefValue

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.RefApply.lean ====
/-
  The reference's second launch at an entry of its output block. At a grid point the body holds a [1,512,256] block
  `x` of the input, the batch row's eight 128×128 attention maps `A_h`, and the whole `wq`, `bq`, `wo`, `bo`. It
  projects `q = x · wq + bq`, and for each head `h` adds `(q_h · A_h) · wo_h` to a running block that starts at zero
  (`q_h` the head's 128 columns of `q`, `wo_h` the head's 128 rows of `wo`), then adds `bo` and multiplies by 1/2048.
  Every product is a plain sum over the contracted coordinate at the ideal values; `qa` names `q_h · A_h` at an entry
  and `hd` names `(q_h · A_h) · wo_h`.
-/
import proofs.«148891_g2000303815147335_pallasbulk_1180_8_alg».proof.Defs
import proofs.«148891_g2000303815147335_pallasbulk_1180_8_alg».proof.Proof.Gen.ReferenceIdeal.Frame
import proofs.«148891_g2000303815147335_pallasbulk_1180_8_alg».proof.Proof.LibMatmul2
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The projected block `x · w + b` at an entry. -/
theorem proj_apply (X : Vec Ideal S1x512x256 .f32) (W : Vec Ideal S256x1024 .f32) (B : Vec Ideal S1x1024 .f32) (n : Fin 512) (e : Fin 1024) :
    k1_pay2 (F := Ideal) X W B (ix2 n e) = (∑ c : Fin 256, X (ix3 0 n c) * W (ix2 c e)) + B (ix2 0 e) := by
  unfold k1_pay2
  show (FloatOps.matmul (F := Ideal) dot_S512x256_S256x1024_S512x1024_1_0_0_1_n_n none (shapeCast S512x256 X shapeCasts_S1x512x256_S512x256) W (constant S512x1024 .f32 0x00000000#32) (ix2 n e) : EReal) + (broadcastTo S512x1024 B broadcasts_S1x1024_S512x1024 (ix2 n e) : EReal) = _
  rw [show dot_S512x256_S256x1024_S512x1024_1_0_0_1_n_n = (⟨[1], [0], [0], [1], [], [], dot_S512x256_S256x1024_S512x1024_1_0_0_1_n_n_wf⟩ : DotDims _ _ _) from rfl]
  rw [LibMatmul2.matmul_nn_apply]
  congr 1
  · refine Finset.sum_congr rfl fun c _ => ?_
    rw [shapeCast_dropUnit_apply ![512, 256] X shapeCasts_S1x512x256_S512x256 (ix2 n c)]
    refine congrArg (fun z => X z * W (ix2 c e)) ?_
    funext d; match d with | ⟨0, _⟩ => rfl | ⟨1, _⟩ => rfl | ⟨2, _⟩ => rfl
  · exact broadcastTo_apply B broadcasts_S1x1024_S512x1024 (ix2 n e) (ix2 0 e) (fun a => match a with
      | ⟨0, _⟩ => rfl
      | ⟨1, _⟩ => rfl)

/-- A product by a 128×128 matrix at an entry (the record the second pass uses for all its small products). -/
theorem mm128_apply (M : FVec Ideal S512x128 .f32) (Wo : FVec Ideal S128x128 .f32) (n : Fin 512) (j : Fin 128) :
    FloatOps.matmul (F := Ideal) (φ₁ := .f32) (φ₂ := .f32) dot_S512x128_S128x128_S512x128_1_0_0_1_n_n none M Wo (constant S512x128 .f32 0x00000000#32) (ix2 n j)
      = ∑ k : Fin 128, M (ix2 n k) * Wo (ix2 k j) := by
  rw [show dot_S512x128_S128x128_S512x128_1_0_0_1_n_n = (⟨[1], [0], [0], [1], [], [], dot_S512x128_S128x128_S512x128_1_0_0_1_n_n_wf⟩ : DotDims _ _ _) from rfl]
  exact LibMatmul2.matmul_nn_apply _ none M Wo n j

/-- Head columns `o … o+127` of the projected block. -/
theorem slice_cols_apply (o : Nat) (ho : o + 128 ≤ 1024) (q : FVec Ideal S512x1024 .f32) (hs : S512x1024.Slices ![0, o] S512x128)
    (n : Fin 512) (i : Fin 128) :
    extractStridedSlice S512x128 ![0, o] q hs (ix2 n i) = q (ix2 n ⟨o + i.val, by have := i.isLt; omega⟩) :=
  extractStridedSlice_apply ![0, o] q hs (ix2 n i) (ix2 n ⟨o + i.val, by have := i.isLt; omega⟩) (fun a => match a with
    | ⟨0, _⟩ => by show n.val = 0 + n.val; omega
    | ⟨1, _⟩ => rfl)

/-- A [1,1,128,128] block of the attention maps viewed as a 128×128 matrix. -/
theorem amap_cast_apply (A : FVec Ideal S1x1x128x128 .f32) (i k : Fin 128) :
    shapeCast S128x128 A shapeCasts_S1x1x128x128_S128x128 (ix2 i k) = A (ix4 0 0 i k) :=
  shapeCast_apply A shapeCasts_S1x1x128x128_S128x128 (ix2 i k) (ix4 0 0 i k) (by
    rw [Shape.rowMajor_val_four, Shape.rowMajor_val_two]
    show ((0 * 1 + 0) * 128 + i.val) * 128 + k.val = i.val * 128 + k.val
    omega)

/-- One head's query columns against its attention map. -/
def qa (q : S512x1024.Idx → EReal) (A : S1x1x128x128.Idx → EReal) (o : Nat) (ho : o + 128 ≤ 1024) (n : Fin 512) (k : Fin 128) : EReal :=
  ∑ i : Fin 128, q (ix2 n ⟨o + i.val, by have := i.isLt; omega⟩) * A (ix4 0 0 i k)

theorem qa_apply (o : Nat) (ho : o + 128 ≤ 1024) (q : FVec Ideal S512x1024 .f32) (hs : S512x1024.Slices ![0, o] S512x128)
    (A : FVec Ideal S1x1x128x128 .f32) (n : Fin 512) (k : Fin 128) :
    FloatOps.matmul (F := Ideal) (φ₁ := .f32) (φ₂ := .f32) dot_S512x128_S128x128_S512x128_1_0_0_1_n_n none (extractStridedSlice S512x128 ![0, o] q hs)
      (shapeCast S128x128 A shapeCasts_S1x1x128x128_S128x128) (constant S512x128 .f32 0x00000000#32) (ix2 n k) = qa q A o ho n k := by
  rw [mm128_apply]
  unfold qa
  refine Finset.sum_congr rfl fun i _ => ?_
  rw [slice_cols_apply o ho q hs n i, amap_cast_apply]

/-- One head's contribution to the output block: (q_h · A_h) · wo_h. -/
def hd (q : S512x1024.Idx → EReal) (A : S1x1x128x128.Idx → EReal) (Wo : S128x128.Idx → EReal) (o : Nat) (ho : o + 128 ≤ 1024)
    (n : Fin 512) (j : Fin 128) : EReal :=
  ∑ k : Fin 128, qa q A o ho n k * Wo (ix2 k j)

theorem hd_apply (o : Nat) (ho : o + 128 ≤ 1024) (q : FVec Ideal S512x1024 .f32) (hs : S512x1024.Slices ![0, o] S512x128)
    (A : FVec Ideal S1x1x128x128 .f32) (Wo : FVec Ideal S128x128 .f32) (n : Fin 512) (j : Fin 128) :
    FloatOps.matmul (F := Ideal) (φ₁ := .f32) (φ₂ := .f32) dot_S512x128_S128x128_S512x128_1_0_0_1_n_n none
      (FloatOps.matmul (F := Ideal) (φ₁ := .f32) (φ₂ := .f32) dot_S512x128_S128x128_S512x128_1_0_0_1_n_n none (extractStridedSlice S512x128 ![0, o] q hs)
        (shapeCast S128x128 A shapeCasts_S1x1x128x128_S128x128) (constant S512x128 .f32 0x00000000#32))
      Wo (constant S512x128 .f32 0x00000000#32) (ix2 n j) = hd q A Wo o ho n j := by
  rw [mm128_apply]
  unfold hd
  refine Finset.sum_congr rfl fun k _ => ?_
  rw [qa_apply o ho q hs A n k]

/-- Heads 0 and 1 added to the zero block. -/
theorem pay3_apply (X : Vec Ideal S1x512x256 .f32) (W : Vec Ideal S256x1024 .f32) (B : Vec Ideal S1x1024 .f32)
    (A0 : FVec Ideal S1x1x128x128 .f32) (W0 : FVec Ideal S128x128 .f32) (A1 : FVec Ideal S1x1x128x128 .f32) (W1 : FVec Ideal S128x128 .f32)
    (n : Fin 512) (j : Fin 128) :
    k1_pay3 (F := Ideal) X W B A0 W0 A1 W1 (ix2 n j)
      = (Scalar.ofBits (F := Ideal) .f32 0x00000000#32 + hd (k1_pay2 (F := Ideal) X W B) A0 W0 0 (by omega) n j)
        + hd (k1_pay2 (F := Ideal) X W B) A1 W1 128 (by omega) n j := by
  unfold k1_pay3
  exact congrArg₂ (· + ·)
    (congrArg₂ (· + ·) rfl (hd_apply 0 (by omega) (k1_pay2 (F := Ideal) X W B) slices_S512x1024_o0_0_S512x128 A0 W0 n j))
    (hd_apply 128 (by omega) (k1_pay2 (F := Ideal) X W B) slices_S512x1024_o0_128_S512x128 A1 W1 n j)

/-- Head 2's query columns against its attention map. -/
theorem pay4_apply (X : Vec Ideal S1x512x256 .f32) (W : Vec Ideal S256x1024 .f32) (B : Vec Ideal S1x1024 .f32)
    (A2 : FVec Ideal S1x1x128x128 .f32) (n : Fin 512) (k : Fin 128) :
    k1_pay4 (F := Ideal) X W B A2 (ix2 n k) = qa (k1_pay2 (F := Ideal) X W B) A2 256 (by omega) n k := by
  unfold k1_pay4
  exact qa_apply 256 (by omega) (k1_pay2 (F := Ideal) X W B) slices_S512x1024_o0_256_S512x128 A2 n k

/-- Head 2 finished, then heads 3, 4 and 5. -/
theorem pay5_apply (q : FVec Ideal S512x1024 .f32) (v21 v25 : FVec Ideal S512x128 .f32) (W2 : FVec Ideal S128x128 .f32)
    (A3 : FVec Ideal S1x1x128x128 .f32) (W3 : FVec Ideal S128x128 .f32) (A4 : FVec Ideal S1x1x128x128 .f32) (W4 : FVec Ideal S128x128 .f32)
    (A5 : FVec Ideal S1x1x128x128 .f32) (W5 : FVec Ideal S128x128 .f32) (n : Fin 512) (j : Fin 128) :
    k1_pay5 (F := Ideal) q v21 v25 W2 A3 W3 A4 W4 A5 W5 (ix2 n j)
      = (((v21 (ix2 n j) + ∑ k : Fin 128, v25 (ix2 n k) * W2 (ix2 k j)) + hd q A3 W3 384 (by omega) n j)
          + hd q A4 W4 512 (by omega) n j) + hd q A5 W5 640 (by omega) n j := by
  unfold k1_pay5
  exact congrArg₂ (· + ·) (congrArg₂ (· + ·) (congrArg₂ (· + ·) (congrArg₂ (· + ·) rfl (mm128_apply v25 W2 n j))
    (hd_apply 384 (by omega) q slices_S512x1024_o0_384_S512x128 A3 W3 n j))
    (hd_apply 512 (by omega) q slices_S512x1024_o0_512_S512x128 A4 W4 n j))
    (hd_apply 640 (by omega) q slices_S512x1024_o0_640_S512x128 A5 W5 n j)

/-- Head 6's query columns against its attention map. -/
theorem pay6_apply (q : FVec Ideal S512x1024 .f32) (A6 : FVec Ideal S1x1x128x128 .f32) (n : Fin 512) (k : Fin 128) :
    k1_pay6 (F := Ideal) q A6 (ix2 n k) = qa q A6 768 (by omega) n k := by
  unfold k1_pay6
  exact qa_apply 768 (by omega) q slices_S512x1024_o0_768_S512x128 A6 n k

/-- Head 6 finished, head 7, the output bias and the factor 1/2048, stored as a [1,512,128] block. -/
theorem pay1_apply (q : FVec Ideal S512x1024 .f32) (v49 v53 : FVec Ideal S512x128 .f32) (W6 : FVec Ideal S128x128 .f32)
    (A7 : FVec Ideal S1x1x128x128 .f32) (W7 : FVec Ideal S128x128 .f32) (Bo : FVec Ideal S1x128 .f32) (n : Fin 512) (j : Fin 128) :
    k1_pay1 (F := Ideal) q v49 v53 W6 A7 W7 Bo (ix3 0 n j)
      = (((v49 (ix2 n j) + ∑ k : Fin 128, v53 (ix2 n k) * W6 (ix2 k j)) + hd q A7 W7 896 (by omega) n j) + Bo (ix2 0 j))
          * Scalar.ofBits (F := Ideal) .f32 0x3A000000#32 := by
  unfold k1_pay1
  refine (shapeCast_addUnit_apply ![512, 128] _ shapeCasts_S512x128_S1x512x128 (ix3 0 n j)).trans ?_
  have e : (fun a : Fin 2 => (ix3 (0 : Fin 1) n j) a.succ) = ix2 n j := by
    funext a; match a with | ⟨0, _⟩ => rfl | ⟨1, _⟩ => rfl
  rw [e]
  exact congrArg₂ (· * ·) (congrArg₂ (· + ·) (congrArg₂ (· + ·) (congrArg₂ (· + ·) rfl (mm128_apply v53 W6 n j))
    (hd_apply 896 (by omega) q slices_S512x1024_o0_896_S512x128 A7 W7 n j))
    (broadcastTo_apply Bo broadcasts_S1x128_S512x128 (ix2 n j) (ix2 0 j) (fun a => match a with
      | ⟨0, _⟩ => rfl
      | ⟨1, _⟩ => rfl))) rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The second launch's output block at an entry: zero, plus the eight heads' `(q_h · A_h) · wo_h` in order, plus the
    output bias, times 1/2048 — each head's map and rows of `wo` read through the body's own rectangles. -/
theorem out1_apply (x0 : Vec Ideal S1x512x256 .f32) (x1 : Vec Ideal S1x8x128x128 .f32) (x2 : Vec Ideal S256x1024 .f32)
    (x3 : Vec Ideal S1x1024 .f32) (x4 : Vec Ideal S1024x128 .f32) (x5 : Vec Ideal S1x128 .f32) (n : Fin 512) (j : Fin 128) :
    out1_6 (F := Ideal) x0 x1 x2 x3 x4 x5 (ix3 0 n j)
      = (((((((((Scalar.ofBits (F := Ideal) .f32 0x00000000#32
          + hd (k1_pay2 (F := Ideal) x0 x2 x3) (View.ld x1 r1_3) (View.ld x4 r1_4) 0 (by omega) n j)
          + hd (k1_pay2 (F := Ideal) x0 x2 x3) (View.ld x1 r1_5) (View.ld x4 r1_6) 128 (by omega) n j)
          + hd (k1_pay2 (F := Ideal) x0 x2 x3) (View.ld x1 r1_7) (View.ld x4 r1_8) 256 (by omega) n j)
          + hd (k1_pay2 (F := Ideal) x0 x2 x3) (View.ld x1 r1_9) (View.ld x4 r1_10) 384 (by omega) n j)
          + hd (k1_pay2 (F := Ideal) x0 x2 x3) (View.ld x1 r1_11) (View.ld x4 r1_12) 512 (by omega) n j)
          + hd (k1_pay2 (F := Ideal) x0 x2 x3) (View.ld x1 r1_13) (View.ld x4 r1_14) 640 (by omega) n j)
          + hd (k1_pay2 (F := Ideal) x0 x2 x3) (View.ld x1 r1_15) (View.ld x4 r1_16) 768 (by omega) n j)
          + hd (k1_pay2 (F := Ideal) x0 x2 x3) (View.ld x1 r1_17) (View.ld x4 r1_18) 896 (by omega) n j)
          + x5 (ix2 0 j)) * Scalar.ofBits (F := Ideal) .f32 0x3A000000#32 := by
  unfold out1_6
  rw [View.canon_unit_zero hz3]
  simp only [View.ld_unit_zero (S := S1x512x256) hz3, View.ld_unit_zero (S := S256x1024) hz2, View.ld_unit_zero (S := S1x1024) hz2,
    View.ld_unit_zero (S := S1x128) hz2]
  refine (pay1_apply _ _ _ _ _ _ _ n j).trans ?_
  refine congrArg₂ (· * ·) (congrArg₂ (· + ·) (congrArg₂ (· + ·) (congrArg₂ (· + ·) ?_ ?_) rfl) rfl) rfl
  · refine (pay5_apply _ _ _ _ _ _ _ _ _ _ n j).trans ?_
    refine congrArg₂ (· + ·) (congrArg₂ (· + ·) (congrArg₂ (· + ·) (congrArg₂ (· + ·) ?_ ?_) rfl) rfl) rfl
    · exact pay3_apply _ _ _ _ _ _ _ n j
    · unfold hd
      exact Finset.sum_congr rfl fun k _ => congrArg (· * _) (pay4_apply _ _ _ _ n k)
  · unfold hd
    exact Finset.sum_congr rfl fun k _ => congrArg (· * _) (pay6_apply _ _ n k)

end Cert.ReferenceIdeal.RefValue
end
-- ==== Proof.RefOutArray.lean ====
/-
  The reference's result array as one function of the input, the attention-maps array and the weights. The second launch
  runs on a 16 × 4 grid, one batch row and one 512-position sequence tile per point; each point writes its own
  [1,512,128] block of the result, the blocks tile the array, so entry `(b, n, j)` of the result is the body's value at
  entry `n % 512` of the block of point `(b, n / 512)`: with `q = x[b] · wq + bq`,

    out[b, n, j] = ((0 + Σ_{h=0..7, in order} Σ_k (Σ_i q[n, 128h + i] · A[b, h, i, k]) · wo[128h + k, j]) + bo[j]) · 2⁻¹¹.
-/
import proofs.«148891_g2000303815147335_pallasbulk_1180_8_alg».proof.Defs
import proofs.«148891_g2000303815147335_pallasbulk_1180_8_alg».proof.Proof.Gen.ReferenceIdeal.Frame
import proofs.«148891_g2000303815147335_pallasbulk_1180_8_alg».proof.Proof.LibMatmul2
import Idealize.ShloMosaic.Lib.Pipeline.Value
import Idealize.ShloMosaic.Lib.ValueIdx
import Idealize.ShloMosaic.PureOps.Ideal.Laws
import proofs.«148891_g2000303815147335_pallasbulk_1180_8_alg».proof.Proof.RefApply

set_option maxRecDepth 16384

noncomputable section

namespace Cert.ReferenceIdeal.RefValue

open Cert.ReferenceIdeal Cert.ReferenceIdeal.Gen Idealize.ShloMosaic Idealize.ShloMosaic.ValueIdx Idealize.ShloMosaic.TcCoe

variable (V : (c : Dev nD) → (b : Ref sig .tc) → Buf (Elt Ideal) ((c : Thread nD τ).loc b))

/-- The batch row of grid point `t` (the grid is 16 rows by 4 sequence tiles, row-major). -/
def bOf (t : Fin cfg1.N) : Fin 16 := ⟨t.val / 4, by have h : t.val < 64 := t.isLt; omega⟩
/-- Sequence position `n` of tile `t % 4`. -/
def rowOf (t : Fin cfg1.N) (n : Fin 512) : Fin 2048 := ⟨512 * (t.val % 4) + n.val, by have := n.isLt; omega⟩

/-- The printed index maps over the 64 grid points: the input and the result move with (row, tile), the attention maps
    with the row, the weights stay. -/
theorem idx1 : ∀ t : Fin cfg1.N,
    win1_0.index t (0 : Fin 3) = t.val / 4 ∧ win1_0.index t (1 : Fin 3) = t.val % 4 ∧ win1_0.index t (2 : Fin 3) = 0
    ∧ win1_1.index t (0 : Fin 4) = t.val / 4 ∧ win1_1.index t (1 : Fin 4) = 0 ∧ win1_1.index t (2 : Fin 4) = 0 ∧ win1_1.index t (3 : Fin 4) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 4 ∧ win1_6.index t (1 : Fin 3) = t.val % 4 ∧ win1_6.index t (2 : Fin 3) = 0 :=
  (by decide +kernel : ∀ t : Fin grid1.N, _)

/-- The input block's entry in the input array. -/
theorem blk_x (c : Dev nD) (t : Fin cfg1.N) (n : Fin 512) (c' : Fin 256) :
    iblk1 V c 0 t (ix3 0 n c') = (V c main_arg0 : S16x2048x256.Idx → EReal) (ix3 (bOf t) (rowOf t n) c') := by
  obtain ⟨h0, h1, h2, -⟩ := idx1 t
  show (V c main_arg0 : S16x2048x256.Idx → EReal) (((cfg1.win 0).blk t).view.emb (ix3 0 n c')) = _
  refine congrArg (V c main_arg0 : S16x2048x256.Idx → EReal) ?_
  funext a; apply Fin.ext
  match a with
  | ⟨0, _⟩ => show win1_0.index t (0 : Fin 3) * 1 + 1 * 0 = t.val / 4; omega
  | ⟨1, _⟩ => show win1_0.index t (1 : Fin 3) * 512 + 1 * n.val = 512 * (t.val % 4) + n.val; omega
  | ⟨2, _⟩ => show win1_0.index t (2 : Fin 3) * 256 + 1 * c'.val = c'.val; omega

/-- Head `o`'s attention map, read from the row's block through the body's rectangle, in the attention-maps array. -/
theorem blk_amap (c : Dev nD) (t : Fin cfg1.N) (o : Nat) (ho : o < 8) (inb : ∀ a, (![0, o, 0, 0] : Fin 4 → Nat) a + S1x1x128x128.size a ≤ S1x8x128x128.size a) (i k : Fin 128) :
    View.ld (iblk1 V c 1 t) (Rect.unit (s := S1x8x128x128) ![0, o, 0, 0] S1x1x128x128.size inb) (ix4 0 0 i k)
      = (V c main_v0 : S16x8x128x128.Idx → EReal) (ix4 (bOf t) ⟨o, ho⟩ i k) := by
  obtain ⟨-, -, -, h0, h1, h2, h3, -⟩ := idx1 t
  show (V c main_v0 : S16x8x128x128.Idx → EReal) (((cfg1.win 1).blk t).view.emb ((Rect.unit (s := S1x8x128x128) ![0, o, 0, 0] S1x1x128x128.size inb).emb (ix4 0 0 i k))) = _
  refine congrArg (V c main_v0 : S16x8x128x128.Idx → EReal) ?_
  funext a; apply Fin.ext
  match a with
  | ⟨0, _⟩ => show win1_1.index t (0 : Fin 4) * 1 + 1 * (0 + 1 * 0) = t.val / 4; omega
  | ⟨1, _⟩ => show win1_1.index t (1 : Fin 4) * 8 + 1 * (o + 1 * 0) = o; omega
  | ⟨2, _⟩ => show win1_1.index t (2 : Fin 4) * 128 + 1 * (0 + 1 * i.val) = i.val; omega
  | ⟨3, _⟩ => show win1_1.index t (3 : Fin 4) * 128 + 1 * (0 + 1 * k.val) = k.val; omega

/-- Rows `o … o+127` of `wo`, read through the body's rectangle. -/
theorem blk_wo (c : Dev nD) (t : Fin cfg1.N) (o : Nat) (ho : o + 128 ≤ 1024) (inb : ∀ a, (![o, 0] : Fin 2 → Nat) a + S128x128.size a ≤ S1024x128.size a) (k j : Fin 128) :
    View.ld (iblk1 V c 4 t) (Rect.unit (s := S1024x128) ![o, 0] S128x128.size inb) (ix2 k j)
      = (V c main_arg7 : S1024x128.Idx → EReal) (ix2 ⟨o + k.val, by have := k.isLt; omega⟩ j) := by
  obtain ⟨-, -, -, -, -, -, -, -, -, -, -, h0, h1, -⟩ := idx1 t
  show (V c main_arg7 : S1024x128.Idx → EReal) (((cfg1.win 4).blk t).view.emb ((Rect.unit (s := S1024x128) ![o, 0] S128x128.size inb).emb (ix2 k j))) = _
  refine congrArg (V c main_arg7 : S1024x128.Idx → EReal) ?_
  funext a; apply Fin.ext
  match a with
  | ⟨0, _⟩ => show win1_4.index t (0 : Fin 2) * 1024 + 1 * (o + 1 * k.val) = o + k.val; omega
  | ⟨1, _⟩ => show win1_4.index t (1 : Fin 2) * 128 + 1 * (0 + 1 * j.val) = j.val; omega

/-- The whole `wq`. -/
theorem blk_wq (c : Dev nD) (t : Fin cfg1.N) : (iblk1 V c 2 t : S256x1024.Idx → EReal) = V c main_arg1 := by
  obtain ⟨-, -, -, -, -, -, -, h0, h1, -⟩ := idx1 t
  funext y
  show (V c main_arg1 : S256x1024.Idx → EReal) (((cfg1.win 2).blk t).view.emb y) = _
  refine congrArg (V c main_arg1 : S256x1024.Idx → EReal) ?_
  funext a; apply Fin.ext
  match a with
  | ⟨0, _⟩ => show win1_2.index t (0 : Fin 2) * 256 + 1 * (y 0).val = (y 0).val; omega
  | ⟨1, _⟩ => show win1_2.index t (1 : Fin 2) * 1024 + 1 * (y 1).val = (y 1).val; omega

/-- The whole `bq`. -/
theorem blk_bq (c : Dev nD) (t : Fin cfg1.N) : (iblk1 V c 3 t : S1x1024.Idx → EReal) = V c main_arg2 := by
  obtain ⟨-, -, -, -, -, -, -, -, -, h0, h1, -⟩ := idx1 t
  funext y
  show (V c main_arg2 : S1x1024.Idx → EReal) (((cfg1.win 3).blk t).view.emb y) = _
  refine congrArg (V c main_arg2 : S1x1024.Idx → EReal) ?_
  funext a; apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega

/-- The whole `bo`. -/
theorem blk_bo (c : Dev nD) (t : Fin cfg1.N) : (iblk1 V c 5 t : S1x128.Idx → EReal) = V c main_arg8 := by
  obtain ⟨-, -, -, -, -, -, -, -, -, -, -, -, -, h0, h1, -⟩ := idx1 t
  funext y
  show (V c main_arg8 : S1x128.Idx → EReal) (((cfg1.win 5).blk t).view.emb y) = _
  refine congrArg (V c main_arg8 : S1x128.Idx → EReal) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-! ## The result array as one function -/

/-- The query projection `x[b] · wq + bq` at position `nn`, feature `e`. -/
def qG (X : S16x2048x256.Idx → EReal) (Wq : S256x1024.Idx → EReal) (Bq : S1x1024.Idx → EReal) (b : Fin 16) (nn : Fin 2048) (e : Fin 1024) : EReal :=
  (∑ c : Fin 256, X (ix3 b nn c) * Wq (ix2 c e)) + Bq (ix2 0 e)

/-- Head `h`'s term `(q_h · A[b, h]) · wo_h` at position `nn`, output feature `j`. -/
def hdG (X : S16x2048x256.Idx → EReal) (A : S16x8x128x128.Idx → EReal) (Wq : S256x1024.Idx → EReal) (Bq : S1x1024.Idx → EReal)
    (Wo : S1024x128.Idx → EReal) (b : Fin 16) (nn : Fin 2048) (h : Nat) (hh : h < 8) (j : Fin 128) : EReal :=
  ∑ k : Fin 128, (∑ i : Fin 128, qG X Wq Bq b nn ⟨128 * h + i.val, by have := i.isLt; omega⟩ * A (ix4 b ⟨h, hh⟩ i k))
    * Wo (ix2 ⟨128 * h + k.val, by have := k.isLt; omega⟩ j)

/-- The reference's result array. -/
def refOut (X : S16x2048x256.Idx → EReal) (A : S16x8x128x128.Idx → EReal) (Wq : S256x1024.Idx → EReal) (Bq : S1x1024.Idx → EReal)
    (Wo : S1024x128.Idx → EReal) (Bo : S1x128.Idx → EReal) : S16x2048x128.Idx → EReal := fun y =>
  (((((((((Scalar.ofBits (F := Ideal) .f32 0x00000000#32
          + hdG X A Wq Bq Wo (y 0) (y 1) 0 (by omega) (y 2))
          + hdG X A Wq Bq Wo (y 0) (y 1) 1 (by omega) (y 2))
          + hdG X A Wq Bq Wo (y 0) (y 1) 2 (by omega) (y 2))
          + hdG X A Wq Bq Wo (y 0) (y 1) 3 (by omega) (y 2))
          + hdG X A Wq Bq Wo (y 0) (y 1) 4 (by omega) (y 2))
          + hdG X A Wq Bq Wo (y 0) (y 1) 5 (by omega) (y 2))
          + hdG X A Wq Bq Wo (y 0) (y 1) 6 (by omega) (y 2))
          + hdG X A Wq Bq Wo (y 0) (y 1) 7 (by omega) (y 2))
          + Bo (ix2 0 (y 2))) * Scalar.ofBits (F := Ideal) .f32 0x3A000000#32

/-- One head of the body's block value is the head's term of the array function. -/
theorem hd_eq (c : Dev nD) (t : Fin cfg1.N) (o : Nat) (ho : o < 8) (ho' : 128 * o + 128 ≤ 1024)
    (inbA : ∀ a, (![0, o, 0, 0] : Fin 4 → Nat) a + S1x1x128x128.size a ≤ S1x8x128x128.size a)
    (inbW : ∀ a, (![128 * o, 0] : Fin 2 → Nat) a + S128x128.size a ≤ S1024x128.size a) (n : Fin 512) (j : Fin 128) :
    hd (k1_pay2 (F := Ideal) (iblk1 V c 0 t) (iblk1 V c 2 t) (iblk1 V c 3 t))
        (View.ld (iblk1 V c 1 t) (Rect.unit (s := S1x8x128x128) ![0, o, 0, 0] S1x1x128x128.size inbA))
        (View.ld (iblk1 V c 4 t) (Rect.unit (s := S1024x128) ![128 * o, 0] S128x128.size inbW)) (128 * o) ho' n j
      = hdG (V c main_arg0) (V c main_v0) (V c main_arg1) (V c main_arg2) (V c main_arg7) (bOf t) (rowOf t n) o ho j := by
  unfold hd hdG qa
  refine Finset.sum_congr rfl fun k _ => ?_
  rw [blk_wo V c t (128 * o) ho' inbW k j]
  refine congrArg (· * _) (Finset.sum_congr rfl fun i _ => ?_)
  rw [blk_amap V c t o ho inbA i k, proj_apply]
  unfold qG
  rw [blk_wq V c t, blk_bq V c t]
  refine congrArg (· * _) (congrArg (· + _) (Finset.sum_congr rfl fun c' _ => ?_))
  rw [blk_x V c t n c']

/-- The body's block value at a point is the array function at the block's place in the array. -/
theorem blockval (c : Dev nD) (t : Fin cfg1.N) (n : Fin 512) (j : Fin 128) :
    out1_6 (F := Ideal) (iblk1 V c 0 t) (iblk1 V c 1 t) (iblk1 V c 2 t) (iblk1 V c 3 t) (iblk1 V c 4 t) (iblk1 V c 5 t) (ix3 0 n j)
      = refOut (V c main_arg0) (V c main_v0) (V c main_arg1) (V c main_arg2) (V c main_arg7) (V c main_arg8) (ix3 (bOf t) (rowOf t n) j) := by
  rw [out1_apply]
  unfold refOut
  refine congrArg (· * _) ?_
  refine congrArg₂ (· + ·) ?_ (by rw [blk_bo V c t])
  refine congrArg₂ (· + ·) ?_ (hd_eq V c t 7 (by omega) (by omega) _ _ n j)
  refine congrArg₂ (· + ·) ?_ (hd_eq V c t 6 (by omega) (by omega) _ _ n j)
  refine congrArg₂ (· + ·) ?_ (hd_eq V c t 5 (by omega) (by omega) _ _ n j)
  refine congrArg₂ (· + ·) ?_ (hd_eq V c t 4 (by omega) (by omega) _ _ n j)
  refine congrArg₂ (· + ·) ?_ (hd_eq V c t 3 (by omega) (by omega) _ _ n j)
  refine congrArg₂ (· + ·) ?_ (hd_eq V c t 2 (by omega) (by omega) _ _ n j)
  refine congrArg₂ (· + ·) ?_ (hd_eq V c t 1 (by omega) (by omega) _ _ n j)
  exact congrArg₂ (· + ·) rfl (hd_eq V c t 0 (by omega) (by omega) _ _ n j)

/-- What point `t` writes back is block `t` of the array function. -/
theorem flushed_eq (c : Dev nD) (t : Fin cfg1.N) :
    (dat1 V c).flushed 6 t = ((cfg1.win 6).blk t).view.read (Elt Ideal)
      (refOut (V c main_arg0) (V c main_v0) (V c main_arg1) (V c main_arg2) (V c main_arg7) (V c main_arg8)) := by
  show (cfg1.win 6).cut (grid1.coords t) ((dat1 V c).after 6 t) = _
  rw [after1_6]
  obtain ⟨-, -, -, -, -, -, -, -, -, -, -, -, -, -, -, h0, h1, h2⟩ := idx1 t
  refine funext fun (y : S1x512x128.Idx) => ?_
  obtain ⟨n, j, rfl⟩ : ∃ (n : Fin 512) (j : Fin 128), y = ix3 0 n j := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  show out1_6 (F := Ideal) (iblk1 V c 0 t) (iblk1 V c 1 t) (iblk1 V c 2 t) (iblk1 V c 3 t) (iblk1 V c 4 t) (iblk1 V c 5 t) (ix3 0 n j)
    = refOut (V c main_arg0) (V c main_v0) (V c main_arg1) (V c main_arg2) (V c main_arg7) (V c main_arg8) (((cfg1.win 6).blk t).view.emb (ix3 0 n j))
  refine (blockval V c t n j).trans ?_
  refine congrArg (refOut (V c main_arg0) (V c main_v0) (V c main_arg1) (V c main_arg2) (V c main_arg7) (V c main_arg8)) ?_
  funext a; apply Fin.ext
  match a with
  | ⟨0, _⟩ => show t.val / 4 = win1_6.index t (0 : Fin 3) * 1 + 1 * 0; omega
  | ⟨1, _⟩ => show 512 * (t.val % 4) + n.val = win1_6.index t (1 : Fin 3) * 512 + 1 * n.val; omega
  | ⟨2, _⟩ => show j.val = win1_6.index t (2 : Fin 3) * 128 + 1 * j.val; omega

/-- An index of the result array is in point `t`'s block iff each coordinate is in the block's range. -/
theorem mem_blk (t : Fin cfg1.N) (i : S16x2048x128.Idx) :
    i ∈ ((cfg1.win 6).blk t).view.set ↔ ∀ a : Fin 3, win1_6.index t a * S1x512x128.size a ≤ (i a).val ∧ (i a).val < win1_6.index t a * S1x512x128.size a + S1x512x128.size a := by
  show i ∈ ((View.whole main_v1).slice (win1_6.rect t)).set ↔ _
  rw [View.set_slice_whole, Rect.mem_set_unit]
  exact Iff.rfl

/-- Every entry of the result array is in the block of the point `(b, n / 512)`. -/
theorem cover (i : S16x2048x128.Idx) : ∃ t : Fin cfg1.N, (cfg1.win 6).flush t = true ∧ i ∈ ((cfg1.win 6).blk t).view.set := by
  have hi0 : (i 0).val < 16 := (i 0).isLt
  have hi1 : (i 1).val < 2048 := (i 1).isLt
  have hi2 : (i 2).val < 128 := (i 2).isLt
  let t : Fin cfg1.N := ⟨4 * (i 0).val + (i 1).val / 512, by show _ < 64; omega⟩
  obtain ⟨-, -, -, -, -, -, -, -, -, -, -, -, -, -, -, h0, h1, h2⟩ := idx1 t
  have ht : t.val = 4 * (i 0).val + (i 1).val / 512 := rfl
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 128 ≤ (i 2).val ∧ (i 2).val < win1_6.index t (2 : Fin 3) * 128 + 128; omega

/-- The result array after the second launch, entered at the contents `V`. -/
theorem final (c : Dev nD) : (dat1 V c).arrAt 6 cfg1.N
    = refOut (V c main_arg0) (V c main_v0) (V c main_arg1) (V c main_arg2) (V c main_arg7) (V c main_arg8) :=
  (dat1 V c).arrAt_eq_of_cover 6 _ (fun t _ => flushed_eq V c t) cover

end Cert.ReferenceIdeal.RefValue
end
-- ==== Proof.LibLayerNormFold.lean ====
/-
  LayerNorm folded into a Gram matrix: identities over the reals, on arbitrary finite index types.

  A row `x` of `d` features is normalized as `(x i - μ) * r`, with `μ` the mean of the row and `r` a factor
  that depends on the row only (in LayerNorm, the reciprocal square root of the variance plus a constant), then scaled
  and shifted feature by feature: `(x i - μ) * r * g i + β i`. This file proves

  * `var_eq_meansq_sub_sqmean`: the mean of the squared deviations is the mean of the squares minus the squared mean,
    so the variance can be computed from the plain sum of squares and the mean;
  * `mean_affine`: the mean over the features of an affine image `Σ_c a c * w c j + b j` is the affine image under
    the feature-means of the weights and of the bias, so a row mean rides a matrix product as one more weight column;
  * `gram_fold`: the sum over the rows `n` of the product of two normalized, scaled and shifted entries is a fixed
    combination of eight plain sums — the Gram sum of the merely rescaled rows `k n * r n` and `v n * s n`, the four
    correction sums against the rescaled means `r n * mk n`, `s n * mv n` and against the constant one, and the number
    of rows — so a LayerNorm on both factors of `Kᵀ V` never has to be applied entry by entry;
  * `apply_fold`: a bias-carrying projection followed by a linear map, a shift and a scale is one affine map whose
    weight and bias are computed once, `((Σ_h (Σ_c x c * wq c h + bq h) * M h) + bo) * ν`.
-/
import Mathlib.Algebra.BigOperators.Ring.Finset
import Mathlib.Algebra.BigOperators.Field
import Mathlib.Data.Real.Basic
import Mathlib.Tactic.Ring
import Mathlib.Tactic.FieldSimp
import Mathlib.Tactic.Linarith
import Mathlib.Algebra.BigOperators.Group.Finset.Sigma

namespace LibLayerNormFold

open Finset

variable {ι C H N : Type*} [Fintype ι] [Fintype C] [Fintype H] [Fintype N]

/-- The mean of the squared deviations from the mean is the mean of the squares minus the squared mean; `c` is the
    reciprocal of the number of features `d`, spelt as a factor. -/
theorem var_eq_meansq_sub_sqmean (x : ι → ℝ) (d c : ℝ) (hd : d ≠ 0) (hc : c * d = 1)
    (hcard : (Fintype.card ι : ℝ) = d) :
    (∑ i, (x i - (∑ j, x j) / d) * (x i - (∑ j, x j) / d)) / d
      = (∑ i, x i * x i) * c - ((∑ j, x j) / d) * ((∑ j, x j) / d) := by
  have hcd : c = 1 / d := by rw [eq_div_iff hd]; exact hc
  have h : ∀ i, (x i - (∑ j, x j) / d) * (x i - (∑ j, x j) / d)
      = x i * x i - 2 * ((∑ j, x j) / d) * x i + ((∑ j, x j) / d) * ((∑ j, x j) / d) := fun i => by ring
  simp only [h, Finset.sum_add_distrib, Finset.sum_sub_distrib, ← Finset.mul_sum, Finset.sum_const,
    Finset.card_univ, nsmul_eq_mul, hcard, hcd]
  field_simp
  ring

/-- The mean over the features of `Σ_c a c * w c j + b j` is `Σ_c a c * mean_j (w c j) + mean_j (b j)`. -/
theorem mean_affine (a : C → ℝ) (w : C → ι → ℝ) (b : ι → ℝ) (d : ℝ) :
    (∑ j, (∑ c, a c * w c j + b j)) / d = ∑ c, a c * ((∑ j, w c j) / d) + (∑ j, b j) / d := by
  rw [Finset.sum_add_distrib, Finset.sum_comm, add_div, Finset.sum_div]
  congr 1
  refine Finset.sum_congr rfl fun c _ => ?_
  rw [← Finset.mul_sum, mul_div_assoc]

/-- The Gram sum of two normalized, scaled and shifted columns, from the sums over the merely rescaled columns. -/
theorem gram_fold (k v r s mk mv : N → ℝ) (g β γ δ : ℝ) :
    ∑ n, ((k n - mk n) * r n * g + β) * ((v n - mv n) * s n * γ + δ)
      = ((∑ n, (k n * r n) * (v n * s n)) - (∑ n, (k n * r n) * (s n * mv n))
            - (∑ n, (r n * mk n) * (v n * s n)) + ∑ n, (r n * mk n) * (s n * mv n)) * (g * γ)
        + (g * ((∑ n, (k n * r n) * 1) - ∑ n, (r n * mk n) * 1)) * δ
        + β * (((∑ n, 1 * (v n * s n)) - ∑ n, 1 * (s n * mv n)) * γ)
        + (Fintype.card N : ℝ) * (β * δ) := by
  have hcard : (Fintype.card N : ℝ) * (β * δ) = ∑ _n : N, β * δ := by
    rw [Finset.sum_const, Finset.card_univ, nsmul_eq_mul]
  rw [hcard]
  simp only [← Finset.sum_sub_distrib, ← Finset.sum_add_distrib, Finset.sum_mul, Finset.mul_sum]
  refine Finset.sum_congr rfl fun n _ => ?_
  ring

/-- A bias-carrying projection, then a linear map, a shift and a scale, as one affine map of the input row. -/
theorem apply_fold (x : C → ℝ) (wq : C → H → ℝ) (bq M : H → ℝ) (bo ν : ℝ) :
    ((∑ h, (∑ c, x c * wq c h + bq h) * M h) + bo) * ν
      = ∑ c, x c * ((∑ h, wq c h * M h) * ν) + ((∑ h, bq h * M h) + bo) * ν := by
  have h : ∀ h, (∑ c, x c * wq c h + bq h) * M h = ∑ c, x c * (wq c h * M h) + bq h * M h := fun h => by
    rw [add_mul, Finset.sum_mul]
    congr 1
    exact Finset.sum_congr rfl fun c _ => by ring
  simp only [h, Finset.sum_add_distrib]
  rw [Finset.sum_comm]
  simp only [← Finset.mul_sum]
  rw [add_assoc, add_mul, Finset.sum_mul]
  congr 1
  exact Finset.sum_congr rfl fun c _ => by ring

end LibLayerNormFold
-- ==== Proof.Spec.lean ====
/-
  The two programs' results as explicit functions of the argument arrays, entry by entry, over the extended reals.

  Reference. With `k = x · wk + bk`, `v = x · wv + bv`, and LayerNorm of a 128-vector `z` with scale `g` and shift `β`,
  `ln z g β i = ((z i − μ) · rsqrt (Σ (z − μ)² / 128 + ε)) · g i + β i`, `μ = Σ z / 128`, the attention map of batch row
  `b` and head `h` is the sum over the row's four 512-position tiles, added one after the other to zero, of
  `Σ_n ln(k_h[n]) i · ln(v_h[n]) j` (`amap`); the result is `ReferenceIdeal.RefValue.refOut` at these maps.

  Kernel. Its host side appends to `[wk | wv]` sixteen columns holding each 128-column chunk's mean, and likewise for the
  bias, so that `kvb[f, n] = Σ_c wkvA[c, f] · x[n, c] + bkvT[f]` holds the 2048 key and value features of position `n` and,
  in rows 2048 … 2063, the sixteen chunk means. Per chunk `ch` and position: `var = Σ_i kvb[128ch + i]² · (1/128) − mean²`,
  `r = rsqrt (var + ε)`, `p = r · mean`. Head `h` keeps two augmented 144-row matrices over the positions, for its key
  chunk `h` and its value chunk `8 + h`: rows 0 … 127 the features times `r`, row 128 `p`, row 129 the constant one, the
  rest zero; ONE contraction over the 2048 positions gives `saug` (144 × 144), from whose entries the head's map is
  assembled (`amapK`), multiplied into `wo`'s rows (`mall`), then `weff = wq · mall`, `beff = (bq · mall + bo) / 2048`
  and `out = x · (weff / 2048) + beff`.
-/
import Idealize.ShloMosaic.PureOps.Ideal
import Idealize.ShloMosaic.Lib.ValueIdx

noncomputable section

namespace Cert.Spec

open Idealize.ShloMosaic Idealize.ShloMosaic.ValueIdx

/-- 128.0, 1/128, 1/2048, 2048.0, the LayerNorm epsilon (the f32 nearest 1e-5), and zero, as the programs spell them. -/
def c128 : EReal := Scalar.ofBits (F := Ideal) .f32 0x43000000#32
def cInvD : EReal := Scalar.ofBits (F := Ideal) .f32 0x3C000000#32
def cInvN : EReal := Scalar.ofBits (F := Ideal) .f32 0x3A000000#32
def cN : EReal := Scalar.ofBits (F := Ideal) .f32 0x45000000#32
def cEps : EReal := Scalar.ofBits (F := Ideal) .f32 0x3727C5AC#32
def cZero : EReal := Scalar.ofBits (F := Ideal) .f32 0x00000000#32

/-! ## The reference -/

/-- A projection `x · w + b` of one position's 256 features onto feature `e`. -/
def proj (x : Fin 256 → EReal) (w : Fin 256 → Fin 1024 → EReal) (b : Fin 1024 → EReal) (e : Fin 1024) : EReal :=
  (∑ c : Fin 256, x c * w c e) + b e

/-- Feature `128h + i` of a 1024-vector. -/
def headOf (z : Fin 1024 → EReal) (h : Fin 8) (i : Fin 128) : EReal :=
  z ⟨128 * h.val + i.val, by have := h.isLt; have := i.isLt; omega⟩

/-- The mean of a 128-vector, as a division by 128.0. -/
def mean128 (z : Fin 128 → EReal) : EReal := Ideal.div (∑ i : Fin 128, z i) c128

/-- LayerNorm of a 128-vector at entry `i`. -/
def ln (z g β : Fin 128 → EReal) (i : Fin 128) : EReal :=
  ((z i - mean128 z) * Ideal.rsqrt (Ideal.div (∑ i' : Fin 128, (z i' - mean128 z) * (z i' - mean128 z)) c128 + cEps)) * g i + β i

/-- One 512-position tile's contribution to the attention map of a head: `Σ_n ln(k_h[n]) i · ln(v_h[n]) j`. -/
def tileGram (x : Fin 2048 → Fin 256 → EReal) (wk : Fin 256 → Fin 1024 → EReal) (bk : Fin 1024 → EReal)
    (wv : Fin 256 → Fin 1024 → EReal) (bv : Fin 1024 → EReal) (gk bkl gv bvl : Fin 8 → Fin 128 → EReal)
    (h : Fin 8) (t : Fin 4) (i j : Fin 128) : EReal :=
  ∑ n : Fin 512,
    ln (headOf (proj (x ⟨512 * t.val + n.val, by have := t.isLt; have := n.isLt; omega⟩) wk bk) h) (gk h) (bkl h) i
      * ln (headOf (proj (x ⟨512 * t.val + n.val, by have := t.isLt; have := n.isLt; omega⟩) wv bv) h) (gv h) (bvl h) j

/-- The attention map of one batch row: the four tiles added to zero in order. -/
def amapRow (x : Fin 2048 → Fin 256 → EReal) (wk : Fin 256 → Fin 1024 → EReal) (bk : Fin 1024 → EReal)
    (wv : Fin 256 → Fin 1024 → EReal) (bv : Fin 1024 → EReal) (gk bkl gv bvl : Fin 8 → Fin 128 → EReal)
    (h : Fin 8) (i j : Fin 128) : EReal :=
  (((cZero + tileGram x wk bk wv bv gk bkl gv bvl h 0 i j) + tileGram x wk bk wv bv gk bkl gv bvl h 1 i j)
    + tileGram x wk bk wv bv gk bkl gv bvl h 2 i j) + tileGram x wk bk wv bv gk bkl gv bvl h 3 i j

/-- The attention-maps array the reference's first launch leaves, from the argument arrays. -/
def amap (X : (⟨3, ![16, 2048, 256]⟩ : Shape).Idx → EReal) (Wk : (⟨2, ![256, 1024]⟩ : Shape).Idx → EReal)
    (Bk : (⟨2, ![1, 1024]⟩ : Shape).Idx → EReal) (Wv : (⟨2, ![256, 1024]⟩ : Shape).Idx → EReal)
    (Bv : (⟨2, ![1, 1024]⟩ : Shape).Idx → EReal) (Gk Bkl Gv Bvl : (⟨2, ![8, 128]⟩ : Shape).Idx → EReal) :
    (⟨4, ![16, 8, 128, 128]⟩ : Shape).Idx → EReal := fun y =>
  amapRow (fun n c => X (ix3 (y 0) n c)) (fun c e => Wk (ix2 c e)) (fun e => Bk (ix2 0 e)) (fun c e => Wv (ix2 c e))
    (fun e => Bv (ix2 0 e)) (fun h i => Gk (ix2 h i)) (fun h i => Bkl (ix2 h i)) (fun h i => Gv (ix2 h i))
    (fun h i => Bvl (ix2 h i)) (y 1) (y 2) (y 3)

/-! ## The kernel -/

section Kernel
variable (x : Fin 2048 → Fin 256 → EReal) (wkvA : Fin 256 → Fin 2064 → EReal) (bkvT : Fin 2064 → EReal)
  (wq : Fin 256 → Fin 1024 → EReal) (bq : Fin 1024 → EReal) (wo : Fin 1024 → Fin 128 → EReal) (bo : Fin 128 → EReal)
  (gkT bkT : Fin 128 → Fin 8 → EReal) (gv bvl : Fin 8 → Fin 128 → EReal)

/-- Row `f` of the transposed, mean-augmented projection at position `n`. -/
def kvb (f : Fin 2064) (n : Fin 2048) : EReal := (∑ c : Fin 256, wkvA c f * x n c) + bkvT f

/-- Feature `i` of chunk `ch` (chunks 0 … 7 the heads' keys, 8 … 15 their values). -/
def feat (ch : Fin 16) (i : Fin 128) (n : Fin 2048) : EReal :=
  kvb x wkvA bkvT ⟨128 * ch.val + i.val, by have := ch.isLt; have := i.isLt; omega⟩ n

/-- The chunk's mean, carried by the projection. -/
def cmean (ch : Fin 16) (n : Fin 2048) : EReal := kvb x wkvA bkvT ⟨2048 + ch.val, by have := ch.isLt; omega⟩ n

/-- The reciprocal standard deviation of the chunk at a position. -/
def rstd (ch : Fin 16) (n : Fin 2048) : EReal :=
  Ideal.rsqrt ((((∑ i : Fin 128, feat x wkvA bkvT ch i n * feat x wkvA bkvT ch i n) * cInvD)
    - cmean x wkvA bkvT ch n * cmean x wkvA bkvT ch n) + cEps)

/-- Row `a` of a chunk's augmented 144-row matrix at a position. -/
def aug (ch : Fin 16) (a : Fin 144) (n : Fin 2048) : EReal :=
  if h : a.val < 128 then feat x wkvA bkvT ch ⟨a.val, h⟩ n * rstd x wkvA bkvT ch n
  else if a.val = 128 then rstd x wkvA bkvT ch n * cmean x wkvA bkvT ch n
  else if a.val = 129 then Scalar.ofBits (F := Ideal) .bf16 0x3F80#16
  else Scalar.ofBits (F := Ideal) .bf16 0x0000#16

/-- Head `h`'s augmented contraction over the positions. -/
def saug (h : Fin 8) (a b : Fin 144) : EReal :=
  ∑ n : Fin 2048, aug x wkvA bkvT ⟨h.val, by have := h.isLt; omega⟩ a n * aug x wkvA bkvT ⟨8 + h.val, by have := h.isLt; omega⟩ b n

/-- Row `i` of a 128-row block as a row of the 144-row augmented matrix. -/
def up (i : Fin 128) : Fin 144 := ⟨i.val, by have := i.isLt; omega⟩

/-- Head `h`'s attention map, assembled from an augmented contraction `S h` given as a matrix. -/
def amapOf (S : Fin 8 → Fin 144 → Fin 144 → EReal) (h : Fin 8) (i k : Fin 128) : EReal :=
  let s := S h
  let a : Fin 128 → Fin 144 := up
  (((((s (a i) (a k) - s (a i) ⟨128, by omega⟩) - s ⟨128, by omega⟩ (a k)) + s ⟨128, by omega⟩ ⟨128, by omega⟩) * (gkT i h * gv h k)
      + (gkT i h * (s (a i) ⟨129, by omega⟩ - s ⟨128, by omega⟩ ⟨129, by omega⟩)) * bvl h k)
      + bkT i h * ((s ⟨129, by omega⟩ (a k) - s ⟨129, by omega⟩ ⟨128, by omega⟩) * gv h k))
      + cN * (bkT i h * bvl h k)

/-- Head `h`'s map multiplied into `wo`'s rows `128h … 128h+127`. -/
def mpartOf (S : Fin 8 → Fin 144 → Fin 144 → EReal) (h : Fin 8) (i : Fin 128) (j : Fin 128) : EReal :=
  ∑ k : Fin 128, amapOf gkT bkT gv bvl S h i k * wo ⟨128 * h.val + k.val, by have := h.isLt; have := k.isLt; omega⟩ j

/-- The heads' blocks stacked: row `e = 128h + i`. -/
def mallOf (S : Fin 8 → Fin 144 → Fin 144 → EReal) (e : Fin 1024) (j : Fin 128) : EReal :=
  mpartOf wo gkT bkT gv bvl S ⟨e.val / 128, by have := e.isLt; omega⟩ ⟨e.val % 128, Nat.mod_lt _ (by omega)⟩ j

/-- The effective weight and bias of the batch row. -/
def weffOf (S : Fin 8 → Fin 144 → Fin 144 → EReal) (c : Fin 256) (j : Fin 128) : EReal :=
  ∑ e : Fin 1024, wq c e * mallOf wo gkT bkT gv bvl S e j
def beffOf (S : Fin 8 → Fin 144 → Fin 144 → EReal) (j : Fin 128) : EReal :=
  ((∑ e : Fin 1024, bq e * mallOf wo gkT bkT gv bvl S e j) + bo j) * cInvN

/-- The kernel's result for the batch row, from the augmented contractions. -/
def krowOf (S : Fin 8 → Fin 144 → Fin 144 → EReal) (n : Fin 2048) (j : Fin 128) : EReal :=
  (∑ c : Fin 256, x n c * (weffOf wq wo gkT bkT gv bvl S c j * cInvN)) + beffOf bq wo bo gkT bkT gv bvl S j

/-- The kernel's result for the batch row. -/
def krow (n : Fin 2048) (j : Fin 128) : EReal :=
  krowOf x wq bq wo bo gkT bkT gv bvl (saug x wkvA bkvT) n j

end Kernel

/-- What the kernel body leaves in its two scratch buffers (`buf = 0`: the eight heads' augmented key matrices stacked,
    144 rows each; `buf = 1`: the value matrices), from the input blocks. -/
def scr (x0 : (⟨3, ![1, 2048, 256]⟩ : Shape).Idx → EReal) (x1 : (⟨2, ![256, 2064]⟩ : Shape).Idx → EReal)
    (x2 : (⟨2, ![2064, 1]⟩ : Shape).Idx → EReal) (buf : Fin 2) : (⟨2, ![1152, 2048]⟩ : Shape).Idx → EReal := fun y =>
  aug (fun n c => x0 (ix3 0 n c)) (fun c f => x1 (ix2 c f)) (fun f => x2 (ix2 f 0))
    ⟨8 * buf.val + (y 0).val / 144, by have := buf.isLt; have h : (y 0).val < 1152 := (y 0).isLt; omega⟩
    ⟨(y 0).val % 144, Nat.mod_lt _ (by omega)⟩ (y 1)

/-- The augmented contraction of head `h` from the two 144-row matrices the body loads back. -/
def saugOf (ka va : Fin 8 → (⟨2, ![144, 2048]⟩ : Shape).Idx → EReal) (h : Fin 8) (a b : Fin 144) : EReal :=
  ∑ n : Fin 2048, ka h (ix2 a n) * va h (ix2 b n)

/-- The kernel body's output block from its eleven input blocks. -/
def kout (x0 : (⟨3, ![1, 2048, 256]⟩ : Shape).Idx → EReal) (x1 : (⟨2, ![256, 2064]⟩ : Shape).Idx → EReal)
    (x2 : (⟨2, ![2064, 1]⟩ : Shape).Idx → EReal) (x3 : (⟨2, ![256, 1024]⟩ : Shape).Idx → EReal)
    (x4 : (⟨2, ![1, 1024]⟩ : Shape).Idx → EReal) (x5 : (⟨2, ![1024, 128]⟩ : Shape).Idx → EReal)
    (x6 : (⟨2, ![1, 128]⟩ : Shape).Idx → EReal) (x7 x8 : (⟨2, ![128, 8]⟩ : Shape).Idx → EReal)
    (x9 x10 : (⟨2, ![8, 128]⟩ : Shape).Idx → EReal) : (⟨3, ![1, 2048, 128]⟩ : Shape).Idx → EReal := fun y =>
  krow (fun n c => x0 (ix3 0 n c)) (fun c f => x1 (ix2 c f)) (fun f => x2 (ix2 f 0)) (fun c e => x3 (ix2 c e))
    (fun e => x4 (ix2 0 e)) (fun e j => x5 (ix2 e j)) (fun j => x6 (ix2 0 j)) (fun i h => x7 (ix2 i h)) (fun i h => x8 (ix2 i h))
    (fun h k => x9 (ix2 h k)) (fun h k => x10 (ix2 h k)) (y 1) (y 2)

/-! ## The kernel's host side -/

/-- `[wk | wv]` at column `g` of its 2048. -/
def catW (wk wv : Fin 256 → Fin 1024 → EReal) (c : Fin 256) (g : Fin 2048) : EReal :=
  if h : g.val < 1024 then wk c ⟨g.val, h⟩ else wv c ⟨g.val - 1024, by have := g.isLt; omega⟩

/-- The augmented weight: the 2048 columns, then the sixteen chunk means. -/
def hostWkv (wk wv : Fin 256 → Fin 1024 → EReal) (c : Fin 256) (f : Fin 2064) : EReal :=
  if h : f.val < 2048 then catW wk wv c ⟨f.val, h⟩
  else Ideal.div (cZero + ∑ i : Fin 128, catW wk wv c ⟨128 * (f.val - 2048) + i.val, by have := f.isLt; have := i.isLt; omega⟩) c128

/-- The augmented bias, likewise. -/
def hostBkv (bk bv : Fin 1024 → EReal) (f : Fin 2064) : EReal :=
  hostWkv (fun _ e => bk e) (fun _ e => bv e) 0 f

/-- The kernel's result array from the argument arrays. -/
def kerOut (X : (⟨3, ![16, 2048, 256]⟩ : Shape).Idx → EReal) (Wq : (⟨2, ![256, 1024]⟩ : Shape).Idx → EReal)
    (Bq : (⟨2, ![1, 1024]⟩ : Shape).Idx → EReal) (Wk : (⟨2, ![256, 1024]⟩ : Shape).Idx → EReal)
    (Bk : (⟨2, ![1, 1024]⟩ : Shape).Idx → EReal) (Wv : (⟨2, ![256, 1024]⟩ : Shape).Idx → EReal)
    (Bv : (⟨2, ![1, 1024]⟩ : Shape).Idx → EReal) (Wo : (⟨2, ![1024, 128]⟩ : Shape).Idx → EReal)
    (Bo : (⟨2, ![1, 128]⟩ : Shape).Idx → EReal) (Gk Bkl Gv Bvl : (⟨2, ![8, 128]⟩ : Shape).Idx → EReal) :
    (⟨3, ![16, 2048, 128]⟩ : Shape).Idx → EReal := fun y =>
  krow (fun n c => X (ix3 (y 0) n c)) (hostWkv (fun c e => Wk (ix2 c e)) (fun c e => Wv (ix2 c e)))
    (hostBkv (fun e => Bk (ix2 0 e)) (fun e => Bv (ix2 0 e))) (fun c e => Wq (ix2 c e)) (fun e => Bq (ix2 0 e))
    (fun e j => Wo (ix2 e j)) (fun j => Bo (ix2 0 j)) (fun i h => Gk (ix2 h i)) (fun i h => Bkl (ix2 h i))
    (fun h k => Gv (ix2 h k)) (fun h k => Bvl (ix2 h k)) (y 1) (y 2)

end Cert.Spec

end
-- ==== Proof.Consts.lean ====
/-
  The float constants the two programs spell, as the extended reals their bit patterns denote: 128, 1/128, 1/2048, 2048,
  zero, the bf16 one and zero, and the LayerNorm epsilon (the f32 nearest 1e-5), of which only positivity is used.
-/
import proofs.«148891_g2000303815147335_pallasbulk_1180_8_alg».proof.Proof.Spec

noncomputable section

namespace Cert.Consts

open Idealize.ShloMosaic Cert.Spec

theorem c128_eq : c128 = ((128 : ℝ) : EReal) := by
  show Ideal.ofBits .f32 0x43000000#32 = _
  simp [Ideal.ofBits, Ideal.ieee, -EReal.coe_mul]; norm_num

theorem cInvD_eq : cInvD = ((1 / 128 : ℝ) : EReal) := by
  show Ideal.ofBits .f32 0x3C000000#32 = _
  simp [Ideal.ofBits, Ideal.ieee, -EReal.coe_mul]; norm_num

theorem cInvN_eq : cInvN = ((1 / 2048 : ℝ) : EReal) := by
  show Ideal.ofBits .f32 0x3A000000#32 = _
  simp [Ideal.ofBits, Ideal.ieee, -EReal.coe_mul]; norm_num

theorem cN_eq : cN = ((2048 : ℝ) : EReal) := by
  show Ideal.ofBits .f32 0x45000000#32 = _
  simp [Ideal.ofBits, Ideal.ieee, -EReal.coe_mul]; norm_num

theorem cZero_eq : cZero = ((0 : ℝ) : EReal) := by
  show Ideal.ofBits .f32 0x00000000#32 = _
  simp [Ideal.ofBits, Ideal.ieee]

theorem one_bf16 : Scalar.ofBits (F := Ideal) .bf16 0x3F80#16 = ((1 : ℝ) : EReal) := by
  show Ideal.ofBits .bf16 0x3F80#16 = _
  simp [Ideal.ofBits, Ideal.ieee, -EReal.coe_mul]; norm_num

theorem zero_bf16 : Scalar.ofBits (F := Ideal) .bf16 0x0000#16 = ((0 : ℝ) : EReal) := by
  show Ideal.ofBits .bf16 0x0000#16 = _
  simp [Ideal.ofBits, Ideal.ieee]

/-- The epsilon is a positive real. -/
theorem cEps_pos : ∃ ε : ℝ, 0 < ε ∧ cEps = (ε : EReal) := by
  refine ⟨(2 : ℝ) ^ (-17 : ℤ) * (1 + 2606508 / 8388608), by positivity, ?_⟩
  show Ideal.ofBits .f32 0x3727C5AC#32 = _
  simp [Ideal.ofBits, Ideal.ieee, -EReal.coe_mul]; norm_num

end Cert.Consts

end
-- ==== Proof.AlgReal.lean ====
/-
  The algebra joining the two programs, over the reals, for one batch row.

  `x` is the row's 2048 × 256 input, `k = x · wk + bk`, `v = x · wv + bv`, `q = x · wq + bq`; features are grouped in
  eight heads of 128. `ρ` stands for the reciprocal square root (only its being a function is used) and `ε` for the
  LayerNorm constant. The reference's attention map of a head is the Gram sum over the positions of the layer-normalized
  key and value features, taken as four tile sums added to zero; the kernel's is assembled from the eight sums of its
  augmented contraction, with the chunk means carried by sixteen extra weight columns and the variance taken as mean of
  squares minus squared mean. `amapK_eq` says the two maps agree, `row_eq` that the two results agree.
-/
import Mathlib.Algebra.BigOperators.Ring.Finset
import Mathlib.Algebra.BigOperators.Fin
import Mathlib.Algebra.BigOperators.Group.Finset.Sigma
import Mathlib.Data.Real.Basic
import Mathlib.Logic.Equiv.Fin.Basic
import Mathlib.Tactic.Ring
import Mathlib.Tactic.Linarith
import proofs.«148891_g2000303815147335_pallasbulk_1180_8_alg».proof.Proof.LibLayerNormFold

noncomputable section

namespace Cert.AlgR

open Finset

/-- A sum over `m · n` indices as a double sum, the index written `n · a + b`. -/
theorem sum_split (m n : ℕ) (f : Fin (m * n) → ℝ) :
    ∑ e, f e = ∑ a : Fin m, ∑ b : Fin n, f ⟨n * a.val + b.val, by
      have ha := a.isLt; have hb := b.isLt
      calc n * a.val + b.val < n * a.val + n := by omega
        _ = n * (a.val + 1) := by ring
        _ ≤ n * m := Nat.mul_le_mul_left n ha
        _ = m * n := Nat.mul_comm n m⟩ := by
  rw [← finProdFinEquiv.sum_comp, Fintype.sum_prod_type]
  refine Finset.sum_congr rfl fun a _ => Finset.sum_congr rfl fun b _ => ?_
  refine congrArg f (Fin.ext ?_)
  simp [finProdFinEquiv]
  ring

/-- Feature `128h + i`. -/
def hidx (h : Fin 8) (i : Fin 128) : Fin 1024 := ⟨128 * h.val + i.val, by have := h.isLt; have := i.isLt; omega⟩
/-- Position `512t + n`. -/
def pos (t : Fin 4) (n : Fin 512) : Fin 2048 := ⟨512 * t.val + n.val, by have := t.isLt; have := n.isLt; omega⟩

section
variable (ρ : ℝ → ℝ) (ε : ℝ)

def proj (xr : Fin 256 → ℝ) (w : Fin 256 → Fin 1024 → ℝ) (b : Fin 1024 → ℝ) (e : Fin 1024) : ℝ :=
  (∑ c : Fin 256, xr c * w c e) + b e

def mean (z : Fin 128 → ℝ) : ℝ := (∑ i : Fin 128, z i) * (1 / 128)

def var (z : Fin 128 → ℝ) : ℝ := (∑ i : Fin 128, (z i - mean z) * (z i - mean z)) * (1 / 128)

def ln (z g β : Fin 128 → ℝ) (i : Fin 128) : ℝ := ((z i - mean z) * ρ (var z + ε)) * g i + β i

/-- The variance as mean of squares minus squared mean. -/
theorem var_eq (z : Fin 128 → ℝ) : var z = (∑ i : Fin 128, z i * z i) * (1 / 128) - mean z * mean z := by
  have h := LibLayerNormFold.var_eq_meansq_sub_sqmean z 128 (1 / 128) (by norm_num) (by norm_num) (by simp)
  unfold var mean
  have e : ∀ s : ℝ, s * (1 / 128) = s / 128 := fun s => by ring
  simp only [e]
  rw [h]
  ring

end

section Row
variable (ρ : ℝ → ℝ) (ε : ℝ)
variable (x : Fin 2048 → Fin 256 → ℝ) (wk wv wq : Fin 256 → Fin 1024 → ℝ) (bk bv bq : Fin 1024 → ℝ)
  (wo : Fin 1024 → Fin 128 → ℝ) (bo : Fin 128 → ℝ) (gk bkl gv bvl : Fin 8 → Fin 128 → ℝ)

/-- Head `h`'s 128 features of a projection at position `n`. -/
def z (w : Fin 256 → Fin 1024 → ℝ) (b : Fin 1024 → ℝ) (n : Fin 2048) (h : Fin 8) (i : Fin 128) : ℝ :=
  proj (x n) w b (hidx h i)

/-- One tile's Gram sum of the normalized features. -/
def tile (h : Fin 8) (t : Fin 4) (i j : Fin 128) : ℝ :=
  ∑ n : Fin 512, ln ρ ε (z x wk bk (pos t n) h) (gk h) (bkl h) i * ln ρ ε (z x wv bv (pos t n) h) (gv h) (bvl h) j

/-- The reference's attention map: the four tiles added to zero in order. -/
def amapRef (h : Fin 8) (i j : Fin 128) : ℝ :=
  (((0 + tile ρ ε x wk wv bk bv gk bkl gv bvl h 0 i j) + tile ρ ε x wk wv bk bv gk bkl gv bvl h 1 i j)
    + tile ρ ε x wk wv bk bv gk bkl gv bvl h 2 i j) + tile ρ ε x wk wv bk bv gk bkl gv bvl h 3 i j

/-- The same as one sum over the 2048 positions. -/
def amapSum (h : Fin 8) (i j : Fin 128) : ℝ :=
  ∑ n : Fin 2048, ln ρ ε (z x wk bk n h) (gk h) (bkl h) i * ln ρ ε (z x wv bv n h) (gv h) (bvl h) j

theorem amapRef_eq_sum (h : Fin 8) (i j : Fin 128) :
    amapRef ρ ε x wk wv bk bv gk bkl gv bvl h i j = amapSum ρ ε x wk wv bk bv gk bkl gv bvl h i j := by
  unfold amapRef amapSum tile
  have hs := sum_split 4 512 (fun n : Fin (4 * 512) =>
    ln ρ ε (z x wk bk n h) (gk h) (bkl h) i * ln ρ ε (z x wv bv n h) (gv h) (bvl h) j)
  rw [show (∑ n : Fin 2048, ln ρ ε (z x wk bk n h) (gk h) (bkl h) i * ln ρ ε (z x wv bv n h) (gv h) (bvl h) j)
      = ∑ a : Fin 4, ∑ b : Fin 512, ln ρ ε (z x wk bk (pos a b) h) (gk h) (bkl h) i * ln ρ ε (z x wv bv (pos a b) h) (gv h) (bvl h) j
      from hs]
  rw [Fin.sum_univ_four]
  ring

end Row

section Kernel
variable (ρ : ℝ → ℝ) (ε : ℝ)
variable (x : Fin 2048 → Fin 256 → ℝ) (wk wv wq : Fin 256 → Fin 1024 → ℝ) (bk bv bq : Fin 1024 → ℝ)
  (wo : Fin 1024 → Fin 128 → ℝ) (bo : Fin 128 → ℝ) (gk bkl gv bvl : Fin 8 → Fin 128 → ℝ)

/-- `[wk | wv]` at column `g`. -/
def catW (wk wv : Fin 256 → Fin 1024 → ℝ) (c : Fin 256) (g : Fin 2048) : ℝ :=
  if h : g.val < 1024 then wk c ⟨g.val, h⟩ else wv c ⟨g.val - 1024, by have := g.isLt; omega⟩

/-- The augmented weight: the 2048 columns, then the sixteen chunk means. -/
def hostW (wk wv : Fin 256 → Fin 1024 → ℝ) (c : Fin 256) (f : Fin 2064) : ℝ :=
  if h : f.val < 2048 then catW wk wv c ⟨f.val, h⟩
  else (0 + ∑ i : Fin 128, catW wk wv c ⟨128 * (f.val - 2048) + i.val, by have := f.isLt; have := i.isLt; omega⟩) * (1 / 128)

def hostB (bk bv : Fin 1024 → ℝ) (f : Fin 2064) : ℝ := hostW (fun _ e => bk e) (fun _ e => bv e) 0 f

section Body
variable (wA : Fin 256 → Fin 2064 → ℝ) (bT : Fin 2064 → ℝ)

def kvb (f : Fin 2064) (n : Fin 2048) : ℝ := (∑ c : Fin 256, wA c f * x n c) + bT f
def feat (ch : Fin 16) (i : Fin 128) (n : Fin 2048) : ℝ :=
  kvb x wA bT ⟨128 * ch.val + i.val, by have := ch.isLt; have := i.isLt; omega⟩ n
def cmean (ch : Fin 16) (n : Fin 2048) : ℝ := kvb x wA bT ⟨2048 + ch.val, by have := ch.isLt; omega⟩ n
def rstd (ch : Fin 16) (n : Fin 2048) : ℝ :=
  ρ ((((∑ i : Fin 128, feat x wA bT ch i n * feat x wA bT ch i n) * (1 / 128)) - cmean x wA bT ch n * cmean x wA bT ch n) + ε)
def aug (ch : Fin 16) (a : Fin 144) (n : Fin 2048) : ℝ :=
  if h : a.val < 128 then feat x wA bT ch ⟨a.val, h⟩ n * rstd ρ ε x wA bT ch n
  else if a.val = 128 then rstd ρ ε x wA bT ch n * cmean x wA bT ch n
  else if a.val = 129 then 1 else 0
def saug (h : Fin 8) (a b : Fin 144) : ℝ :=
  ∑ n : Fin 2048, aug ρ ε x wA bT ⟨h.val, by have := h.isLt; omega⟩ a n * aug ρ ε x wA bT ⟨8 + h.val, by have := h.isLt; omega⟩ b n
end Body

def up (i : Fin 128) : Fin 144 := ⟨i.val, by have := i.isLt; omega⟩

def amapOf (S : Fin 8 → Fin 144 → Fin 144 → ℝ) (h : Fin 8) (i k : Fin 128) : ℝ :=
  (((((S h (up i) (up k) - S h (up i) ⟨128, by omega⟩) - S h ⟨128, by omega⟩ (up k)) + S h ⟨128, by omega⟩ ⟨128, by omega⟩) * (gk h i * gv h k)
      + (gk h i * (S h (up i) ⟨129, by omega⟩ - S h ⟨128, by omega⟩ ⟨129, by omega⟩)) * bvl h k)
      + bkl h i * ((S h ⟨129, by omega⟩ (up k) - S h ⟨129, by omega⟩ ⟨128, by omega⟩) * gv h k))
      + 2048 * (bkl h i * bvl h k)

def mpartOf (S : Fin 8 → Fin 144 → Fin 144 → ℝ) (h : Fin 8) (i j : Fin 128) : ℝ :=
  ∑ k : Fin 128, amapOf gk bkl gv bvl S h i k * wo ⟨128 * h.val + k.val, by have := h.isLt; have := k.isLt; omega⟩ j

def mallOf (S : Fin 8 → Fin 144 → Fin 144 → ℝ) (e : Fin 1024) (j : Fin 128) : ℝ :=
  mpartOf wo gk bkl gv bvl S ⟨e.val / 128, by have := e.isLt; omega⟩ ⟨e.val % 128, Nat.mod_lt _ (by omega)⟩ j

def krowOf (S : Fin 8 → Fin 144 → Fin 144 → ℝ) (n : Fin 2048) (j : Fin 128) : ℝ :=
  (∑ c : Fin 256, x n c * ((∑ e : Fin 1024, wq c e * mallOf wo gk bkl gv bvl S e j) * (1 / 2048)))
    + ((∑ e : Fin 1024, bq e * mallOf wo gk bkl gv bvl S e j) + bo j) * (1 / 2048)

/-- The reference's row: zero, the eight heads' terms in order, the bias, the factor. -/
def refRow (A : Fin 8 → Fin 128 → Fin 128 → ℝ) (n : Fin 2048) (j : Fin 128) : ℝ :=
  let hd : Fin 8 → ℝ := fun h => ∑ k : Fin 128, (∑ i : Fin 128, proj (x n) wq bq (hidx h i) * A h i k) * wo (hidx h k) j
  (((((((((0 + hd 0) + hd 1) + hd 2) + hd 3) + hd 4) + hd 5) + hd 6) + hd 7) + bo j) * (1 / 2048)

/-! ### The kernel's chunk quantities are the reference's -/

theorem featK_eq (h : Fin 8) (i : Fin 128) (n : Fin 2048) :
    feat x (hostW wk wv) (hostB bk bv) ⟨h.val, by have := h.isLt; omega⟩ i n = z x wk bk n h i := by
  have hh := h.isLt; have hi := i.isLt
  unfold feat kvb z proj hostW hostB hostW catW hidx
  rw [dif_pos (show 128 * h.val + i.val < 2048 by omega)]
  simp only [dif_pos (show 128 * h.val + i.val < 2048 by omega), dif_pos (show 128 * h.val + i.val < 1024 by omega)]
  exact congrArg (· + _) (Finset.sum_congr rfl fun c _ => mul_comm _ _)

theorem featV_eq (h : Fin 8) (i : Fin 128) (n : Fin 2048) :
    feat x (hostW wk wv) (hostB bk bv) ⟨8 + h.val, by have := h.isLt; omega⟩ i n = z x wv bv n h i := by
  have hh := h.isLt; have hi := i.isLt
  unfold feat kvb z proj hostW hostB hostW catW hidx
  rw [dif_pos (show 128 * (8 + h.val) + i.val < 2048 by omega)]
  simp only [dif_pos (show 128 * (8 + h.val) + i.val < 2048 by omega), dif_neg (show ¬ 128 * (8 + h.val) + i.val < 1024 by omega)]
  have e : 128 * (8 + h.val) + i.val - 1024 = 128 * h.val + i.val := by omega
  simp only [e]
  exact congrArg (· + _) (Finset.sum_congr rfl fun c _ => mul_comm _ _)

end Kernel

section Kernel2
variable (ρ : ℝ → ℝ) (ε : ℝ)
variable (x : Fin 2048 → Fin 256 → ℝ) (wk wv wq : Fin 256 → Fin 1024 → ℝ) (bk bv bq : Fin 1024 → ℝ)
  (wo : Fin 1024 → Fin 128 → ℝ) (bo : Fin 128 → ℝ) (gk bkl gv bvl : Fin 8 → Fin 128 → ℝ)

theorem hostW_meanK (w1 w2 : Fin 256 → Fin 1024 → ℝ) (c : Fin 256) (h : Fin 8) :
    hostW w1 w2 c ⟨2048 + h.val, by have := h.isLt; omega⟩ = (∑ i : Fin 128, w1 c (hidx h i)) * (1 / 128) := by
  have hh := h.isLt
  unfold hostW
  rw [dif_neg (show ¬ 2048 + h.val < 2048 by omega), zero_add]
  refine congrArg (· * _) (Finset.sum_congr rfl fun i _ => ?_)
  have hi := i.isLt
  unfold catW hidx
  have e : 2048 + h.val - 2048 = h.val := by omega
  simp only [e]
  rw [dif_pos (show 128 * h.val + i.val < 1024 by omega)]

theorem hostW_meanV (w1 w2 : Fin 256 → Fin 1024 → ℝ) (c : Fin 256) (h : Fin 8) :
    hostW w1 w2 c ⟨2048 + (8 + h.val), by have := h.isLt; omega⟩ = (∑ i : Fin 128, w2 c (hidx h i)) * (1 / 128) := by
  have hh := h.isLt
  unfold hostW
  rw [dif_neg (show ¬ 2048 + (8 + h.val) < 2048 by omega), zero_add]
  refine congrArg (· * _) (Finset.sum_congr rfl fun i _ => ?_)
  have hi := i.isLt
  unfold catW hidx
  have e : 2048 + (8 + h.val) - 2048 = 8 + h.val := by omega
  simp only [e]
  rw [dif_neg (show ¬ 128 * (8 + h.val) + i.val < 1024 by omega)]
  have e2 : 128 * (8 + h.val) + i.val - 1024 = 128 * h.val + i.val := by omega
  simp only [e2]

/-- The mean of the projected features is the projection by the feature-means of the weights and bias. -/
theorem mean_proj (xr : Fin 256 → ℝ) (w : Fin 256 → Fin 1024 → ℝ) (b : Fin 1024 → ℝ) (h : Fin 8) :
    (∑ c : Fin 256, ((∑ i : Fin 128, w c (hidx h i)) * (1 / 128)) * xr c) + (∑ i : Fin 128, b (hidx h i)) * (1 / 128)
      = mean (fun i => proj xr w b (hidx h i)) := by
  unfold mean proj
  rw [Finset.sum_add_distrib, add_mul]
  refine congrArg (· + _) ?_
  rw [Finset.sum_comm, Finset.sum_mul]
  refine Finset.sum_congr rfl fun c _ => ?_
  rw [← Finset.mul_sum]
  ring

theorem cmeanK_eq (h : Fin 8) (n : Fin 2048) :
    cmean x (hostW wk wv) (hostB bk bv) ⟨h.val, by have := h.isLt; omega⟩ n = mean (z x wk bk n h) := by
  unfold cmean kvb hostB
  simp only [hostW_meanK]
  exact mean_proj (x n) wk bk h

theorem cmeanV_eq (h : Fin 8) (n : Fin 2048) :
    cmean x (hostW wk wv) (hostB bk bv) ⟨8 + h.val, by have := h.isLt; omega⟩ n = mean (z x wv bv n h) := by
  unfold cmean kvb hostB
  simp only [hostW_meanV]
  exact mean_proj (x n) wv bv h

theorem rstdK_eq (h : Fin 8) (n : Fin 2048) :
    rstd ρ ε x (hostW wk wv) (hostB bk bv) ⟨h.val, by have := h.isLt; omega⟩ n = ρ (var (z x wk bk n h) + ε) := by
  unfold rstd
  simp only [featK_eq, cmeanK_eq]
  rw [var_eq]

theorem rstdV_eq (h : Fin 8) (n : Fin 2048) :
    rstd ρ ε x (hostW wk wv) (hostB bk bv) ⟨8 + h.val, by have := h.isLt; omega⟩ n = ρ (var (z x wv bv n h) + ε) := by
  unfold rstd
  simp only [featV_eq, cmeanV_eq]
  rw [var_eq]

end Kernel2

section Kernel3
variable (ρ : ℝ → ℝ) (ε : ℝ)
variable (x : Fin 2048 → Fin 256 → ℝ) (wk wv wq : Fin 256 → Fin 1024 → ℝ) (bk bv bq : Fin 1024 → ℝ)
  (wo : Fin 1024 → Fin 128 → ℝ) (bo : Fin 128 → ℝ) (gk bkl gv bvl : Fin 8 → Fin 128 → ℝ)
variable (wA : Fin 256 → Fin 2064 → ℝ) (bT : Fin 2064 → ℝ)

theorem aug_up (ch : Fin 16) (i : Fin 128) (n : Fin 2048) :
    aug ρ ε x wA bT ch (up i) n = feat x wA bT ch i n * rstd ρ ε x wA bT ch n := by
  unfold aug up
  rw [dif_pos i.isLt]

theorem aug_128 (ch : Fin 16) (n : Fin 2048) :
    aug ρ ε x wA bT ch ⟨128, by omega⟩ n = rstd ρ ε x wA bT ch n * cmean x wA bT ch n := by
  unfold aug
  rw [dif_neg (by decide), if_pos rfl]

theorem aug_129 (ch : Fin 16) (n : Fin 2048) : aug ρ ε x wA bT ch ⟨129, by omega⟩ n = 1 := by
  unfold aug
  rw [dif_neg (by decide), if_neg (by decide), if_pos rfl]

/-- The map assembled from the augmented contraction is the Gram sum of the normalized features. -/
theorem amapK_eq (h : Fin 8) (i k : Fin 128) :
    amapOf gk bkl gv bvl (saug ρ ε x (hostW wk wv) (hostB bk bv)) h i k = amapSum ρ ε x wk wv bk bv gk bkl gv bvl h i k := by
  have hg := LibLayerNormFold.gram_fold (N := Fin 2048)
    (fun n => z x wk bk n h i) (fun n => z x wv bv n h k)
    (fun n => ρ (var (z x wk bk n h) + ε)) (fun n => ρ (var (z x wv bv n h) + ε))
    (fun n => mean (z x wk bk n h)) (fun n => mean (z x wv bv n h)) (gk h i) (bkl h i) (gv h k) (bvl h k)
  simp only [Fintype.card_fin, Nat.cast_ofNat] at hg
  unfold amapSum ln
  rw [hg]
  simp only [amapOf, saug, aug_up, aug_128, aug_129, featK_eq, featV_eq, cmeanK_eq, cmeanV_eq, rstdK_eq, rstdV_eq]

/-- The two results of the row agree. -/
theorem row_eq (n : Fin 2048) (j : Fin 128) :
    krowOf x wq bq wo bo gk bkl gv bvl (saug ρ ε x (hostW wk wv) (hostB bk bv)) n j
      = refRow x wq bq wo bo (amapRef ρ ε x wk wv bk bv gk bkl gv bvl) n j := by
  have hA : ∀ h i k, amapOf gk bkl gv bvl (saug ρ ε x (hostW wk wv) (hostB bk bv)) h i k
      = amapRef ρ ε x wk wv bk bv gk bkl gv bvl h i k :=
    fun h i k => (amapK_eq ρ ε x wk wv bk bv gk bkl gv bvl h i k).trans (amapRef_eq_sum ρ ε x wk wv bk bv gk bkl gv bvl h i k).symm
  set A := amapRef ρ ε x wk wv bk bv gk bkl gv bvl with hAdef
  -- the stacked blocks
  let M : Fin 1024 → ℝ := fun e => ∑ k : Fin 128, A ⟨e.val / 128, by have := e.isLt; omega⟩ ⟨e.val % 128, Nat.mod_lt _ (by omega)⟩ k
      * wo ⟨128 * (e.val / 128) + k.val, by have := e.isLt; have := k.isLt; omega⟩ j
  have hM : ∀ e, mallOf wo gk bkl gv bvl (saug ρ ε x (hostW wk wv) (hostB bk bv)) e j = M e := by
    intro e
    unfold mallOf mpartOf
    simp only [hA]
    rfl
  have hMh : ∀ (h : Fin 8) (i : Fin 128), M (hidx h i) = ∑ k : Fin 128, A h i k * wo (hidx h k) j := by
    intro h i
    have hh := h.isLt; have hi := i.isLt
    show (∑ k : Fin 128, A ⟨(128 * h.val + i.val) / 128, _⟩ ⟨(128 * h.val + i.val) % 128, _⟩ k
      * wo ⟨128 * ((128 * h.val + i.val) / 128) + k.val, _⟩ j) = _
    have e1 : (128 * h.val + i.val) / 128 = h.val := by omega
    have e2 : (128 * h.val + i.val) % 128 = i.val := by omega
    simp only [e1, e2]
    rfl
  have hhd : ∀ h : Fin 8, (∑ k : Fin 128, (∑ i : Fin 128, proj (x n) wq bq (hidx h i) * A h i k) * wo (hidx h k) j)
      = ∑ i : Fin 128, proj (x n) wq bq (hidx h i) * M (hidx h i) := by
    intro h
    simp only [hMh, Finset.sum_mul, Finset.mul_sum]
    rw [Finset.sum_comm]
    refine Finset.sum_congr rfl fun i _ => Finset.sum_congr rfl fun k _ => ?_
    ring
  have hsplit := sum_split 8 128 (fun e : Fin (8 * 128) => proj (x n) wq bq e * M e)
  unfold refRow krowOf
  simp only [hM, hhd]
  rw [show (((((((((0 : ℝ) + ∑ i : Fin 128, proj (x n) wq bq (hidx 0 i) * M (hidx 0 i))
        + ∑ i : Fin 128, proj (x n) wq bq (hidx 1 i) * M (hidx 1 i))
        + ∑ i : Fin 128, proj (x n) wq bq (hidx 2 i) * M (hidx 2 i))
        + ∑ i : Fin 128, proj (x n) wq bq (hidx 3 i) * M (hidx 3 i))
        + ∑ i : Fin 128, proj (x n) wq bq (hidx 4 i) * M (hidx 4 i))
        + ∑ i : Fin 128, proj (x n) wq bq (hidx 5 i) * M (hidx 5 i))
        + ∑ i : Fin 128, proj (x n) wq bq (hidx 6 i) * M (hidx 6 i))
        + ∑ i : Fin 128, proj (x n) wq bq (hidx 7 i) * M (hidx 7 i))
      = ∑ e : Fin 1024, proj (x n) wq bq e * M e from by
    rw [show (∑ e : Fin 1024, proj (x n) wq bq e * M e)
        = ∑ a : Fin 8, ∑ b : Fin 128, proj (x n) wq bq (hidx a b) * M (hidx a b) from hsplit]
    rw [Fin.sum_univ_eight]
    ring]
  exact (LibLayerNormFold.apply_fold (x n) wq bq M (bo j) (1 / 2048)).symm

end Kernel3

end Cert.AlgR

end
-- ==== Proof.AlgCoe.lean ====
/-
  From the extended reals to the reals. When every input entry is a real number, every quantity of the two programs'
  specifications is the image of the corresponding real quantity: sums, products and differences of reals are reals,
  a division by 128 is the product with 1/128, and the reciprocal square root is taken at a variance plus the positive
  epsilon, which is positive. `ρ` is the real reciprocal square root `v ↦ (√v)⁻¹`.
-/
import proofs.«148891_g2000303815147335_pallasbulk_1180_8_alg».proof.Proof.Spec
import proofs.«148891_g2000303815147335_pallasbulk_1180_8_alg».proof.Proof.Consts
import proofs.«148891_g2000303815147335_pallasbulk_1180_8_alg».proof.Proof.AlgReal

noncomputable section

namespace Cert.AlgCoe

open Idealize.ShloMosaic Cert.Spec

/-- The real reciprocal square root. -/
def ρ (v : ℝ) : ℝ := (Real.sqrt v)⁻¹

/-- A finite sum of reals, seen in the extended reals. -/
theorem coe_sum {ι : Type*} [Fintype ι] (f : ι → ℝ) : (∑ i, ((f i : ℝ) : EReal)) = ((∑ i, f i : ℝ) : EReal) := by
  classical
  refine Finset.induction_on (Finset.univ : Finset ι) (by simp) ?_
  intro a s ha ih
  rw [Finset.sum_insert ha, Finset.sum_insert ha, ih, EReal.coe_add]

theorem rsqrt_pos {v : ℝ} (hv : 0 < v) : Ideal.rsqrt (v : EReal) = ((ρ v : ℝ) : EReal) := by
  rw [Ideal.rsqrt_coe, if_neg (not_lt.mpr hv.le), if_neg hv.ne']
  rfl

theorem div128 (s : ℝ) : Ideal.div (s : EReal) c128 = ((s * (1 / 128) : ℝ) : EReal) := by
  rw [Cert.Consts.c128_eq, Ideal.div_coe (by norm_num : (128 : ℝ) ≠ 0), ← EReal.coe_mul]

theorem proj_coe (xr : Fin 256 → ℝ) (w : Fin 256 → Fin 1024 → ℝ) (b : Fin 1024 → ℝ) (e : Fin 1024) :
    proj (fun c => ((xr c : ℝ) : EReal)) (fun c e => ((w c e : ℝ) : EReal)) (fun e => ((b e : ℝ) : EReal)) e
      = ((Cert.AlgR.proj xr w b e : ℝ) : EReal) := by
  unfold proj Cert.AlgR.proj
  simp only [← EReal.coe_mul, coe_sum, ← EReal.coe_add]

theorem mean_coe (z : Fin 128 → ℝ) : mean128 (fun i => ((z i : ℝ) : EReal)) = ((Cert.AlgR.mean z : ℝ) : EReal) := by
  unfold mean128 Cert.AlgR.mean
  rw [coe_sum, div128]

theorem var_nonneg (z : Fin 128 → ℝ) : 0 ≤ Cert.AlgR.var z := by
  unfold Cert.AlgR.var
  exact mul_nonneg (Finset.sum_nonneg fun i _ => mul_self_nonneg _) (by norm_num)

theorem ln_coe (ε : ℝ) (hε : 0 < ε) (hε' : cEps = (ε : EReal)) (z g β : Fin 128 → ℝ) (i : Fin 128) :
    ln (fun i => ((z i : ℝ) : EReal)) (fun i => ((g i : ℝ) : EReal)) (fun i => ((β i : ℝ) : EReal)) i
      = ((Cert.AlgR.ln ρ ε z g β i : ℝ) : EReal) := by
  unfold ln Cert.AlgR.ln
  rw [mean_coe]
  simp only [← EReal.coe_sub, ← EReal.coe_mul, coe_sum]
  rw [div128, hε', ← EReal.coe_add]
  rw [show (∑ i' : Fin 128, (z i' - Cert.AlgR.mean z) * (z i' - Cert.AlgR.mean z)) * (1 / 128) = Cert.AlgR.var z from rfl]
  rw [rsqrt_pos (add_pos_of_nonneg_of_pos (var_nonneg z) hε)]
  simp only [← EReal.coe_mul, ← EReal.coe_add]

section Row
variable (ε : ℝ) (hε : 0 < ε) (hε' : cEps = (ε : EReal))
variable (x : Fin 2048 → Fin 256 → ℝ) (wk wv wq : Fin 256 → Fin 1024 → ℝ) (bk bv bq : Fin 1024 → ℝ)
  (wo : Fin 1024 → Fin 128 → ℝ) (bo : Fin 128 → ℝ) (gk bkl gv bvl : Fin 8 → Fin 128 → ℝ)

/-! ### The reference -/

theorem head_proj_coe (w : Fin 256 → Fin 1024 → ℝ) (b : Fin 1024 → ℝ) (n : Fin 2048) (h : Fin 8) :
    headOf (proj (fun c => ((x n c : ℝ) : EReal)) (fun c e => ((w c e : ℝ) : EReal)) (fun e => ((b e : ℝ) : EReal))) h
      = fun i => ((Cert.AlgR.z x w b n h i : ℝ) : EReal) := by
  funext i
  unfold headOf
  exact proj_coe (x n) w b _

include hε hε' in
theorem tile_coe (h : Fin 8) (t : Fin 4) (i j : Fin 128) :
    tileGram (fun n c => ((x n c : ℝ) : EReal)) (fun c e => ((wk c e : ℝ) : EReal)) (fun e => ((bk e : ℝ) : EReal))
        (fun c e => ((wv c e : ℝ) : EReal)) (fun e => ((bv e : ℝ) : EReal)) (fun h i => ((gk h i : ℝ) : EReal))
        (fun h i => ((bkl h i : ℝ) : EReal)) (fun h i => ((gv h i : ℝ) : EReal)) (fun h i => ((bvl h i : ℝ) : EReal)) h t i j
      = ((Cert.AlgR.tile ρ ε x wk wv bk bv gk bkl gv bvl h t i j : ℝ) : EReal) := by
  unfold tileGram Cert.AlgR.tile
  rw [← coe_sum]
  refine Finset.sum_congr rfl fun n _ => ?_
  rw [EReal.coe_mul]
  refine congrArg₂ (· * ·) ?_ ?_
  · exact (congrArg (fun zz => ln zz _ _ i) (head_proj_coe x wk bk (Cert.AlgR.pos t n) h)).trans
      (ln_coe ε hε hε' (Cert.AlgR.z x wk bk (Cert.AlgR.pos t n) h) (gk h) (bkl h) i)
  · exact (congrArg (fun zz => ln zz _ _ j) (head_proj_coe x wv bv (Cert.AlgR.pos t n) h)).trans
      (ln_coe ε hε hε' (Cert.AlgR.z x wv bv (Cert.AlgR.pos t n) h) (gv h) (bvl h) j)

include hε hε' in
theorem amapRow_coe (h : Fin 8) (i j : Fin 128) :
    amapRow (fun n c => ((x n c : ℝ) : EReal)) (fun c e => ((wk c e : ℝ) : EReal)) (fun e => ((bk e : ℝ) : EReal))
        (fun c e => ((wv c e : ℝ) : EReal)) (fun e => ((bv e : ℝ) : EReal)) (fun h i => ((gk h i : ℝ) : EReal))
        (fun h i => ((bkl h i : ℝ) : EReal)) (fun h i => ((gv h i : ℝ) : EReal)) (fun h i => ((bvl h i : ℝ) : EReal)) h i j
      = ((Cert.AlgR.amapRef ρ ε x wk wv bk bv gk bkl gv bvl h i j : ℝ) : EReal) := by
  unfold amapRow Cert.AlgR.amapRef
  rw [tile_coe ε hε hε' x wk wv bk bv gk bkl gv bvl h 0 i j, tile_coe ε hε hε' x wk wv bk bv gk bkl gv bvl h 1 i j,
    tile_coe ε hε hε' x wk wv bk bv gk bkl gv bvl h 2 i j, tile_coe ε hε hε' x wk wv bk bv gk bkl gv bvl h 3 i j,
    Cert.Consts.cZero_eq]
  simp only [← EReal.coe_add]

/-! ### The kernel -/

theorem catW_coe (c : Fin 256) (g : Fin 2048) :
    catW (fun c e => ((wk c e : ℝ) : EReal)) (fun c e => ((wv c e : ℝ) : EReal)) c g = ((Cert.AlgR.catW wk wv c g : ℝ) : EReal) := by
  unfold catW Cert.AlgR.catW
  split_ifs <;> rfl

theorem hostW_coe (w1 w2 : Fin 256 → Fin 1024 → ℝ) (c : Fin 256) (f : Fin 2064) :
    hostWkv (fun c e => ((w1 c e : ℝ) : EReal)) (fun c e => ((w2 c e : ℝ) : EReal)) c f = ((Cert.AlgR.hostW w1 w2 c f : ℝ) : EReal) := by
  unfold hostWkv Cert.AlgR.hostW
  split_ifs with h
  · exact catW_coe w1 w2 c _
  · simp only [catW_coe, coe_sum, Cert.Consts.cZero_eq, ← EReal.coe_add, div128]

theorem hostB_coe (f : Fin 2064) :
    hostBkv (fun e => ((bk e : ℝ) : EReal)) (fun e => ((bv e : ℝ) : EReal)) f = ((Cert.AlgR.hostB bk bv f : ℝ) : EReal) := by
  unfold hostBkv Cert.AlgR.hostB
  exact hostW_coe (fun _ e => bk e) (fun _ e => bv e) 0 f

section Body
variable (wA : Fin 256 → Fin 2064 → ℝ) (bT : Fin 2064 → ℝ)

theorem kvb_coe (f : Fin 2064) (n : Fin 2048) :
    kvb (fun n c => ((x n c : ℝ) : EReal)) (fun c f => ((wA c f : ℝ) : EReal)) (fun f => ((bT f : ℝ) : EReal)) f n
      = ((Cert.AlgR.kvb x wA bT f n : ℝ) : EReal) := by
  unfold kvb Cert.AlgR.kvb
  simp only [← EReal.coe_mul, coe_sum, ← EReal.coe_add]

theorem feat_coe (ch : Fin 16) (i : Fin 128) (n : Fin 2048) :
    feat (fun n c => ((x n c : ℝ) : EReal)) (fun c f => ((wA c f : ℝ) : EReal)) (fun f => ((bT f : ℝ) : EReal)) ch i n
      = ((Cert.AlgR.feat x wA bT ch i n : ℝ) : EReal) := by
  unfold feat Cert.AlgR.feat
  exact kvb_coe x wA bT _ n

theorem cmean_coe (ch : Fin 16) (n : Fin 2048) :
    cmean (fun n c => ((x n c : ℝ) : EReal)) (fun c f => ((wA c f : ℝ) : EReal)) (fun f => ((bT f : ℝ) : EReal)) ch n
      = ((Cert.AlgR.cmean x wA bT ch n : ℝ) : EReal) := by
  unfold cmean Cert.AlgR.cmean
  exact kvb_coe x wA bT _ n

include hε hε' in
/-- The reciprocal standard deviation is real wherever its argument is positive. -/
theorem rstd_coe (ch : Fin 16) (n : Fin 2048)
    (hpos : 0 < (((∑ i : Fin 128, Cert.AlgR.feat x wA bT ch i n * Cert.AlgR.feat x wA bT ch i n) * (1 / 128))
      - Cert.AlgR.cmean x wA bT ch n * Cert.AlgR.cmean x wA bT ch n) + ε) :
    rstd (fun n c => ((x n c : ℝ) : EReal)) (fun c f => ((wA c f : ℝ) : EReal)) (fun f => ((bT f : ℝ) : EReal)) ch n
      = ((Cert.AlgR.rstd ρ ε x wA bT ch n : ℝ) : EReal) := by
  unfold rstd Cert.AlgR.rstd
  simp only [feat_coe, cmean_coe, ← EReal.coe_mul, coe_sum, Cert.Consts.cInvD_eq, ← EReal.coe_sub, hε', ← EReal.coe_add]
  exact rsqrt_pos hpos

include hε hε' in
theorem aug_coe (ch : Fin 16) (a : Fin 144) (n : Fin 2048)
    (hpos : 0 < (((∑ i : Fin 128, Cert.AlgR.feat x wA bT ch i n * Cert.AlgR.feat x wA bT ch i n) * (1 / 128))
      - Cert.AlgR.cmean x wA bT ch n * Cert.AlgR.cmean x wA bT ch n) + ε) :
    aug (fun n c => ((x n c : ℝ) : EReal)) (fun c f => ((wA c f : ℝ) : EReal)) (fun f => ((bT f : ℝ) : EReal)) ch a n
      = ((Cert.AlgR.aug ρ ε x wA bT ch a n : ℝ) : EReal) := by
  unfold aug Cert.AlgR.aug
  split_ifs
  · rw [feat_coe, rstd_coe ε hε hε' x wA bT ch n hpos, ← EReal.coe_mul]
  · rw [cmean_coe, rstd_coe ε hε hε' x wA bT ch n hpos, ← EReal.coe_mul]
  · exact Cert.Consts.one_bf16
  · exact Cert.Consts.zero_bf16

end Body

include hε in
theorem posK (h : Fin 8) (n : Fin 2048) :
    0 < (((∑ i : Fin 128, Cert.AlgR.feat x (Cert.AlgR.hostW wk wv) (Cert.AlgR.hostB bk bv) ⟨h.val, by have := h.isLt; omega⟩ i n
        * Cert.AlgR.feat x (Cert.AlgR.hostW wk wv) (Cert.AlgR.hostB bk bv) ⟨h.val, by have := h.isLt; omega⟩ i n) * (1 / 128))
      - Cert.AlgR.cmean x (Cert.AlgR.hostW wk wv) (Cert.AlgR.hostB bk bv) ⟨h.val, by have := h.isLt; omega⟩ n
        * Cert.AlgR.cmean x (Cert.AlgR.hostW wk wv) (Cert.AlgR.hostB bk bv) ⟨h.val, by have := h.isLt; omega⟩ n) + ε := by
  simp only [Cert.AlgR.featK_eq, Cert.AlgR.cmeanK_eq]
  rw [← Cert.AlgR.var_eq]
  exact add_pos_of_nonneg_of_pos (var_nonneg _) hε

include hε in
theorem posV (h : Fin 8) (n : Fin 2048) :
    0 < (((∑ i : Fin 128, Cert.AlgR.feat x (Cert.AlgR.hostW wk wv) (Cert.AlgR.hostB bk bv) ⟨8 + h.val, by have := h.isLt; omega⟩ i n
        * Cert.AlgR.feat x (Cert.AlgR.hostW wk wv) (Cert.AlgR.hostB bk bv) ⟨8 + h.val, by have := h.isLt; omega⟩ i n) * (1 / 128))
      - Cert.AlgR.cmean x (Cert.AlgR.hostW wk wv) (Cert.AlgR.hostB bk bv) ⟨8 + h.val, by have := h.isLt; omega⟩ n
        * Cert.AlgR.cmean x (Cert.AlgR.hostW wk wv) (Cert.AlgR.hostB bk bv) ⟨8 + h.val, by have := h.isLt; omega⟩ n) + ε := by
  simp only [Cert.AlgR.featV_eq, Cert.AlgR.cmeanV_eq]
  rw [← Cert.AlgR.var_eq]
  exact add_pos_of_nonneg_of_pos (var_nonneg _) hε

end Row

section Row2
variable (ε : ℝ) (hε : 0 < ε) (hε' : cEps = (ε : EReal))
variable (x : Fin 2048 → Fin 256 → ℝ) (wk wv wq : Fin 256 → Fin 1024 → ℝ) (bk bv bq : Fin 1024 → ℝ)
  (wo : Fin 1024 → Fin 128 → ℝ) (bo : Fin 128 → ℝ) (gk bkl gv bvl : Fin 8 → Fin 128 → ℝ)

include hε hε' in
theorem saug_coe (h : Fin 8) (a b : Fin 144) :
    saug (fun n c => ((x n c : ℝ) : EReal)) (fun c f => ((Cert.AlgR.hostW wk wv c f : ℝ) : EReal))
        (fun f => ((Cert.AlgR.hostB bk bv f : ℝ) : EReal)) h a b
      = ((Cert.AlgR.saug ρ ε x (Cert.AlgR.hostW wk wv) (Cert.AlgR.hostB bk bv) h a b : ℝ) : EReal) := by
  unfold saug Cert.AlgR.saug
  rw [← coe_sum]
  refine Finset.sum_congr rfl fun n _ => ?_
  rw [aug_coe ε hε hε' x _ _ _ a n (posK ε hε x wk wv bk bv h n), aug_coe ε hε hε' x _ _ _ b n (posV ε hε x wk wv bk bv h n),
    ← EReal.coe_mul]

theorem amapOf_coe (S : Fin 8 → Fin 144 → Fin 144 → ℝ) (h : Fin 8) (i k : Fin 128) :
    amapOf (fun i h => ((gk h i : ℝ) : EReal)) (fun i h => ((bkl h i : ℝ) : EReal)) (fun h k => ((gv h k : ℝ) : EReal))
        (fun h k => ((bvl h k : ℝ) : EReal)) (fun h a b => ((S h a b : ℝ) : EReal)) h i k
      = ((Cert.AlgR.amapOf gk bkl gv bvl S h i k : ℝ) : EReal) := by
  unfold amapOf Cert.AlgR.amapOf
  simp only [Cert.Consts.cN_eq, ← EReal.coe_sub, ← EReal.coe_add, ← EReal.coe_mul]
  rfl

theorem mallOf_coe (S : Fin 8 → Fin 144 → Fin 144 → ℝ) (e : Fin 1024) (j : Fin 128) :
    mallOf (fun e j => ((wo e j : ℝ) : EReal)) (fun i h => ((gk h i : ℝ) : EReal)) (fun i h => ((bkl h i : ℝ) : EReal))
        (fun h k => ((gv h k : ℝ) : EReal)) (fun h k => ((bvl h k : ℝ) : EReal)) (fun h a b => ((S h a b : ℝ) : EReal)) e j
      = ((Cert.AlgR.mallOf wo gk bkl gv bvl S e j : ℝ) : EReal) := by
  unfold mallOf mpartOf Cert.AlgR.mallOf Cert.AlgR.mpartOf
  simp only [amapOf_coe, ← EReal.coe_mul, coe_sum]

theorem krowOf_coe (S : Fin 8 → Fin 144 → Fin 144 → ℝ) (n : Fin 2048) (j : Fin 128) :
    krowOf (fun n c => ((x n c : ℝ) : EReal)) (fun c e => ((wq c e : ℝ) : EReal)) (fun e => ((bq e : ℝ) : EReal))
        (fun e j => ((wo e j : ℝ) : EReal)) (fun j => ((bo j : ℝ) : EReal)) (fun i h => ((gk h i : ℝ) : EReal))
        (fun i h => ((bkl h i : ℝ) : EReal)) (fun h k => ((gv h k : ℝ) : EReal)) (fun h k => ((bvl h k : ℝ) : EReal))
        (fun h a b => ((S h a b : ℝ) : EReal)) n j
      = ((Cert.AlgR.krowOf x wq bq wo bo gk bkl gv bvl S n j : ℝ) : EReal) := by
  unfold krowOf weffOf beffOf Cert.AlgR.krowOf
  simp only [mallOf_coe, Cert.Consts.cInvN_eq, ← EReal.coe_mul, coe_sum, ← EReal.coe_add]

include hε hε' in
/-- The kernel's row at real inputs is the real row. -/
theorem krow_coe (n : Fin 2048) (j : Fin 128) :
    krow (fun n c => ((x n c : ℝ) : EReal)) (hostWkv (fun c e => ((wk c e : ℝ) : EReal)) (fun c e => ((wv c e : ℝ) : EReal)))
        (hostBkv (fun e => ((bk e : ℝ) : EReal)) (fun e => ((bv e : ℝ) : EReal))) (fun c e => ((wq c e : ℝ) : EReal))
        (fun e => ((bq e : ℝ) : EReal)) (fun e j => ((wo e j : ℝ) : EReal)) (fun j => ((bo j : ℝ) : EReal))
        (fun i h => ((gk h i : ℝ) : EReal)) (fun i h => ((bkl h i : ℝ) : EReal)) (fun h k => ((gv h k : ℝ) : EReal))
        (fun h k => ((bvl h k : ℝ) : EReal)) n j
      = ((Cert.AlgR.krowOf x wq bq wo bo gk bkl gv bvl
          (Cert.AlgR.saug ρ ε x (Cert.AlgR.hostW wk wv) (Cert.AlgR.hostB bk bv)) n j : ℝ) : EReal) := by
  unfold krow
  have hW : hostWkv (fun c e => ((wk c e : ℝ) : EReal)) (fun c e => ((wv c e : ℝ) : EReal))
      = fun c f => ((Cert.AlgR.hostW wk wv c f : ℝ) : EReal) := by
    funext c f; exact hostW_coe wk wv c f
  have hB : hostBkv (fun e => ((bk e : ℝ) : EReal)) (fun e => ((bv e : ℝ) : EReal))
      = fun f => ((Cert.AlgR.hostB bk bv f : ℝ) : EReal) := by
    funext f; exact hostB_coe bk bv f
  rw [hW, hB]
  have hS : saug (fun n c => ((x n c : ℝ) : EReal)) (fun c f => ((Cert.AlgR.hostW wk wv c f : ℝ) : EReal))
        (fun f => ((Cert.AlgR.hostB bk bv f : ℝ) : EReal))
      = fun h a b => ((Cert.AlgR.saug ρ ε x (Cert.AlgR.hostW wk wv) (Cert.AlgR.hostB bk bv) h a b : ℝ) : EReal) := by
    funext h a b; exact saug_coe ε hε hε' x wk wv bk bv h a b
  rw [hS]
  exact krowOf_coe x wq bq wo bo gk bkl gv bvl _ n j

end Row2

end Cert.AlgCoe

end
-- ==== Proof.Algebra.lean ====
/-
  The two specifications agree on finite inputs: when every entry of the thirteen argument arrays is a real number, the
  kernel's result array (`Spec.kerOut`) is the reference's second-launch function (`RefValue.refOut`) at the attention
  maps the reference's first launch accumulates (`Spec.amap`). Both sides are carried to the reals (Proof/AlgCoe.lean),
  where the identity is `Cert.AlgR.row_eq` (Proof/AlgReal.lean).
-/
import proofs.«148891_g2000303815147335_pallasbulk_1180_8_alg».proof.Proof.AlgCoe
import proofs.«148891_g2000303815147335_pallasbulk_1180_8_alg».proof.Proof.RefOutArray

noncomputable section

namespace Cert.Algebra

open Idealize.ShloMosaic Idealize.ShloMosaic.ValueIdx Cert.Spec Cert.AlgCoe
open Cert.ReferenceIdeal.RefValue (refOut hdG qG)

section
variable (Xr : (⟨3, ![16, 2048, 256]⟩ : Shape).Idx → ℝ) (Wqr Wkr Wvr : (⟨2, ![256, 1024]⟩ : Shape).Idx → ℝ)
  (Bqr Bkr Bvr : (⟨2, ![1, 1024]⟩ : Shape).Idx → ℝ) (Wor : (⟨2, ![1024, 128]⟩ : Shape).Idx → ℝ)
  (Bor : (⟨2, ![1, 128]⟩ : Shape).Idx → ℝ) (Gkr Bklr Gvr Bvlr : (⟨2, ![8, 128]⟩ : Shape).Idx → ℝ)

/-- The reference's result at an entry, at real inputs, is the real row. -/
theorem refOut_coe (ε : ℝ) (hε : 0 < ε) (hε' : cEps = (ε : EReal)) (y : (⟨3, ![16, 2048, 128]⟩ : Shape).Idx) :
    refOut (fun i => ((Xr i : ℝ) : EReal))
        (amap (fun i => ((Xr i : ℝ) : EReal)) (fun i => ((Wkr i : ℝ) : EReal)) (fun i => ((Bkr i : ℝ) : EReal))
          (fun i => ((Wvr i : ℝ) : EReal)) (fun i => ((Bvr i : ℝ) : EReal)) (fun i => ((Gkr i : ℝ) : EReal))
          (fun i => ((Bklr i : ℝ) : EReal)) (fun i => ((Gvr i : ℝ) : EReal)) (fun i => ((Bvlr i : ℝ) : EReal)))
        (fun i => ((Wqr i : ℝ) : EReal)) (fun i => ((Bqr i : ℝ) : EReal)) (fun i => ((Wor i : ℝ) : EReal))
        (fun i => ((Bor i : ℝ) : EReal)) y
      = ((Cert.AlgR.refRow (fun n c => Xr (ix3 (y 0) n c)) (fun c e => Wqr (ix2 c e)) (fun e => Bqr (ix2 0 e))
          (fun e j => Wor (ix2 e j)) (fun j => Bor (ix2 0 j))
          (Cert.AlgR.amapRef ρ ε (fun n c => Xr (ix3 (y 0) n c)) (fun c e => Wkr (ix2 c e)) (fun c e => Wvr (ix2 c e))
            (fun e => Bkr (ix2 0 e)) (fun e => Bvr (ix2 0 e)) (fun h i => Gkr (ix2 h i)) (fun h i => Bklr (ix2 h i))
            (fun h i => Gvr (ix2 h i)) (fun h i => Bvlr (ix2 h i))) (y 1) (y 2) : ℝ) : EReal) := by
  have hhd : ∀ (h : Nat) (hh : h < 8),
      hdG (fun i => ((Xr i : ℝ) : EReal))
        (amap (fun i => ((Xr i : ℝ) : EReal)) (fun i => ((Wkr i : ℝ) : EReal)) (fun i => ((Bkr i : ℝ) : EReal))
          (fun i => ((Wvr i : ℝ) : EReal)) (fun i => ((Bvr i : ℝ) : EReal)) (fun i => ((Gkr i : ℝ) : EReal))
          (fun i => ((Bklr i : ℝ) : EReal)) (fun i => ((Gvr i : ℝ) : EReal)) (fun i => ((Bvlr i : ℝ) : EReal)))
        (fun i => ((Wqr i : ℝ) : EReal)) (fun i => ((Bqr i : ℝ) : EReal)) (fun i => ((Wor i : ℝ) : EReal)) (y 0) (y 1) h hh (y 2)
      = ((∑ k : Fin 128, (∑ i : Fin 128, Cert.AlgR.proj (fun c => Xr (ix3 (y 0) (y 1) c)) (fun c e => Wqr (ix2 c e))
            (fun e => Bqr (ix2 0 e)) (Cert.AlgR.hidx ⟨h, hh⟩ i)
          * Cert.AlgR.amapRef ρ ε (fun n c => Xr (ix3 (y 0) n c)) (fun c e => Wkr (ix2 c e)) (fun c e => Wvr (ix2 c e))
            (fun e => Bkr (ix2 0 e)) (fun e => Bvr (ix2 0 e)) (fun h i => Gkr (ix2 h i)) (fun h i => Bklr (ix2 h i))
            (fun h i => Gvr (ix2 h i)) (fun h i => Bvlr (ix2 h i)) ⟨h, hh⟩ i k) * Wor (ix2 (Cert.AlgR.hidx ⟨h, hh⟩ k) (y 2)) : ℝ) : EReal) := by
    intro h hh
    unfold hdG
    rw [← coe_sum]
    refine Finset.sum_congr rfl fun k _ => ?_
    rw [EReal.coe_mul, ← coe_sum]
    refine congrArg₂ (· * ·) (Finset.sum_congr rfl fun i _ => ?_) rfl
    rw [EReal.coe_mul]
    refine congrArg₂ (· * ·) ?_ ?_
    · exact proj_coe (fun c => Xr (ix3 (y 0) (y 1) c)) (fun c e => Wqr (ix2 c e)) (fun e => Bqr (ix2 0 e)) _
    · exact amapRow_coe ε hε hε' (fun n c => Xr (ix3 (y 0) n c)) (fun c e => Wkr (ix2 c e)) (fun c e => Wvr (ix2 c e))
        (fun e => Bkr (ix2 0 e)) (fun e => Bvr (ix2 0 e)) (fun h i => Gkr (ix2 h i)) (fun h i => Bklr (ix2 h i))
        (fun h i => Gvr (ix2 h i)) (fun h i => Bvlr (ix2 h i)) ⟨h, hh⟩ i k
  unfold refOut
  simp only [hhd]
  rw [show (Scalar.ofBits (F := Ideal) .f32 0x00000000#32 : EReal) = ((0 : ℝ) : EReal) from Cert.Consts.cZero_eq,
    show (Scalar.ofBits (F := Ideal) .f32 0x3A000000#32 : EReal) = ((1 / 2048 : ℝ) : EReal) from Cert.Consts.cInvN_eq]
  simp only [← EReal.coe_add, ← EReal.coe_mul]
  rfl

/-- On real inputs the kernel's array is the reference's. -/
theorem main_real :
    kerOut (fun i => ((Xr i : ℝ) : EReal)) (fun i => ((Wqr i : ℝ) : EReal)) (fun i => ((Bqr i : ℝ) : EReal))
        (fun i => ((Wkr i : ℝ) : EReal)) (fun i => ((Bkr i : ℝ) : EReal)) (fun i => ((Wvr i : ℝ) : EReal))
        (fun i => ((Bvr i : ℝ) : EReal)) (fun i => ((Wor i : ℝ) : EReal)) (fun i => ((Bor i : ℝ) : EReal))
        (fun i => ((Gkr i : ℝ) : EReal)) (fun i => ((Bklr i : ℝ) : EReal)) (fun i => ((Gvr i : ℝ) : EReal))
        (fun i => ((Bvlr i : ℝ) : EReal))
      = refOut (fun i => ((Xr i : ℝ) : EReal))
        (amap (fun i => ((Xr i : ℝ) : EReal)) (fun i => ((Wkr i : ℝ) : EReal)) (fun i => ((Bkr i : ℝ) : EReal))
          (fun i => ((Wvr i : ℝ) : EReal)) (fun i => ((Bvr i : ℝ) : EReal)) (fun i => ((Gkr i : ℝ) : EReal))
          (fun i => ((Bklr i : ℝ) : EReal)) (fun i => ((Gvr i : ℝ) : EReal)) (fun i => ((Bvlr i : ℝ) : EReal)))
        (fun i => ((Wqr i : ℝ) : EReal)) (fun i => ((Bqr i : ℝ) : EReal)) (fun i => ((Wor i : ℝ) : EReal))
        (fun i => ((Bor i : ℝ) : EReal)) := by
  obtain ⟨ε, hε, hε'⟩ := Cert.Consts.cEps_pos
  funext y
  rw [refOut_coe Xr Wqr Wkr Wvr Bqr Bkr Bvr Wor Bor Gkr Bklr Gvr Bvlr ε hε hε' y]
  unfold kerOut
  refine (krow_coe ε hε hε' (fun n c => Xr (ix3 (y 0) n c)) (fun c e => Wkr (ix2 c e)) (fun c e => Wvr (ix2 c e))
    (fun c e => Wqr (ix2 c e)) (fun e => Bkr (ix2 0 e)) (fun e => Bvr (ix2 0 e)) (fun e => Bqr (ix2 0 e))
    (fun e j => Wor (ix2 e j)) (fun j => Bor (ix2 0 j)) (fun h i => Gkr (ix2 h i)) (fun h i => Bklr (ix2 h i))
    (fun h i => Gvr (ix2 h i)) (fun h i => Bvlr (ix2 h i)) (y 1) (y 2)).trans ?_
  exact congrArg (fun r : ℝ => (r : EReal)) (Cert.AlgR.row_eq ρ ε _ _ _ _ _ _ _ _ _ _ _ _ _ (y 1) (y 2))

end

/-- A real-valued array is the image of a real array. -/
theorem exists_real {S : Shape} (X : S.Idx → EReal) (h : ∀ i, ∃ r : ℝ, X i = (r : EReal)) :
    ∃ Xr : S.Idx → ℝ, X = fun i => ((Xr i : ℝ) : EReal) := by
  choose Xr hX using h
  exact ⟨Xr, funext hX⟩

/-- On finite inputs the kernel's array is the reference's. -/
theorem main (X : (⟨3, ![16, 2048, 256]⟩ : Shape).Idx → EReal) (Wq : (⟨2, ![256, 1024]⟩ : Shape).Idx → EReal)
    (Bq : (⟨2, ![1, 1024]⟩ : Shape).Idx → EReal) (Wk : (⟨2, ![256, 1024]⟩ : Shape).Idx → EReal)
    (Bk : (⟨2, ![1, 1024]⟩ : Shape).Idx → EReal) (Wv : (⟨2, ![256, 1024]⟩ : Shape).Idx → EReal)
    (Bv : (⟨2, ![1, 1024]⟩ : Shape).Idx → EReal) (Wo : (⟨2, ![1024, 128]⟩ : Shape).Idx → EReal)
    (Bo : (⟨2, ![1, 128]⟩ : Shape).Idx → EReal) (Gk Bkl Gv Bvl : (⟨2, ![8, 128]⟩ : Shape).Idx → EReal)
    (hX : ∀ i, ∃ r : ℝ, X i = (r : EReal)) (hWq : ∀ i, ∃ r : ℝ, Wq i = (r : EReal)) (hBq : ∀ i, ∃ r : ℝ, Bq i = (r : EReal))
    (hWk : ∀ i, ∃ r : ℝ, Wk i = (r : EReal)) (hBk : ∀ i, ∃ r : ℝ, Bk i = (r : EReal)) (hWv : ∀ i, ∃ r : ℝ, Wv i = (r : EReal))
    (hBv : ∀ i, ∃ r : ℝ, Bv i = (r : EReal)) (hWo : ∀ i, ∃ r : ℝ, Wo i = (r : EReal)) (hBo : ∀ i, ∃ r : ℝ, Bo i = (r : EReal))
    (hGk : ∀ i, ∃ r : ℝ, Gk i = (r : EReal)) (hBkl : ∀ i, ∃ r : ℝ, Bkl i = (r : EReal)) (hGv : ∀ i, ∃ r : ℝ, Gv i = (r : EReal))
    (hBvl : ∀ i, ∃ r : ℝ, Bvl i = (r : EReal)) :
    kerOut X Wq Bq Wk Bk Wv Bv Wo Bo Gk Bkl Gv Bvl = refOut X (amap X Wk Bk Wv Bv Gk Bkl Gv Bvl) Wq Bq Wo Bo := by
  obtain ⟨Xr, rfl⟩ := exists_real X hX
  obtain ⟨Wqr, rfl⟩ := exists_real Wq hWq
  obtain ⟨Bqr, rfl⟩ := exists_real Bq hBq
  obtain ⟨Wkr, rfl⟩ := exists_real Wk hWk
  obtain ⟨Bkr, rfl⟩ := exists_real Bk hBk
  obtain ⟨Wvr, rfl⟩ := exists_real Wv hWv
  obtain ⟨Bvr, rfl⟩ := exists_real Bv hBv
  obtain ⟨Wor, rfl⟩ := exists_real Wo hWo
  obtain ⟨Bor, rfl⟩ := exists_real Bo hBo
  obtain ⟨Gkr, rfl⟩ := exists_real Gk hGk
  obtain ⟨Bklr, rfl⟩ := exists_real Bkl hBkl
  obtain ⟨Gvr, rfl⟩ := exists_real Gv hGv
  obtain ⟨Bvlr, rfl⟩ := exists_real Bvl hBvl
  exact main_real Xr Wqr Wkr Wvr Bqr Bkr Bvr Wor Bor Gkr Bklr Gvr Bvlr

end Cert.Algebra

end
-- ==== Proof.Finite.lean ====
/-
  Finiteness of the arguments under the precondition.

  The precondition says, for each of the thirteen argument arrays x, that the conjunction over all entries of
  |x i| < +inf is true, and that the conjunction of these thirteen truth values is true. Over the extended reals
  |x| = max x (-x), and the word 0x7F800000 denotes +inf, so |x i| < +inf excludes both infinities: every entry
  of every argument array is a real number.
-/
import proofs.«148891_g2000303815147335_pallasbulk_1180_8_alg».proof.Defs
import proofs.«148891_g2000303815147335_pallasbulk_1180_8_alg».proof.Proof.Gen.Pre_finite_inputs
import Idealize.ShloMosaic.Lib.ReduceAll
import Idealize.ShloMosaic.Lib.ValueIdx

noncomputable section
namespace Cert.Finite
open Idealize.ShloMosaic

/-- The shape of rank zero has one index. -/
instance : Subsingleton Cert.Pre_finite_inputs.S_.Idx := ⟨fun a b => funext fun d => d.elim0⟩

/-- The single-precision word 0x7F800000 denotes +inf. -/
theorem inf_eq : Ideal.ofBits .f32 0x7F800000#32 = (⊤ : EReal) := by
  simp [Ideal.ofBits, Ideal.ieee]

/-- An extended real whose absolute value is below +inf is a real. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | top => simp [Ideal.cmp] at h
  | coe r => exact ⟨r, rfl⟩

/-- If the conjunction over all entries of |x i| < +inf is true, every entry of x is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (h : Host.reduce IntOp.andi (cmpf .olt (Host.absf x)
        (broadcastInDim s ![] hb (constant (F := Ideal) Cert.Pre_finite_inputs.S_ .f32 0x7F800000#32)))
        (constantI Cert.Pre_finite_inputs.S_ 1 1#1) hr hu j = 1#1) :
    ∀ i, ∃ r : ℝ, x i = (r : EReal) := by
  intro i
  have e := Host.reduce_andi_all _ _ hr hu j h i
  exact real_of_abs_lt (x i) e

/-- A conjunction of two truth values that is true has both true. -/
theorem andi_split {s : Shape} (x y : IVec s 1) (i : s.Idx) (h : andi x y i = 1#1) : x i = 1#1 ∧ y i = 1#1 :=
  IntOp.andi_eq_one.1 h

/-- Under the precondition every entry of each of the thirteen argument arrays is a real number. -/
theorem args_real (m) (hpre : Cert.Pre_KernelIdeal m) (c : Dev Cert.KernelIdeal.nD) :
    (∀ i, ∃ r : ℝ, m ((c.tc : Thread _ _).loc Cert.KernelIdeal.main_arg0) i = (r : EReal)) ∧
    (∀ i, ∃ r : ℝ, m ((c.tc : Thread _ _).loc Cert.KernelIdeal.main_arg1) i = (r : EReal)) ∧
    (∀ i, ∃ r : ℝ, m ((c.tc : Thread _ _).loc Cert.KernelIdeal.main_arg2) i = (r : EReal)) ∧
    (∀ i, ∃ r : ℝ, m ((c.tc : Thread _ _).loc Cert.KernelIdeal.main_arg3) i = (r : EReal)) ∧
    (∀ i, ∃ r : ℝ, m ((c.tc : Thread _ _).loc Cert.KernelIdeal.main_arg4) i = (r : EReal)) ∧
    (∀ i, ∃ r : ℝ, m ((c.tc : Thread _ _).loc Cert.KernelIdeal.main_arg5) i = (r : EReal)) ∧
    (∀ i, ∃ r : ℝ, m ((c.tc : Thread _ _).loc Cert.KernelIdeal.main_arg6) i = (r : EReal)) ∧
    (∀ i, ∃ r : ℝ, m ((c.tc : Thread _ _).loc Cert.KernelIdeal.main_arg7) i = (r : EReal)) ∧
    (∀ i, ∃ r : ℝ, m ((c.tc : Thread _ _).loc Cert.KernelIdeal.main_arg8) i = (r : EReal)) ∧
    (∀ i, ∃ r : ℝ, m ((c.tc : Thread _ _).loc Cert.KernelIdeal.main_arg9) i = (r : EReal)) ∧
    (∀ i, ∃ r : ℝ, m ((c.tc : Thread _ _).loc Cert.KernelIdeal.main_arg10) i = (r : EReal)) ∧
    (∀ i, ∃ r : ℝ, m ((c.tc : Thread _ _).loc Cert.KernelIdeal.main_arg11) i = (r : EReal)) ∧
    (∀ i, ∃ r : ℝ, m ((c.tc : Thread _ _).loc Cert.KernelIdeal.main_arg12) i = (r : EReal)) := by
  have h := congrFun (hpre c) ValueIdx.ix0
  dsimp only [Cert.Pre_finite_inputs.fn, Cert.Pre_finite_inputs.fn_part1, Cert.Pre_finite_inputs.fn_part2,
    Cert.Pre_finite_inputs.fn_part3] at h
  obtain ⟨h, h12⟩ := andi_split _ _ _ h
  obtain ⟨h, h11⟩ := andi_split _ _ _ h
  obtain ⟨h, h10⟩ := andi_split _ _ _ h
  obtain ⟨h, h9⟩ := andi_split _ _ _ h
  obtain ⟨h, h8⟩ := andi_split _ _ _ h
  obtain ⟨h, h7⟩ := andi_split _ _ _ h
  obtain ⟨h, h6⟩ := andi_split _ _ _ h
  obtain ⟨h, h5⟩ := andi_split _ _ _ h
  obtain ⟨h, h4⟩ := andi_split _ _ _ h
  obtain ⟨h, h3⟩ := andi_split _ _ _ h
  obtain ⟨h, h2⟩ := andi_split _ _ _ h
  obtain ⟨h0, h1⟩ := andi_split _ _ _ h
  exact ⟨all_real _ _ _ _ _ h0, all_real _ _ _ _ _ h1, all_real _ _ _ _ _ h2, all_real _ _ _ _ _ h3,
    all_real _ _ _ _ _ h4, all_real _ _ _ _ _ h5, all_real _ _ _ _ _ h6, all_real _ _ _ _ _ h7,
    all_real _ _ _ _ _ h8, all_real _ _ _ _ _ h9, all_real _ _ _ _ _ h10, all_real _ _ _ _ _ h11,
    all_real _ _ _ _ _ h12⟩

end Cert.Finite
end
-- ==== Proof.RefGram.lean ====
/-
  The reference's first launch at an entry of a head's stored block. At a grid point the body holds a [1,512,256] block
  `x` of positions, the whole `wk`, `bk`, `wv`, `bv`, and the four 8×128 LayerNorm parameter blocks. It projects
  `k = x · wk + bk` and `v = x · wv + bv`, and for each head `h` it stores, at `[0, h, :, :]` of its output block, what
  was there plus `LN(k_h)ᵀ · LN(v_h)`: `k_h` the head's 128 columns of `k`, `LN` the layer norm of each position's 128
  features with the head's row of scale and shift, the product contracting the 512 positions. Entry `(i, k)` of that
  product is `gramBlk … h i k = Σ_n ln(k_h[n]) i · ln(v_h[n]) k`, written with `Spec.proj`, `Spec.headOf` and `Spec.ln`.
  The chain of operations is cut into named values differently from head to head; opened, every cut is the same chain:
  row sums as 512×1 columns, division by 128, the centred block, the mean of its squares plus epsilon under the
  reciprocal square root, scale and shift, then the contraction over positions added to the block read before.
-/
import proofs.«148891_g2000303815147335_pallasbulk_1180_8_alg».proof.Defs
import proofs.«148891_g2000303815147335_pallasbulk_1180_8_alg».proof.Proof.Gen.ReferenceIdeal.Frame
import proofs.«148891_g2000303815147335_pallasbulk_1180_8_alg».proof.Proof.LibMatmul2
import proofs.«148891_g2000303815147335_pallasbulk_1180_8_alg».proof.Proof.Spec
import Idealize.ShloMosaic.Lib.Pipeline.Value
import Idealize.ShloMosaic.Lib.ValueIdx
import Idealize.ShloMosaic.Lib.Tactic
import Idealize.ShloMosaic.PureOps.Ideal.Laws

noncomputable section

namespace Cert.ReferenceIdeal.GramValue

open Cert.ReferenceIdeal Cert.ReferenceIdeal.Gen Idealize.ShloMosaic Idealize.ShloMosaic.ValueIdx Idealize.ShloMosaic.TcCoe Idealize.ShloMosaic.Tactic

/-- The sum of a row of a 512×128 block, as the 512×1 column the programs keep it in. -/
theorem colsum_apply (z : FVec Ideal S512x128 .f32) (hφ) (hacc) (n : Fin 512) :
    shapeCast S512x1 (multiReduction .add [1] S512 z 0x00000000#32 reduces_S512x128_S512 hφ hacc) shapeCasts_S512_S512x1 (ix2 n 0)
      = ∑ i : Fin 128, z (ix2 n i) := by
  refine (shapeCast_apply _ shapeCasts_S512_S512x1 (ix2 n 0) (ix1 n) ?_).trans ?_
  · rw [Shape.rowMajor_val_two, Shape.rowMajor_val_one]
    show n.val = n.val * 1 + 0
    omega
  · refine (Ideal.multiReduction_add_single z _ reduces_S512x128_S512 hφ hacc (ix1 n)).trans ?_
    refine Finset.sum_congr rfl fun i _ => ?_
    refine congrArg z ?_
    funext a; match a with | ⟨0, _⟩ => rfl | ⟨1, _⟩ => rfl

/-- A row of a 512×128 block. -/
def rowOf (z : S512x128.Idx → EReal) (n : Fin 512) : Fin 128 → EReal := fun i => z (ix2 n i)

/-- A 512×1 column spread over the 128 columns. -/
theorem bcol_apply (m : FVec Ideal S512x1 .f32) (n : Fin 512) (i : Fin 128) :
    broadcastTo S512x128 m broadcasts_S512x1_S512x128 (ix2 n i) = m (ix2 n 0) :=
  broadcastTo_apply m broadcasts_S512x1_S512x128 (ix2 n i) (ix2 n 0) (fun a => match a with
    | ⟨0, _⟩ => rfl
    | ⟨1, _⟩ => rfl)

/-- A 1×128 row spread over the 512 rows. -/
theorem brow_apply (g : Vec Ideal S1x128 .f32) (n : Fin 512) (i : Fin 128) :
    broadcastTo S512x128 g broadcasts_S1x128_S512x128 (ix2 n i) = g (ix2 0 i) :=
  broadcastTo_apply g broadcasts_S1x128_S512x128 (ix2 n i) (ix2 0 i) (fun a => match a with
    | ⟨0, _⟩ => rfl
    | ⟨1, _⟩ => rfl)

/-- The layer norm of every row of a 512×128 block, as the programs compute it: the row mean as a sum divided by 128,
    the centred row, the mean of its squares plus epsilon under the reciprocal square root, then scale and shift. -/
theorem ln_apply (z : FVec Ideal S512x128 .f32) (g b : Vec Ideal S1x128 .f32) (hφ) (hacc) (n : Fin 512) (i : Fin 128) :
    addf (mulf (mulf
        (subf z (broadcastTo S512x128 (divf (shapeCast S512x1 (multiReduction .add [1] S512 z 0x00000000#32 reduces_S512x128_S512 hφ hacc) shapeCasts_S512_S512x1)
          (broadcast S512x1 (Scalar.ofBits (F := Ideal) .f32 0x43000000#32))) broadcasts_S512x1_S512x128))
        (broadcastTo S512x128 (rsqrt (addf (divf (shapeCast S512x1 (multiReduction .add [1] S512
            (mulf (subf z (broadcastTo S512x128 (divf (shapeCast S512x1 (multiReduction .add [1] S512 z 0x00000000#32 reduces_S512x128_S512 hφ hacc) shapeCasts_S512_S512x1)
                (broadcast S512x1 (Scalar.ofBits (F := Ideal) .f32 0x43000000#32))) broadcasts_S512x1_S512x128))
              (subf z (broadcastTo S512x128 (divf (shapeCast S512x1 (multiReduction .add [1] S512 z 0x00000000#32 reduces_S512x128_S512 hφ hacc) shapeCasts_S512_S512x1)
                (broadcast S512x1 (Scalar.ofBits (F := Ideal) .f32 0x43000000#32))) broadcasts_S512x1_S512x128)))
            0x00000000#32 reduces_S512x128_S512 hφ hacc) shapeCasts_S512_S512x1)
          (broadcast S512x1 (Scalar.ofBits (F := Ideal) .f32 0x43000000#32)))
          (broadcast S512x1 (Scalar.ofBits (F := Ideal) .f32 0x3727C5AC#32)))) broadcasts_S512x1_S512x128))
      (broadcastTo S512x128 g broadcasts_S1x128_S512x128)) (broadcastTo S512x128 b broadcasts_S1x128_S512x128) (ix2 n i)
      = Cert.Spec.ln (rowOf z n) (fun i' => g (ix2 0 i')) (fun i' => b (ix2 0 i')) i := by
  have hm : ∀ i' : Fin 128, subf z (broadcastTo S512x128 (divf (shapeCast S512x1 (multiReduction .add [1] S512 z 0x00000000#32 reduces_S512x128_S512 hφ hacc) shapeCasts_S512_S512x1)
          (broadcast S512x1 (Scalar.ofBits (F := Ideal) .f32 0x43000000#32))) broadcasts_S512x1_S512x128) (ix2 n i')
        = rowOf z n i' - Cert.Spec.mean128 (rowOf z n) := fun i' =>
    congrArg (z (ix2 n i') - ·) ((bcol_apply _ n i').trans (congrArg (Ideal.div · Cert.Spec.c128) (colsum_apply z hφ hacc n)))
  unfold Cert.Spec.ln
  refine congrArg₂ (· + ·) (congrArg₂ (· * ·) (congrArg₂ (· * ·) (hm i) ?_) (brow_apply g n i)) (brow_apply b n i)
  refine (bcol_apply _ n i).trans ?_
  refine congrArg (fun s => Ideal.rsqrt (Ideal.div s Cert.Spec.c128 + Cert.Spec.cEps)) ?_
  refine (colsum_apply _ hφ hacc n).trans ?_
  exact Finset.sum_congr rfl fun i' _ => congrArg₂ (· * ·) (hm i') (hm i')

/-- A [1,1,128,128] block read as a 128×128 matrix. -/
theorem blk_cast_apply (A : Vec Ideal S1x1x128x128 .f32) (i k : Fin 128) :
    shapeCast S128x128 A shapeCasts_S1x1x128x128_S128x128 (ix2 i k) = A (ix4 0 0 i k) :=
  shapeCast_apply A shapeCasts_S1x1x128x128_S128x128 (ix2 i k) (ix4 0 0 i k) (by
    rw [Shape.rowMajor_val_four, Shape.rowMajor_val_two]
    show ((0 * 1 + 0) * 128 + i.val) * 128 + k.val = i.val * 128 + k.val
    omega)

/-- A block plus the product of two 512×128 blocks contracted over their 512 rows, kept as a [1,1,128,128] block. -/
theorem gram_apply (A B : FVec Ideal S512x128 .f32) (prev : Vec Ideal S1x1x128x128 .f32) (i k : Fin 128) :
    shapeCast S1x1x128x128 (addf (shapeCast S128x128 prev shapeCasts_S1x1x128x128_S128x128)
      (FloatOps.matmul (F := Ideal) (φ₁ := .f32) (φ₂ := .f32) dot_S512x128_S512x128_S128x128_0_0_1_1_n_n none A B (constant S128x128 .f32 0x00000000#32)))
      shapeCasts_S128x128_S1x1x128x128 (ix4 0 0 i k)
    = prev (ix4 0 0 i k) + ∑ n : Fin 512, A (ix2 n i) * B (ix2 n k) := by
  refine (shapeCast_apply _ shapeCasts_S128x128_S1x1x128x128 (ix4 0 0 i k) (ix2 i k) ?_).trans ?_
  · rw [Shape.rowMajor_val_four, Shape.rowMajor_val_two]
    show i.val * 128 + k.val = ((0 * 1 + 0) * 128 + i.val) * 128 + k.val
    omega
  · refine congrArg₂ (· + ·) (blk_cast_apply prev i k) ?_
    rw [show dot_S512x128_S512x128_S128x128_0_0_1_1_n_n = (⟨[0], [0], [1], [1], [], [], dot_S512x128_S512x128_S128x128_0_0_1_1_n_n_wf⟩ : DotDims _ _ _) from rfl]
    exact LibMatmul2.matmul_tn_apply _ none A B i k

/-- The key projection of the block of positions at an entry. -/
theorem projK_apply (X : Vec Ideal S1x512x256 .f32) (W : Vec Ideal S256x1024 .f32) (B : Vec Ideal S1x1024 .f32) (n : Fin 512) (e : Fin 1024) :
    k0_pay4 (F := Ideal) X W B (ix2 n e)
      = Cert.Spec.proj (fun c => X (ix3 0 n c)) (fun c e => W (ix2 c e)) (fun e => B (ix2 0 e)) e := by
  unfold k0_pay4 k0_pay3 Cert.Spec.proj
  show (FloatOps.matmul (F := Ideal) dot_S512x256_S256x1024_S512x1024_1_0_0_1_n_n none (shapeCast S512x256 X shapeCasts_S1x512x256_S512x256) W (constant S512x1024 .f32 0x00000000#32) (ix2 n e) : EReal) + (broadcastTo S512x1024 B broadcasts_S1x1024_S512x1024 (ix2 n e) : EReal) = _
  rw [show dot_S512x256_S256x1024_S512x1024_1_0_0_1_n_n = (⟨[1], [0], [0], [1], [], [], dot_S512x256_S256x1024_S512x1024_1_0_0_1_n_n_wf⟩ : DotDims _ _ _) from rfl]
  rw [LibMatmul2.matmul_nn_apply]
  congr 1
  · refine Finset.sum_congr rfl fun c _ => ?_
    rw [shapeCast_dropUnit_apply ![512, 256] X shapeCasts_S1x512x256_S512x256 (ix2 n c)]
    refine congrArg (fun z => X z * W (ix2 c e)) ?_
    funext d; match d with | ⟨0, _⟩ => rfl | ⟨1, _⟩ => rfl | ⟨2, _⟩ => rfl
  · exact broadcastTo_apply B broadcasts_S1x1024_S512x1024 (ix2 n e) (ix2 0 e) (fun a => match a with
      | ⟨0, _⟩ => rfl
      | ⟨1, _⟩ => rfl)

/-- The value projection of the block of positions at an entry. -/
theorem projV_apply (X : Vec Ideal S1x512x256 .f32) (W : Vec Ideal S256x1024 .f32) (B : Vec Ideal S1x1024 .f32) (n : Fin 512) (e : Fin 1024) :
    k0_pay5 (F := Ideal) X W B (ix2 n e)
      = Cert.Spec.proj (fun c => X (ix3 0 n c)) (fun c e => W (ix2 c e)) (fun e => B (ix2 0 e)) e := by
  unfold k0_pay5 k0_pay3 Cert.Spec.proj
  show (FloatOps.matmul (F := Ideal) dot_S512x256_S256x1024_S512x1024_1_0_0_1_n_n none (shapeCast S512x256 X shapeCasts_S1x512x256_S512x256) W (constant S512x1024 .f32 0x00000000#32) (ix2 n e) : EReal) + (broadcastTo S512x1024 B broadcasts_S1x1024_S512x1024 (ix2 n e) : EReal) = _
  rw [show dot_S512x256_S256x1024_S512x1024_1_0_0_1_n_n = (⟨[1], [0], [0], [1], [], [], dot_S512x256_S256x1024_S512x1024_1_0_0_1_n_n_wf⟩ : DotDims _ _ _) from rfl]
  rw [LibMatmul2.matmul_nn_apply]
  congr 1
  · refine Finset.sum_congr rfl fun c _ => ?_
    rw [shapeCast_dropUnit_apply ![512, 256] X shapeCasts_S1x512x256_S512x256 (ix2 n c)]
    refine congrArg (fun z => X z * W (ix2 c e)) ?_
    funext d; match d with | ⟨0, _⟩ => rfl | ⟨1, _⟩ => rfl | ⟨2, _⟩ => rfl
  · exact broadcastTo_apply B broadcasts_S1x1024_S512x1024 (ix2 n e) (ix2 0 e) (fun a => match a with
      | ⟨0, _⟩ => rfl
      | ⟨1, _⟩ => rfl)

/-- Columns `o … o+127` of a 512×1024 block. -/
theorem slice_cols_apply (o : Nat) (ho : o + 128 ≤ 1024) (q : FVec Ideal S512x1024 .f32) (hs : S512x1024.Slices ![0, o] S512x128)
    (n : Fin 512) (i : Fin 128) :
    extractStridedSlice S512x128 ![0, o] q hs (ix2 n i) = q (ix2 n ⟨o + i.val, by have := i.isLt; omega⟩) :=
  extractStridedSlice_apply ![0, o] q hs (ix2 n i) (ix2 n ⟨o + i.val, by have := i.isLt; omega⟩) (fun a => match a with
    | ⟨0, _⟩ => by show n.val = 0 + n.val; omega
    | ⟨1, _⟩ => rfl)

/-- A row of head `h`'s 128 columns of a projected block is the head's part of that position's projection. -/
theorem row_headK (o : Nat) (h : Fin 8) (ho : o = 128 * h.val) (X : Vec Ideal S1x512x256 .f32) (W : Vec Ideal S256x1024 .f32) (B : Vec Ideal S1x1024 .f32)
    (hs : S512x1024.Slices ![0, o] S512x128) (n : Fin 512) :
    rowOf (extractStridedSlice S512x128 ![0, o] (k0_pay4 (F := Ideal) X W B) hs) n
      = Cert.Spec.headOf (Cert.Spec.proj (fun c => X (ix3 0 n c)) (fun c e => W (ix2 c e)) (fun e => B (ix2 0 e))) h := by
  funext i
  unfold rowOf Cert.Spec.headOf
  have h8 := h.isLt
  refine (slice_cols_apply o (by omega) _ hs n i).trans ?_
  refine (projK_apply X W B n _).trans ?_
  exact congrArg _ (Fin.ext (by show o + i.val = 128 * h.val + i.val; omega))

theorem row_headV (o : Nat) (h : Fin 8) (ho : o = 128 * h.val) (X : Vec Ideal S1x512x256 .f32) (W : Vec Ideal S256x1024 .f32) (B : Vec Ideal S1x1024 .f32)
    (hs : S512x1024.Slices ![0, o] S512x128) (n : Fin 512) :
    rowOf (extractStridedSlice S512x128 ![0, o] (k0_pay5 (F := Ideal) X W B) hs) n
      = Cert.Spec.headOf (Cert.Spec.proj (fun c => X (ix3 0 n c)) (fun c e => W (ix2 c e)) (fun e => B (ix2 0 e))) h := by
  funext i
  unfold rowOf Cert.Spec.headOf
  have h8 := h.isLt
  refine (slice_cols_apply o (by omega) _ hs n i).trans ?_
  refine (projV_apply X W B n _).trans ?_
  exact congrArg _ (Fin.ext (by show o + i.val = 128 * h.val + i.val; omega))

/-- One head's contribution of a block of 512 positions to its attention map, from the blocks the body holds and the
    head's four LayerNorm rows: `Σ_n ln(k_h[n]) i · ln(v_h[n]) k`. -/
def gramRow (x0 : S1x512x256.Idx → EReal) (x1 : S256x1024.Idx → EReal) (x2 : S1x1024.Idx → EReal) (x3 : S256x1024.Idx → EReal)
    (x4 : S1x1024.Idx → EReal) (g b gv bv : S1x128.Idx → EReal) (h : Fin 8) (i k : Fin 128) : EReal :=
  ∑ n : Fin 512,
    Cert.Spec.ln (Cert.Spec.headOf (Cert.Spec.proj (fun c => x0 (ix3 0 n c)) (fun c e => x1 (ix2 c e)) (fun e => x2 (ix2 0 e))) h)
        (fun i' => g (ix2 0 i')) (fun i' => b (ix2 0 i')) i
      * Cert.Spec.ln (Cert.Spec.headOf (Cert.Spec.proj (fun c => x0 (ix3 0 n c)) (fun c e => x3 (ix2 c e)) (fun e => x4 (ix2 0 e))) h)
        (fun i' => gv (ix2 0 i')) (fun i' => bv (ix2 0 i')) k

/-- The first head's stored block: what was there plus the head's contribution (columns 0 … 127 of the two projections). -/
theorem head0_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay8 (F := Ideal) (k0_pay5 X0 X3 X4) g b (k0_pay6 X0 X1 X2) (k0_pay7 X0 X1 X2) gv bv prev (ix4 0 0 i k)
      = prev (ix4 0 0 i k) + gramRow X0 X1 X2 X3 X4 g b gv bv 0 i k := by
  unfold k0_pay8 k0_pay7 k0_pay6 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 0 0 rfl X0 X1 X2 slices_S512x1024_o0_0_S512x128 n]
  · refine (ln_apply _ gv bv _ _ n k).trans ?_
    rw [row_headV 0 0 rfl X0 X3 X4 slices_S512x1024_o0_0_S512x128 n]

/-- The second head's stored block: what was there plus the head's contribution (columns 128 … 255 of the two projections). -/
theorem head1_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay12 (F := Ideal) (k0_pay10 (k0_pay9 (k0_pay4 X0 X1 X2)) g b) (k0_pay11 (k0_pay5 X0 X3 X4) gv bv) prev (ix4 0 0 i k)
      = prev (ix4 0 0 i k) + gramRow X0 X1 X2 X3 X4 g b gv bv 1 i k := by
  unfold k0_pay12 k0_pay11 k0_pay10 k0_pay9 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 128 1 rfl X0 X1 X2 slices_S512x1024_o0_128_S512x128 n]
  · refine (ln_apply _ gv bv _ _ n k).trans ?_
    rw [row_headV 128 1 rfl X0 X3 X4 slices_S512x1024_o0_128_S512x128 n]

/-- The third head's stored block: what was there plus the head's contribution (columns 256 … 383 of the two projections). -/
theorem head2_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay16 (F := Ideal) (k0_pay13 (k0_pay4 X0 X1 X2) g b) (k0_pay14 (k0_pay5 X0 X3 X4)) gv bv (k0_pay15 (k0_pay5 X0 X3 X4)) prev (ix4 0 0 i k)
      = prev (ix4 0 0 i k) + gramRow X0 X1 X2 X3 X4 g b gv bv 2 i k := by
  unfold k0_pay16 k0_pay15 k0_pay14 k0_pay13 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 256 2 rfl X0 X1 X2 slices_S512x1024_o0_256_S512x128 n]
  · refine (ln_apply _ gv bv _ _ n k).trans ?_
    rw [row_headV 256 2 rfl X0 X3 X4 slices_S512x1024_o0_256_S512x128 n]

/-- The fourth head's stored block: what was there plus the head's contribution (columns 384 … 511 of the two projections). -/
theorem head3_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay20 (F := Ideal) (k0_pay5 X0 X3 X4) g b (k0_pay17 (k0_pay4 X0 X1 X2)) (k0_pay18 (k0_pay4 X0 X1 X2)) k0_pay19 gv bv prev (ix4 0 0 i k)
      = prev (ix4 0 0 i k) + gramRow X0 X1 X2 X3 X4 g b gv bv 3 i k := by
  unfold k0_pay20 k0_pay19 k0_pay18 k0_pay17 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 384 3 rfl X0 X1 X2 slices_S512x1024_o0_384_S512x128 n]
  · refine (ln_apply _ gv bv _ _ n k).trans ?_
    rw [row_headV 384 3 rfl X0 X3 X4 slices_S512x1024_o0_384_S512x128 n]

/-- The fifth head's stored block: what was there plus the head's contribution (columns 512 … 639 of the two projections). -/
theorem head4_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay25 (F := Ideal) (k0_pay22 (k0_pay21 (k0_pay4 X0 X1 X2)) g b) (k0_pay23 (k0_pay5 X0 X3 X4) gv) (k0_pay24 bv) prev (ix4 0 0 i k)
      = prev (ix4 0 0 i k) + gramRow X0 X1 X2 X3 X4 g b gv bv 4 i k := by
  unfold k0_pay25 k0_pay24 k0_pay23 k0_pay22 k0_pay21 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 512 4 rfl X0 X1 X2 slices_S512x1024_o0_512_S512x128 n]
  · refine (ln_apply _ gv bv _ _ n k).trans ?_
    rw [row_headV 512 4 rfl X0 X3 X4 slices_S512x1024_o0_512_S512x128 n]

/-- The sixth head's stored block: what was there plus the head's contribution (columns 640 … 767 of the two projections). -/
theorem head5_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay29 (F := Ideal) (k0_pay26 (k0_pay4 X0 X1 X2) g b) (k0_pay27 (k0_pay5 X0 X3 X4)) gv bv (k0_pay28 (k0_pay5 X0 X3 X4)) prev (ix4 0 0 i k)
      = prev (ix4 0 0 i k) + gramRow X0 X1 X2 X3 X4 g b gv bv 5 i k := by
  unfold k0_pay29 k0_pay28 k0_pay27 k0_pay26 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 640 5 rfl X0 X1 X2 slices_S512x1024_o0_640_S512x128 n]
  · refine (ln_apply _ gv bv _ _ n k).trans ?_
    rw [row_headV 640 5 rfl X0 X3 X4 slices_S512x1024_o0_640_S512x128 n]

/-- The seventh head's stored block: what was there plus the head's contribution (columns 768 … 895 of the two projections). -/
theorem head6_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay33 (F := Ideal) (k0_pay5 X0 X3 X4) g b (k0_pay30 (k0_pay4 X0 X1 X2)) (k0_pay31 (k0_pay4 X0 X1 X2)) k0_pay32 gv bv prev (ix4 0 0 i k)
      = prev (ix4 0 0 i k) + gramRow X0 X1 X2 X3 X4 g b gv bv 6 i k := by
  unfold k0_pay33 k0_pay32 k0_pay31 k0_pay30 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 768 6 rfl X0 X1 X2 slices_S512x1024_o0_768_S512x128 n]
  · refine (ln_apply _ gv bv _ _ n k).trans ?_
    rw [row_headV 768 6 rfl X0 X3 X4 slices_S512x1024_o0_768_S512x128 n]

/-- The eighth head's stored block: what was there plus the head's contribution (columns 896 … 1023 of the two projections). -/
theorem head7_core (X0 : Vec Ideal S1x512x256 .f32) (X1 : Vec Ideal S256x1024 .f32) (X2 : Vec Ideal S1x1024 .f32)
    (X3 : Vec Ideal S256x1024 .f32) (X4 : Vec Ideal S1x1024 .f32) (g b gv bv : Vec Ideal S1x128 .f32)
    (prev : Vec Ideal S1x1x128x128 .f32) (i k : Fin 128) :
    k0_pay1 (F := Ideal) (k0_pay34 (k0_pay4 X0 X1 X2) g b) gv bv (k0_pay35 (k0_pay5 X0 X3 X4)) prev (ix4 0 0 i k)
      = prev (ix4 0 0 i k) + gramRow X0 X1 X2 X3 X4 g b gv bv 7 i k := by
  unfold k0_pay1 k0_pay35 k0_pay34 gramRow
  refine (gram_apply _ _ prev i k).trans ?_
  refine congrArg (prev (ix4 0 0 i k) + ·) (Finset.sum_congr rfl fun n _ => congrArg₂ (· * ·) ?_ ?_)
  · refine (ln_apply _ g b _ _ n i).trans ?_
    rw [row_headK 896 7 rfl X0 X1 X2 slices_S512x1024_o0_896_S512x128 n]
  · refine (ln_apply _ gv bv _ _ n k).trans ?_
    rw [row_headV 896 7 rfl X0 X3 X4 slices_S512x1024_o0_896_S512x128 n]

theorem hz2 : (![0, 0] : Fin 2 → Nat) = fun _ => 0 := funext fun a => by fin_cases a <;> rfl
theorem hz3 : (![0, 0, 0] : Fin 3 → Nat) = fun _ => 0 := funext fun a => by fin_cases a <;> rfl

/-- Row `h` of an 8×128 block, loaded as a 1×128 row. -/
theorem ld_row_apply (h : Fin 8) (x : Vec Ideal S8x128 .f32) (inb : ∀ a, (![h.val, 0] : Fin 2 → Nat) a + S1x128.size a ≤ S8x128.size a) (i' : Fin 128) :
    View.ld x (Rect.unit (s := S8x128) ![h.val, 0] S1x128.size inb) (ix2 0 i') = x (ix2 h i') := by
  show x ((Rect.unit (s := S8x128) ![h.val, 0] S1x128.size inb).emb (ix2 0 i')) = _
  refine congrArg x ?_
  funext a; apply Fin.ext
  match a with
  | ⟨0, _⟩ => show h.val + 1 * 0 = h.val; omega
  | ⟨1, _⟩ => show 0 + 1 * i'.val = i'.val; omega

/-- One head's contribution of a block of 512 positions to its attention map, from the nine blocks the body holds:
    `Σ_n ln(k_h[n]) i · ln(v_h[n]) k` with `k = x · wk + bk`, `v = x · wv + bv` and the head's rows of the four
    LayerNorm parameter blocks. -/
def gramBlk (x0 : S1x512x256.Idx → EReal) (x1 : S256x1024.Idx → EReal) (x2 : S1x1024.Idx → EReal) (x3 : S256x1024.Idx → EReal)
    (x4 : S1x1024.Idx → EReal) (x5 x6 x7 x8 : S8x128.Idx → EReal) (h : Fin 8) (i k : Fin 128) : EReal :=
  ∑ n : Fin 512,
    Cert.Spec.ln (Cert.Spec.headOf (Cert.Spec.proj (fun c => x0 (ix3 0 n c)) (fun c e => x1 (ix2 c e)) (fun e => x2 (ix2 0 e))) h)
        (fun i' => x5 (ix2 h i')) (fun i' => x6 (ix2 h i')) i
      * Cert.Spec.ln (Cert.Spec.headOf (Cert.Spec.proj (fun c => x0 (ix3 0 n c)) (fun c e => x3 (ix2 c e)) (fun e => x4 (ix2 0 e))) h)
        (fun i' => x7 (ix2 h i')) (fun i' => x8 (ix2 h i')) k

/-- With the head's rows loaded from the 8×128 parameter blocks, the row form is the block form. -/
theorem gramRow_ld (x0 : Vec Ideal S1x512x256 .f32) (x1 : Vec Ideal S256x1024 .f32) (x2 : Vec Ideal S1x1024 .f32)
    (x3 : Vec Ideal S256x1024 .f32) (x4 : Vec Ideal S1x1024 .f32) (x5 x6 x7 x8 : Vec Ideal S8x128 .f32) (h : Fin 8)
    (inb : ∀ a, (![h.val, 0] : Fin 2 → Nat) a + S1x128.size a ≤ S8x128.size a) (i k : Fin 128) :
    gramRow x0 x1 x2 x3 x4 (View.ld x5 (Rect.unit (s := S8x128) ![h.val, 0] S1x128.size inb))
      (View.ld x6 (Rect.unit (s := S8x128) ![h.val, 0] S1x128.size inb))
      (View.ld x7 (Rect.unit (s := S8x128) ![h.val, 0] S1x128.size inb))
      (View.ld x8 (Rect.unit (s := S8x128) ![h.val, 0] S1x128.size inb)) h i k
      = gramBlk x0 x1 x2 x3 x4 x5 x6 x7 x8 h i k := by
  unfold gramRow gramBlk
  have e5 : (fun i' : Fin 128 => View.ld x5 (Rect.unit (s := S8x128) ![h.val, 0] S1x128.size inb) (ix2 0 i')) = fun i' => x5 (ix2 h i') :=
    funext fun i' => ld_row_apply h x5 inb i'
  have e6 : (fun i' : Fin 128 => View.ld x6 (Rect.unit (s := S8x128) ![h.val, 0] S1x128.size inb) (ix2 0 i')) = fun i' => x6 (ix2 h i') :=
    funext fun i' => ld_row_apply h x6 inb i'
  have e7 : (fun i' : Fin 128 => View.ld x7 (Rect.unit (s := S8x128) ![h.val, 0] S1x128.size inb) (ix2 0 i')) = fun i' => x7 (ix2 h i') :=
    funext fun i' => ld_row_apply h x7 inb i'
  have e8 : (fun i' : Fin 128 => View.ld x8 (Rect.unit (s := S8x128) ![h.val, 0] S1x128.size inb) (ix2 0 i')) = fun i' => x8 (ix2 h i') :=
    funext fun i' => ld_row_apply h x8 inb i'
  rw [e5, e6, e7, e8]

/-- The first head's stored block in the run of a row's first tile, from the blocks the body holds. -/
theorem head0_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k)
      = prev (ix4 0 0 i k) + gramBlk x0 x1 x2 x3 x4 x5 x6 x7 x8 0 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head0_core x0 x1 x2 x3 x4 _ _ _ _ prev i k).trans ?_
  exact congrArg (prev (ix4 0 0 i k) + ·) (gramRow_ld x0 x1 x2 x3 x4 x5 x6 x7 x8 0 inb_S8x128_S1x128_0_0 i k)

/-- The second head's stored block in the run of a row's first tile, from the blocks the body holds. -/
theorem head1_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k)
      = prev (ix4 0 0 i k) + gramBlk x0 x1 x2 x3 x4 x5 x6 x7 x8 1 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head1_core x0 x1 x2 x3 x4 _ _ _ _ prev i k).trans ?_
  exact congrArg (prev (ix4 0 0 i k) + ·) (gramRow_ld x0 x1 x2 x3 x4 x5 x6 x7 x8 1 inb_S8x128_S1x128_1_0 i k)

/-- The third head's stored block in the run of a row's first tile, from the blocks the body holds. -/
theorem head2_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k)
      = prev (ix4 0 0 i k) + gramBlk x0 x1 x2 x3 x4 x5 x6 x7 x8 2 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head2_core x0 x1 x2 x3 x4 _ _ _ _ prev i k).trans ?_
  exact congrArg (prev (ix4 0 0 i k) + ·) (gramRow_ld x0 x1 x2 x3 x4 x5 x6 x7 x8 2 inb_S8x128_S1x128_2_0 i k)

/-- The fourth head's stored block in the run of a row's first tile, from the blocks the body holds. -/
theorem head3_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay20 (F := Ideal) (kernelRun0_A.sl.r_1 c arg2 harg2 arg5 harg5 arg6 harg6 x0 x3 x4) (kernelRun0_A.sl.r_15 c arg7 harg7 x5) (kernelRun0_A.sl.r_16 c arg8 harg8 x6) (kernelRun0_A.sl.r_17 c arg2 harg2 arg3 harg3 arg4 harg4 x0 x1 x2) (kernelRun0_A.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k)
      = prev (ix4 0 0 i k) + gramBlk x0 x1 x2 x3 x4 x5 x6 x7 x8 3 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head3_core x0 x1 x2 x3 x4 _ _ _ _ prev i k).trans ?_
  exact congrArg (prev (ix4 0 0 i k) + ·) (gramRow_ld x0 x1 x2 x3 x4 x5 x6 x7 x8 3 inb_S8x128_S1x128_3_0 i k)

/-- The fifth head's stored block in the run of a row's first tile, from the blocks the body holds. -/
theorem head4_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay25 (F := Ideal) (kernelRun0_A.sl.r_20 c arg2 harg2 arg3 harg3 arg4 harg4 arg7 harg7 arg8 harg8 x0 x1 x2 x5 x6) (kernelRun0_A.sl.r_21 c arg2 harg2 arg5 harg5 arg6 harg6 arg9 harg9 x0 x3 x4 x7) (kernelRun0_A.sl.r_22 c arg10 harg10 x8) prev (ix4 0 0 i k)
      = prev (ix4 0 0 i k) + gramBlk x0 x1 x2 x3 x4 x5 x6 x7 x8 4 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head4_core x0 x1 x2 x3 x4 _ _ _ _ prev i k).trans ?_
  exact congrArg (prev (ix4 0 0 i k) + ·) (gramRow_ld x0 x1 x2 x3 x4 x5 x6 x7 x8 4 inb_S8x128_S1x128_4_0 i k)

/-- The sixth head's stored block in the run of a row's first tile, from the blocks the body holds. -/
theorem head5_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay29 (F := Ideal) (kernelRun0_A.sl.r_23 c arg2 harg2 arg3 harg3 arg4 harg4 arg7 harg7 arg8 harg8 x0 x1 x2 x5 x6) (kernelRun0_A.sl.r_24 c arg2 harg2 arg5 harg5 arg6 harg6 x0 x3 x4) (kernelRun0_A.sl.r_25 c arg9 harg9 x7) (kernelRun0_A.sl.r_26 c arg10 harg10 x8) (kernelRun0_A.sl.r_27 c arg2 harg2 arg5 harg5 arg6 harg6 x0 x3 x4) prev (ix4 0 0 i k)
      = prev (ix4 0 0 i k) + gramBlk x0 x1 x2 x3 x4 x5 x6 x7 x8 5 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head5_core x0 x1 x2 x3 x4 _ _ _ _ prev i k).trans ?_
  exact congrArg (prev (ix4 0 0 i k) + ·) (gramRow_ld x0 x1 x2 x3 x4 x5 x6 x7 x8 5 inb_S8x128_S1x128_5_0 i k)

/-- The seventh head's stored block in the run of a row's first tile, from the blocks the body holds. -/
theorem head6_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay33 (F := Ideal) (kernelRun0_A.sl.r_1 c arg2 harg2 arg5 harg5 arg6 harg6 x0 x3 x4) (kernelRun0_A.sl.r_28 c arg7 harg7 x5) (kernelRun0_A.sl.r_29 c arg8 harg8 x6) (kernelRun0_A.sl.r_30 c arg2 harg2 arg3 harg3 arg4 harg4 x0 x1 x2) (kernelRun0_A.sl.r_31 c arg2 harg2 arg3 harg3 arg4 harg4 x0 x1 x2) k0_pay32 (View.readAt (Elt Ideal) arg9.view (Rect.unit (s := S8x128) ![6, 0] S1x128.size inb_S8x128_S1x128_6_0).toLoadRect (harg9.unread x7)) (View.readAt (Elt Ideal) arg10.view (Rect.unit (s := S8x128) ![6, 0] S1x128.size inb_S8x128_S1x128_6_0).toLoadRect (harg10.unread x8)) prev (ix4 0 0 i k)
      = prev (ix4 0 0 i k) + gramBlk x0 x1 x2 x3 x4 x5 x6 x7 x8 6 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head6_core x0 x1 x2 x3 x4 _ _ _ _ prev i k).trans ?_
  exact congrArg (prev (ix4 0 0 i k) + ·) (gramRow_ld x0 x1 x2 x3 x4 x5 x6 x7 x8 6 inb_S8x128_S1x128_6_0 i k)

/-- The eighth head's stored block in the run of a row's first tile, from the blocks the body holds. -/
theorem head7_A (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay1 (F := Ideal) (kernelRun0_A.sl.r_32 c arg2 harg2 arg3 harg3 arg4 harg4 arg7 harg7 arg8 harg8 x0 x1 x2 x5 x6) (kernelRun0_A.sl.r_33 c arg9 harg9 x7) (kernelRun0_A.sl.r_34 c arg10 harg10 x8) (kernelRun0_A.sl.r_35 c arg2 harg2 arg5 harg5 arg6 harg6 x0 x3 x4) prev (ix4 0 0 i k)
      = prev (ix4 0 0 i k) + gramBlk x0 x1 x2 x3 x4 x5 x6 x7 x8 7 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head7_core x0 x1 x2 x3 x4 _ _ _ _ prev i k).trans ?_
  exact congrArg (prev (ix4 0 0 i k) + ·) (gramRow_ld x0 x1 x2 x3 x4 x5 x6 x7 x8 7 inb_S8x128_S1x128_7_0 i k)

/-- The first head's stored block in the run of a later tile of a row, from the blocks the body holds. -/
theorem head0_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay8 (F := Ideal) (kernelRun0_B.sl.r_1 c arg2 harg2 arg5 harg5 arg6 harg6 x0 x3 x4) (kernelRun0_B.sl.r_2 c arg7 harg7 x5) (kernelRun0_B.sl.r_3 c arg8 harg8 x6) (kernelRun0_B.sl.r_4 c arg2 harg2 arg3 harg3 arg4 harg4 x0 x1 x2) (kernelRun0_B.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k)
      = prev (ix4 0 0 i k) + gramBlk x0 x1 x2 x3 x4 x5 x6 x7 x8 0 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head0_core x0 x1 x2 x3 x4 _ _ _ _ prev i k).trans ?_
  exact congrArg (prev (ix4 0 0 i k) + ·) (gramRow_ld x0 x1 x2 x3 x4 x5 x6 x7 x8 0 inb_S8x128_S1x128_0_0 i k)

/-- The second head's stored block in the run of a later tile of a row, from the blocks the body holds. -/
theorem head1_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay12 (F := Ideal) (kernelRun0_B.sl.r_8 c arg2 harg2 arg3 harg3 arg4 harg4 arg7 harg7 arg8 harg8 x0 x1 x2 x5 x6) (kernelRun0_B.sl.r_9 c arg2 harg2 arg5 harg5 arg6 harg6 arg9 harg9 arg10 harg10 x0 x3 x4 x7 x8) prev (ix4 0 0 i k)
      = prev (ix4 0 0 i k) + gramBlk x0 x1 x2 x3 x4 x5 x6 x7 x8 1 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head1_core x0 x1 x2 x3 x4 _ _ _ _ prev i k).trans ?_
  exact congrArg (prev (ix4 0 0 i k) + ·) (gramRow_ld x0 x1 x2 x3 x4 x5 x6 x7 x8 1 inb_S8x128_S1x128_1_0 i k)

/-- The third head's stored block in the run of a later tile of a row, from the blocks the body holds. -/
theorem head2_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay16 (F := Ideal) (kernelRun0_B.sl.r_10 c arg2 harg2 arg3 harg3 arg4 harg4 arg7 harg7 arg8 harg8 x0 x1 x2 x5 x6) (kernelRun0_B.sl.r_11 c arg2 harg2 arg5 harg5 arg6 harg6 x0 x3 x4) (kernelRun0_B.sl.r_12 c arg9 harg9 x7) (kernelRun0_B.sl.r_13 c arg10 harg10 x8) (kernelRun0_B.sl.r_14 c arg2 harg2 arg5 harg5 arg6 harg6 x0 x3 x4) prev (ix4 0 0 i k)
      = prev (ix4 0 0 i k) + gramBlk x0 x1 x2 x3 x4 x5 x6 x7 x8 2 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head2_core x0 x1 x2 x3 x4 _ _ _ _ prev i k).trans ?_
  exact congrArg (prev (ix4 0 0 i k) + ·) (gramRow_ld x0 x1 x2 x3 x4 x5 x6 x7 x8 2 inb_S8x128_S1x128_2_0 i k)

/-- The fourth head's stored block in the run of a later tile of a row, from the blocks the body holds. -/
theorem head3_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay20 (F := Ideal) (kernelRun0_B.sl.r_1 c arg2 harg2 arg5 harg5 arg6 harg6 x0 x3 x4) (kernelRun0_B.sl.r_15 c arg7 harg7 x5) (kernelRun0_B.sl.r_16 c arg8 harg8 x6) (kernelRun0_B.sl.r_17 c arg2 harg2 arg3 harg3 arg4 harg4 x0 x1 x2) (kernelRun0_B.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k)
      = prev (ix4 0 0 i k) + gramBlk x0 x1 x2 x3 x4 x5 x6 x7 x8 3 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head3_core x0 x1 x2 x3 x4 _ _ _ _ prev i k).trans ?_
  exact congrArg (prev (ix4 0 0 i k) + ·) (gramRow_ld x0 x1 x2 x3 x4 x5 x6 x7 x8 3 inb_S8x128_S1x128_3_0 i k)

/-- The fifth head's stored block in the run of a later tile of a row, from the blocks the body holds. -/
theorem head4_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay25 (F := Ideal) (kernelRun0_B.sl.r_20 c arg2 harg2 arg3 harg3 arg4 harg4 arg7 harg7 arg8 harg8 x0 x1 x2 x5 x6) (kernelRun0_B.sl.r_21 c arg2 harg2 arg5 harg5 arg6 harg6 arg9 harg9 x0 x3 x4 x7) (kernelRun0_B.sl.r_22 c arg10 harg10 x8) prev (ix4 0 0 i k)
      = prev (ix4 0 0 i k) + gramBlk x0 x1 x2 x3 x4 x5 x6 x7 x8 4 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head4_core x0 x1 x2 x3 x4 _ _ _ _ prev i k).trans ?_
  exact congrArg (prev (ix4 0 0 i k) + ·) (gramRow_ld x0 x1 x2 x3 x4 x5 x6 x7 x8 4 inb_S8x128_S1x128_4_0 i k)

/-- The sixth head's stored block in the run of a later tile of a row, from the blocks the body holds. -/
theorem head5_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay29 (F := Ideal) (kernelRun0_B.sl.r_23 c arg2 harg2 arg3 harg3 arg4 harg4 arg7 harg7 arg8 harg8 x0 x1 x2 x5 x6) (kernelRun0_B.sl.r_24 c arg2 harg2 arg5 harg5 arg6 harg6 x0 x3 x4) (kernelRun0_B.sl.r_25 c arg9 harg9 x7) (kernelRun0_B.sl.r_26 c arg10 harg10 x8) (kernelRun0_B.sl.r_27 c arg2 harg2 arg5 harg5 arg6 harg6 x0 x3 x4) prev (ix4 0 0 i k)
      = prev (ix4 0 0 i k) + gramBlk x0 x1 x2 x3 x4 x5 x6 x7 x8 5 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head5_core x0 x1 x2 x3 x4 _ _ _ _ prev i k).trans ?_
  exact congrArg (prev (ix4 0 0 i k) + ·) (gramRow_ld x0 x1 x2 x3 x4 x5 x6 x7 x8 5 inb_S8x128_S1x128_5_0 i k)

/-- The seventh head's stored block in the run of a later tile of a row, from the blocks the body holds. -/
theorem head6_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay33 (F := Ideal) (kernelRun0_B.sl.r_1 c arg2 harg2 arg5 harg5 arg6 harg6 x0 x3 x4) (kernelRun0_B.sl.r_28 c arg7 harg7 x5) (kernelRun0_B.sl.r_29 c arg8 harg8 x6) (kernelRun0_B.sl.r_30 c arg2 harg2 arg3 harg3 arg4 harg4 x0 x1 x2) (kernelRun0_B.sl.r_31 c arg2 harg2 arg3 harg3 arg4 harg4 x0 x1 x2) k0_pay32 (View.readAt (Elt Ideal) arg9.view (Rect.unit (s := S8x128) ![6, 0] S1x128.size inb_S8x128_S1x128_6_0).toLoadRect (harg9.unread x7)) (View.readAt (Elt Ideal) arg10.view (Rect.unit (s := S8x128) ![6, 0] S1x128.size inb_S8x128_S1x128_6_0).toLoadRect (harg10.unread x8)) prev (ix4 0 0 i k)
      = prev (ix4 0 0 i k) + gramBlk x0 x1 x2 x3 x4 x5 x6 x7 x8 6 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head6_core x0 x1 x2 x3 x4 _ _ _ _ prev i k).trans ?_
  exact congrArg (prev (ix4 0 0 i k) + ·) (gramRow_ld x0 x1 x2 x3 x4 x5 x6 x7 x8 6 inb_S8x128_S1x128_6_0 i k)

/-- The eighth head's stored block in the run of a later tile of a row, from the blocks the body holds. -/
theorem head7_B (c : Dev nD) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32) (prev : Vec Ideal S1x1x128x128 .f32) (i k : Fin 128) :
    k0_pay1 (F := Ideal) (kernelRun0_B.sl.r_32 c arg2 harg2 arg3 harg3 arg4 harg4 arg7 harg7 arg8 harg8 x0 x1 x2 x5 x6) (kernelRun0_B.sl.r_33 c arg9 harg9 x7) (kernelRun0_B.sl.r_34 c arg10 harg10 x8) (kernelRun0_B.sl.r_35 c arg2 harg2 arg5 harg5 arg6 harg6 x0 x3 x4) prev (ix4 0 0 i k)
      = prev (ix4 0 0 i k) + gramBlk x0 x1 x2 x3 x4 x5 x6 x7 x8 7 i k := by
  sl_unfold_run_names
  simp only [View.readAt_eq_ld, Memref.IsWhole.read_unread]
  simp only [View.ld_unit_zero (S := S1x512x256) hz3, View.ld_unit_zero (S := S256x1024) hz2, View.ld_unit_zero (S := S1x1024) hz2]
  refine (head7_core x0 x1 x2 x3 x4 _ _ _ _ prev i k).trans ?_
  exact congrArg (prev (ix4 0 0 i k) + ·) (gramRow_ld x0 x1 x2 x3 x4 x5 x6 x7 x8 7 inb_S8x128_S1x128_7_0 i k)

end Cert.ReferenceIdeal.GramValue
end
-- ==== Proof.RefAmap.lean ====
/-
  The attention-maps array the reference's first launch leaves, as one function of the argument arrays. The launch runs
  on a 16 × 4 grid, one batch row and one 512-position sequence tile per point. The eight heads' 128 × 128 maps of a row
  share one output block [1,8,128,128], which stays in its buffer over the row's four points and is written back after
  the last. At the row's first point the body stores zero over the whole block and then, head by head, loads the head's
  map back, adds the tile's term `Σ_n ln(k_h[n]) i · ln(v_h[n]) k` and stores the sum; at the later points it does the
  same onto what the point before left. A load of head `h`'s map sees only the stores that meet `[0, h, :, :]`: the zero
  store at the first point (the earlier heads' stores lie elsewhere), the buffer's contents at a later one. So after a
  row's last point entry `(h, i, k)` holds `(((0 + T₀) + T₁) + T₂) + T₃`, `T_s` the term of tile `s` read in the argument
  arrays; the rows' blocks tile the array, which is therefore `Cert.Spec.amap` of the arguments.
-/
import proofs.«148891_g2000303815147335_pallasbulk_1180_8_alg».proof.Defs
import proofs.«148891_g2000303815147335_pallasbulk_1180_8_alg».proof.Proof.Gen.ReferenceIdeal.Frame
import proofs.«148891_g2000303815147335_pallasbulk_1180_8_alg».proof.Proof.Spec
import proofs.«148891_g2000303815147335_pallasbulk_1180_8_alg».proof.Proof.RefGram
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.ReferenceIdeal.AmapArray

open Cert.ReferenceIdeal Cert.ReferenceIdeal.Gen Idealize.ShloMosaic Idealize.ShloMosaic.ValueIdx Idealize.ShloMosaic.TcCoe Idealize.ShloMosaic.Tactic

/-- The index `(0, o, i, k)` of the block is local index `(0, 0, i, k)` of head `o`'s rectangle. -/
theorem emb_head (o : Nat) (ho : o < 8) (inb : ∀ a, (![0, o, 0, 0] : Fin 4 → Nat) a + (![1, 1, 128, 128] : Fin 4 → Nat) a ≤ S1x8x128x128.size a) (i k : Fin 128) :
    (Rect.unit (s := S1x8x128x128) ![0, o, 0, 0] ![1, 1, 128, 128] inb).emb (ix4 0 0 i k) = ix4 0 ⟨o, ho⟩ i k := by
  funext a; apply Fin.ext
  match a with
  | ⟨0, _⟩ => show 0 + 1 * 0 = 0; omega
  | ⟨1, _⟩ => show o + 1 * 0 = o; omega
  | ⟨2, _⟩ => show 0 + 1 * i.val = i.val; omega
  | ⟨3, _⟩ => show 0 + 1 * k.val = k.val; omega

theorem canon_at (r : Rect S1x8x128x128) (w : r.shape.Idx → EReal) (L : List (View.Piece (Elt Ideal) S1x8x128x128 .f32)) (x : r.shape.Idx)
    (y : S1x8x128x128.Idx) (hy : r.emb x = y) : View.canon (⟨r, w⟩ :: L) y = w x := by
  subst hy; exact View.canon_cons_emb r w L x

/-- Under a last store at head `o`'s rectangle, the contents at `(0, o, i, k)` are its payload at `(0, 0, i, k)`; -/
theorem canon_hit (o : Nat) (ho : o < 8) (inb : ∀ a, (![0, o, 0, 0] : Fin 4 → Nat) a + (![1, 1, 128, 128] : Fin 4 → Nat) a ≤ S1x8x128x128.size a)
    (w : S1x1x128x128.Idx → EReal) (L : List (View.Piece (Elt Ideal) S1x8x128x128 .f32)) (i k : Fin 128) :
    View.canon (⟨Rect.unit (s := S1x8x128x128) ![0, o, 0, 0] ![1, 1, 128, 128] inb, w⟩ :: L) (ix4 0 ⟨o, ho⟩ i k) = w (ix4 0 0 i k) :=
  canon_at (Rect.unit (s := S1x8x128x128) ![0, o, 0, 0] ![1, 1, 128, 128] inb) w L (ix4 0 0 i k) _ (emb_head o ho inb i k)

/-- at another head's entries, what the earlier stores left. -/
theorem canon_miss (o : Nat) (inb : ∀ a, (![0, o, 0, 0] : Fin 4 → Nat) a + (![1, 1, 128, 128] : Fin 4 → Nat) a ≤ S1x8x128x128.size a)
    (w : S1x1x128x128.Idx → EReal) (L : List (View.Piece (Elt Ideal) S1x8x128x128 .f32)) (h : Fin 8) (hne : h.val ≠ o) (i k : Fin 128) :
    View.canon (⟨Rect.unit (s := S1x8x128x128) ![0, o, 0, 0] ![1, 1, 128, 128] inb, w⟩ :: L) (ix4 0 h i k) = View.canon L (ix4 0 h i k) := by
  refine View.canon_cons_of_not_mem _ L ?_
  intro hm
  have hm' : ix4 0 h i k ∈ (Rect.unit (s := S1x8x128x128) ![0, o, 0, 0] ![1, 1, 128, 128] inb).set := hm
  rw [Rect.mem_set_unit] at hm'
  have h2 : o ≤ h.val ∧ h.val < o + 1 := hm' 1
  omega

section CaseB
variable (c : Dev nD) (gi : grid0.Coords) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x8x128x128 .f32) (harg11 : arg11.IsWhole)
  (x0 : Vec Ideal S1x512x256 .f32) (x1 : Vec Ideal S256x1024 .f32) (x2 : Vec Ideal S1x1024 .f32) (x3 : Vec Ideal S256x1024 .f32) (x4 : Vec Ideal S1x1024 .f32) (x5 : Vec Ideal S8x128 .f32) (x6 : Vec Ideal S8x128 .f32) (x7 : Vec Ideal S8x128 .f32) (x8 : Vec Ideal S8x128 .f32)
  (G : Fin 8 → Fin 128 → Fin 128 → EReal)
  (hc0 : ¬cond0_0 gi) (xo9 : Vec Ideal S1x8x128x128 .f32)

/-- A load of head `o`'s rectangle from the buffer holding `xo9` reads `xo9` at `(0, o, i, k)`. -/
theorem prevB (o : Nat) (ho : o < 8) (inb : ∀ a, (![0, o, 0, 0] : Fin 4 → Nat) a + (![1, 1, 128, 128] : Fin 4 → Nat) a ≤ S1x8x128x128.size a) (i k : Fin 128) :
    View.readAt (Elt Ideal) arg11.view (Rect.unit (s := S1x8x128x128) ![0, o, 0, 0] ![1, 1, 128, 128] inb).toLoadRect (harg11.unread xo9) (ix4 0 0 i k)
      = xo9 (ix4 0 ⟨o, ho⟩ i k) := by
  show arg11.view.read (Elt Ideal) (harg11.unread xo9) ((Rect.unit (s := S1x8x128x128) ![0, o, 0, 0] ![1, 1, 128, 128] inb).emb (ix4 0 0 i k)) = _
  rw [harg11.read_unread, emb_head o ho inb i k]

/-- Case B (a later tile of the row): every head's block is what the buffer held plus the head's term. -/
theorem outB_apply
    (hB0 : ∀ (prev : Vec Ideal S1x1x128x128 .f32) (i k : Fin 128), k0_pay8 (F := Ideal) (kernelRun0_B.sl.r_1 c arg2 harg2 arg5 harg5 arg6 harg6 x0 x3 x4) (kernelRun0_B.sl.r_2 c arg7 harg7 x5) (kernelRun0_B.sl.r_3 c arg8 harg8 x6) (kernelRun0_B.sl.r_4 c arg2 harg2 arg3 harg3 arg4 harg4 x0 x1 x2) (kernelRun0_B.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hB1 : ∀ (prev : Vec Ideal S1x1x128x128 .f32) (i k : Fin 128), k0_pay12 (F := Ideal) (kernelRun0_B.sl.r_8 c arg2 harg2 arg3 harg3 arg4 harg4 arg7 harg7 arg8 harg8 x0 x1 x2 x5 x6) (kernelRun0_B.sl.r_9 c arg2 harg2 arg5 harg5 arg6 harg6 arg9 harg9 arg10 harg10 x0 x3 x4 x7 x8) prev (ix4 0 0 i k) = prev (ix4 0 0 i k) + G ⟨1, by omega⟩ i k)
    (hB2 : ∀ (prev : Vec Ideal S1x1x128x128 .f32) (i k : Fin 128), k0_pay16 (F := Ideal) (kernelRun0_B.sl.r_10 c arg2 harg2 arg3 harg3 arg4 harg4 arg7 harg7 arg8 harg8 x0 x1 x2 x5 x6) (kernelRun0_B.sl.r_11 c arg2 harg2 arg5 harg5 arg6 harg6 x0 x3 x4) (kernelRun0_B.sl.r_12 c arg9 harg9 x7) (kernelRun0_B.sl.r_13 c arg10 harg10 x8) (kernelRun0_B.sl.r_14 c arg2 harg2 arg5 harg5 arg6 harg6 x0 x3 x4) prev (ix4 0 0 i k) = prev (ix4 0 0 i k) + G ⟨2, by omega⟩ i k)
    (hB3 : ∀ (prev : Vec Ideal S1x1x128x128 .f32) (i k : Fin 128), k0_pay20 (F := Ideal) (kernelRun0_B.sl.r_1 c arg2 harg2 arg5 harg5 arg6 harg6 x0 x3 x4) (kernelRun0_B.sl.r_15 c arg7 harg7 x5) (kernelRun0_B.sl.r_16 c arg8 harg8 x6) (kernelRun0_B.sl.r_17 c arg2 harg2 arg3 harg3 arg4 harg4 x0 x1 x2) (kernelRun0_B.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k) = prev (ix4 0 0 i k) + G ⟨3, by omega⟩ i k)
    (hB4 : ∀ (prev : Vec Ideal S1x1x128x128 .f32) (i k : Fin 128), k0_pay25 (F := Ideal) (kernelRun0_B.sl.r_20 c arg2 harg2 arg3 harg3 arg4 harg4 arg7 harg7 arg8 harg8 x0 x1 x2 x5 x6) (kernelRun0_B.sl.r_21 c arg2 harg2 arg5 harg5 arg6 harg6 arg9 harg9 x0 x3 x4 x7) (kernelRun0_B.sl.r_22 c arg10 harg10 x8) prev (ix4 0 0 i k) = prev (ix4 0 0 i k) + G ⟨4, by omega⟩ i k)
    (hB5 : ∀ (prev : Vec Ideal S1x1x128x128 .f32) (i k : Fin 128), k0_pay29 (F := Ideal) (kernelRun0_B.sl.r_23 c arg2 harg2 arg3 harg3 arg4 harg4 arg7 harg7 arg8 harg8 x0 x1 x2 x5 x6) (kernelRun0_B.sl.r_24 c arg2 harg2 arg5 harg5 arg6 harg6 x0 x3 x4) (kernelRun0_B.sl.r_25 c arg9 harg9 x7) (kernelRun0_B.sl.r_26 c arg10 harg10 x8) (kernelRun0_B.sl.r_27 c arg2 harg2 arg5 harg5 arg6 harg6 x0 x3 x4) prev (ix4 0 0 i k) = prev (ix4 0 0 i k) + G ⟨5, by omega⟩ i k)
    (hB6 : ∀ (prev : Vec Ideal S1x1x128x128 .f32) (i k : Fin 128), k0_pay33 (F := Ideal) (kernelRun0_B.sl.r_1 c arg2 harg2 arg5 harg5 arg6 harg6 x0 x3 x4) (kernelRun0_B.sl.r_28 c arg7 harg7 x5) (kernelRun0_B.sl.r_29 c arg8 harg8 x6) (kernelRun0_B.sl.r_30 c arg2 harg2 arg3 harg3 arg4 harg4 x0 x1 x2) (kernelRun0_B.sl.r_31 c arg2 harg2 arg3 harg3 arg4 harg4 x0 x1 x2) k0_pay32 (View.readAt (Elt Ideal) arg9.view (Rect.unit (s := S8x128) ![6, 0] S1x128.size inb_S8x128_S1x128_6_0).toLoadRect (harg9.unread x7)) (View.readAt (Elt Ideal) arg10.view (Rect.unit (s := S8x128) ![6, 0] S1x128.size inb_S8x128_S1x128_6_0).toLoadRect (harg10.unread x8)) prev (ix4 0 0 i k) = prev (ix4 0 0 i k) + G ⟨6, by omega⟩ i k)
    (hB7 : ∀ (prev : Vec Ideal S1x1x128x128 .f32) (i k : Fin 128), k0_pay1 (F := Ideal) (kernelRun0_B.sl.r_32 c arg2 harg2 arg3 harg3 arg4 harg4 arg7 harg7 arg8 harg8 x0 x1 x2 x5 x6) (kernelRun0_B.sl.r_33 c arg9 harg9 x7) (kernelRun0_B.sl.r_34 c arg10 harg10 x8) (kernelRun0_B.sl.r_35 c arg2 harg2 arg5 harg5 arg6 harg6 x0 x3 x4) prev (ix4 0 0 i k) = prev (ix4 0 0 i k) + G ⟨7, by omega⟩ i k)
    (h : Fin 8) (i k : Fin 128) :
    out0_B_9 (F := Ideal) c gi arg2 harg2 arg3 harg3 arg4 harg4 arg5 harg5 arg6 harg6 arg7 harg7 arg8 harg8 arg9 harg9 arg10 harg10 arg11 harg11 hc0 x0 x1 x2 x3 x4 x5 x6 x7 x8 xo9 (ix4 0 h i k) = xo9 (ix4 0 h i k) + G h i k := by
  unfold out0_B_9
  rw [View.read_writes_junk_eq_canon]
  unfold kernelRun0_B
  dsimp only
  match h with
  | ⟨7, _⟩ =>
    refine (canon_hit 7 (by omega) _ _ _ i k).trans ((hB7 _ i k).trans ?_)
    exact congrArg (· + _) (prevB arg11 harg11 xo9 7 (by omega) _ i k)
  | ⟨6, _⟩ =>
    refine (canon_miss 7 _ _ _ ⟨6, by omega⟩ (by show (6 : Nat) ≠ 7; omega) i k).trans ?_
    refine (canon_hit 6 (by omega) _ _ _ i k).trans ((hB6 _ i k).trans ?_)
    exact congrArg (· + _) (prevB arg11 harg11 xo9 6 (by omega) _ i k)
  | ⟨5, _⟩ =>
    refine (canon_miss 7 _ _ _ ⟨5, by omega⟩ (by show (5 : Nat) ≠ 7; omega) i k).trans ?_
    refine (canon_miss 6 _ _ _ ⟨5, by omega⟩ (by show (5 : Nat) ≠ 6; omega) i k).trans ?_
    refine (canon_hit 5 (by omega) _ _ _ i k).trans ((hB5 _ i k).trans ?_)
    exact congrArg (· + _) (prevB arg11 harg11 xo9 5 (by omega) _ i k)
  | ⟨4, _⟩ =>
    refine (canon_miss 7 _ _ _ ⟨4, by omega⟩ (by show (4 : Nat) ≠ 7; omega) i k).trans ?_
    refine (canon_miss 6 _ _ _ ⟨4, by omega⟩ (by show (4 : Nat) ≠ 6; omega) i k).trans ?_
    refine (canon_miss 5 _ _ _ ⟨4, by omega⟩ (by show (4 : Nat) ≠ 5; omega) i k).trans ?_
    refine (canon_hit 4 (by omega) _ _ _ i k).trans ((hB4 _ i k).trans ?_)
    exact congrArg (· + _) (prevB arg11 harg11 xo9 4 (by omega) _ i k)
  | ⟨3, _⟩ =>
    refine (canon_miss 7 _ _ _ ⟨3, by omega⟩ (by show (3 : Nat) ≠ 7; omega) i k).trans ?_
    refine (canon_miss 6 _ _ _ ⟨3, by omega⟩ (by show (3 : Nat) ≠ 6; omega) i k).trans ?_
    refine (canon_miss 5 _ _ _ ⟨3, by omega⟩ (by show (3 : Nat) ≠ 5; omega) i k).trans ?_
    refine (canon_miss 4 _ _ _ ⟨3, by omega⟩ (by show (3 : Nat) ≠ 4; omega) i k).trans ?_
    refine (canon_hit 3 (by omega) _ _ _ i k).trans ((hB3 _ i k).trans ?_)
    exact congrArg (· + _) (prevB arg11 harg11 xo9 3 (by omega) _ i k)
  | ⟨2, _⟩ =>
    refine (canon_miss 7 _ _ _ ⟨2, by omega⟩ (by show (2 : Nat) ≠ 7; omega) i k).trans ?_
    refine (canon_miss 6 _ _ _ ⟨2, by omega⟩ (by show (2 : Nat) ≠ 6; omega) i k).trans ?_
    refine (canon_miss 5 _ _ _ ⟨2, by omega⟩ (by show (2 : Nat) ≠ 5; omega) i k).trans ?_
    refine (canon_miss 4 _ _ _ ⟨2, by omega⟩ (by show (2 : Nat) ≠ 4; omega) i k).trans ?_
    refine (canon_miss 3 _ _ _ ⟨2, by omega⟩ (by show (2 : Nat) ≠ 3; omega) i k).trans ?_
    refine (canon_hit 2 (by omega) _ _ _ i k).trans ((hB2 _ i k).trans ?_)
    exact congrArg (· + _) (prevB arg11 harg11 xo9 2 (by omega) _ i k)
  | ⟨1, _⟩ =>
    refine (canon_miss 7 _ _ _ ⟨1, by omega⟩ (by show (1 : Nat) ≠ 7; omega) i k).trans ?_
    refine (canon_miss 6 _ _ _ ⟨1, by omega⟩ (by show (1 : Nat) ≠ 6; omega) i k).trans ?_
    refine (canon_miss 5 _ _ _ ⟨1, by omega⟩ (by show (1 : Nat) ≠ 5; omega) i k).trans ?_
    refine (canon_miss 4 _ _ _ ⟨1, by omega⟩ (by show (1 : Nat) ≠ 4; omega) i k).trans ?_
    refine (canon_miss 3 _ _ _ ⟨1, by omega⟩ (by show (1 : Nat) ≠ 3; omega) i k).trans ?_
    refine (canon_miss 2 _ _ _ ⟨1, by omega⟩ (by show (1 : Nat) ≠ 2; omega) i k).trans ?_
    refine (canon_hit 1 (by omega) _ _ _ i k).trans ((hB1 _ i k).trans ?_)
    exact congrArg (· + _) (prevB arg11 harg11 xo9 1 (by omega) _ i k)
  | ⟨0, _⟩ =>
    refine (canon_miss 7 _ _ _ ⟨0, by omega⟩ (by show (0 : Nat) ≠ 7; omega) i k).trans ?_
    refine (canon_miss 6 _ _ _ ⟨0, by omega⟩ (by show (0 : Nat) ≠ 6; omega) i k).trans ?_
    refine (canon_miss 5 _ _ _ ⟨0, by omega⟩ (by show (0 : Nat) ≠ 5; omega) i k).trans ?_
    refine (canon_miss 4 _ _ _ ⟨0, by omega⟩ (by show (0 : Nat) ≠ 4; omega) i k).trans ?_
    refine (canon_miss 3 _ _ _ ⟨0, by omega⟩ (by show (0 : Nat) ≠ 3; omega) i k).trans ?_
    refine (canon_miss 2 _ _ _ ⟨0, by omega⟩ (by show (0 : Nat) ≠ 2; omega) i k).trans ?_
    refine (canon_miss 1 _ _ _ ⟨0, by omega⟩ (by show (0 : Nat) ≠ 1; omega) i k).trans ?_
    refine (canon_hit 0 (by omega) _ _ _ i k).trans ((hB0 _ i k).trans ?_)
    exact congrArg (· + _) (prevB arg11 harg11 xo9 0 (by omega) _ i k)
end CaseB

section CaseA
variable {c : Dev nD} {gi : grid0.Coords} {arg2 : Memref sig .tc .vmem S1x512x256 .f32} {harg2 : arg2.IsWhole} {arg3 : Memref sig .tc .vmem S256x1024 .f32} {harg3 : arg3.IsWhole} {arg4 : Memref sig .tc .vmem S1x1024 .f32} {harg4 : arg4.IsWhole} {arg5 : Memref sig .tc .vmem S256x1024 .f32} {harg5 : arg5.IsWhole} {arg6 : Memref sig .tc .vmem S1x1024 .f32} {harg6 : arg6.IsWhole} {arg7 : Memref sig .tc .vmem S8x128 .f32} {harg7 : arg7.IsWhole} {arg8 : Memref sig .tc .vmem S8x128 .f32} {harg8 : arg8.IsWhole} {arg9 : Memref sig .tc .vmem S8x128 .f32} {harg9 : arg9.IsWhole} {arg10 : Memref sig .tc .vmem S8x128 .f32} {harg10 : arg10.IsWhole} {arg11 : Memref sig .tc .vmem S1x8x128x128 .f32} {harg11 : arg11.IsWhole}
  {x0 : Vec Ideal S1x512x256 .f32} {x1 : Vec Ideal S256x1024 .f32} {x2 : Vec Ideal S1x1024 .f32} {x3 : Vec Ideal S256x1024 .f32} {x4 : Vec Ideal S1x1024 .f32} {x5 : Vec Ideal S8x128 .f32} {x6 : Vec Ideal S8x128 .f32} {x7 : Vec Ideal S8x128 .f32} {x8 : Vec Ideal S8x128 .f32}
  {G : Fin 8 → Fin 128 → Fin 128 → EReal}

theorem hz4 : (![0, 0, 0, 0] : Fin 4 → Nat) = fun _ => 0 := funext fun a => by fin_cases a <;> rfl

/-- A covered load of head `o`'s rectangle after the stores `L` reads what they left at `(0, o, i, k)`. -/
theorem prevA (L : List (View.Piece (Elt Ideal) S1x8x128x128 .f32)) (o : Nat) (ho : o < 8)
    (inb : ∀ a, (![0, o, 0, 0] : Fin 4 → Nat) a + (![1, 1, 128, 128] : Fin 4 → Nat) a ≤ S1x8x128x128.size a) (i k : Fin 128) :
    arg11.view.readCov L (Rect.unit (s := S1x8x128x128) ![0, o, 0, 0] ![1, 1, 128, 128] inb).toLoadRect (ix4 0 0 i k)
      = View.canon L (ix4 0 ⟨o, ho⟩ i k) := by
  rw [View.readCov_eq_canon']
  show View.canon L ((Rect.unit (s := S1x8x128x128) ![0, o, 0, 0] ![1, 1, 128, 128] inb).emb (ix4 0 0 i k)) = _
  rw [emb_head o ho inb i k]

/-- After the zero store alone the block is zero. -/
theorem zA0 (h : Fin 8) (hle : 0 ≤ h.val) (i k : Fin 128) : View.canon (kernelRun0_A.sl.H9_1 (F := Ideal)) (ix4 0 h i k) = Cert.Spec.cZero := by
  delta kernelRun0_A.sl.H9_1
  rw [View.canon_unit_zero hz4]
  rfl

/-- After the stores of heads `0 … 0`, heads `1 …` are still zero. -/
theorem zA1 (h : Fin 8) (hle : 1 ≤ h.val) (i k : Fin 128) : View.canon (kernelRun0_A.sl.H9_2 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_2
  exact (canon_miss 0 _ _ _ h (by omega) i k).trans (zA0 h (by omega) i k)

/-- After the stores of heads `0 … 1`, heads `2 …` are still zero. -/
theorem zA2 (h : Fin 8) (hle : 2 ≤ h.val) (i k : Fin 128) : View.canon (kernelRun0_A.sl.H9_3 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_3
  exact (canon_miss 1 _ _ _ h (by omega) i k).trans (zA1 h (by omega) i k)

/-- After the stores of heads `0 … 2`, heads `3 …` are still zero. -/
theorem zA3 (h : Fin 8) (hle : 3 ≤ h.val) (i k : Fin 128) : View.canon (kernelRun0_A.sl.H9_4 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_4
  exact (canon_miss 2 _ _ _ h (by omega) i k).trans (zA2 h (by omega) i k)

/-- After the stores of heads `0 … 3`, heads `4 …` are still zero. -/
theorem zA4 (h : Fin 8) (hle : 4 ≤ h.val) (i k : Fin 128) : View.canon (kernelRun0_A.sl.H9_5 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_5
  exact (canon_miss 3 _ _ _ h (by omega) i k).trans (zA3 h (by omega) i k)

/-- After the stores of heads `0 … 4`, heads `5 …` are still zero. -/
theorem zA5 (h : Fin 8) (hle : 5 ≤ h.val) (i k : Fin 128) : View.canon (kernelRun0_A.sl.H9_6 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_6
  exact (canon_miss 4 _ _ _ h (by omega) i k).trans (zA4 h (by omega) i k)

/-- After the stores of heads `0 … 5`, heads `6 …` are still zero. -/
theorem zA6 (h : Fin 8) (hle : 6 ≤ h.val) (i k : Fin 128) : View.canon (kernelRun0_A.sl.H9_7 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_7
  exact (canon_miss 5 _ _ _ h (by omega) i k).trans (zA5 h (by omega) i k)

/-- After the stores of heads `0 … 6`, heads `7 …` are still zero. -/
theorem zA7 (h : Fin 8) (hle : 7 ≤ h.val) (i k : Fin 128) : View.canon (kernelRun0_A.sl.H9_8 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero := by
  delta kernelRun0_A.sl.H9_8
  exact (canon_miss 6 _ _ _ h (by omega) i k).trans (zA6 h (by omega) i k)

/-- After the stores of heads `0 … 0`, each of them holds zero plus its term. -/
theorem wA1
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (h : Fin 8) (hlt : h.val < 1) (i k : Fin 128) : View.canon (kernelRun0_A.sl.H9_2 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_2
  by_cases hh : h.val = 0
  · obtain rfl : h = (⟨0, by decide⟩ : Fin 8) := Fin.ext hh
    refine (canon_hit 0 (by decide) _ _ _ i k).trans ((hA0 _ i k).trans ?_)
    refine congrArg (· + _) ?_
    delta kernelRun0_A.sl.v61
    exact (prevA _ 0 (by decide) _ i k).trans (zA0 (⟨0, by decide⟩ : Fin 8) (Nat.le_refl _) i k)
  · exact (canon_miss 0 _ _ _ h hh i k).trans (absurd hlt (by omega))

/-- After the stores of heads `0 … 1`, each of them holds zero plus its term. -/
theorem wA2
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (h : Fin 8) (hlt : h.val < 2) (i k : Fin 128) : View.canon (kernelRun0_A.sl.H9_3 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_3
  by_cases hh : h.val = 1
  · obtain rfl : h = (⟨1, by decide⟩ : Fin 8) := Fin.ext hh
    refine (canon_hit 1 (by decide) _ _ _ i k).trans ((hA1 _ i k).trans ?_)
    refine congrArg (· + _) ?_
    delta kernelRun0_A.sl.v114
    exact (prevA _ 1 (by decide) _ i k).trans (zA1 (⟨1, by decide⟩ : Fin 8) (Nat.le_refl _) i k)
  · exact (canon_miss 1 _ _ _ h hh i k).trans (wA1 hA0 h (by omega) i k)

/-- After the stores of heads `0 … 2`, each of them holds zero plus its term. -/
theorem wA3
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (hA2 : ∀ (prev : Vec Ideal S1x1x128x128 .f32) (i k : Fin 128), k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k) = prev (ix4 0 0 i k) + G ⟨2, by omega⟩ i k)
    (h : Fin 8) (hlt : h.val < 3) (i k : Fin 128) : View.canon (kernelRun0_A.sl.H9_4 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_4
  by_cases hh : h.val = 2
  · obtain rfl : h = (⟨2, by decide⟩ : Fin 8) := Fin.ext hh
    refine (canon_hit 2 (by decide) _ _ _ i k).trans ((hA2 _ i k).trans ?_)
    refine congrArg (· + _) ?_
    delta kernelRun0_A.sl.v167
    exact (prevA _ 2 (by decide) _ i k).trans (zA2 (⟨2, by decide⟩ : Fin 8) (Nat.le_refl _) i k)
  · exact (canon_miss 2 _ _ _ h hh i k).trans (wA2 hA0 hA1 h (by omega) i k)

/-- After the stores of heads `0 … 3`, each of them holds zero plus its term. -/
theorem wA4
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (hA2 : ∀ (prev : Vec Ideal S1x1x128x128 .f32) (i k : Fin 128), k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k) = prev (ix4 0 0 i k) + G ⟨2, by omega⟩ i k)
    (hA3 : ∀ (prev : Vec Ideal S1x1x128x128 .f32) (i k : Fin 128), k0_pay20 (F := Ideal) (kernelRun0_A.sl.r_1 c arg2 harg2 arg5 harg5 arg6 harg6 x0 x3 x4) (kernelRun0_A.sl.r_15 c arg7 harg7 x5) (kernelRun0_A.sl.r_16 c arg8 harg8 x6) (kernelRun0_A.sl.r_17 c arg2 harg2 arg3 harg3 arg4 harg4 x0 x1 x2) (kernelRun0_A.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k) = prev (ix4 0 0 i k) + G ⟨3, by omega⟩ i k)
    (h : Fin 8) (hlt : h.val < 4) (i k : Fin 128) : View.canon (kernelRun0_A.sl.H9_5 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_5
  by_cases hh : h.val = 3
  · obtain rfl : h = (⟨3, by decide⟩ : Fin 8) := Fin.ext hh
    refine (canon_hit 3 (by decide) _ _ _ i k).trans ((hA3 _ i k).trans ?_)
    refine congrArg (· + _) ?_
    delta kernelRun0_A.sl.v220
    exact (prevA _ 3 (by decide) _ i k).trans (zA3 (⟨3, by decide⟩ : Fin 8) (Nat.le_refl _) i k)
  · exact (canon_miss 3 _ _ _ h hh i k).trans (wA3 hA0 hA1 hA2 h (by omega) i k)

/-- After the stores of heads `0 … 4`, each of them holds zero plus its term. -/
theorem wA5
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (hA2 : ∀ (prev : Vec Ideal S1x1x128x128 .f32) (i k : Fin 128), k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k) = prev (ix4 0 0 i k) + G ⟨2, by omega⟩ i k)
    (hA3 : ∀ (prev : Vec Ideal S1x1x128x128 .f32) (i k : Fin 128), k0_pay20 (F := Ideal) (kernelRun0_A.sl.r_1 c arg2 harg2 arg5 harg5 arg6 harg6 x0 x3 x4) (kernelRun0_A.sl.r_15 c arg7 harg7 x5) (kernelRun0_A.sl.r_16 c arg8 harg8 x6) (kernelRun0_A.sl.r_17 c arg2 harg2 arg3 harg3 arg4 harg4 x0 x1 x2) (kernelRun0_A.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k) = prev (ix4 0 0 i k) + G ⟨3, by omega⟩ i k)
    (hA4 : ∀ (prev : Vec Ideal S1x1x128x128 .f32) (i k : Fin 128), k0_pay25 (F := Ideal) (kernelRun0_A.sl.r_20 c arg2 harg2 arg3 harg3 arg4 harg4 arg7 harg7 arg8 harg8 x0 x1 x2 x5 x6) (kernelRun0_A.sl.r_21 c arg2 harg2 arg5 harg5 arg6 harg6 arg9 harg9 x0 x3 x4 x7) (kernelRun0_A.sl.r_22 c arg10 harg10 x8) prev (ix4 0 0 i k) = prev (ix4 0 0 i k) + G ⟨4, by omega⟩ i k)
    (h : Fin 8) (hlt : h.val < 5) (i k : Fin 128) : View.canon (kernelRun0_A.sl.H9_6 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_6
  by_cases hh : h.val = 4
  · obtain rfl : h = (⟨4, by decide⟩ : Fin 8) := Fin.ext hh
    refine (canon_hit 4 (by decide) _ _ _ i k).trans ((hA4 _ i k).trans ?_)
    refine congrArg (· + _) ?_
    delta kernelRun0_A.sl.v273
    exact (prevA _ 4 (by decide) _ i k).trans (zA4 (⟨4, by decide⟩ : Fin 8) (Nat.le_refl _) i k)
  · exact (canon_miss 4 _ _ _ h hh i k).trans (wA4 hA0 hA1 hA2 hA3 h (by omega) i k)

/-- After the stores of heads `0 … 5`, each of them holds zero plus its term. -/
theorem wA6
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (hA2 : ∀ (prev : Vec Ideal S1x1x128x128 .f32) (i k : Fin 128), k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k) = prev (ix4 0 0 i k) + G ⟨2, by omega⟩ i k)
    (hA3 : ∀ (prev : Vec Ideal S1x1x128x128 .f32) (i k : Fin 128), k0_pay20 (F := Ideal) (kernelRun0_A.sl.r_1 c arg2 harg2 arg5 harg5 arg6 harg6 x0 x3 x4) (kernelRun0_A.sl.r_15 c arg7 harg7 x5) (kernelRun0_A.sl.r_16 c arg8 harg8 x6) (kernelRun0_A.sl.r_17 c arg2 harg2 arg3 harg3 arg4 harg4 x0 x1 x2) (kernelRun0_A.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k) = prev (ix4 0 0 i k) + G ⟨3, by omega⟩ i k)
    (hA4 : ∀ (prev : Vec Ideal S1x1x128x128 .f32) (i k : Fin 128), k0_pay25 (F := Ideal) (kernelRun0_A.sl.r_20 c arg2 harg2 arg3 harg3 arg4 harg4 arg7 harg7 arg8 harg8 x0 x1 x2 x5 x6) (kernelRun0_A.sl.r_21 c arg2 harg2 arg5 harg5 arg6 harg6 arg9 harg9 x0 x3 x4 x7) (kernelRun0_A.sl.r_22 c arg10 harg10 x8) prev (ix4 0 0 i k) = prev (ix4 0 0 i k) + G ⟨4, by omega⟩ i k)
    (hA5 : ∀ (prev : Vec Ideal S1x1x128x128 .f32) (i k : Fin 128), k0_pay29 (F := Ideal) (kernelRun0_A.sl.r_23 c arg2 harg2 arg3 harg3 arg4 harg4 arg7 harg7 arg8 harg8 x0 x1 x2 x5 x6) (kernelRun0_A.sl.r_24 c arg2 harg2 arg5 harg5 arg6 harg6 x0 x3 x4) (kernelRun0_A.sl.r_25 c arg9 harg9 x7) (kernelRun0_A.sl.r_26 c arg10 harg10 x8) (kernelRun0_A.sl.r_27 c arg2 harg2 arg5 harg5 arg6 harg6 x0 x3 x4) prev (ix4 0 0 i k) = prev (ix4 0 0 i k) + G ⟨5, by omega⟩ i k)
    (h : Fin 8) (hlt : h.val < 6) (i k : Fin 128) : View.canon (kernelRun0_A.sl.H9_7 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_7
  by_cases hh : h.val = 5
  · obtain rfl : h = (⟨5, by decide⟩ : Fin 8) := Fin.ext hh
    refine (canon_hit 5 (by decide) _ _ _ i k).trans ((hA5 _ i k).trans ?_)
    refine congrArg (· + _) ?_
    delta kernelRun0_A.sl.v326
    exact (prevA _ 5 (by decide) _ i k).trans (zA5 (⟨5, by decide⟩ : Fin 8) (Nat.le_refl _) i k)
  · exact (canon_miss 5 _ _ _ h hh i k).trans (wA5 hA0 hA1 hA2 hA3 hA4 h (by omega) i k)

/-- After the stores of heads `0 … 6`, each of them holds zero plus its term. -/
theorem wA7
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (hA2 : ∀ (prev : Vec Ideal S1x1x128x128 .f32) (i k : Fin 128), k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k) = prev (ix4 0 0 i k) + G ⟨2, by omega⟩ i k)
    (hA3 : ∀ (prev : Vec Ideal S1x1x128x128 .f32) (i k : Fin 128), k0_pay20 (F := Ideal) (kernelRun0_A.sl.r_1 c arg2 harg2 arg5 harg5 arg6 harg6 x0 x3 x4) (kernelRun0_A.sl.r_15 c arg7 harg7 x5) (kernelRun0_A.sl.r_16 c arg8 harg8 x6) (kernelRun0_A.sl.r_17 c arg2 harg2 arg3 harg3 arg4 harg4 x0 x1 x2) (kernelRun0_A.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k) = prev (ix4 0 0 i k) + G ⟨3, by omega⟩ i k)
    (hA4 : ∀ (prev : Vec Ideal S1x1x128x128 .f32) (i k : Fin 128), k0_pay25 (F := Ideal) (kernelRun0_A.sl.r_20 c arg2 harg2 arg3 harg3 arg4 harg4 arg7 harg7 arg8 harg8 x0 x1 x2 x5 x6) (kernelRun0_A.sl.r_21 c arg2 harg2 arg5 harg5 arg6 harg6 arg9 harg9 x0 x3 x4 x7) (kernelRun0_A.sl.r_22 c arg10 harg10 x8) prev (ix4 0 0 i k) = prev (ix4 0 0 i k) + G ⟨4, by omega⟩ i k)
    (hA5 : ∀ (prev : Vec Ideal S1x1x128x128 .f32) (i k : Fin 128), k0_pay29 (F := Ideal) (kernelRun0_A.sl.r_23 c arg2 harg2 arg3 harg3 arg4 harg4 arg7 harg7 arg8 harg8 x0 x1 x2 x5 x6) (kernelRun0_A.sl.r_24 c arg2 harg2 arg5 harg5 arg6 harg6 x0 x3 x4) (kernelRun0_A.sl.r_25 c arg9 harg9 x7) (kernelRun0_A.sl.r_26 c arg10 harg10 x8) (kernelRun0_A.sl.r_27 c arg2 harg2 arg5 harg5 arg6 harg6 x0 x3 x4) prev (ix4 0 0 i k) = prev (ix4 0 0 i k) + G ⟨5, by omega⟩ i k)
    (hA6 : ∀ (prev : Vec Ideal S1x1x128x128 .f32) (i k : Fin 128), k0_pay33 (F := Ideal) (kernelRun0_A.sl.r_1 c arg2 harg2 arg5 harg5 arg6 harg6 x0 x3 x4) (kernelRun0_A.sl.r_28 c arg7 harg7 x5) (kernelRun0_A.sl.r_29 c arg8 harg8 x6) (kernelRun0_A.sl.r_30 c arg2 harg2 arg3 harg3 arg4 harg4 x0 x1 x2) (kernelRun0_A.sl.r_31 c arg2 harg2 arg3 harg3 arg4 harg4 x0 x1 x2) k0_pay32 (View.readAt (Elt Ideal) arg9.view (Rect.unit (s := S8x128) ![6, 0] S1x128.size inb_S8x128_S1x128_6_0).toLoadRect (harg9.unread x7)) (View.readAt (Elt Ideal) arg10.view (Rect.unit (s := S8x128) ![6, 0] S1x128.size inb_S8x128_S1x128_6_0).toLoadRect (harg10.unread x8)) prev (ix4 0 0 i k) = prev (ix4 0 0 i k) + G ⟨6, by omega⟩ i k)
    (h : Fin 8) (hlt : h.val < 7) (i k : Fin 128) : View.canon (kernelRun0_A.sl.H9_8 c arg2 harg2 arg3 harg3 arg4 harg4 arg5 harg5 arg6 harg6 arg7 harg7 arg8 harg8 arg9 harg9 arg10 harg10 arg11 x0 x1 x2 x3 x4 x5 x6 x7 x8) (ix4 0 h i k) = Cert.Spec.cZero + G h i k := by
  delta kernelRun0_A.sl.H9_8
  by_cases hh : h.val = 6
  · obtain rfl : h = (⟨6, by decide⟩ : Fin 8) := Fin.ext hh
    refine (canon_hit 6 (by decide) _ _ _ i k).trans ((hA6 _ i k).trans ?_)
    refine congrArg (· + _) ?_
    delta kernelRun0_A.sl.v379
    exact (prevA _ 6 (by decide) _ i k).trans (zA6 (⟨6, by decide⟩ : Fin 8) (Nat.le_refl _) i k)
  · exact (canon_miss 6 _ _ _ h hh i k).trans (wA6 hA0 hA1 hA2 hA3 hA4 hA5 h (by omega) i k)

/-- Case A (the first tile of a row): every head's block is zero plus the head's term. -/
theorem outA_apply (hc0 : cond0_0 gi)
    (hA0 : ∀ (prev : Vec Ideal S1x1x128x128 .f32) (i k : Fin 128), k0_pay8 (F := Ideal) (kernelRun0_A.sl.r_1 c arg2 harg2 arg5 harg5 arg6 harg6 x0 x3 x4) (kernelRun0_A.sl.r_2 c arg7 harg7 x5) (kernelRun0_A.sl.r_3 c arg8 harg8 x6) (kernelRun0_A.sl.r_4 c arg2 harg2 arg3 harg3 arg4 harg4 x0 x1 x2) (kernelRun0_A.sl.r_5 c arg2 harg2 arg3 harg3 arg4 harg4 x0 x1 x2) (View.readAt (Elt Ideal) arg9.view (Rect.unit (s := S8x128) ![0, 0] S1x128.size inb_S8x128_S1x128_0_0).toLoadRect (harg9.unread x7)) (View.readAt (Elt Ideal) arg10.view (Rect.unit (s := S8x128) ![0, 0] S1x128.size inb_S8x128_S1x128_0_0).toLoadRect (harg10.unread x8)) prev (ix4 0 0 i k) = prev (ix4 0 0 i k) + G ⟨0, by omega⟩ i k)
    (hA1 : ∀ (prev : Vec Ideal S1x1x128x128 .f32) (i k : Fin 128), k0_pay12 (F := Ideal) (kernelRun0_A.sl.r_8 c arg2 harg2 arg3 harg3 arg4 harg4 arg7 harg7 arg8 harg8 x0 x1 x2 x5 x6) (kernelRun0_A.sl.r_9 c arg2 harg2 arg5 harg5 arg6 harg6 arg9 harg9 arg10 harg10 x0 x3 x4 x7 x8) prev (ix4 0 0 i k) = prev (ix4 0 0 i k) + G ⟨1, by omega⟩ i k)
    (hA2 : ∀ (prev : Vec Ideal S1x1x128x128 .f32) (i k : Fin 128), k0_pay16 (F := Ideal) (kernelRun0_A.sl.r_10 c arg2 harg2 arg3 harg3 arg4 harg4 arg7 harg7 arg8 harg8 x0 x1 x2 x5 x6) (kernelRun0_A.sl.r_11 c arg2 harg2 arg5 harg5 arg6 harg6 x0 x3 x4) (kernelRun0_A.sl.r_12 c arg9 harg9 x7) (kernelRun0_A.sl.r_13 c arg10 harg10 x8) (kernelRun0_A.sl.r_14 c arg2 harg2 arg5 harg5 arg6 harg6 x0 x3 x4) prev (ix4 0 0 i k) = prev (ix4 0 0 i k) + G ⟨2, by omega⟩ i k)
    (hA3 : ∀ (prev : Vec Ideal S1x1x128x128 .f32) (i k : Fin 128), k0_pay20 (F := Ideal) (kernelRun0_A.sl.r_1 c arg2 harg2 arg5 harg5 arg6 harg6 x0 x3 x4) (kernelRun0_A.sl.r_15 c arg7 harg7 x5) (kernelRun0_A.sl.r_16 c arg8 harg8 x6) (kernelRun0_A.sl.r_17 c arg2 harg2 arg3 harg3 arg4 harg4 x0 x1 x2) (kernelRun0_A.sl.r_18 c arg2 harg2 arg3 harg3 arg4 harg4 x0 x1 x2) k0_pay19 (View.readAt (Elt Ideal) arg9.view (Rect.unit (s := S8x128) ![3, 0] S1x128.size inb_S8x128_S1x128_3_0).toLoadRect (harg9.unread x7)) (View.readAt (Elt Ideal) arg10.view (Rect.unit (s := S8x128) ![3, 0] S1x128.size inb_S8x128_S1x128_3_0).toLoadRect (harg10.unread x8)) prev (ix4 0 0 i k) = prev (ix4 0 0 i k) + G ⟨3, by omega⟩ i k)
    (hA4 : ∀ (prev : Vec Ideal S1x1x128x128 .f32) (i k : Fin 128), k0_pay25 (F := Ideal) (kernelRun0_A.sl.r_20 c arg2 harg2 arg3 harg3 arg4 harg4 arg7 harg7 arg8 harg8 x0 x1 x2 x5 x6) (kernelRun0_A.sl.r_21 c arg2 harg2 arg5 harg5 arg6 harg6 arg9 harg9 x0 x3 x4 x7) (kernelRun0_A.sl.r_22 c arg10 harg10 x8) prev (ix4 0 0 i k) = prev (ix4 0 0 i k) + G ⟨4, by omega⟩ i k)
    (hA5 : ∀ (prev : Vec Ideal S1x1x128x128 .f32) (i k : Fin 128), k0_pay29 (F := Ideal) (kernelRun0_A.sl.r_23 c arg2 harg2 arg3 harg3 arg4 harg4 arg7 harg7 arg8 harg8 x0 x1 x2 x5 x6) (kernelRun0_A.sl.r_24 c arg2 harg2 arg5 harg5 arg6 harg6 x0 x3 x4) (kernelRun0_A.sl.r_25 c arg9 harg9 x7) (kernelRun0_A.sl.r_26 c arg10 harg10 x8) (kernelRun0_A.sl.r_27 c arg2 harg2 arg5 harg5 arg6 harg6 x0 x3 x4) prev (ix4 0 0 i k) = prev (ix4 0 0 i k) + G ⟨5, by omega⟩ i k)
    (hA6 : ∀ (prev : Vec Ideal S1x1x128x128 .f32) (i k : Fin 128), k0_pay33 (F := Ideal) (kernelRun0_A.sl.r_1 c arg2 harg2 arg5 harg5 arg6 harg6 x0 x3 x4) (kernelRun0_A.sl.r_28 c arg7 harg7 x5) (kernelRun0_A.sl.r_29 c arg8 harg8 x6) (kernelRun0_A.sl.r_30 c arg2 harg2 arg3 harg3 arg4 harg4 x0 x1 x2) (kernelRun0_A.sl.r_31 c arg2 harg2 arg3 harg3 arg4 harg4 x0 x1 x2) k0_pay32 (View.readAt (Elt Ideal) arg9.view (Rect.unit (s := S8x128) ![6, 0] S1x128.size inb_S8x128_S1x128_6_0).toLoadRect (harg9.unread x7)) (View.readAt (Elt Ideal) arg10.view (Rect.unit (s := S8x128) ![6, 0] S1x128.size inb_S8x128_S1x128_6_0).toLoadRect (harg10.unread x8)) prev (ix4 0 0 i k) = prev (ix4 0 0 i k) + G ⟨6, by omega⟩ i k)
    (hA7 : ∀ (prev : Vec Ideal S1x1x128x128 .f32) (i k : Fin 128), k0_pay1 (F := Ideal) (kernelRun0_A.sl.r_32 c arg2 harg2 arg3 harg3 arg4 harg4 arg7 harg7 arg8 harg8 x0 x1 x2 x5 x6) (kernelRun0_A.sl.r_33 c arg9 harg9 x7) (kernelRun0_A.sl.r_34 c arg10 harg10 x8) (kernelRun0_A.sl.r_35 c arg2 harg2 arg5 harg5 arg6 harg6 x0 x3 x4) prev (ix4 0 0 i k) = prev (ix4 0 0 i k) + G ⟨7, by omega⟩ i k)
    (h : Fin 8) (i k : Fin 128) :
    out0_A_9 (F := Ideal) c gi arg2 harg2 arg3 harg3 arg4 harg4 arg5 harg5 arg6 harg6 arg7 harg7 arg8 harg8 arg9 harg9 arg10 harg10 arg11 harg11 hc0 x0 x1 x2 x3 x4 x5 x6 x7 x8 (ix4 0 h i k) = Cert.Spec.cZero + G h i k := by
  unfold out0_A_9
  rw [View.read_writes_junk_eq_canon]
  unfold kernelRun0_A
  dsimp only
  by_cases hh : h.val = 7
  · obtain rfl : h = (⟨7, by decide⟩ : Fin 8) := Fin.ext hh
    refine (canon_hit 7 (by decide) _ _ _ i k).trans ((hA7 _ i k).trans ?_)
    refine congrArg (· + _) ?_
    delta kernelRun0_A.sl.v432
    exact (prevA _ 7 (by decide) _ i k).trans (zA7 (⟨7, by decide⟩ : Fin 8) (Nat.le_refl _) i k)
  · exact (canon_miss 7 _ _ _ h hh i k).trans (wA7 hA0 hA1 hA2 hA3 hA4 hA5 hA6 h (by have := h.isLt; omega) i k)
end CaseA

/-! ## The buffer after each grid point -/

section Points

variable (V : (c : Dev nD) → (b : Ref sig .tc) → Buf (Elt Ideal) ((c : Thread nD τ).loc b))

/-- At the first tile of a row the output buffer holds zero plus the point's terms; -/
theorem stepA (c : Dev nD) (t : Fin cfg0.N) (h0 : t.val % 4 = 0) (h : Fin 8) (i k : Fin 128) :
    outsAt0 V c t.val t.isLt (ix4 0 h i k) = Cert.Spec.cZero + GramValue.gramBlk (iblk0 V c 0 t) (iblk0 V c 1 t) (iblk0 V c 2 t) (iblk0 V c 3 t) (iblk0 V c 4 t) (iblk0 V c 5 t) (iblk0 V c 6 t) (iblk0 V c 7 t) (iblk0 V c 8 t) h i k := by
  rw [outsAt0_A V c t h0]
  exact outA_apply (G := GramValue.gramBlk (iblk0 V c 0 t) (iblk0 V c 1 t) (iblk0 V c 2 t) (iblk0 V c 3 t) (iblk0 V c 4 t) (iblk0 V c 5 t) (iblk0 V c 6 t) (iblk0 V c 7 t) (iblk0 V c 8 t)) ((hcond0_0 t).mpr h0)
    (fun prev i k => GramValue.head0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head1_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head2_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head3_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head4_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head5_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head6_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head7_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    h i k

/-- at a later tile what the point before left plus the point's terms. -/
theorem stepB (c : Dev nD) (t : Fin cfg0.N) (h0 : ¬t.val % 4 = 0) (h : Fin 8) (i k : Fin 128) :
    outsAt0 V c t.val t.isLt (ix4 0 h i k)
      = outsAt0 V c (t.val - 1) (Nat.lt_of_le_of_lt (Nat.sub_le _ _) t.isLt) (ix4 0 h i k) + GramValue.gramBlk (iblk0 V c 0 t) (iblk0 V c 1 t) (iblk0 V c 2 t) (iblk0 V c 3 t) (iblk0 V c 4 t) (iblk0 V c 5 t) (iblk0 V c 6 t) (iblk0 V c 7 t) (iblk0 V c 8 t) h i k := by
  rw [outsAt0_B V c t h0]
  exact outB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t) (iblk0 V c 7 t) (iblk0 V c 8 t) (GramValue.gramBlk (iblk0 V c 0 t) (iblk0 V c 1 t) (iblk0 V c 2 t) (iblk0 V c 3 t) (iblk0 V c 4 t) (iblk0 V c 5 t) (iblk0 V c 6 t) (iblk0 V c 7 t) (iblk0 V c 8 t)) (fun hc => h0 ((hcond0_0 t).mp hc)) _
    (fun prev i k => GramValue.head0_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head1_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head2_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head3_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head4_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head5_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head6_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    (fun prev i k => GramValue.head7_B c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) (iblk0 V c 7 t) (iblk0 V c 8 t) prev i k)
    h i k

end Points

/-! ## The blocks in the arrays -/

section Arrays

variable (V : (c : Dev nD) → (b : Ref sig .tc) → Buf (Elt Ideal) ((c : Thread nD τ).loc b))

/-- The batch row of grid point `t` (the grid is 16 rows by 4 sequence tiles, row-major). -/
def bOf (t : Fin cfg0.N) : Fin 16 := ⟨t.val / 4, by have h : t.val < 64 := t.isLt; omega⟩
/-- Sequence position `n` of tile `t % 4`. -/
def rowOf (t : Fin cfg0.N) (n : Fin 512) : Fin 2048 := ⟨512 * (t.val % 4) + n.val, by have := n.isLt; omega⟩
/-- The sequence tile of grid point `t`. -/
def tileOf (t : Fin cfg0.N) : Fin 4 := ⟨t.val % 4, Nat.mod_lt _ (by omega)⟩

/-- The printed index maps over the 64 grid points: the input moves with (row, tile), the attention maps with the row,
    the weights and the LayerNorm parameters stay. -/
theorem idx0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 4) = t.val / 4 ∧ win0_9.index t (1 : Fin 4) = 0 ∧ win0_9.index t (2 : Fin 4) = 0 ∧ win0_9.index t (3 : Fin 4) = 0 :=
  (by decide +kernel : ∀ t : Fin grid0.N, _)

/-- The input block's entry in the input array. -/
theorem blk0_x (c : Dev nD) (t : Fin cfg0.N) (n : Fin 512) (c' : Fin 256) :
    iblk0 V c 0 t (ix3 0 n c') = (V c main_arg0 : S16x2048x256.Idx → EReal) (ix3 (bOf t) (rowOf t n) c') := by
  obtain ⟨h0, h1, h2, -⟩ := idx0 t
  show (V c main_arg0 : S16x2048x256.Idx → EReal) (((cfg0.win 0).blk t).view.emb (ix3 0 n c')) = _
  refine congrArg (V c main_arg0 : S16x2048x256.Idx → EReal) ?_
  funext a; apply Fin.ext
  match a with
  | ⟨0, _⟩ => show win0_0.index t (0 : Fin 3) * 1 + 1 * 0 = t.val / 4; omega
  | ⟨1, _⟩ => show win0_0.index t (1 : Fin 3) * 512 + 1 * n.val = 512 * (t.val % 4) + n.val; omega
  | ⟨2, _⟩ => show win0_0.index t (2 : Fin 3) * 256 + 1 * c'.val = c'.val; omega

/-- Window 1's block is its whole array. -/
theorem blk0_1 (c : Dev nD) (t : Fin cfg0.N) : (iblk0 V c 1 t : S256x1024.Idx → EReal) = V c main_arg3 := by
  obtain ⟨-, -, -, h0, h1, -⟩ := idx0 t
  funext y
  show (V c main_arg3 : S256x1024.Idx → EReal) (((cfg0.win 1).blk t).view.emb y) = _
  refine congrArg (V c main_arg3 : S256x1024.Idx → EReal) ?_
  funext a; apply Fin.ext
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- Window 2's block is its whole array. -/
theorem blk0_2 (c : Dev nD) (t : Fin cfg0.N) : (iblk0 V c 2 t : S1x1024.Idx → EReal) = V c main_arg4 := by
  obtain ⟨-, -, -, -, -, h0, h1, -⟩ := idx0 t
  funext y
  show (V c main_arg4 : S1x1024.Idx → EReal) (((cfg0.win 2).blk t).view.emb y) = _
  refine congrArg (V c main_arg4 : S1x1024.Idx → EReal) ?_
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- Window 3's block is its whole array. -/
theorem blk0_3 (c : Dev nD) (t : Fin cfg0.N) : (iblk0 V c 3 t : S256x1024.Idx → EReal) = V c main_arg5 := by
  obtain ⟨-, -, -, -, -, -, -, h0, h1, -⟩ := idx0 t
  funext y
  show (V c main_arg5 : S256x1024.Idx → EReal) (((cfg0.win 3).blk t).view.emb y) = _
  refine congrArg (V c main_arg5 : S256x1024.Idx → EReal) ?_
  funext a; apply Fin.ext
  match a with
  | ⟨0, _⟩ => show win0_3.index t (0 : Fin 2) * 256 + 1 * (y 0).val = (y 0).val; omega
  | ⟨1, _⟩ => show win0_3.index t (1 : Fin 2) * 1024 + 1 * (y 1).val = (y 1).val; omega

/-- Window 4's block is its whole array. -/
theorem blk0_4 (c : Dev nD) (t : Fin cfg0.N) : (iblk0 V c 4 t : S1x1024.Idx → EReal) = V c main_arg6 := by
  obtain ⟨-, -, -, -, -, -, -, -, -, h0, h1, -⟩ := idx0 t
  funext y
  show (V c main_arg6 : S1x1024.Idx → EReal) (((cfg0.win 4).blk t).view.emb y) = _
  refine congrArg (V c main_arg6 : S1x1024.Idx → EReal) ?_
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- Window 5's block is its whole array. -/
theorem blk0_5 (c : Dev nD) (t : Fin cfg0.N) : (iblk0 V c 5 t : S8x128.Idx → EReal) = V c main_arg9 := by
  obtain ⟨-, -, -, -, -, -, -, -, -, -, -, h0, h1, -⟩ := idx0 t
  funext y
  show (V c main_arg9 : S8x128.Idx → EReal) (((cfg0.win 5).blk t).view.emb y) = _
  refine congrArg (V c main_arg9 : S8x128.Idx → EReal) ?_
  funext a; apply Fin.ext
  match a with
  | ⟨0, _⟩ => show win0_5.index t (0 : Fin 2) * 8 + 1 * (y 0).val = (y 0).val; omega
  | ⟨1, _⟩ => show win0_5.index t (1 : Fin 2) * 128 + 1 * (y 1).val = (y 1).val; omega

/-- Window 6's block is its whole array. -/
theorem blk0_6 (c : Dev nD) (t : Fin cfg0.N) : (iblk0 V c 6 t : S8x128.Idx → EReal) = V c main_arg10 := by
  obtain ⟨-, -, -, -, -, -, -, -, -, -, -, -, -, h0, h1, -⟩ := idx0 t
  funext y
  show (V c main_arg10 : S8x128.Idx → EReal) (((cfg0.win 6).blk t).view.emb y) = _
  refine congrArg (V c main_arg10 : S8x128.Idx → EReal) ?_
  funext a; apply Fin.ext
  match a with
  | ⟨0, _⟩ => show win0_6.index t (0 : Fin 2) * 8 + 1 * (y 0).val = (y 0).val; omega
  | ⟨1, _⟩ => show win0_6.index t (1 : Fin 2) * 128 + 1 * (y 1).val = (y 1).val; omega

/-- Window 7's block is its whole array. -/
theorem blk0_7 (c : Dev nD) (t : Fin cfg0.N) : (iblk0 V c 7 t : S8x128.Idx → EReal) = V c main_arg11 := by
  obtain ⟨-, -, -, -, -, -, -, -, -, -, -, -, -, -, -, h0, h1, -⟩ := idx0 t
  funext y
  show (V c main_arg11 : S8x128.Idx → EReal) (((cfg0.win 7).blk t).view.emb y) = _
  refine congrArg (V c main_arg11 : S8x128.Idx → EReal) ?_
  funext a; apply Fin.ext
  match a with
  | ⟨0, _⟩ => show win0_7.index t (0 : Fin 2) * 8 + 1 * (y 0).val = (y 0).val; omega
  | ⟨1, _⟩ => show win0_7.index t (1 : Fin 2) * 128 + 1 * (y 1).val = (y 1).val; omega

/-- Window 8's block is its whole array. -/
theorem blk0_8 (c : Dev nD) (t : Fin cfg0.N) : (iblk0 V c 8 t : S8x128.Idx → EReal) = V c main_arg12 := by
  obtain ⟨-, -, -, -, -, -, -, -, -, -, -, -, -, -, -, -, -, h0, h1, -⟩ := idx0 t
  funext y
  show (V c main_arg12 : S8x128.Idx → EReal) (((cfg0.win 8).blk t).view.emb y) = _
  refine congrArg (V c main_arg12 : S8x128.Idx → EReal) ?_
  funext a; apply Fin.ext
  match a with
  | ⟨0, _⟩ => show win0_8.index t (0 : Fin 2) * 8 + 1 * (y 0).val = (y 0).val; omega
  | ⟨1, _⟩ => show win0_8.index t (1 : Fin 2) * 128 + 1 * (y 1).val = (y 1).val; omega

/-- A tile's term from the argument arrays: row `b`, tile `s`. -/
def tg (c : Dev nD) (b : Fin 16) (s : Fin 4) (h : Fin 8) (i k : Fin 128) : EReal :=
  Cert.Spec.tileGram (fun n c' => (V c main_arg0 : S16x2048x256.Idx → EReal) (ix3 b n c')) (fun c' e => (V c main_arg3 : S256x1024.Idx → EReal) (ix2 c' e)) (fun e => (V c main_arg4 : S1x1024.Idx → EReal) (ix2 0 e)) (fun c' e => (V c main_arg5 : S256x1024.Idx → EReal) (ix2 c' e)) (fun e => (V c main_arg6 : S1x1024.Idx → EReal) (ix2 0 e)) (fun h' i' => (V c main_arg9 : S8x128.Idx → EReal) (ix2 h' i')) (fun h' i' => (V c main_arg10 : S8x128.Idx → EReal) (ix2 h' i')) (fun h' i' => (V c main_arg11 : S8x128.Idx → EReal) (ix2 h' i')) (fun h' i' => (V c main_arg12 : S8x128.Idx → EReal) (ix2 h' i')) h s i k

/-- A point's term, read in the arrays: the term of its row and tile. -/
theorem gram_eq (c : Dev nD) (t : Fin cfg0.N) (h : Fin 8) (i k : Fin 128) :
    GramValue.gramBlk (iblk0 V c 0 t) (iblk0 V c 1 t) (iblk0 V c 2 t) (iblk0 V c 3 t) (iblk0 V c 4 t) (iblk0 V c 5 t) (iblk0 V c 6 t) (iblk0 V c 7 t) (iblk0 V c 8 t) h i k = tg V c (bOf t) (tileOf t) h i k := by
  unfold GramValue.gramBlk tg Cert.Spec.tileGram
  rw [blk0_1 V c t, blk0_2 V c t, blk0_3 V c t, blk0_4 V c t, blk0_5 V c t, blk0_6 V c t, blk0_7 V c t, blk0_8 V c t]
  refine Finset.sum_congr rfl fun n _ => ?_
  have hx : (fun c' => iblk0 V c 0 t (ix3 0 n c')) = fun c' => (V c main_arg0 : S16x2048x256.Idx → EReal) (ix3 (bOf t) (rowOf t n) c') :=
    funext fun c' => blk0_x V c t n c'
  rw [hx]
  rfl

end Arrays

/-! ## A row's four tiles, and the array -/

section Rows

variable (V : (c : Dev nD) → (b : Ref sig .tc) → Buf (Elt Ideal) ((c : Thread nD τ).loc b))

/-- After the last tile of a row the buffer holds the four tiles' terms added to zero in order. -/
theorem row_final (c : Dev nD) (t : Fin cfg0.N) (h3 : t.val % 4 = 3) (h : Fin 8) (i k : Fin 128) :
    outsAt0 V c t.val t.isLt (ix4 0 h i k)
      = (((Cert.Spec.cZero + tg V c (bOf t) 0 h i k) + tg V c (bOf t) 1 h i k) + tg V c (bOf t) 2 h i k) + tg V c (bOf t) 3 h i k := by
  have hN : t.val < 64 := t.isLt
  let t1 : Fin cfg0.N := ⟨t.val - 1, by show _ < 64; omega⟩
  let t2 : Fin cfg0.N := ⟨t.val - 1 - 1, by show _ < 64; omega⟩
  let t3 : Fin cfg0.N := ⟨t.val - 1 - 1 - 1, by show _ < 64; omega⟩
  have e3 := (stepB V c t (by omega) h i k).trans (congrArg (_ + ·) (gram_eq V c t h i k))
  have e2 := (stepB V c t1 (by show ¬(t.val - 1) % 4 = 0; omega) h i k).trans (congrArg (_ + ·) (gram_eq V c t1 h i k))
  have e1 := (stepB V c t2 (by show ¬(t.val - 1 - 1) % 4 = 0; omega) h i k).trans (congrArg (_ + ·) (gram_eq V c t2 h i k))
  have e0 := (stepA V c t3 (by show (t.val - 1 - 1 - 1) % 4 = 0; omega) h i k).trans (congrArg (_ + ·) (gram_eq V c t3 h i k))
  have q3 : tg V c (bOf t) (tileOf t) h i k = tg V c (bOf t) 3 h i k := by
    rw [show tileOf t = 3 from Fin.ext (by show t.val % 4 = 3; omega)]
  have q2 : tg V c (bOf t1) (tileOf t1) h i k = tg V c (bOf t) 2 h i k := by
    rw [show tileOf t1 = 2 from Fin.ext (by show (t.val - 1) % 4 = 2; omega),
      show bOf t1 = bOf t from Fin.ext (by show (t.val - 1) / 4 = t.val / 4; omega)]
  have q1 : tg V c (bOf t2) (tileOf t2) h i k = tg V c (bOf t) 1 h i k := by
    rw [show tileOf t2 = 1 from Fin.ext (by show (t.val - 1 - 1) % 4 = 1; omega),
      show bOf t2 = bOf t from Fin.ext (by show (t.val - 1 - 1) / 4 = t.val / 4; omega)]
  have q0 : tg V c (bOf t3) (tileOf t3) h i k = tg V c (bOf t) 0 h i k := by
    rw [show tileOf t3 = 0 from Fin.ext (by show (t.val - 1 - 1 - 1) % 4 = 0; omega),
      show bOf t3 = bOf t from Fin.ext (by show (t.val - 1 - 1 - 1) / 4 = t.val / 4; omega)]
  exact e3.trans (congrArg₂ (· + ·) (e2.trans (congrArg₂ (· + ·) (e1.trans (congrArg₂ (· + ·) (e0.trans (congrArg (_ + ·) q0)) q1)) q2)) q3)

/-- Entry `(0, h, i, k)` of point `t`'s block is entry `(t / 4, h, i, k)` of the attention-maps array. -/
theorem emb9 (t : Fin cfg0.N) (h : Fin 8) (i k : Fin 128) :
    ((cfg0.win 9).blk t).view.emb (ix4 0 h i k) = (ix4 (bOf t) h i k : S16x8x128x128.Idx) := by
  obtain ⟨-, -, -, -, -, -, -, -, -, -, -, -, -, -, -, -, -, -, -, h0, h1, h2, h3⟩ := idx0 t
  funext a; apply Fin.ext
  match a with
  | ⟨0, _⟩ => show win0_9.index t (0 : Fin 4) * 1 + 1 * 0 = t.val / 4; omega
  | ⟨1, _⟩ => show win0_9.index t (1 : Fin 4) * 8 + 1 * h.val = h.val; omega
  | ⟨2, _⟩ => show win0_9.index t (2 : Fin 4) * 128 + 1 * i.val = i.val; omega
  | ⟨3, _⟩ => show win0_9.index t (3 : Fin 4) * 128 + 1 * k.val = k.val; omega

/-- What a row's last point writes back is the row's block of the attention-maps function. -/
theorem flushed_eq (c : Dev nD) (t : Fin cfg0.N) (hf : (cfg0.win 9).flush t = true) :
    (dat0 V c).flushed 9 t = ((cfg0.win 9).blk t).view.read (Elt Ideal)
      (Cert.Spec.amap (V c main_arg0) (V c main_arg3) (V c main_arg4) (V c main_arg5) (V c main_arg6) (V c main_arg9) (V c main_arg10) (V c main_arg11) (V c main_arg12)) := by
  have h3 : t.val % 4 = 3 := (flush0_9 t).mp hf
  show (cfg0.win 9).cut (grid0.coords t) ((dat0 V c).after 9 t) = _
  rw [after0_9]
  refine funext fun (y : S1x8x128x128.Idx) => ?_
  obtain ⟨h, i, k, rfl⟩ : ∃ (h : Fin 8) (i k : Fin 128), y = ix4 0 h i k := ⟨y 1, y 2, y 3, by
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl⟩
  show outsAt0 V c t.val t.isLt (ix4 0 h i k)
    = Cert.Spec.amap (V c main_arg0) (V c main_arg3) (V c main_arg4) (V c main_arg5) (V c main_arg6) (V c main_arg9) (V c main_arg10) (V c main_arg11) (V c main_arg12) (((cfg0.win 9).blk t).view.emb (ix4 0 h i k))
  refine (row_final V c t h3 h i k).trans ?_
  refine Eq.trans ?_ (congrArg (Cert.Spec.amap (V c main_arg0) (V c main_arg3) (V c main_arg4) (V c main_arg5) (V c main_arg6) (V c main_arg9) (V c main_arg10) (V c main_arg11) (V c main_arg12)) (emb9 t h i k).symm)
  rfl

/-- An index of the attention-maps array is in point `t`'s block iff each coordinate is in the block's range. -/
theorem mem_blk (t : Fin cfg0.N) (y : S16x8x128x128.Idx) :
    y ∈ ((cfg0.win 9).blk t).view.set ↔ ∀ a : Fin 4, win0_9.index t a * S1x8x128x128.size a ≤ (y a).val ∧ (y a).val < win0_9.index t a * S1x8x128x128.size a + S1x8x128x128.size a := by
  show y ∈ ((View.whole main_v0).slice (win0_9.rect t)).set ↔ _
  rw [View.set_slice_whole, Rect.mem_set_unit]
  exact Iff.rfl

/-- Every entry of the attention-maps array is in the block of its row's last point, which is written back. -/
theorem cover (y : S16x8x128x128.Idx) : ∃ t : Fin cfg0.N, (cfg0.win 9).flush t = true ∧ y ∈ ((cfg0.win 9).blk t).view.set := by
  have hy0 : (y 0).val < 16 := (y 0).isLt
  have hy1 : (y 1).val < 8 := (y 1).isLt
  have hy2 : (y 2).val < 128 := (y 2).isLt
  have hy3 : (y 3).val < 128 := (y 3).isLt
  let t : Fin cfg0.N := ⟨4 * (y 0).val + 3, by show _ < 64; omega⟩
  obtain ⟨-, -, -, -, -, -, -, -, -, -, -, -, -, -, -, -, -, -, -, h0, h1, h2, h3⟩ := idx0 t
  have ht : t.val = 4 * (y 0).val + 3 := rfl
  refine ⟨t, (flush0_9 t).mpr (by show (4 * (y 0).val + 3) % 4 = 3; omega), ?_⟩
  rw [mem_blk]
  intro a
  match a with
  | ⟨0, _⟩ => show win0_9.index t (0 : Fin 4) * 1 ≤ (y 0).val ∧ (y 0).val < win0_9.index t (0 : Fin 4) * 1 + 1; omega
  | ⟨1, _⟩ => show win0_9.index t (1 : Fin 4) * 8 ≤ (y 1).val ∧ (y 1).val < win0_9.index t (1 : Fin 4) * 8 + 8; omega
  | ⟨2, _⟩ => show win0_9.index t (2 : Fin 4) * 128 ≤ (y 2).val ∧ (y 2).val < win0_9.index t (2 : Fin 4) * 128 + 128; omega
  | ⟨3, _⟩ => show win0_9.index t (3 : Fin 4) * 128 ≤ (y 3).val ∧ (y 3).val < win0_9.index t (3 : Fin 4) * 128 + 128; omega

/-- The attention-maps array after the first launch, entered at the contents `V`. -/
theorem amap_final (c : Dev nD) : (dat0 V c).arrAt 9 cfg0.N
    = Cert.Spec.amap (V c main_arg0) (V c main_arg3) (V c main_arg4) (V c main_arg5) (V c main_arg6) (V c main_arg9) (V c main_arg10) (V c main_arg11) (V c main_arg12) :=
  (dat0 V c).arrAt_eq_of_cover 9 _ (fun t hf => flushed_eq V c t hf) cover

end Rows

end Cert.ReferenceIdeal.AmapArray
end
-- ==== Proof.KerArray.lean ====
/-
  The kernel's result array as one function of the argument arrays.

  Host side. Before its one launch the program forms the augmented weight: `[wk | wv]` (256 × 2048) followed by sixteen
  columns holding, per row, the mean of each 128-column chunk (the chunk summed from zero and divided by 128.0); the
  augmented bias likewise (1 × 2064, then transposed to a column); and the transposes of the key LayerNorm scale and
  shift. Read at an entry these are `Spec.hostWkv`, `Spec.hostBkv` and the swapped entries of the arguments.

  Blocks to array. The launch runs on a grid of the sixteen batch rows; point `t` reads block `t` of the input and the
  whole of every other operand, and writes block `t` (one batch row, 2048 × 128) of the result. The blocks tile the
  result, so if the body's output block is the block function `Spec.kout` of its input blocks, the result array is
  `Spec.kerOut` of the argument arrays.
-/
import proofs.«148891_g2000303815147335_pallasbulk_1180_8_alg».proof.Defs
import proofs.«148891_g2000303815147335_pallasbulk_1180_8_alg».proof.Proof.Gen.KernelIdeal.Value
import proofs.«148891_g2000303815147335_pallasbulk_1180_8_alg».proof.Proof.Spec
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.KernelIdeal.ArrayK

open Cert.KernelIdeal Cert.KernelIdeal.Gen Idealize.ShloMosaic Idealize.ShloMosaic.ValueIdx Idealize.ShloMosaic.TcCoe

variable (m : (ℓ : Loc nD τ sig) → Buf (Elt Ideal) ℓ)

open Idealize.ShloMosaic.Tactic

/-- The batch row of grid point `t` (the grid is the sixteen batch rows). -/
def bOf (t : Fin cfg0.N) : Fin 16 := ⟨t.val, t.isLt⟩

/-- The printed index maps over the sixteen grid points: the input and the result move with the batch row, every other
    window stays. -/
theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- The input block's entry in the input array. -/
theorem blk_x (c : Dev nD) (t : Fin cfg0.N) (n : Fin 2048) (c' : Fin 256) :
    iblk m c 0 t (ix3 0 n c') = (V m c main_arg0 : S16x2048x256.Idx → EReal) (ix3 (bOf t) n c') := by
  obtain ⟨h0, h1, h2, -⟩ := idx0 t
  show (V m c main_arg0 : S16x2048x256.Idx → EReal) (((cfg0.win 0).blk t).view.emb (ix3 0 n c')) = _
  refine congrArg (V m c main_arg0 : S16x2048x256.Idx → EReal) ?_
  funext a; apply Fin.ext
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 256 + 1 * c'.val = c'.val; omega

/-- The whole augmented weight. -/
theorem blk_1 (c : Dev nD) (t : Fin cfg0.N) : (iblk m c 1 t : S256x2064.Idx → EReal) = V m c main_v6 := by
  obtain ⟨-, -, -, h0, h1, -⟩ := idx0 t
  funext y
  show (V m c main_v6 : S256x2064.Idx → EReal) (((cfg0.win 1).blk t).view.emb y) = _
  refine congrArg (V m c main_v6 : S256x2064.Idx → EReal) ?_
  funext a; apply Fin.ext
  match a with
  | ⟨0, _⟩ => show win0_1.index t (0 : Fin 2) * 256 + 1 * (y 0).val = (y 0).val; omega
  | ⟨1, _⟩ => show win0_1.index t (1 : Fin 2) * 2064 + 1 * (y 1).val = (y 1).val; omega

/-- The whole augmented bias column. -/
theorem blk_2 (c : Dev nD) (t : Fin cfg0.N) : (iblk m c 2 t : S2064x1.Idx → EReal) = V m c main_v13 := by
  obtain ⟨-, -, -, -, -, h0, h1, -⟩ := idx0 t
  funext y
  show (V m c main_v13 : S2064x1.Idx → EReal) (((cfg0.win 2).blk t).view.emb y) = _
  refine congrArg (V m c main_v13 : S2064x1.Idx → EReal) ?_
  funext a; apply Fin.ext
  match a with
  | ⟨0, _⟩ => show win0_2.index t (0 : Fin 2) * 2064 + 1 * (y 0).val = (y 0).val; omega
  | ⟨1, _⟩ => show win0_2.index t (1 : Fin 2) * 1 + 1 * (y 1).val = (y 1).val; omega

/-- The whole query weight. -/
theorem blk_3 (c : Dev nD) (t : Fin cfg0.N) : (iblk m c 3 t : S256x1024.Idx → EReal) = V m c main_arg1 := by
  obtain ⟨-, -, -, -, -, -, -, h0, h1, -⟩ := idx0 t
  funext y
  show (V m c main_arg1 : S256x1024.Idx → EReal) (((cfg0.win 3).blk t).view.emb y) = _
  refine congrArg (V m c main_arg1 : S256x1024.Idx → EReal) ?_
  funext a; apply Fin.ext
  match a with
  | ⟨0, _⟩ => show win0_3.index t (0 : Fin 2) * 256 + 1 * (y 0).val = (y 0).val; omega
  | ⟨1, _⟩ => show win0_3.index t (1 : Fin 2) * 1024 + 1 * (y 1).val = (y 1).val; omega

/-- The whole query bias. -/
theorem blk_4 (c : Dev nD) (t : Fin cfg0.N) : (iblk m c 4 t : S1x1024.Idx → EReal) = V m c main_arg2 := by
  obtain ⟨-, -, -, -, -, -, -, -, -, h0, h1, -⟩ := idx0 t
  funext y
  show (V m c main_arg2 : S1x1024.Idx → EReal) (((cfg0.win 4).blk t).view.emb y) = _
  refine congrArg (V m c main_arg2 : S1x1024.Idx → EReal) ?_
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- The whole output weight. -/
theorem blk_5 (c : Dev nD) (t : Fin cfg0.N) : (iblk m c 5 t : S1024x128.Idx → EReal) = V m c main_arg7 := by
  obtain ⟨-, -, -, -, -, -, -, -, -, -, -, h0, h1, -⟩ := idx0 t
  funext y
  show (V m c main_arg7 : S1024x128.Idx → EReal) (((cfg0.win 5).blk t).view.emb y) = _
  refine congrArg (V m c main_arg7 : S1024x128.Idx → EReal) ?_
  funext a; apply Fin.ext
  match a with
  | ⟨0, _⟩ => show win0_5.index t (0 : Fin 2) * 1024 + 1 * (y 0).val = (y 0).val; omega
  | ⟨1, _⟩ => show win0_5.index t (1 : Fin 2) * 128 + 1 * (y 1).val = (y 1).val; omega

/-- The whole output bias. -/
theorem blk_6 (c : Dev nD) (t : Fin cfg0.N) : (iblk m c 6 t : S1x128.Idx → EReal) = V m c main_arg8 := by
  obtain ⟨-, -, -, -, -, -, -, -, -, -, -, -, -, h0, h1, -⟩ := idx0 t
  funext y
  show (V m c main_arg8 : S1x128.Idx → EReal) (((cfg0.win 6).blk t).view.emb y) = _
  refine congrArg (V m c main_arg8 : S1x128.Idx → EReal) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The whole transposed key scale. -/
theorem blk_7 (c : Dev nD) (t : Fin cfg0.N) : (iblk m c 7 t : S128x8.Idx → EReal) = V m c main_v14 := by
  obtain ⟨-, -, -, -, -, -, -, -, -, -, -, -, -, -, -, h0, h1, -⟩ := idx0 t
  funext y
  show (V m c main_v14 : S128x8.Idx → EReal) (((cfg0.win 7).blk t).view.emb y) = _
  refine congrArg (V m c main_v14 : S128x8.Idx → EReal) ?_
  funext a; apply Fin.ext
  match a with
  | ⟨0, _⟩ => show win0_7.index t (0 : Fin 2) * 128 + 1 * (y 0).val = (y 0).val; omega
  | ⟨1, _⟩ => show win0_7.index t (1 : Fin 2) * 8 + 1 * (y 1).val = (y 1).val; omega

/-- The whole transposed key shift. -/
theorem blk_8 (c : Dev nD) (t : Fin cfg0.N) : (iblk m c 8 t : S128x8.Idx → EReal) = V m c main_v15 := by
  obtain ⟨-, -, -, -, -, -, -, -, -, -, -, -, -, -, -, -, -, h0, h1, -⟩ := idx0 t
  funext y
  show (V m c main_v15 : S128x8.Idx → EReal) (((cfg0.win 8).blk t).view.emb y) = _
  refine congrArg (V m c main_v15 : S128x8.Idx → EReal) ?_
  funext a; apply Fin.ext
  match a with
  | ⟨0, _⟩ => show win0_8.index t (0 : Fin 2) * 128 + 1 * (y 0).val = (y 0).val; omega
  | ⟨1, _⟩ => show win0_8.index t (1 : Fin 2) * 8 + 1 * (y 1).val = (y 1).val; omega

/-- The whole value scale. -/
theorem blk_9 (c : Dev nD) (t : Fin cfg0.N) : (iblk m c 9 t : S8x128.Idx → EReal) = V m c main_arg11 := by
  obtain ⟨-, -, -, -, -, -, -, -, -, -, -, -, -, -, -, -, -, -, -, h0, h1, -⟩ := idx0 t
  funext y
  show (V m c main_arg11 : S8x128.Idx → EReal) (((cfg0.win 9).blk t).view.emb y) = _
  refine congrArg (V m c main_arg11 : S8x128.Idx → EReal) ?_
  funext a; apply Fin.ext
  match a with
  | ⟨0, _⟩ => show win0_9.index t (0 : Fin 2) * 8 + 1 * (y 0).val = (y 0).val; omega
  | ⟨1, _⟩ => show win0_9.index t (1 : Fin 2) * 128 + 1 * (y 1).val = (y 1).val; omega

/-- The whole value shift. -/
theorem blk_10 (c : Dev nD) (t : Fin cfg0.N) : (iblk m c 10 t : S8x128.Idx → EReal) = V m c main_arg12 := by
  obtain ⟨-, -, -, -, -, -, -, -, -, -, -, -, -, -, -, -, -, -, -, -, -, h0, h1, -⟩ := idx0 t
  funext y
  show (V m c main_arg12 : S8x128.Idx → EReal) (((cfg0.win 10).blk t).view.emb y) = _
  refine congrArg (V m c main_arg12 : S8x128.Idx → EReal) ?_
  funext a; apply Fin.ext
  match a with
  | ⟨0, _⟩ => show win0_10.index t (0 : Fin 2) * 8 + 1 * (y 0).val = (y 0).val; omega
  | ⟨1, _⟩ => show win0_10.index t (1 : Fin 2) * 128 + 1 * (y 1).val = (y 1).val; omega

/-- Two 256-row, 1024-column arrays side by side, read at a column of the 2048. -/
theorem cat256_apply (A B : FVec Ideal S256x1024 .f32) (c : Fin 256) (g : Fin 2048) :
    concatenate S256x2048 1 [⟨S256x1024, A⟩, ⟨S256x1024, B⟩] concatenates_S256x1024_S256x1024_S256x2048_d1 (ix2 c g)
      = Cert.Spec.catW (fun c e => A (ix2 c e)) (fun c e => B (ix2 c e)) c g := by
  unfold Cert.Spec.catW
  by_cases h : g.val < 1024
  · rw [dif_pos h]
    show _ = A (ix2 c (⟨g.val, h⟩ : Fin 1024))
    exact concatenate_pair_apply_left (t := S256x2048) (s₁ := S256x1024) (s₂ := S256x1024) (1 : Fin 2) A B _ _ rfl
      (ix2 c (⟨g.val, h⟩ : Fin 1024)) (fun b => by
      match b with
      | ⟨0, _⟩ => rfl
      | ⟨1, _⟩ => rfl)
  · rw [dif_neg h]
    show _ = B (ix2 c (⟨g.val - 1024, by have := g.isLt; omega⟩ : Fin 1024))
    exact concatenate_pair_apply_right (t := S256x2048) (s₁ := S256x1024) (s₂ := S256x1024) (1 : Fin 2) A B _ _ rfl rfl
      (ix2 c (⟨g.val - 1024, by have := g.isLt; omega⟩ : Fin 1024))
      (fun b hb => by
        match b with
        | ⟨0, _⟩ => rfl
        | ⟨1, _⟩ => exact absurd rfl hb)
      (by show g.val - 1024 + 1024 = g.val; omega)

/-- The mean of chunk `k` of a 256-row, 2048-column array: the array viewed as sixteen chunks of 128, summed along the
    chunk from zero, divided by 128.0. -/
theorem mean256_apply (X : FVec Ideal S256x2048 .f32) (c : Fin 256) (k : Fin 16) :
    Host.divf (Host.reduceAdd (shapeCast S256x16x128 X shapeCasts_S256x2048_S256x16x128)
        (constant (F := Ideal) S_ .f32 0x00000000#32) reducesTo_S256x16x128_S256x16_d2 h_S_)
      (broadcastInDim S256x16 ![] bcast_S_S256x16 (constant (F := Ideal) S_ .f32 0x43000000#32)) (ix2 c k)
      = Ideal.div (Cert.Spec.cZero + ∑ i : Fin 128, X (ix2 c ⟨128 * k.val + i.val, by have := k.isLt; have := i.isLt; omega⟩))
          Cert.Spec.c128 := by
  rw [hostDivf_apply, hostReduceAdd_apply, broadcastInDim_scalar_apply,
    Ideal.hostReduceAdd_single reducesTo_S256x16x128_S256x16_d2 (by decide : S256x16x128.Reduces [2] S256x16)]
  refine congrArg₂ Ideal.div (congrArg₂ (· + ·) rfl ?_) rfl
  refine Finset.sum_congr rfl fun i _ => ?_
  refine shapeCast_apply _ _ _ _ ?_
  rw [Shape.rowMajor_val_two, Shape.rowMajor_val_three]
  show c.val * 2048 + (128 * k.val + i.val) = (c.val * 16 + k.val) * 128 + i.val
  omega

/-- The 2048 columns followed by the sixteen chunk means, read at a column of the 2064. -/
theorem aug256_apply (A B : FVec Ideal S256x1024 .f32) (c : Fin 256) (f : Fin 2064) :
    concatenate S256x2064 1 [⟨S256x2048, concatenate S256x2048 1 [⟨S256x1024, A⟩, ⟨S256x1024, B⟩] concatenates_S256x1024_S256x1024_S256x2048_d1⟩,
        ⟨S256x16, Host.divf (Host.reduceAdd (shapeCast S256x16x128
            (concatenate S256x2048 1 [⟨S256x1024, A⟩, ⟨S256x1024, B⟩] concatenates_S256x1024_S256x1024_S256x2048_d1)
            shapeCasts_S256x2048_S256x16x128)
          (constant (F := Ideal) S_ .f32 0x00000000#32) reducesTo_S256x16x128_S256x16_d2 h_S_)
          (broadcastInDim S256x16 ![] bcast_S_S256x16 (constant (F := Ideal) S_ .f32 0x43000000#32))⟩]
        concatenates_S256x2048_S256x16_S256x2064_d1 (ix2 c f)
      = Cert.Spec.hostWkv (fun c e => A (ix2 c e)) (fun c e => B (ix2 c e)) c f := by
  unfold Cert.Spec.hostWkv
  by_cases h : f.val < 2048
  · rw [dif_pos h]
    refine (concatenate_pair_apply_left (t := S256x2064) (s₁ := S256x2048) (s₂ := S256x16) (1 : Fin 2) _ _ _ _ rfl
      (ix2 c (⟨f.val, h⟩ : Fin 2048)) (fun b => by
      match b with
      | ⟨0, _⟩ => rfl
      | ⟨1, _⟩ => rfl)).trans ?_
    exact cat256_apply A B c ⟨f.val, h⟩
  · rw [dif_neg h]
    refine (concatenate_pair_apply_right (t := S256x2064) (s₁ := S256x2048) (s₂ := S256x16) (1 : Fin 2) _ _ _ _ rfl rfl
      (ix2 c (⟨f.val - 2048, by have := f.isLt; omega⟩ : Fin 16))
      (fun b hb => by
        match b with
        | ⟨0, _⟩ => rfl
        | ⟨1, _⟩ => exact absurd rfl hb)
      (by show f.val - 2048 + 2048 = f.val; omega)).trans ?_
    refine (mean256_apply _ c ⟨f.val - 2048, by have := f.isLt; omega⟩).trans ?_
    refine congrArg₂ Ideal.div (congrArg₂ (· + ·) rfl ?_) rfl
    exact Finset.sum_congr rfl fun i _ => cat256_apply A B c _

/-- Two 1-row, 1024-column arrays side by side, read at a column of the 2048. -/
theorem cat1_apply (A B : FVec Ideal S1x1024 .f32) (g : Fin 2048) :
    concatenate S1x2048 1 [⟨S1x1024, A⟩, ⟨S1x1024, B⟩] concatenates_S1x1024_S1x1024_S1x2048_d1 (ix2 (0 : Fin 1) g)
      = Cert.Spec.catW (fun _ e => A (ix2 0 e)) (fun _ e => B (ix2 0 e)) (0 : Fin 256) g := by
  unfold Cert.Spec.catW
  by_cases h : g.val < 1024
  · rw [dif_pos h]
    show _ = A (ix2 (0 : Fin 1) (⟨g.val, h⟩ : Fin 1024))
    exact concatenate_pair_apply_left (t := S1x2048) (s₁ := S1x1024) (s₂ := S1x1024) (1 : Fin 2) A B _ _ rfl
      (ix2 (0 : Fin 1) (⟨g.val, h⟩ : Fin 1024)) (fun b => by
      match b with
      | ⟨0, _⟩ => rfl
      | ⟨1, _⟩ => rfl)
  · rw [dif_neg h]
    show _ = B (ix2 (0 : Fin 1) (⟨g.val - 1024, by have := g.isLt; omega⟩ : Fin 1024))
    exact concatenate_pair_apply_right (t := S1x2048) (s₁ := S1x1024) (s₂ := S1x1024) (1 : Fin 2) A B _ _ rfl rfl
      (ix2 (0 : Fin 1) (⟨g.val - 1024, by have := g.isLt; omega⟩ : Fin 1024))
      (fun b hb => by
        match b with
        | ⟨0, _⟩ => rfl
        | ⟨1, _⟩ => exact absurd rfl hb)
      (by show g.val - 1024 + 1024 = g.val; omega)

/-- The mean of chunk `k` of a 1-row, 2048-column array: the array viewed as sixteen chunks of 128, summed along the
    chunk from zero, divided by 128.0. -/
theorem mean1_apply (X : FVec Ideal S1x2048 .f32) (k : Fin 16) :
    Host.divf (Host.reduceAdd (shapeCast S1x16x128 X shapeCasts_S1x2048_S1x16x128)
        (constant (F := Ideal) S_ .f32 0x00000000#32) reducesTo_S1x16x128_S1x16_d2 h_S_)
      (broadcastInDim S1x16 ![] bcast_S_S1x16 (constant (F := Ideal) S_ .f32 0x43000000#32)) (ix2 (0 : Fin 1) k)
      = Ideal.div (Cert.Spec.cZero + ∑ i : Fin 128, X (ix2 (0 : Fin 1) ⟨128 * k.val + i.val, by have := k.isLt; have := i.isLt; omega⟩))
          Cert.Spec.c128 := by
  rw [hostDivf_apply, hostReduceAdd_apply, broadcastInDim_scalar_apply,
    Ideal.hostReduceAdd_single reducesTo_S1x16x128_S1x16_d2 (by decide : S1x16x128.Reduces [2] S1x16)]
  refine congrArg₂ Ideal.div (congrArg₂ (· + ·) rfl ?_) rfl
  refine Finset.sum_congr rfl fun i _ => ?_
  refine shapeCast_apply _ _ _ _ ?_
  rw [Shape.rowMajor_val_two, Shape.rowMajor_val_three]
  show 0 * 2048 + (128 * k.val + i.val) = (0 * 16 + k.val) * 128 + i.val
  omega

/-- The 2048 columns followed by the sixteen chunk means, read at a column of the 2064. -/
theorem aug1_apply (A B : FVec Ideal S1x1024 .f32) (f : Fin 2064) :
    concatenate S1x2064 1 [⟨S1x2048, concatenate S1x2048 1 [⟨S1x1024, A⟩, ⟨S1x1024, B⟩] concatenates_S1x1024_S1x1024_S1x2048_d1⟩,
        ⟨S1x16, Host.divf (Host.reduceAdd (shapeCast S1x16x128
            (concatenate S1x2048 1 [⟨S1x1024, A⟩, ⟨S1x1024, B⟩] concatenates_S1x1024_S1x1024_S1x2048_d1)
            shapeCasts_S1x2048_S1x16x128)
          (constant (F := Ideal) S_ .f32 0x00000000#32) reducesTo_S1x16x128_S1x16_d2 h_S_)
          (broadcastInDim S1x16 ![] bcast_S_S1x16 (constant (F := Ideal) S_ .f32 0x43000000#32))⟩]
        concatenates_S1x2048_S1x16_S1x2064_d1 (ix2 (0 : Fin 1) f)
      = Cert.Spec.hostWkv (fun _ e => A (ix2 0 e)) (fun _ e => B (ix2 0 e)) (0 : Fin 256) f := by
  unfold Cert.Spec.hostWkv
  by_cases h : f.val < 2048
  · rw [dif_pos h]
    refine (concatenate_pair_apply_left (t := S1x2064) (s₁ := S1x2048) (s₂ := S1x16) (1 : Fin 2) _ _ _ _ rfl
      (ix2 (0 : Fin 1) (⟨f.val, h⟩ : Fin 2048)) (fun b => by
      match b with
      | ⟨0, _⟩ => rfl
      | ⟨1, _⟩ => rfl)).trans ?_
    exact cat1_apply A B ⟨f.val, h⟩
  · rw [dif_neg h]
    refine (concatenate_pair_apply_right (t := S1x2064) (s₁ := S1x2048) (s₂ := S1x16) (1 : Fin 2) _ _ _ _ rfl rfl
      (ix2 (0 : Fin 1) (⟨f.val - 2048, by have := f.isLt; omega⟩ : Fin 16))
      (fun b hb => by
        match b with
        | ⟨0, _⟩ => rfl
        | ⟨1, _⟩ => exact absurd rfl hb)
      (by show f.val - 2048 + 2048 = f.val; omega)).trans ?_
    refine (mean1_apply _ ⟨f.val - 2048, by have := f.isLt; omega⟩).trans ?_
    refine congrArg₂ Ideal.div (congrArg₂ (· + ·) rfl ?_) rfl
    exact Finset.sum_congr rfl fun i _ => cat1_apply A B _

/-! ## The host-made operands as the region finds them -/

/-- The augmented weight: entry `(r, f)`. -/
theorem V6_apply (c : Dev nD) (r : Fin 256) (f : Fin 2064) :
    (V m c main_v6 : S256x2064.Idx → EReal) (ix2 r f)
      = Cert.Spec.hostWkv (fun c' e => ((m ((c : Thread nD τ).loc main_arg3)) : S256x1024.Idx → EReal) (ix2 c' e))
          (fun c' e => ((m ((c : Thread nD τ).loc main_arg5)) : S256x1024.Idx → EReal) (ix2 c' e)) r f := by
  have e : (V m c main_v6 : S256x2064.Idx → EReal)
      = truncf .bf16 (concatenate S256x2064 1 [⟨S256x2048, (concatenate S256x2048 1 [⟨S256x1024, (m ((c : Thread nD τ).loc main_arg3))⟩, ⟨S256x1024, (m ((c : Thread nD τ).loc main_arg5))⟩] concatenates_S256x1024_S256x1024_S256x2048_d1)⟩,
        ⟨S256x16, Host.divf (Host.reduceAdd (shapeCast S256x16x128 (concatenate S256x2048 1 [⟨S256x1024, (m ((c : Thread nD τ).loc main_arg3))⟩, ⟨S256x1024, (m ((c : Thread nD τ).loc main_arg5))⟩] concatenates_S256x1024_S256x1024_S256x2048_d1) shapeCasts_S256x2048_S256x16x128)
          (constant (F := Ideal) S_ .f32 0x00000000#32) reducesTo_S256x16x128_S256x16_d2 h_S_)
          (broadcastInDim S256x16 ![] bcast_S_S256x16 (constant (F := Ideal) S_ .f32 0x43000000#32))⟩]
        concatenates_S256x2048_S256x16_S256x2064_d1) bitsLt_bf16_f32 := by
    dsimp only [Gen.V, Gen.hostOps0]; after_results; rfl
  rw [e]
  exact aug256_apply _ _ r f

/-- The augmented bias, transposed to a column: entry `(f, 0)`. -/
theorem V13_apply (c : Dev nD) (f : Fin 2064) :
    (V m c main_v13 : S2064x1.Idx → EReal) (ix2 f 0)
      = Cert.Spec.hostBkv (fun e => ((m ((c : Thread nD τ).loc main_arg4)) : S1x1024.Idx → EReal) (ix2 0 e))
          (fun e => ((m ((c : Thread nD τ).loc main_arg6)) : S1x1024.Idx → EReal) (ix2 0 e)) f := by
  have e : (V m c main_v13 : S2064x1.Idx → EReal)
      = transpose S2064x1 [1, 0] (concatenate S1x2064 1 [⟨S1x2048, (concatenate S1x2048 1 [⟨S1x1024, (m ((c : Thread nD τ).loc main_arg4))⟩, ⟨S1x1024, (m ((c : Thread nD τ).loc main_arg6))⟩] concatenates_S1x1024_S1x1024_S1x2048_d1)⟩,
        ⟨S1x16, Host.divf (Host.reduceAdd (shapeCast S1x16x128 (concatenate S1x2048 1 [⟨S1x1024, (m ((c : Thread nD τ).loc main_arg4))⟩, ⟨S1x1024, (m ((c : Thread nD τ).loc main_arg6))⟩] concatenates_S1x1024_S1x1024_S1x2048_d1) shapeCasts_S1x2048_S1x16x128)
          (constant (F := Ideal) S_ .f32 0x00000000#32) reducesTo_S1x16x128_S1x16_d2 h_S_)
          (broadcastInDim S1x16 ![] bcast_S_S1x16 (constant (F := Ideal) S_ .f32 0x43000000#32))⟩]
        concatenates_S1x2048_S1x16_S1x2064_d1) transposes_S1x2064_S2064x1_1_0 := by
    dsimp only [Gen.V, Gen.hostOps0]; after_results; rfl
  rw [e]
  refine (transpose_apply _ _ _ _ (ix2 (0 : Fin 1) f) (fun b => by
    match b with
    | ⟨0, _⟩ => rfl
    | ⟨1, _⟩ => rfl)).trans ?_
  exact aug1_apply _ _ f

/-- The key LayerNorm scale, transposed: entry `(i, h)`. -/
theorem V14_apply (c : Dev nD) (i : Fin 128) (h : Fin 8) :
    (V m c main_v14 : S128x8.Idx → EReal) (ix2 i h) = ((m ((c : Thread nD τ).loc main_arg9)) : S8x128.Idx → EReal) (ix2 h i) := by
  have e : (V m c main_v14 : S128x8.Idx → EReal)
      = transpose S128x8 [1, 0] (m ((c : Thread nD τ).loc main_arg9)) transposes_S8x128_S128x8_1_0 := by
    dsimp only [Gen.V, Gen.hostOps0]; after_results
  rw [e]
  exact transpose_apply _ _ _ _ (ix2 h i) (fun b => by
    match b with
    | ⟨0, _⟩ => rfl
    | ⟨1, _⟩ => rfl)

/-- The key LayerNorm shift, transposed: entry `(i, h)`. -/
theorem V15_apply (c : Dev nD) (i : Fin 128) (h : Fin 8) :
    (V m c main_v15 : S128x8.Idx → EReal) (ix2 i h) = ((m ((c : Thread nD τ).loc main_arg10)) : S8x128.Idx → EReal) (ix2 h i) := by
  have e : (V m c main_v15 : S128x8.Idx → EReal)
      = transpose S128x8 [1, 0] (m ((c : Thread nD τ).loc main_arg10)) transposes_S8x128_S128x8_1_0 := by
    dsimp only [Gen.V, Gen.hostOps0]; after_results
  rw [e]
  exact transpose_apply _ _ _ _ (ix2 h i) (fun b => by
    match b with
    | ⟨0, _⟩ => rfl
    | ⟨1, _⟩ => rfl)

/-! ## The result array -/

/-- What point `t` writes back is block `t` of the array function, given that the body's output block is the block
    function of its eleven input blocks. -/
theorem flushed_eq
    (hbody : ∀ (c : Dev nD) (i : grid0.Coords) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S1x2048x128 .f32) (harg12 : arg12.IsWhole) (arg13 : Memref sig .tc .vmem S1152x2048 .bf16) (harg13 : arg13.IsWhole) (arg14 : Memref sig .tc .vmem S1152x2048 .bf16) (harg14 : arg14.IsWhole)
      (x0 : Vec Ideal S1x2048x256 .f32) (x1 : Vec Ideal S256x2064 .bf16) (x2 : Vec Ideal S2064x1 .f32) (x3 : Vec Ideal S256x1024 .f32) (x4 : Vec Ideal S1x1024 .f32) (x5 : Vec Ideal S1024x128 .f32) (x6 : Vec Ideal S1x128 .f32) (x7 : Vec Ideal S128x8 .f32) (x8 : Vec Ideal S128x8 .f32) (x9 : Vec Ideal S8x128 .f32) (x10 : Vec Ideal S8x128 .f32),
      out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = Cert.Spec.kout x0 x1 x2 x3 x4 x5 x6 x7 x8 x9 x10)
    (c : Dev nD) (t : Fin cfg0.N) :
    (dats m 0 c).flushed 11 t = ((cfg0.win 11).blk t).view.read (Elt Ideal) (Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [Value.flushed11_A (F := Ideal) m c t, hbody]
  obtain ⟨-, -, -, -, -, -, -, -, -, -, -, -, -, -, -, -, -, -, -, -, -, -, -, h0, h1, h2⟩ := idx0 t
  refine funext fun (y : S1x2048x128.Idx) => ?_
  obtain ⟨n, j, rfl⟩ : ∃ (n : Fin 2048) (j : Fin 128), y = ix3 0 n j := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  have hemb : ((cfg0.win 11).blk t).view.emb (ix3 0 n j) = (ix3 (bOf t) n j : S16x2048x128.Idx) := by
    funext a; apply Fin.ext
    match a with
    | ⟨0, _⟩ => show win0_11.index t (0 : Fin 3) * 1 + 1 * 0 = t.val; omega
    | ⟨1, _⟩ => show win0_11.index t (1 : Fin 3) * 2048 + 1 * n.val = n.val; omega
    | ⟨2, _⟩ => show win0_11.index t (2 : Fin 3) * 128 + 1 * j.val = j.val; omega
  show Cert.Spec.kout (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 0 n j)
    = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 11).blk t).view.emb (ix3 0 n j))
  rw [hemb]
  have a0 : (fun (n : Fin 2048) (c' : Fin 256) => iblk m c 0 t (ix3 0 n c'))
      = fun n c' => ((m ((c : Thread nD τ).loc main_arg0)) : S16x2048x256.Idx → EReal) (ix3 (bOf t) n c') := by
    funext n c'; rw [blk_x m c t n c', V_main_arg0 m c]
  have a1 : (fun (c' : Fin 256) (f : Fin 2064) => iblk m c 1 t (ix2 c' f))
      = Cert.Spec.hostWkv (fun c' e => ((m ((c : Thread nD τ).loc main_arg3)) : S256x1024.Idx → EReal) (ix2 c' e))
          (fun c' e => ((m ((c : Thread nD τ).loc main_arg5)) : S256x1024.Idx → EReal) (ix2 c' e)) := by
    funext c' f; rw [blk_1 m c t]; exact V6_apply m c c' f
  have a2 : (fun (f : Fin 2064) => iblk m c 2 t (ix2 f 0))
      = Cert.Spec.hostBkv (fun e => ((m ((c : Thread nD τ).loc main_arg4)) : S1x1024.Idx → EReal) (ix2 0 e))
          (fun e => ((m ((c : Thread nD τ).loc main_arg6)) : S1x1024.Idx → EReal) (ix2 0 e)) := by
    funext f; rw [blk_2 m c t]; exact V13_apply m c f
  have a3 : (iblk m c 3 t : S256x1024.Idx → EReal) = (m ((c : Thread nD τ).loc main_arg1)) := (blk_3 m c t).trans (V_main_arg1 m c)
  have a4 : (iblk m c 4 t : S1x1024.Idx → EReal) = (m ((c : Thread nD τ).loc main_arg2)) := (blk_4 m c t).trans (V_main_arg2 m c)
  have a5 : (iblk m c 5 t : S1024x128.Idx → EReal) = (m ((c : Thread nD τ).loc main_arg7)) := (blk_5 m c t).trans (V_main_arg7 m c)
  have a6 : (iblk m c 6 t : S1x128.Idx → EReal) = (m ((c : Thread nD τ).loc main_arg8)) := (blk_6 m c t).trans (V_main_arg8 m c)
  have a7 : (fun (i : Fin 128) (h : Fin 8) => iblk m c 7 t (ix2 i h))
      = fun i h => ((m ((c : Thread nD τ).loc main_arg9)) : S8x128.Idx → EReal) (ix2 h i) := by
    funext i h; rw [blk_7 m c t]; exact V14_apply m c i h
  have a8 : (fun (i : Fin 128) (h : Fin 8) => iblk m c 8 t (ix2 i h))
      = fun i h => ((m ((c : Thread nD τ).loc main_arg10)) : S8x128.Idx → EReal) (ix2 h i) := by
    funext i h; rw [blk_8 m c t]; exact V15_apply m c i h
  have a9 : (iblk m c 9 t : S8x128.Idx → EReal) = (m ((c : Thread nD τ).loc main_arg11)) := (blk_9 m c t).trans (V_main_arg11 m c)
  have a10 : (iblk m c 10 t : S8x128.Idx → EReal) = (m ((c : Thread nD τ).loc main_arg12)) := (blk_10 m c t).trans (V_main_arg12 m c)
  unfold Cert.Spec.kout Cert.Spec.kerOut
  show Cert.Spec.krow (fun n c' => iblk m c 0 t (ix3 0 n c')) (fun c' f => iblk m c 1 t (ix2 c' f)) (fun f => iblk m c 2 t (ix2 f 0))
      (fun c' e => (iblk m c 3 t : S256x1024.Idx → EReal) (ix2 c' e)) (fun e => (iblk m c 4 t : S1x1024.Idx → EReal) (ix2 0 e))
      (fun e j => (iblk m c 5 t : S1024x128.Idx → EReal) (ix2 e j)) (fun j => (iblk m c 6 t : S1x128.Idx → EReal) (ix2 0 j))
      (fun i h => iblk m c 7 t (ix2 i h)) (fun i h => iblk m c 8 t (ix2 i h))
      (fun h k => (iblk m c 9 t : S8x128.Idx → EReal) (ix2 h k)) (fun h k => (iblk m c 10 t : S8x128.Idx → EReal) (ix2 h k)) n j = _
  rw [a0, a1, a2, a3, a4, a5, a6, a7, a8, a9, a10]

/-- An index of the result array is in point `t`'s block iff each coordinate is in the block's range. -/
theorem mem_blk (t : Fin cfg0.N) (i : S16x2048x128.Idx) :
    i ∈ ((cfg0.win 11).blk t).view.set ↔ ∀ a : Fin 3, win0_11.index t a * S1x2048x128.size a ≤ (i a).val ∧ (i a).val < win0_11.index t a * S1x2048x128.size a + S1x2048x128.size a := by
  show i ∈ ((View.whole main_v16).slice (win0_11.rect t)).set ↔ _
  rw [View.set_slice_whole, Rect.mem_set_unit]
  exact Iff.rfl

/-- Every entry of the result array is in the block of its batch row's point. -/
theorem cover (i : S16x2048x128.Idx) : ∃ t : Fin cfg0.N, (cfg0.win 11).flush t = true ∧ i ∈ ((cfg0.win 11).blk t).view.set := by
  have hi0 : (i 0).val < 16 := (i 0).isLt
  have hi1 : (i 1).val < 2048 := (i 1).isLt
  have hi2 : (i 2).val < 128 := (i 2).isLt
  let t : Fin cfg0.N := ⟨(i 0).val, hi0⟩
  obtain ⟨-, -, -, -, -, -, -, -, -, -, -, -, -, -, -, -, -, -, -, -, -, -, -, h0, h1, h2⟩ := idx0 t
  have ht : t.val = (i 0).val := rfl
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 2048 ≤ (i 1).val ∧ (i 1).val < win0_11.index t (1 : Fin 3) * 2048 + 2048; omega
  | ⟨2, _⟩ => show win0_11.index t (2 : Fin 3) * 128 ≤ (i 2).val ∧ (i 2).val < win0_11.index t (2 : Fin 3) * 128 + 128; omega

/-- The kernel's result array after its sixteen write-backs is the array function of the argument arrays, given that the
    body's output block is the block function of its eleven input blocks. -/
theorem array_eq
    (hbody : ∀ (c : Dev nD) (i : grid0.Coords) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S1x2048x128 .f32) (harg12 : arg12.IsWhole) (arg13 : Memref sig .tc .vmem S1152x2048 .bf16) (harg13 : arg13.IsWhole) (arg14 : Memref sig .tc .vmem S1152x2048 .bf16) (harg14 : arg14.IsWhole)
      (x0 : Vec Ideal S1x2048x256 .f32) (x1 : Vec Ideal S256x2064 .bf16) (x2 : Vec Ideal S2064x1 .f32) (x3 : Vec Ideal S256x1024 .f32) (x4 : Vec Ideal S1x1024 .f32) (x5 : Vec Ideal S1024x128 .f32) (x6 : Vec Ideal S1x128 .f32) (x7 : Vec Ideal S128x8 .f32) (x8 : Vec Ideal S128x8 .f32) (x9 : Vec Ideal S8x128 .f32) (x10 : Vec Ideal S8x128 .f32),
      out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = Cert.Spec.kout x0 x1 x2 x3 x4 x5 x6 x7 x8 x9 x10)
    (c : Dev nD) :
    (dats m 0 c).arrAt 11 cfg0.N = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 11 _ (fun t _ => flushed_eq m hbody c t) cover

end Cert.KernelIdeal.ArrayK
end
-- ==== Proof.KerHeadLib.lean ====
/-
  Entry-by-entry readings, over the extended reals, of the steps one attention head of the fused kernel takes.

  A head contracts its two augmented 144-row matrices over the 2048 positions into a 144 × 144 matrix `M`
  (`M a b = Σ_n ka a n · va b n`), cuts from `M` the 128 × 128 block `s`, the columns 128 and 129 of its first 128
  rows, the rows 128 and 129 of its first 128 columns and the four corner entries, spreads columns, rows and
  single entries over 128 × 128, and combines them with the head's LayerNorm scale and shift (a column of the
  transposed key parameters, a row of the value parameters) into the head's map
    `A i k = (((M i k − M i 128) − M 128 k) + M 128 128) · (g i · γ k) + (g i · (M i 129 − M 128 129)) · β k
              + b i · ((M 129 k − M 129 128) · γ k) + 2048 · (b i · β k)`,
  which is multiplied into 128 rows of the output weight: `Σ_k A i k · w k j`.
  The lemmas below read each of these steps at an entry; `headMap` is the chain of steps as one vector
  function and `headMap_apply` its value at an entry.
-/
import proofs.«148891_g2000303815147335_pallasbulk_1180_8_alg».proof.Defs
import proofs.«148891_g2000303815147335_pallasbulk_1180_8_alg».proof.Proof.Gen.KernelIdeal.Skeleton
import proofs.«148891_g2000303815147335_pallasbulk_1180_8_alg».proof.Proof.LibMatmul2
import proofs.«148891_g2000303815147335_pallasbulk_1180_8_alg».proof.Proof.Spec
import Idealize.ShloMosaic.Lib.Pipeline.Value
import Idealize.ShloMosaic.Lib.ValueIdx
import Idealize.ShloMosaic.PureOps.Ideal.Laws

noncomputable section

namespace Cert.KernelIdeal.HeadLib

open Cert.KernelIdeal Cert.KernelIdeal.Gen Idealize.ShloMosaic Idealize.ShloMosaic.ValueIdx

/-- Row or column `i` of a 128-block as a row or column of the 144 × 144 matrix. -/
abbrev up (i : Fin 128) : Fin 144 := Cert.Spec.up i

/-- The augmented contraction at an entry: a sum over the 2048 positions. -/
theorem saug_apply (ka va : FVec Ideal S144x2048 .bf16) (a b : Fin 144) :
    FloatOps.matmul (F := Ideal) (φ₁ := .bf16) (φ₂ := .bf16) dot_S144x2048_S144x2048_S144x144_1_1_0_0_n_n none ka va
      (constant S144x144 .f32 0x00000000#32) (ix2 a b) = ∑ n : Fin 2048, ka (ix2 a n) * va (ix2 b n) := by
  rw [show dot_S144x2048_S144x2048_S144x144_1_1_0_0_n_n = (⟨[1], [1], [0], [0], [], [], dot_S144x2048_S144x2048_S144x144_1_1_0_0_n_n_wf⟩ : DotDims _ _ _) from rfl]
  exact LibMatmul2.matmul_nt_apply _ none ka va a b

/-- A product by a 128 × 128 matrix at an entry. -/
theorem mm128_apply (A W : FVec Ideal S128x128 .f32) (i j : Fin 128) :
    FloatOps.matmul (F := Ideal) (φ₁ := .f32) (φ₂ := .f32) dot_S128x128_S128x128_S128x128_1_0_0_1_n_n none A W
      (constant S128x128 .f32 0x00000000#32) (ix2 i j) = ∑ k : Fin 128, A (ix2 i k) * W (ix2 k j) := by
  rw [show dot_S128x128_S128x128_S128x128_1_0_0_1_n_n = (⟨[1], [0], [0], [1], [], [], dot_S128x128_S128x128_S128x128_1_0_0_1_n_n_wf⟩ : DotDims _ _ _) from rfl]
  exact LibMatmul2.matmul_nn_apply _ none A W i j

/-! ## Cuts of the 144 × 144 matrix -/

theorem slice_s_apply (M : FVec Ideal S144x144 .f32) (hs : S144x144.Slices ![0, 0] S128x128) (i k : Fin 128) :
    extractStridedSlice S128x128 ![0, 0] M hs (ix2 i k) = M (ix2 (up i) (up k)) :=
  extractStridedSlice_apply ![0, 0] M hs (ix2 i k) (ix2 (up i) (up k)) (fun a => match a with
    | ⟨0, _⟩ => by show i.val = 0 + i.val; omega
    | ⟨1, _⟩ => by show k.val = 0 + k.val; omega)

theorem slice_col_apply (o : Nat) (ho : o < 144) (M : FVec Ideal S144x144 .f32) (hs : S144x144.Slices ![0, o] S128x1) (i : Fin 128) :
    extractStridedSlice S128x1 ![0, o] M hs (ix2 i 0) = M (ix2 (up i) ⟨o, ho⟩) :=
  extractStridedSlice_apply ![0, o] M hs (ix2 i 0) (ix2 (up i) ⟨o, ho⟩) (fun a => match a with
    | ⟨0, _⟩ => by show i.val = 0 + i.val; omega
    | ⟨1, _⟩ => by show o = o + 0; omega)

theorem slice_row_apply (o : Nat) (ho : o < 144) (M : FVec Ideal S144x144 .f32) (hs : S144x144.Slices ![o, 0] S1x128) (k : Fin 128) :
    extractStridedSlice S1x128 ![o, 0] M hs (ix2 0 k) = M (ix2 ⟨o, ho⟩ (up k)) :=
  extractStridedSlice_apply ![o, 0] M hs (ix2 0 k) (ix2 ⟨o, ho⟩ (up k)) (fun a => match a with
    | ⟨0, _⟩ => by show o = o + 0; omega
    | ⟨1, _⟩ => by show k.val = 0 + k.val; omega)

theorem slice_pt_apply (o p : Nat) (ho : o < 144) (hp : p < 144) (M : FVec Ideal S144x144 .f32) (hs : S144x144.Slices ![o, p] S1x1) :
    extractStridedSlice S1x1 ![o, p] M hs (ix2 0 0) = M (ix2 ⟨o, ho⟩ ⟨p, hp⟩) :=
  extractStridedSlice_apply ![o, p] M hs (ix2 0 0) (ix2 ⟨o, ho⟩ ⟨p, hp⟩) (fun a => match a with
    | ⟨0, _⟩ => by show o = o + 0; omega
    | ⟨1, _⟩ => by show p = p + 0; omega)

/-! ## Spreading a column, a row or a single entry -/

theorem bc_col_apply (v : FVec Ideal S128x1 .f32) (h : S128x1.Broadcasts S128x128) (i k : Fin 128) :
    broadcastTo S128x128 v h (ix2 i k) = v (ix2 i 0) :=
  broadcastTo_apply v h (ix2 i k) (ix2 i 0) (fun a => match a with
    | ⟨0, _⟩ => rfl
    | ⟨1, _⟩ => rfl)

theorem bc_row_apply (v : FVec Ideal S1x128 .f32) (h : S1x128.Broadcasts S128x128) (i k : Fin 128) :
    broadcastTo S128x128 v h (ix2 i k) = v (ix2 0 k) :=
  broadcastTo_apply v h (ix2 i k) (ix2 0 k) (fun a => match a with
    | ⟨0, _⟩ => rfl
    | ⟨1, _⟩ => rfl)

theorem bc_pt_apply (v : FVec Ideal S1x1 .f32) (h : S1x1.Broadcasts S128x128) (i k : Fin 128) :
    broadcastTo S128x128 v h (ix2 i k) = v (ix2 0 0) :=
  broadcastTo_apply v h (ix2 i k) (ix2 0 0) (fun a => match a with
    | ⟨0, _⟩ => rfl
    | ⟨1, _⟩ => rfl)

theorem bc_pt_col_apply (v : FVec Ideal S1x1 .f32) (h : S1x1.Broadcasts S128x1) (i : Fin 128) :
    broadcastTo S128x1 v h (ix2 i 0) = v (ix2 0 0) :=
  broadcastTo_apply v h (ix2 i 0) (ix2 0 0) (fun a => match a with
    | ⟨0, _⟩ => rfl
    | ⟨1, _⟩ => rfl)

theorem bc_pt_row_apply (v : FVec Ideal S1x1 .f32) (h : S1x1.Broadcasts S1x128) (k : Fin 128) :
    broadcastTo S1x128 v h (ix2 0 k) = v (ix2 0 0) :=
  broadcastTo_apply v h (ix2 0 k) (ix2 0 0) (fun a => match a with
    | ⟨0, _⟩ => rfl
    | ⟨1, _⟩ => rfl)

/-! ## The head's map -/

/-- The head's map as the kernel assembles it from the 144 × 144 matrix and the four parameter vectors. -/
def headMap (M : FVec Ideal S144x144 .f32) (g b : FVec Ideal S128x1 .f32) (gv bv : FVec Ideal S1x128 .f32) : FVec Ideal S128x128 .f32 :=
  addf (addf (addf
    (mulf
      (addf (subf (subf (extractStridedSlice S128x128 ![0, 0] M slices_S144x144_o0_0_S128x128)
          (broadcastTo S128x128 (extractStridedSlice S128x1 ![0, 128] M slices_S144x144_o0_128_S128x1) broadcasts_S128x1_S128x128))
          (broadcastTo S128x128 (extractStridedSlice S1x128 ![128, 0] M slices_S144x144_o128_0_S1x128) broadcasts_S1x128_S128x128))
        (broadcastTo S128x128 (extractStridedSlice S1x1 ![128, 128] M slices_S144x144_o128_128_S1x1) broadcasts_S1x1_S128x128))
      (mulf (broadcastTo S128x128 (shapeCast S128x1 g shapeCasts_S128x1_S128x1) broadcasts_S128x1_S128x128)
        (broadcastTo S128x128 gv broadcasts_S1x128_S128x128)))
    (mulf
      (broadcastTo S128x128
        (mulf (shapeCast S128x1 g shapeCasts_S128x1_S128x1)
          (subf (extractStridedSlice S128x1 ![0, 129] M slices_S144x144_o0_129_S128x1)
            (broadcastTo S128x1 (extractStridedSlice S1x1 ![128, 129] M slices_S144x144_o128_129_S1x1) broadcasts_S1x1_S128x1)))
        broadcasts_S128x1_S128x128)
      (broadcastTo S128x128 bv broadcasts_S1x128_S128x128)))
    (mulf (broadcastTo S128x128 (shapeCast S128x1 b shapeCasts_S128x1_S128x1) broadcasts_S128x1_S128x128)
      (broadcastTo S128x128
        (mulf (subf (extractStridedSlice S1x128 ![129, 0] M slices_S144x144_o129_0_S1x128)
            (broadcastTo S1x128 (extractStridedSlice S1x1 ![129, 128] M slices_S144x144_o129_128_S1x1) broadcasts_S1x1_S1x128))
          gv)
        broadcasts_S1x128_S128x128)))
    (mulf (broadcast S128x128 (Scalar.ofBits (F := Ideal) .f32 0x45000000#32))
      (mulf (broadcastTo S128x128 (shapeCast S128x1 b shapeCasts_S128x1_S128x1) broadcasts_S128x1_S128x128)
        (broadcastTo S128x128 bv broadcasts_S1x128_S128x128)))

/-- The head's map at an entry, from the entries of the 144 × 144 matrix and of the parameter vectors. -/
def amapK (M : Fin 144 → Fin 144 → EReal) (g b : Fin 128 → EReal) (gv bv : Fin 128 → EReal) (i k : Fin 128) : EReal :=
  (((((M (up i) (up k) - M (up i) ⟨128, by omega⟩) - M ⟨128, by omega⟩ (up k)) + M ⟨128, by omega⟩ ⟨128, by omega⟩) * (g i * gv k)
      + (g i * (M (up i) ⟨129, by omega⟩ - M ⟨128, by omega⟩ ⟨129, by omega⟩)) * bv k)
      + b i * ((M ⟨129, by omega⟩ (up k) - M ⟨129, by omega⟩ ⟨128, by omega⟩) * gv k))
      + Cert.Spec.cN * (b i * bv k)

theorem headMap_apply (M : FVec Ideal S144x144 .f32) (g b : FVec Ideal S128x1 .f32) (gv bv : FVec Ideal S1x128 .f32) (i k : Fin 128) :
    headMap M g b gv bv (ix2 i k)
      = amapK (fun a c => M (ix2 a c)) (fun i => g (ix2 i 0)) (fun i => b (ix2 i 0)) (fun k => gv (ix2 0 k)) (fun k => bv (ix2 0 k)) i k := by
  unfold headMap amapK
  simp only [addf_apply, mulf_apply, subf_apply, broadcast_apply, bc_col_apply, bc_row_apply, bc_pt_apply, bc_pt_col_apply,
    bc_pt_row_apply, slice_s_apply, slice_col_apply 128 (by omega), slice_col_apply 129 (by omega), slice_row_apply 128 (by omega),
    slice_row_apply 129 (by omega), slice_pt_apply 128 128 (by omega) (by omega), slice_pt_apply 128 129 (by omega) (by omega),
    slice_pt_apply 129 128 (by omega) (by omega), shapeCast_self]
  rfl

/-- The entry form is the shared statement's map of head `h`, at the head's column of the key parameters and row of
    the value parameters. -/
theorem amapK_eq_amapOf (S : Fin 8 → Fin 144 → Fin 144 → EReal) (gkT bkT : Fin 128 → Fin 8 → EReal) (gv bvl : Fin 8 → Fin 128 → EReal)
    (h : Fin 8) (i k : Fin 128) :
    amapK (S h) (fun i => gkT i h) (fun i => bkT i h) (gv h) (bvl h) i k = Cert.Spec.amapOf gkT bkT gv bvl S h i k := rfl

/-! ## The head's column, row and weight rows read out of the parameter blocks -/

theorem ld_col_apply (x : Vec Ideal S128x8 .f32) (h : Nat) (hh : h < 8) (inb : ∀ a, (![0, h] : Fin 2 → Nat) a + S128x1.size a ≤ S128x8.size a)
    (i : Fin 128) : View.ld x (Rect.unit (s := S128x8) ![0, h] S128x1.size inb) (ix2 i 0) = x (ix2 i ⟨h, hh⟩) := by
  show x ((Rect.unit (s := S128x8) ![0, h] S128x1.size inb).idx (ix2 i 0)) = _
  refine congrArg x ?_
  funext a; apply Fin.ext
  match a with
  | ⟨0, _⟩ => show 0 + 1 * i.val = i.val; omega
  | ⟨1, _⟩ => show h + 1 * 0 = h; omega

theorem ld_row_apply (x : Vec Ideal S8x128 .f32) (h : Nat) (hh : h < 8) (inb : ∀ a, (![h, 0] : Fin 2 → Nat) a + S1x128.size a ≤ S8x128.size a)
    (k : Fin 128) : View.ld x (Rect.unit (s := S8x128) ![h, 0] S1x128.size inb) (ix2 0 k) = x (ix2 ⟨h, hh⟩ k) := by
  show x ((Rect.unit (s := S8x128) ![h, 0] S1x128.size inb).idx (ix2 0 k)) = _
  refine congrArg x ?_
  funext a; apply Fin.ext
  match a with
  | ⟨0, _⟩ => show h + 1 * 0 = h; omega
  | ⟨1, _⟩ => show 0 + 1 * k.val = k.val; omega

theorem ld_wo_apply (x : Vec Ideal S1024x128 .f32) (o : Nat) (ho : o + 128 ≤ 1024)
    (inb : ∀ a, (![o, 0] : Fin 2 → Nat) a + S128x128.size a ≤ S1024x128.size a) (k j : Fin 128) :
    View.ld x (Rect.unit (s := S1024x128) ![o, 0] S128x128.size inb) (ix2 k j) = x (ix2 ⟨o + k.val, by have := k.isLt; omega⟩ j) := by
  show x ((Rect.unit (s := S1024x128) ![o, 0] S128x128.size inb).idx (ix2 k j)) = _
  refine congrArg x ?_
  funext a; apply Fin.ext
  match a with
  | ⟨0, _⟩ => show o + 1 * k.val = o + k.val; omega
  | ⟨1, _⟩ => show 0 + 1 * j.val = j.val; omega

/-! ## One head: its map multiplied into its rows of the output weight -/

/-- Head `h`: the map assembled from a 144 × 144 matrix `M` and the head's column and row of the parameter blocks,
    multiplied into rows `128h … 128h+127` of the output weight, is the shared statement's block of the head, for any
    family `S` of matrices whose member `h` is `M`. -/
theorem head_apply (h : Nat) (hh : h < 8) (o : Nat) (ho : o = 128 * h) (M : FVec Ideal S144x144 .f32)
    (x5 : Vec Ideal S1024x128 .f32) (x7 x8 : Vec Ideal S128x8 .f32) (x9 x10 : Vec Ideal S8x128 .f32)
    (inbc : ∀ a, (![0, h] : Fin 2 → Nat) a + S128x1.size a ≤ S128x8.size a)
    (inbr : ∀ a, (![h, 0] : Fin 2 → Nat) a + S1x128.size a ≤ S8x128.size a)
    (inbw : ∀ a, (![o, 0] : Fin 2 → Nat) a + S128x128.size a ≤ S1024x128.size a)
    (S : Fin 8 → Fin 144 → Fin 144 → EReal) (hS : ∀ a c, S ⟨h, hh⟩ a c = M (ix2 a c)) (i j : Fin 128) :
    FloatOps.matmul (F := Ideal) (φ₁ := .f32) (φ₂ := .f32) dot_S128x128_S128x128_S128x128_1_0_0_1_n_n none
      (headMap M (View.ld x7 (Rect.unit (s := S128x8) ![0, h] S128x1.size inbc)) (View.ld x8 (Rect.unit (s := S128x8) ![0, h] S128x1.size inbc))
        (View.ld x9 (Rect.unit (s := S8x128) ![h, 0] S1x128.size inbr)) (View.ld x10 (Rect.unit (s := S8x128) ![h, 0] S1x128.size inbr)))
      (View.ld x5 (Rect.unit (s := S1024x128) ![o, 0] S128x128.size inbw)) (constant S128x128 .f32 0x00000000#32) (ix2 i j)
    = Cert.Spec.mpartOf (fun e j => x5 (ix2 e j)) (fun i h => x7 (ix2 i h)) (fun i h => x8 (ix2 i h)) (fun h k => x9 (ix2 h k))
        (fun h k => x10 (ix2 h k)) S ⟨h, hh⟩ i j := by
  subst ho
  rw [mm128_apply]
  unfold Cert.Spec.mpartOf
  refine Finset.sum_congr rfl fun k _ => ?_
  refine congrArg₂ (· * ·) ?_ (ld_wo_apply x5 (128 * h) (by omega) inbw k j)
  rw [headMap_apply]
  have e1 : (fun a c => M (ix2 a c)) = S ⟨h, hh⟩ := funext fun a => funext fun c => (hS a c).symm
  have e2 : (fun i : Fin 128 => View.ld x7 (Rect.unit (s := S128x8) ![0, h] S128x1.size inbc) (ix2 i 0)) = fun i => x7 (ix2 i ⟨h, hh⟩) :=
    funext fun i => ld_col_apply x7 h hh inbc i
  have e3 : (fun i : Fin 128 => View.ld x8 (Rect.unit (s := S128x8) ![0, h] S128x1.size inbc) (ix2 i 0)) = fun i => x8 (ix2 i ⟨h, hh⟩) :=
    funext fun i => ld_col_apply x8 h hh inbc i
  have e4 : (fun k : Fin 128 => View.ld x9 (Rect.unit (s := S8x128) ![h, 0] S1x128.size inbr) (ix2 0 k)) = fun k => x9 (ix2 ⟨h, hh⟩ k) :=
    funext fun k => ld_row_apply x9 h hh inbr k
  have e5 : (fun k : Fin 128 => View.ld x10 (Rect.unit (s := S8x128) ![h, 0] S1x128.size inbr) (ix2 0 k)) = fun k => x10 (ix2 ⟨h, hh⟩ k) :=
    funext fun k => ld_row_apply x10 h hh inbr k
  rw [e1, e2, e3, e4, e5]
  exact amapK_eq_amapOf S (fun i h => x7 (ix2 i h)) (fun i h => x8 (ix2 i h)) (fun h k => x9 (ix2 h k)) (fun h k => x10 (ix2 h k)) ⟨h, hh⟩ i k

end Cert.KernelIdeal.HeadLib

end
-- ==== Proof.KerHeadsA.lean ====
/-
  The fused kernel's per-head blocks for heads 0, 1, 2 and 3, entry by entry over the extended reals.

  For head `h` the body loads the head's two augmented 144-row matrices `ka`, `va` over the 2048 positions, contracts
  them into `M a b = Σ_n ka a n · va b n`, assembles from `M`, column `h` of the transposed key scale and shift and row
  `h` of the value scale and shift the head's 128 × 128 map, and multiplies it into rows `128h … 128h+127` of the output
  weight. `mpart<h>` is that chain of steps, written over the body's own step terms with the loaded matrices as
  variables and the parameter blocks read through the body's rectangles; `mpart<h>_apply` says its entry `(i, j)` is
  `Σ_k A_h i k · wo (128h + k) j` with `A_h` the shared statement's map of head `h`.
-/
import proofs.«148891_g2000303815147335_pallasbulk_1180_8_alg».proof.Proof.KerHeadLib

noncomputable section

namespace Cert.KernelIdeal.HeadsA

open Cert.KernelIdeal Cert.KernelIdeal.Gen Cert.KernelIdeal.HeadLib Idealize.ShloMosaic Idealize.ShloMosaic.ValueIdx

/-- The contraction of the two loaded matrices over the positions, as the body computes it. -/
def saugV (ka va : Vec Ideal S144x2048 .bf16) : FVec Ideal S144x144 .f32 :=
  FloatOps.matmul (F := Ideal) (φ₁ := .bf16) (φ₂ := .bf16) dot_S144x2048_S144x2048_S144x144_1_1_0_0_n_n none ka va
    (constant S144x144 .f32 0x00000000#32)

theorem saugV_apply (ka va : Vec Ideal S144x2048 .bf16) (a b : Fin 144) :
    saugV ka va (ix2 a b) = ∑ n : Fin 2048, ka (ix2 a n) * va (ix2 b n) := saug_apply ka va a b

/-! ## Head 0 -/

/-- The first head's block: the body's chain of steps from the two loaded 144-row matrices and the parameter blocks. -/
def mpart0 (ka va : Vec Ideal S144x2048 .bf16) (x5 : Vec Ideal S1024x128 .f32) (x7 x8 : Vec Ideal S128x8 .f32) (x9 x10 : Vec Ideal S8x128 .f32) : FVec Ideal S128x128 .f32 :=
  k0_pay229 (F := Ideal) (k0_pay227 (F := Ideal) ka va) (k0_pay228 (F := Ideal) ka va)
    (View.ld x7 (Rect.unit (s := S128x8) ![0, 0] S128x1.size inb_S128x8_S128x1_0_0)) (View.ld x8 (Rect.unit (s := S128x8) ![0, 0] S128x1.size inb_S128x8_S128x1_0_0))
    (View.ld x9 (Rect.unit (s := S8x128) ![0, 0] S1x128.size inb_S8x128_S1x128_0_0)) (View.ld x10 (Rect.unit (s := S8x128) ![0, 0] S1x128.size inb_S8x128_S1x128_0_0))
    (View.ld x5 (Rect.unit (s := S1024x128) ![0, 0] S128x128.size inb_S1024x128_S128x128_0_0))

/-- The chain is the head's map, assembled from the contraction of the two matrices, multiplied into the head's rows of the
    output weight. -/
theorem mpart0_eq (ka va : Vec Ideal S144x2048 .bf16) (x5 : Vec Ideal S1024x128 .f32) (x7 x8 : Vec Ideal S128x8 .f32) (x9 x10 : Vec Ideal S8x128 .f32) :
    mpart0 ka va x5 x7 x8 x9 x10
      = FloatOps.matmul (F := Ideal) (φ₁ := .f32) (φ₂ := .f32) dot_S128x128_S128x128_S128x128_1_0_0_1_n_n none
          (headMap (saugV ka va) (View.ld x7 (Rect.unit (s := S128x8) ![0, 0] S128x1.size inb_S128x8_S128x1_0_0)) (View.ld x8 (Rect.unit (s := S128x8) ![0, 0] S128x1.size inb_S128x8_S128x1_0_0))
            (View.ld x9 (Rect.unit (s := S8x128) ![0, 0] S1x128.size inb_S8x128_S1x128_0_0)) (View.ld x10 (Rect.unit (s := S8x128) ![0, 0] S1x128.size inb_S8x128_S1x128_0_0)))
          (View.ld x5 (Rect.unit (s := S1024x128) ![0, 0] S128x128.size inb_S1024x128_S128x128_0_0)) (constant S128x128 .f32 0x00000000#32) := by
  unfold mpart0 k0_pay229 k0_pay228 headMap saugV k0_pay227
  rfl

/-- The first head's block at an entry is the shared statement's block of head 0, for any family of matrices whose member 0
    is the contraction of the two loaded matrices over the 2048 positions. -/
theorem mpart0_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨0, by omega⟩ a b = ∑ n : Fin 2048, ka (ix2 a n) * va (ix2 b n))
    (i j : Fin 128) :
    mpart0 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨0, by omega⟩ i j := by
  refine (congrFun (mpart0_eq ka va x5 x7 x8 x9 x10) (ix2 i j)).trans ?_
  exact head_apply 0 (by omega) 0 (by omega) (saugV ka va) x5 x7 x8 x9 x10 inb_S128x8_S128x1_0_0 inb_S8x128_S1x128_0_0
    inb_S1024x128_S128x128_0_0 S (fun a c => (hS a c).trans (saugV_apply ka va a c).symm) i j

/-! ## Head 1 -/

/-- The second head's block: the body's chain of steps from the two loaded 144-row matrices and the parameter blocks. -/
def mpart1 (ka va : Vec Ideal S144x2048 .bf16) (x5 : Vec Ideal S1024x128 .f32) (x7 x8 : Vec Ideal S128x8 .f32) (x9 x10 : Vec Ideal S8x128 .f32) : FVec Ideal S128x128 .f32 :=
  k0_pay231 (F := Ideal)
    (k0_pay230 (F := Ideal) ka va (View.ld x7 (Rect.unit (s := S128x8) ![0, 1] S128x1.size inb_S128x8_S128x1_0_1)) (View.ld x8 (Rect.unit (s := S128x8) ![0, 1] S128x1.size inb_S128x8_S128x1_0_1))
      (View.ld x9 (Rect.unit (s := S8x128) ![1, 0] S1x128.size inb_S8x128_S1x128_1_0)) (View.ld x10 (Rect.unit (s := S8x128) ![1, 0] S1x128.size inb_S8x128_S1x128_1_0)))
    (View.ld x5 (Rect.unit (s := S1024x128) ![128, 0] S128x128.size inb_S1024x128_S128x128_128_0))

/-- The chain is the head's map, assembled from the contraction of the two matrices, multiplied into the head's rows of the
    output weight. -/
theorem mpart1_eq (ka va : Vec Ideal S144x2048 .bf16) (x5 : Vec Ideal S1024x128 .f32) (x7 x8 : Vec Ideal S128x8 .f32) (x9 x10 : Vec Ideal S8x128 .f32) :
    mpart1 ka va x5 x7 x8 x9 x10
      = FloatOps.matmul (F := Ideal) (φ₁ := .f32) (φ₂ := .f32) dot_S128x128_S128x128_S128x128_1_0_0_1_n_n none
          (headMap (saugV ka va) (View.ld x7 (Rect.unit (s := S128x8) ![0, 1] S128x1.size inb_S128x8_S128x1_0_1)) (View.ld x8 (Rect.unit (s := S128x8) ![0, 1] S128x1.size inb_S128x8_S128x1_0_1))
            (View.ld x9 (Rect.unit (s := S8x128) ![1, 0] S1x128.size inb_S8x128_S1x128_1_0)) (View.ld x10 (Rect.unit (s := S8x128) ![1, 0] S1x128.size inb_S8x128_S1x128_1_0)))
          (View.ld x5 (Rect.unit (s := S1024x128) ![128, 0] S128x128.size inb_S1024x128_S128x128_128_0)) (constant S128x128 .f32 0x00000000#32) := by
  unfold mpart1 k0_pay231 k0_pay230 headMap saugV
  rfl

/-- The second head's block at an entry is the shared statement's block of head 1, for any family of matrices whose member 1
    is the contraction of the two loaded matrices over the 2048 positions. -/
theorem mpart1_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨1, by omega⟩ a b = ∑ n : Fin 2048, ka (ix2 a n) * va (ix2 b n))
    (i j : Fin 128) :
    mpart1 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨1, by omega⟩ i j := by
  refine (congrFun (mpart1_eq ka va x5 x7 x8 x9 x10) (ix2 i j)).trans ?_
  exact head_apply 1 (by omega) 128 (by omega) (saugV ka va) x5 x7 x8 x9 x10 inb_S128x8_S128x1_0_1 inb_S8x128_S1x128_1_0
    inb_S1024x128_S128x128_128_0 S (fun a c => (hS a c).trans (saugV_apply ka va a c).symm) i j

/-! ## Head 2 -/

/-- The third head's block: the body's chain of steps from the two loaded 144-row matrices and the parameter blocks. -/
def mpart2 (ka va : Vec Ideal S144x2048 .bf16) (x5 : Vec Ideal S1024x128 .f32) (x7 x8 : Vec Ideal S128x8 .f32) (x9 x10 : Vec Ideal S8x128 .f32) : FVec Ideal S128x128 .f32 :=
  k0_pay235 (F := Ideal)
    (k0_pay233 (F := Ideal) ka va (View.ld x7 (Rect.unit (s := S128x8) ![0, 2] S128x1.size inb_S128x8_S128x1_0_2)) (View.ld x8 (Rect.unit (s := S128x8) ![0, 2] S128x1.size inb_S128x8_S128x1_0_2))
      (View.ld x9 (Rect.unit (s := S8x128) ![2, 0] S1x128.size inb_S8x128_S1x128_2_0)) (View.ld x10 (Rect.unit (s := S8x128) ![2, 0] S1x128.size inb_S8x128_S1x128_2_0)))
    (k0_pay234 (F := Ideal) (View.ld x8 (Rect.unit (s := S128x8) ![0, 2] S128x1.size inb_S128x8_S128x1_0_2)) (View.ld x10 (Rect.unit (s := S8x128) ![2, 0] S1x128.size inb_S8x128_S1x128_2_0)))
    (View.ld x5 (Rect.unit (s := S1024x128) ![256, 0] S128x128.size inb_S1024x128_S128x128_256_0))

/-- The chain is the head's map, assembled from the contraction of the two matrices, multiplied into the head's rows of the
    output weight. -/
theorem mpart2_eq (ka va : Vec Ideal S144x2048 .bf16) (x5 : Vec Ideal S1024x128 .f32) (x7 x8 : Vec Ideal S128x8 .f32) (x9 x10 : Vec Ideal S8x128 .f32) :
    mpart2 ka va x5 x7 x8 x9 x10
      = FloatOps.matmul (F := Ideal) (φ₁ := .f32) (φ₂ := .f32) dot_S128x128_S128x128_S128x128_1_0_0_1_n_n none
          (headMap (saugV ka va) (View.ld x7 (Rect.unit (s := S128x8) ![0, 2] S128x1.size inb_S128x8_S128x1_0_2)) (View.ld x8 (Rect.unit (s := S128x8) ![0, 2] S128x1.size inb_S128x8_S128x1_0_2))
            (View.ld x9 (Rect.unit (s := S8x128) ![2, 0] S1x128.size inb_S8x128_S1x128_2_0)) (View.ld x10 (Rect.unit (s := S8x128) ![2, 0] S1x128.size inb_S8x128_S1x128_2_0)))
          (View.ld x5 (Rect.unit (s := S1024x128) ![256, 0] S128x128.size inb_S1024x128_S128x128_256_0)) (constant S128x128 .f32 0x00000000#32) := by
  unfold mpart2 k0_pay235 k0_pay233 k0_pay234 k0_pay232 headMap saugV
  rfl

/-- The third head's block at an entry is the shared statement's block of head 2, for any family of matrices whose member 2
    is the contraction of the two loaded matrices over the 2048 positions. -/
theorem mpart2_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨2, by omega⟩ a b = ∑ n : Fin 2048, ka (ix2 a n) * va (ix2 b n))
    (i j : Fin 128) :
    mpart2 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨2, by omega⟩ i j := by
  refine (congrFun (mpart2_eq ka va x5 x7 x8 x9 x10) (ix2 i j)).trans ?_
  exact head_apply 2 (by omega) 256 (by omega) (saugV ka va) x5 x7 x8 x9 x10 inb_S128x8_S128x1_0_2 inb_S8x128_S1x128_2_0
    inb_S1024x128_S128x128_256_0 S (fun a c => (hS a c).trans (saugV_apply ka va a c).symm) i j

/-! ## Head 3 -/

/-- The fourth head's block: the body's chain of steps from the two loaded 144-row matrices and the parameter blocks. -/
def mpart3 (ka va : Vec Ideal S144x2048 .bf16) (x5 : Vec Ideal S1024x128 .f32) (x7 x8 : Vec Ideal S128x8 .f32) (x9 x10 : Vec Ideal S8x128 .f32) : FVec Ideal S128x128 .f32 :=
  k0_pay241 (F := Ideal)
    (k0_pay237 (F := Ideal) (View.ld x8 (Rect.unit (s := S128x8) ![0, 3] S128x1.size inb_S128x8_S128x1_0_3)))
    (View.ld x10 (Rect.unit (s := S8x128) ![3, 0] S1x128.size inb_S8x128_S1x128_3_0))
    (k0_pay238 (F := Ideal) ka va (View.ld x7 (Rect.unit (s := S128x8) ![0, 3] S128x1.size inb_S128x8_S128x1_0_3)) (View.ld x9 (Rect.unit (s := S8x128) ![3, 0] S1x128.size inb_S8x128_S1x128_3_0)) (View.ld x10 (Rect.unit (s := S8x128) ![3, 0] S1x128.size inb_S8x128_S1x128_3_0)))
    (k0_pay239 (F := Ideal) ka va (View.ld x9 (Rect.unit (s := S8x128) ![3, 0] S1x128.size inb_S8x128_S1x128_3_0)))
    (k0_pay240 (F := Ideal) (View.ld x8 (Rect.unit (s := S128x8) ![0, 3] S128x1.size inb_S128x8_S128x1_0_3)))
    (View.ld x5 (Rect.unit (s := S1024x128) ![384, 0] S128x128.size inb_S1024x128_S128x128_384_0))

/-- The chain is the head's map, assembled from the contraction of the two matrices, multiplied into the head's rows of the
    output weight. -/
theorem mpart3_eq (ka va : Vec Ideal S144x2048 .bf16) (x5 : Vec Ideal S1024x128 .f32) (x7 x8 : Vec Ideal S128x8 .f32) (x9 x10 : Vec Ideal S8x128 .f32) :
    mpart3 ka va x5 x7 x8 x9 x10
      = FloatOps.matmul (F := Ideal) (φ₁ := .f32) (φ₂ := .f32) dot_S128x128_S128x128_S128x128_1_0_0_1_n_n none
          (headMap (saugV ka va) (View.ld x7 (Rect.unit (s := S128x8) ![0, 3] S128x1.size inb_S128x8_S128x1_0_3)) (View.ld x8 (Rect.unit (s := S128x8) ![0, 3] S128x1.size inb_S128x8_S128x1_0_3))
            (View.ld x9 (Rect.unit (s := S8x128) ![3, 0] S1x128.size inb_S8x128_S1x128_3_0)) (View.ld x10 (Rect.unit (s := S8x128) ![3, 0] S1x128.size inb_S8x128_S1x128_3_0)))
          (View.ld x5 (Rect.unit (s := S1024x128) ![384, 0] S128x128.size inb_S1024x128_S128x128_384_0)) (constant S128x128 .f32 0x00000000#32) := by
  unfold mpart3 k0_pay241 k0_pay237 k0_pay238 k0_pay239 k0_pay240 headMap saugV k0_pay236
  rfl

/-- The fourth head's block at an entry is the shared statement's block of head 3, for any family of matrices whose member 3
    is the contraction of the two loaded matrices over the 2048 positions. -/
theorem mpart3_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨3, by omega⟩ a b = ∑ n : Fin 2048, ka (ix2 a n) * va (ix2 b n))
    (i j : Fin 128) :
    mpart3 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨3, by omega⟩ i j := by
  refine (congrFun (mpart3_eq ka va x5 x7 x8 x9 x10) (ix2 i j)).trans ?_
  exact head_apply 3 (by omega) 384 (by omega) (saugV ka va) x5 x7 x8 x9 x10 inb_S128x8_S128x1_0_3 inb_S8x128_S1x128_3_0
    inb_S1024x128_S128x128_384_0 S (fun a c => (hS a c).trans (saugV_apply ka va a c).symm) i j

end Cert.KernelIdeal.HeadsA

end
-- ==== Proof.KerHeadsB.lean ====
/-
  The second half of the fused kernel's head loop and its epilogue, entry by entry over the extended reals.

  Heads 4 … 7. A head contracts its two augmented 144-row matrices over the 2048 positions into a 144 × 144 matrix `M`,
  cuts from `M` the 128 × 128 block, columns 128 and 129 of the first 128 rows, rows 128 and 129 of the first 128 columns and
  the four corner entries, and combines them with the head's column of the key scale and shift and its row of the value scale
  and shift into the head's map
    `A i k = (((M i k − M i 128) − M 128 k) + M 128 128) · (g i · γ k) + (g i · (M i 129 − M 128 129)) · β k
              + b i · ((M 129 k − M 129 128) · γ k) + 2048 · (b i · β k)`,
  which is multiplied into the head's 128 rows of the output projection: `Σ_k A i k · wo (128h + k) j`. The body groups
  these steps differently for each head; each grouping unfolds to the same chain (`amapV`, `mpartV`), and the chain's
  value at an entry is the shared statement's block of the head (`mpart4_apply` … `mpart7_apply`).

  Epilogue. The eight 128 × 128 blocks are stacked into a 1024 × 128 matrix (row `e` is row `e mod 128` of block `e / 128`);
  the effective weight is `(wq · m_all) · (1/2048)`, the effective bias `(bq · m_all + bo) · (1/2048)`, and the output block
  is `x · w_eff + b_eff` with the bias spread over the 2048 rows. At an entry this is the shared statement's kernel row
  (`out_apply`). The body computes the eighth head's block in line with the stacking, so the output takes the seven
  earlier blocks as given and the eighth head's two loaded matrices.
-/
import proofs.«148891_g2000303815147335_pallasbulk_1180_8_alg».proof.Defs
import proofs.«148891_g2000303815147335_pallasbulk_1180_8_alg».proof.Proof.Gen.KernelIdeal.Skeleton
import proofs.«148891_g2000303815147335_pallasbulk_1180_8_alg».proof.Proof.LibMatmul2
import proofs.«148891_g2000303815147335_pallasbulk_1180_8_alg».proof.Proof.Spec
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.HeadsB

open Cert.KernelIdeal Cert.KernelIdeal.Gen Idealize.ShloMosaic Idealize.ShloMosaic.ValueIdx

/-! ## Entries of the slices of a 144 × 144 matrix -/

section Slices
variable (sa : FVec Ideal S144x144 .f32)

theorem sl_s (i k : Fin 128) :
    extractStridedSlice S128x128 ![0, 0] sa slices_S144x144_o0_0_S128x128 (ix2 i k) = sa (ix2 (Cert.Spec.up i) (Cert.Spec.up k)) :=
  extractStridedSlice_apply ![0, 0] sa slices_S144x144_o0_0_S128x128 (ix2 i k) (ix2 (Cert.Spec.up i) (Cert.Spec.up k)) (fun a => match a with
    | ⟨0, _⟩ => by show i.val = 0 + i.val; omega
    | ⟨1, _⟩ => by show k.val = 0 + k.val; omega)

theorem sl_c1 (i : Fin 128) :
    extractStridedSlice S128x1 ![0, 128] sa slices_S144x144_o0_128_S128x1 (ix2 i 0) = sa (ix2 (Cert.Spec.up i) ⟨128, by omega⟩) :=
  extractStridedSlice_apply ![0, 128] sa slices_S144x144_o0_128_S128x1 (ix2 i 0) (ix2 (Cert.Spec.up i) ⟨128, by omega⟩) (fun a => match a with
    | ⟨0, _⟩ => by show i.val = 0 + i.val; omega
    | ⟨1, _⟩ => rfl)

theorem sl_k1 (i : Fin 128) :
    extractStridedSlice S128x1 ![0, 129] sa slices_S144x144_o0_129_S128x1 (ix2 i 0) = sa (ix2 (Cert.Spec.up i) ⟨129, by omega⟩) :=
  extractStridedSlice_apply ![0, 129] sa slices_S144x144_o0_129_S128x1 (ix2 i 0) (ix2 (Cert.Spec.up i) ⟨129, by omega⟩) (fun a => match a with
    | ⟨0, _⟩ => by show i.val = 0 + i.val; omega
    | ⟨1, _⟩ => rfl)

theorem sl_c2 (k : Fin 128) :
    extractStridedSlice S1x128 ![128, 0] sa slices_S144x144_o128_0_S1x128 (ix2 0 k) = sa (ix2 ⟨128, by omega⟩ (Cert.Spec.up k)) :=
  extractStridedSlice_apply ![128, 0] sa slices_S144x144_o128_0_S1x128 (ix2 0 k) (ix2 ⟨128, by omega⟩ (Cert.Spec.up k)) (fun a => match a with
    | ⟨0, _⟩ => rfl
    | ⟨1, _⟩ => by show k.val = 0 + k.val; omega)

theorem sl_onev (k : Fin 128) :
    extractStridedSlice S1x128 ![129, 0] sa slices_S144x144_o129_0_S1x128 (ix2 0 k) = sa (ix2 ⟨129, by omega⟩ (Cert.Spec.up k)) :=
  extractStridedSlice_apply ![129, 0] sa slices_S144x144_o129_0_S1x128 (ix2 0 k) (ix2 ⟨129, by omega⟩ (Cert.Spec.up k)) (fun a => match a with
    | ⟨0, _⟩ => rfl
    | ⟨1, _⟩ => by show k.val = 0 + k.val; omega)

theorem sl_pp :
    extractStridedSlice S1x1 ![128, 128] sa slices_S144x144_o128_128_S1x1 (ix2 0 0) = sa (ix2 ⟨128, by omega⟩ ⟨128, by omega⟩) :=
  extractStridedSlice_apply ![128, 128] sa slices_S144x144_o128_128_S1x1 (ix2 0 0) (ix2 ⟨128, by omega⟩ ⟨128, by omega⟩) (fun a => match a with
    | ⟨0, _⟩ => rfl
    | ⟨1, _⟩ => rfl)

theorem sl_spk :
    extractStridedSlice S1x1 ![128, 129] sa slices_S144x144_o128_129_S1x1 (ix2 0 0) = sa (ix2 ⟨128, by omega⟩ ⟨129, by omega⟩) :=
  extractStridedSlice_apply ![128, 129] sa slices_S144x144_o128_129_S1x1 (ix2 0 0) (ix2 ⟨128, by omega⟩ ⟨129, by omega⟩) (fun a => match a with
    | ⟨0, _⟩ => rfl
    | ⟨1, _⟩ => rfl)

theorem sl_spv :
    extractStridedSlice S1x1 ![129, 128] sa slices_S144x144_o129_128_S1x1 (ix2 0 0) = sa (ix2 ⟨129, by omega⟩ ⟨128, by omega⟩) :=
  extractStridedSlice_apply ![129, 128] sa slices_S144x144_o129_128_S1x1 (ix2 0 0) (ix2 ⟨129, by omega⟩ ⟨128, by omega⟩) (fun a => match a with
    | ⟨0, _⟩ => rfl
    | ⟨1, _⟩ => rfl)

end Slices

/-! ## Entries of the broadcasts -/

theorem bc_col (v : FVec Ideal S128x1 .f32) (i k : Fin 128) :
    broadcastTo S128x128 v broadcasts_S128x1_S128x128 (ix2 i k) = v (ix2 i 0) :=
  broadcastTo_apply v broadcasts_S128x1_S128x128 (ix2 i k) (ix2 i 0) (fun a => match a with
    | ⟨0, _⟩ => rfl
    | ⟨1, _⟩ => rfl)

theorem bc_row (v : FVec Ideal S1x128 .f32) (i k : Fin 128) :
    broadcastTo S128x128 v broadcasts_S1x128_S128x128 (ix2 i k) = v (ix2 0 k) :=
  broadcastTo_apply v broadcasts_S1x128_S128x128 (ix2 i k) (ix2 0 k) (fun a => match a with
    | ⟨0, _⟩ => rfl
    | ⟨1, _⟩ => rfl)

theorem bc_one (v : FVec Ideal S1x1 .f32) (i k : Fin 128) :
    broadcastTo S128x128 v broadcasts_S1x1_S128x128 (ix2 i k) = v (ix2 0 0) :=
  broadcastTo_apply v broadcasts_S1x1_S128x128 (ix2 i k) (ix2 0 0) (fun a => match a with
    | ⟨0, _⟩ => rfl
    | ⟨1, _⟩ => rfl)

theorem bc_one_col (v : FVec Ideal S1x1 .f32) (i : Fin 128) :
    broadcastTo S128x1 v broadcasts_S1x1_S128x1 (ix2 i 0) = v (ix2 0 0) :=
  broadcastTo_apply v broadcasts_S1x1_S128x1 (ix2 i 0) (ix2 0 0) (fun a => match a with
    | ⟨0, _⟩ => rfl
    | ⟨1, _⟩ => rfl)

theorem bc_one_row (v : FVec Ideal S1x1 .f32) (k : Fin 128) :
    broadcastTo S1x128 v broadcasts_S1x1_S1x128 (ix2 0 k) = v (ix2 0 0) :=
  broadcastTo_apply v broadcasts_S1x1_S1x128 (ix2 0 k) (ix2 0 0) (fun a => match a with
    | ⟨0, _⟩ => rfl
    | ⟨1, _⟩ => rfl)

/-! ## One head's map from its augmented contraction, operation by operation -/

/-- The head's 128 × 128 map assembled from the 144 × 144 contraction `sa`, the head's columns of the key scale and
    shift (`gk`, `bk`, 128 × 1) and its rows of the value scale and shift (`gv`, `bv`, 1 × 128). -/
def amapV (sa : FVec Ideal S144x144 .f32) (gk bk : FVec Ideal S128x1 .f32) (gv bv : FVec Ideal S1x128 .f32) : FVec Ideal S128x128 .f32 :=
  addf
    (addf
      (addf
        (mulf
          (addf
            (subf
              (subf (extractStridedSlice S128x128 ![0, 0] sa slices_S144x144_o0_0_S128x128)
                (broadcastTo S128x128 (extractStridedSlice S128x1 ![0, 128] sa slices_S144x144_o0_128_S128x1) broadcasts_S128x1_S128x128))
              (broadcastTo S128x128 (extractStridedSlice S1x128 ![128, 0] sa slices_S144x144_o128_0_S1x128) broadcasts_S1x128_S128x128))
            (broadcastTo S128x128 (extractStridedSlice S1x1 ![128, 128] sa slices_S144x144_o128_128_S1x1) broadcasts_S1x1_S128x128))
          (mulf (broadcastTo S128x128 gk broadcasts_S128x1_S128x128) (broadcastTo S128x128 gv broadcasts_S1x128_S128x128)))
        (mulf
          (broadcastTo S128x128
            (mulf gk
              (subf (extractStridedSlice S128x1 ![0, 129] sa slices_S144x144_o0_129_S128x1)
                (broadcastTo S128x1 (extractStridedSlice S1x1 ![128, 129] sa slices_S144x144_o128_129_S1x1) broadcasts_S1x1_S128x1)))
            broadcasts_S128x1_S128x128)
          (broadcastTo S128x128 bv broadcasts_S1x128_S128x128)))
      (mulf (broadcastTo S128x128 bk broadcasts_S128x1_S128x128)
        (broadcastTo S128x128
          (mulf
            (subf (extractStridedSlice S1x128 ![129, 0] sa slices_S144x144_o129_0_S1x128)
              (broadcastTo S1x128 (extractStridedSlice S1x1 ![129, 128] sa slices_S144x144_o129_128_S1x1) broadcasts_S1x1_S1x128))
            gv)
          broadcasts_S1x128_S128x128)))
    (mulf (broadcast S128x128 (Scalar.ofBits (F := Ideal) .f32 0x45000000#32))
      (mulf (broadcastTo S128x128 bk broadcasts_S128x1_S128x128) (broadcastTo S128x128 bv broadcasts_S1x128_S128x128)))

/-- The map at an entry, in the shared form: the loaded column and row blocks stand for every head. -/
theorem amapV_apply (sa : FVec Ideal S144x144 .f32) (gk bk : FVec Ideal S128x1 .f32) (gv bv : FVec Ideal S1x128 .f32)
    (h : Fin 8) (i k : Fin 128) :
    amapV sa gk bk gv bv (ix2 i k)
      = Cert.Spec.amapOf (fun i _ => gk (ix2 i 0)) (fun i _ => bk (ix2 i 0)) (fun _ k => gv (ix2 0 k)) (fun _ k => bv (ix2 0 k))
          (fun _ a b => sa (ix2 a b)) h i k := by
  unfold amapV Cert.Spec.amapOf
  simp only [addf_apply, mulf_apply, subf_apply, broadcast_apply, bc_col, bc_row, bc_one, bc_one_col, bc_one_row,
    sl_s, sl_c1, sl_k1, sl_c2, sl_onev, sl_pp, sl_spk, sl_spv]
  rfl

/-- The head's map multiplied into its 128 rows of the output projection. -/
def mpartV (sa : FVec Ideal S144x144 .f32) (gk bk : FVec Ideal S128x1 .f32) (gv bv : FVec Ideal S1x128 .f32)
    (wo : FVec Ideal S128x128 .f32) : FVec Ideal S128x128 .f32 :=
  matmul dot_S128x128_S128x128_S128x128_1_0_0_1_n_n none (amapV sa gk bk gv bv) wo (constant S128x128 .f32 0x00000000#32)

theorem mm128_apply (A B : FVec Ideal S128x128 .f32) (i j : Fin 128) :
    matmul (F := Ideal) dot_S128x128_S128x128_S128x128_1_0_0_1_n_n none A B (constant S128x128 .f32 0x00000000#32) (ix2 i j)
      = ∑ k : Fin 128, A (ix2 i k) * B (ix2 k j) := by
  rw [show dot_S128x128_S128x128_S128x128_1_0_0_1_n_n = (⟨[1], [0], [0], [1], [], [], dot_S128x128_S128x128_S128x128_1_0_0_1_n_n_wf⟩ : DotDims _ _ _) from rfl]
  exact LibMatmul2.matmul_nn_apply _ none A B i j

/-- The augmented contraction at an entry: a sum over the 2048 positions. -/
theorem saug_apply (ka va : FVec Ideal S144x2048 .bf16) (a b : Fin 144) :
    matmul (F := Ideal) dot_S144x2048_S144x2048_S144x144_1_1_0_0_n_n none ka va (constant S144x144 .f32 0x00000000#32) (ix2 a b)
      = ∑ n : Fin 2048, ka (ix2 a n) * va (ix2 b n) := by
  rw [show dot_S144x2048_S144x2048_S144x144_1_1_0_0_n_n = (⟨[1], [1], [0], [0], [], [], dot_S144x2048_S144x2048_S144x144_1_1_0_0_n_n_wf⟩ : DotDims _ _ _) from rfl]
  exact LibMatmul2.matmul_nt_apply _ none ka va a b

theorem mpartV_apply (sa : FVec Ideal S144x144 .f32) (gk bk : FVec Ideal S128x1 .f32) (gv bv : FVec Ideal S1x128 .f32)
    (wo : FVec Ideal S128x128 .f32) (h : Fin 8) (i j : Fin 128) :
    mpartV sa gk bk gv bv wo (ix2 i j)
      = ∑ k : Fin 128, Cert.Spec.amapOf (fun i _ => gk (ix2 i 0)) (fun i _ => bk (ix2 i 0)) (fun _ k => gv (ix2 0 k)) (fun _ k => bv (ix2 0 k))
          (fun _ a b => sa (ix2 a b)) h i k * wo (ix2 k j) := by
  unfold mpartV
  refine (mm128_apply _ wo i j).trans ?_
  refine Finset.sum_congr rfl fun k _ => ?_
  rw [amapV_apply sa gk bk gv bv h i k]

/-! ## The parameter blocks read through the body's loads -/

theorem ld_col (x : Vec Ideal S128x8 .f32) (h : Nat) (hh : h < 8) (inb : ∀ a, (![0, h] : Fin 2 → Nat) a + S128x1.size a ≤ S128x8.size a)
    (i : Fin 128) : View.ld x (Rect.unit (s := S128x8) ![0, h] S128x1.size inb) (ix2 i 0) = x (ix2 i ⟨h, hh⟩) := by
  show x ((Rect.unit (s := S128x8) ![0, h] S128x1.size inb).idx (ix2 i 0)) = _
  refine congrArg x (funext fun a => Fin.ext ?_)
  match a with
  | ⟨0, _⟩ => show 0 + 1 * i.val = i.val; omega
  | ⟨1, _⟩ => show h + 1 * 0 = h; omega

theorem ld_row (x : Vec Ideal S8x128 .f32) (h : Nat) (hh : h < 8) (inb : ∀ a, (![h, 0] : Fin 2 → Nat) a + S1x128.size a ≤ S8x128.size a)
    (k : Fin 128) : View.ld x (Rect.unit (s := S8x128) ![h, 0] S1x128.size inb) (ix2 0 k) = x (ix2 ⟨h, hh⟩ k) := by
  show x ((Rect.unit (s := S8x128) ![h, 0] S1x128.size inb).idx (ix2 0 k)) = _
  refine congrArg x (funext fun a => Fin.ext ?_)
  match a with
  | ⟨0, _⟩ => show h + 1 * 0 = h; omega
  | ⟨1, _⟩ => show 0 + 1 * k.val = k.val; omega

theorem ld_wo (x : Vec Ideal S1024x128 .f32) (h : Nat) (hh : h < 8)
    (inb : ∀ a, (![128 * h, 0] : Fin 2 → Nat) a + S128x128.size a ≤ S1024x128.size a) (k j : Fin 128) :
    View.ld x (Rect.unit (s := S1024x128) ![128 * h, 0] S128x128.size inb) (ix2 k j)
      = x (ix2 ⟨128 * h + k.val, by have := k.isLt; omega⟩ j) := by
  show x ((Rect.unit (s := S1024x128) ![128 * h, 0] S128x128.size inb).idx (ix2 k j)) = _
  refine congrArg x (funext fun a => Fin.ext ?_)
  match a with
  | ⟨0, _⟩ => show 128 * h + 1 * k.val = 128 * h + k.val; omega
  | ⟨1, _⟩ => show 0 + 1 * j.val = j.val; omega

/-- A head's block in the shared form, once its 144 × 144 matrix, its parameter columns and rows and its rows of the output
    projection are known entry by entry. -/
theorem mpartV_spec (h : Nat) (hh : h < 8) (sa : FVec Ideal S144x144 .f32) (gk bk : FVec Ideal S128x1 .f32) (gv bv : FVec Ideal S1x128 .f32)
    (wo : FVec Ideal S128x128 .f32) (x5 : Vec Ideal S1024x128 .f32) (x7 x8 : Vec Ideal S128x8 .f32) (x9 x10 : Vec Ideal S8x128 .f32)
    (S : Fin 8 → Fin 144 → Fin 144 → EReal) (hS : ∀ a b : Fin 144, S ⟨h, hh⟩ a b = sa (ix2 a b))
    (hgk : ∀ i : Fin 128, gk (ix2 i 0) = x7 (ix2 i ⟨h, hh⟩)) (hbk : ∀ i : Fin 128, bk (ix2 i 0) = x8 (ix2 i ⟨h, hh⟩))
    (hgv : ∀ k : Fin 128, gv (ix2 0 k) = x9 (ix2 ⟨h, hh⟩ k)) (hbv : ∀ k : Fin 128, bv (ix2 0 k) = x10 (ix2 ⟨h, hh⟩ k))
    (hwo : ∀ k j : Fin 128, wo (ix2 k j) = x5 (ix2 ⟨128 * h + k.val, by have := k.isLt; omega⟩ j)) (i j : Fin 128) :
    mpartV sa gk bk gv bv wo (ix2 i j)
      = Cert.Spec.mpartOf (fun e j => x5 (ix2 e j)) (fun i h => x7 (ix2 i h)) (fun i h => x8 (ix2 i h)) (fun h k => x9 (ix2 h k))
          (fun h k => x10 (ix2 h k)) S ⟨h, hh⟩ i j := by
  rw [mpartV_apply sa gk bk gv bv wo ⟨h, hh⟩ i j]
  unfold Cert.Spec.mpartOf
  refine Finset.sum_congr rfl fun k _ => ?_
  refine congrArg₂ (· * ·) ?_ (hwo k j)
  unfold Cert.Spec.amapOf
  simp only [hS, hgk, hbk, hgv, hbv]

/-! ## Head 4 -/

/-- The fifth head's block: the body's chain of steps from the two loaded 144-row matrices and the parameter blocks. -/
def mpart4 (ka va : Vec Ideal S144x2048 .bf16) (x5 : Vec Ideal S1024x128 .f32) (x7 x8 : Vec Ideal S128x8 .f32) (x9 x10 : Vec Ideal S8x128 .f32) : FVec Ideal S128x128 .f32 :=
  k0_pay250 (F := Ideal) (k0_pay243 (F := Ideal) ka va) (k0_pay244 (F := Ideal) ka va) (k0_pay246 (F := Ideal) (View.ld x8 (Rect.unit (s := S128x8) ![0, 4] S128x1.size inb_S128x8_S128x1_0_4)))
    (View.ld x9 (Rect.unit (s := S8x128) ![4, 0] S1x128.size inb_S8x128_S1x128_4_0)) (View.ld x10 (Rect.unit (s := S8x128) ![4, 0] S1x128.size inb_S8x128_S1x128_4_0))
    (k0_pay247 (F := Ideal) ka va (View.ld x7 (Rect.unit (s := S128x8) ![0, 4] S128x1.size inb_S128x8_S128x1_0_4)) (View.ld x9 (Rect.unit (s := S8x128) ![4, 0] S1x128.size inb_S8x128_S1x128_4_0)))
    (k0_pay248 (F := Ideal) ka va (View.ld x7 (Rect.unit (s := S128x8) ![0, 4] S128x1.size inb_S128x8_S128x1_0_4)))
    (k0_pay249 (F := Ideal) (View.ld x10 (Rect.unit (s := S8x128) ![4, 0] S1x128.size inb_S8x128_S1x128_4_0)))
    (View.ld x5 (Rect.unit (s := S1024x128) ![512, 0] S128x128.size inb_S1024x128_S128x128_512_0))

/-- The chain is the head's map, assembled from the contraction of the two matrices, multiplied into the head's rows of the
    output projection. -/
theorem mpart4_eq (ka va : Vec Ideal S144x2048 .bf16) (x5 : Vec Ideal S1024x128 .f32) (x7 x8 : Vec Ideal S128x8 .f32) (x9 x10 : Vec Ideal S8x128 .f32) :
    mpart4 ka va x5 x7 x8 x9 x10
      = mpartV (k0_pay242 (F := Ideal) ka va) (k0_pay245 (F := Ideal) (View.ld x7 (Rect.unit (s := S128x8) ![0, 4] S128x1.size inb_S128x8_S128x1_0_4))) (k0_pay246 (F := Ideal) (View.ld x8 (Rect.unit (s := S128x8) ![0, 4] S128x1.size inb_S128x8_S128x1_0_4)))
          (View.ld x9 (Rect.unit (s := S8x128) ![4, 0] S1x128.size inb_S8x128_S1x128_4_0)) (View.ld x10 (Rect.unit (s := S8x128) ![4, 0] S1x128.size inb_S8x128_S1x128_4_0)) (View.ld x5 (Rect.unit (s := S1024x128) ![512, 0] S128x128.size inb_S1024x128_S128x128_512_0)) := rfl

/-! ## Head 5 -/

/-- The sixth head's block: the body's chain of steps from the two loaded 144-row matrices and the parameter blocks. -/
def mpart5 (ka va : Vec Ideal S144x2048 .bf16) (x5 : Vec Ideal S1024x128 .f32) (x7 x8 : Vec Ideal S128x8 .f32) (x9 x10 : Vec Ideal S8x128 .f32) : FVec Ideal S128x128 .f32 :=
  k0_pay260 (F := Ideal) (k0_pay252 (F := Ideal) ka va) (k0_pay253 (F := Ideal) ka va) (k0_pay254 (F := Ideal) ka va) (k0_pay255 (F := Ideal) ka va)
    (k0_pay256 (F := Ideal) (View.ld x7 (Rect.unit (s := S128x8) ![0, 5] S128x1.size inb_S128x8_S128x1_0_5))) (k0_pay257 (F := Ideal) (View.ld x8 (Rect.unit (s := S128x8) ![0, 5] S128x1.size inb_S128x8_S128x1_0_5)))
    (View.ld x9 (Rect.unit (s := S8x128) ![5, 0] S1x128.size inb_S8x128_S1x128_5_0)) (View.ld x10 (Rect.unit (s := S8x128) ![5, 0] S1x128.size inb_S8x128_S1x128_5_0))
    (k0_pay258 (F := Ideal) ka va)
    (k0_pay259 (F := Ideal) (View.ld x7 (Rect.unit (s := S128x8) ![0, 5] S128x1.size inb_S128x8_S128x1_0_5)) (View.ld x9 (Rect.unit (s := S8x128) ![5, 0] S1x128.size inb_S8x128_S1x128_5_0)))
    (View.ld x5 (Rect.unit (s := S1024x128) ![640, 0] S128x128.size inb_S1024x128_S128x128_640_0))

/-- The chain is the head's map, assembled from the contraction of the two matrices, multiplied into the head's rows of the
    output projection. -/
theorem mpart5_eq (ka va : Vec Ideal S144x2048 .bf16) (x5 : Vec Ideal S1024x128 .f32) (x7 x8 : Vec Ideal S128x8 .f32) (x9 x10 : Vec Ideal S8x128 .f32) :
    mpart5 ka va x5 x7 x8 x9 x10
      = mpartV (k0_pay251 (F := Ideal) ka va) (k0_pay256 (F := Ideal) (View.ld x7 (Rect.unit (s := S128x8) ![0, 5] S128x1.size inb_S128x8_S128x1_0_5))) (k0_pay257 (F := Ideal) (View.ld x8 (Rect.unit (s := S128x8) ![0, 5] S128x1.size inb_S128x8_S128x1_0_5)))
          (View.ld x9 (Rect.unit (s := S8x128) ![5, 0] S1x128.size inb_S8x128_S1x128_5_0)) (View.ld x10 (Rect.unit (s := S8x128) ![5, 0] S1x128.size inb_S8x128_S1x128_5_0)) (View.ld x5 (Rect.unit (s := S1024x128) ![640, 0] S128x128.size inb_S1024x128_S128x128_640_0)) := rfl

/-! ## Head 6 -/

/-- The seventh head's block: the body's chain of steps from the two loaded 144-row matrices and the parameter blocks. -/
def mpart6 (ka va : Vec Ideal S144x2048 .bf16) (x5 : Vec Ideal S1024x128 .f32) (x7 x8 : Vec Ideal S128x8 .f32) (x9 x10 : Vec Ideal S8x128 .f32) : FVec Ideal S128x128 .f32 :=
  k0_pay271 (F := Ideal) (k0_pay262 (F := Ideal) ka va) (k0_pay263 (F := Ideal) ka va) (k0_pay264 (F := Ideal) ka va) (k0_pay265 (F := Ideal) ka va)
    (k0_pay266 (F := Ideal) ka va)
    (k0_pay267 (F := Ideal) (View.ld x7 (Rect.unit (s := S128x8) ![0, 6] S128x1.size inb_S128x8_S128x1_0_6))) (k0_pay268 (F := Ideal) (View.ld x8 (Rect.unit (s := S128x8) ![0, 6] S128x1.size inb_S128x8_S128x1_0_6)))
    (View.ld x9 (Rect.unit (s := S8x128) ![6, 0] S1x128.size inb_S8x128_S1x128_6_0)) (View.ld x10 (Rect.unit (s := S8x128) ![6, 0] S1x128.size inb_S8x128_S1x128_6_0))
    (k0_pay269 (F := Ideal) ka va) (k0_pay270 (F := Ideal) ka va)
    (View.ld x5 (Rect.unit (s := S1024x128) ![768, 0] S128x128.size inb_S1024x128_S128x128_768_0))

/-- The chain is the head's map, assembled from the contraction of the two matrices, multiplied into the head's rows of the
    output projection. -/
theorem mpart6_eq (ka va : Vec Ideal S144x2048 .bf16) (x5 : Vec Ideal S1024x128 .f32) (x7 x8 : Vec Ideal S128x8 .f32) (x9 x10 : Vec Ideal S8x128 .f32) :
    mpart6 ka va x5 x7 x8 x9 x10
      = mpartV (k0_pay261 (F := Ideal) ka va) (k0_pay267 (F := Ideal) (View.ld x7 (Rect.unit (s := S128x8) ![0, 6] S128x1.size inb_S128x8_S128x1_0_6))) (k0_pay268 (F := Ideal) (View.ld x8 (Rect.unit (s := S128x8) ![0, 6] S128x1.size inb_S128x8_S128x1_0_6)))
          (View.ld x9 (Rect.unit (s := S8x128) ![6, 0] S1x128.size inb_S8x128_S1x128_6_0)) (View.ld x10 (Rect.unit (s := S8x128) ![6, 0] S1x128.size inb_S8x128_S1x128_6_0)) (View.ld x5 (Rect.unit (s := S1024x128) ![768, 0] S128x128.size inb_S1024x128_S128x128_768_0)) := rfl

/-! ## Head 7 -/

/-- The eighth head's block; the body computes it in line with the stacking of the eight blocks. -/
def mpart7 (ka va : Vec Ideal S144x2048 .bf16) (x5 : Vec Ideal S1024x128 .f32) (x7 x8 : Vec Ideal S128x8 .f32) (x9 x10 : Vec Ideal S8x128 .f32) : FVec Ideal S128x128 .f32 :=
  mpartV (k0_pay272 (F := Ideal) ka va) (k0_pay281 (F := Ideal) (View.ld x7 (Rect.unit (s := S128x8) ![0, 7] S128x1.size inb_S128x8_S128x1_0_7))) (k0_pay282 (F := Ideal) (View.ld x8 (Rect.unit (s := S128x8) ![0, 7] S128x1.size inb_S128x8_S128x1_0_7)))
          (View.ld x9 (Rect.unit (s := S8x128) ![7, 0] S1x128.size inb_S8x128_S1x128_7_0)) (View.ld x10 (Rect.unit (s := S8x128) ![7, 0] S1x128.size inb_S8x128_S1x128_7_0)) (View.ld x5 (Rect.unit (s := S1024x128) ![896, 0] S128x128.size inb_S1024x128_S128x128_896_0))

/-- The fifth head's block at an entry is the shared statement's block of head 4, for any family of matrices whose member 4
    is the contraction of the two loaded matrices over the 2048 positions. -/
theorem mpart4_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨4, by omega⟩ a b = ∑ n : Fin 2048, ka (ix2 a n) * va (ix2 b n))
    (i j : Fin 128) :
    mpart4 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨4, by omega⟩ i j := by
  rw [mpart4_eq]
  refine mpartV_spec 4 (by omega) _ _ _ _ _ _ x5 x7 x8 x9 x10 S ?_ ?_ ?_ ?_ ?_ ?_ i j
  · intro a b
    unfold k0_pay242
    exact (hS a b).trans (saug_apply ka va a b).symm
  · intro i
    unfold k0_pay245
    rw [shapeCast_self]
    exact ld_col x7 4 (by omega) inb_S128x8_S128x1_0_4 i
  · intro i
    unfold k0_pay246
    rw [shapeCast_self]
    exact ld_col x8 4 (by omega) inb_S128x8_S128x1_0_4 i
  · exact fun k => ld_row x9 4 (by omega) inb_S8x128_S1x128_4_0 k
  · exact fun k => ld_row x10 4 (by omega) inb_S8x128_S1x128_4_0 k
  · exact fun k j => ld_wo x5 4 (by omega) inb_S1024x128_S128x128_512_0 k j

/-- The sixth head's block at an entry is the shared statement's block of head 5, for any family of matrices whose member 5
    is the contraction of the two loaded matrices over the 2048 positions. -/
theorem mpart5_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨5, by omega⟩ a b = ∑ n : Fin 2048, ka (ix2 a n) * va (ix2 b n))
    (i j : Fin 128) :
    mpart5 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨5, by omega⟩ i j := by
  rw [mpart5_eq]
  refine mpartV_spec 5 (by omega) _ _ _ _ _ _ x5 x7 x8 x9 x10 S ?_ ?_ ?_ ?_ ?_ ?_ i j
  · intro a b
    unfold k0_pay251
    exact (hS a b).trans (saug_apply ka va a b).symm
  · intro i
    unfold k0_pay256
    rw [shapeCast_self]
    exact ld_col x7 5 (by omega) inb_S128x8_S128x1_0_5 i
  · intro i
    unfold k0_pay257
    rw [shapeCast_self]
    exact ld_col x8 5 (by omega) inb_S128x8_S128x1_0_5 i
  · exact fun k => ld_row x9 5 (by omega) inb_S8x128_S1x128_5_0 k
  · exact fun k => ld_row x10 5 (by omega) inb_S8x128_S1x128_5_0 k
  · exact fun k j => ld_wo x5 5 (by omega) inb_S1024x128_S128x128_640_0 k j

/-- The seventh head's block at an entry is the shared statement's block of head 6, for any family of matrices whose member 6
    is the contraction of the two loaded matrices over the 2048 positions. -/
theorem mpart6_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨6, by omega⟩ a b = ∑ n : Fin 2048, ka (ix2 a n) * va (ix2 b n))
    (i j : Fin 128) :
    mpart6 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨6, by omega⟩ i j := by
  rw [mpart6_eq]
  refine mpartV_spec 6 (by omega) _ _ _ _ _ _ x5 x7 x8 x9 x10 S ?_ ?_ ?_ ?_ ?_ ?_ i j
  · intro a b
    unfold k0_pay261
    exact (hS a b).trans (saug_apply ka va a b).symm
  · intro i
    unfold k0_pay267
    rw [shapeCast_self]
    exact ld_col x7 6 (by omega) inb_S128x8_S128x1_0_6 i
  · intro i
    unfold k0_pay268
    rw [shapeCast_self]
    exact ld_col x8 6 (by omega) inb_S128x8_S128x1_0_6 i
  · exact fun k => ld_row x9 6 (by omega) inb_S8x128_S1x128_6_0 k
  · exact fun k => ld_row x10 6 (by omega) inb_S8x128_S1x128_6_0 k
  · exact fun k j => ld_wo x5 6 (by omega) inb_S1024x128_S128x128_768_0 k j

/-- The eighth head's block at an entry is the shared statement's block of head 7, for any family of matrices whose member 7
    is the contraction of the two loaded matrices over the 2048 positions. -/
theorem mpart7_apply (ka va : Vec Ideal S144x2048 .bf16) (x5 : Vec Ideal S1024x128 .f32) (x7 x8 : Vec Ideal S128x8 .f32) (x9 x10 : Vec Ideal S8x128 .f32)
    (S : Fin 8 → Fin 144 → Fin 144 → EReal) (hS : ∀ a b : Fin 144, S ⟨7, by omega⟩ a b = ∑ n : Fin 2048, ka (ix2 a n) * va (ix2 b n))
    (i j : Fin 128) :
    mpart7 ka va x5 x7 x8 x9 x10 (ix2 i j)
      = Cert.Spec.mpartOf (fun e j => x5 (ix2 e j)) (fun i h => x7 (ix2 i h)) (fun i h => x8 (ix2 i h)) (fun h k => x9 (ix2 h k))
          (fun h k => x10 (ix2 h k)) S ⟨7, by omega⟩ i j := by
  unfold mpart7
  refine mpartV_spec 7 (by omega) _ _ _ _ _ _ x5 x7 x8 x9 x10 S ?_ ?_ ?_ ?_ ?_ ?_ i j
  · intro a b
    unfold k0_pay272
    exact (hS a b).trans (saug_apply ka va a b).symm
  · intro i
    unfold k0_pay281
    rw [shapeCast_self]
    exact ld_col x7 7 (by omega) inb_S128x8_S128x1_0_7 i
  · intro i
    unfold k0_pay282
    rw [shapeCast_self]
    exact ld_col x8 7 (by omega) inb_S128x8_S128x1_0_7 i
  · exact fun k => ld_row x9 7 (by omega) inb_S8x128_S1x128_7_0 k
  · exact fun k => ld_row x10 7 (by omega) inb_S8x128_S1x128_7_0 k
  · exact fun k j => ld_wo x5 7 (by omega) inb_S1024x128_S128x128_896_0 k j

/-! ## Head 7 and the stacked matrix -/

/-- Head 7's block: the body computes it in line with the stacking. -/
def mpartL7 (ka va : FVec Ideal S144x2048 .bf16) (gk bk : Vec Ideal S128x1 .f32) (gv bv : Vec Ideal S1x128 .f32) (wo : Vec Ideal S128x128 .f32) :
    FVec Ideal S128x128 .f32 :=
  mpartV (k0_pay272 (F := Ideal) ka va) (k0_pay281 (F := Ideal) gk) (k0_pay282 (F := Ideal) bk) gv bv wo

/-- The eight blocks stacked along the rows, as the body computes it: blocks 0 … 6 given, head 7's computed in line. -/
def mallL (m0 m1 m2 m3 m4 m5 m6 : FVec Ideal S128x128 .f32) (ka va : FVec Ideal S144x2048 .bf16) (gk bk : Vec Ideal S128x1 .f32)
    (gv bv : Vec Ideal S1x128 .f32) (wo : Vec Ideal S128x128 .f32) : FVec Ideal S1024x128 .f32 :=
  k0_pay283 (F := Ideal) m0 m1 m2 m3 m4 m5 m6 (k0_pay273 ka va) (k0_pay274 ka va) (k0_pay275 ka va) (k0_pay276 ka va) (k0_pay277 ka va)
    (k0_pay278 ka va) (k0_pay279 ka va) (k0_pay280 ka va) (k0_pay281 gk) (k0_pay282 bk) gv bv wo

/-- The eight blocks as a family. -/
def blk8 (m0 m1 m2 m3 m4 m5 m6 m7 : FVec Ideal S128x128 .f32) : Fin 8 → FVec Ideal S128x128 .f32 :=
  ![m0, m1, m2, m3, m4, m5, m6, m7]

theorem mallL_eq (m0 m1 m2 m3 m4 m5 m6 : FVec Ideal S128x128 .f32) (ka va : FVec Ideal S144x2048 .bf16) (gk bk : Vec Ideal S128x1 .f32)
    (gv bv : Vec Ideal S1x128 .f32) (wo : Vec Ideal S128x128 .f32) :
    mallL m0 m1 m2 m3 m4 m5 m6 ka va gk bk gv bv wo
      = concatenate S1024x128 0 (List.ofFn fun n : Fin 8 => (⟨S128x128, blk8 m0 m1 m2 m3 m4 m5 m6 (mpartL7 ka va gk bk gv bv wo) n⟩ : (s : Shape) × (s.Idx → EReal)))
          concatenates_S128x128_S128x128_S128x128_S128x128_S128x128_S128x128_S128x128_S128x128_S1024x128_d0 := rfl

/-- Row `e` of the stacked matrix is row `e mod 128` of block `e / 128`. -/
theorem mallL_apply (m0 m1 m2 m3 m4 m5 m6 : FVec Ideal S128x128 .f32) (ka va : FVec Ideal S144x2048 .bf16) (gk bk : Vec Ideal S128x1 .f32)
    (gv bv : Vec Ideal S1x128 .f32) (wo : Vec Ideal S128x128 .f32) (e : Fin 1024) (j : Fin 128) :
    mallL m0 m1 m2 m3 m4 m5 m6 ka va gk bk gv bv wo (ix2 e j)
      = blk8 m0 m1 m2 m3 m4 m5 m6 (mpartL7 ka va gk bk gv bv wo) ⟨e.val / 128, by have := e.isLt; omega⟩
          (ix2 ⟨e.val % 128, Nat.mod_lt _ (by omega)⟩ j) := by
  rw [mallL_eq]
  exact concatenate_ofFn_apply (t := S1024x128) (s₁ := S128x128) 0 (blk8 m0 m1 m2 m3 m4 m5 m6 (mpartL7 ka va gk bk gv bv wo)) _ rfl 128 rfl
    (ix2 e j) ⟨e.val / 128, by have := e.isLt; omega⟩ rfl (ix2 ⟨e.val % 128, Nat.mod_lt _ (by omega)⟩ j) rfl
    (fun b => match b with
      | ⟨0, _⟩ => fun hb => absurd rfl hb
      | ⟨1, _⟩ => fun _ => rfl)

/-! ## The effective weight and bias, and the output block -/

section Epilogue
variable (m0 m1 m2 m3 m4 m5 m6 : FVec Ideal S128x128 .f32) (ka va : FVec Ideal S144x2048 .bf16) (gk bk : Vec Ideal S128x1 .f32)
  (gv bv : Vec Ideal S1x128 .f32) (wo : Vec Ideal S128x128 .f32)

/-- `(wq · m_all) · (1/2048)`, as the body computes it. -/
def weffL (wq : Vec Ideal S256x1024 .f32) : FVec Ideal S256x128 .f32 :=
  k0_pay285 (F := Ideal) m0 m1 m2 m3 m4 m5 m6 (k0_pay273 ka va) (k0_pay274 ka va) (k0_pay275 ka va) (k0_pay276 ka va) (k0_pay277 ka va)
    (k0_pay278 ka va) (k0_pay279 ka va) (k0_pay280 ka va) (k0_pay281 gk) (k0_pay282 bk) gv bv wo wq

/-- `(bq · m_all + bo) · (1/2048)`, as the body computes it. -/
def beffL (bq : Vec Ideal S1x1024 .f32) (bo : Vec Ideal S1x128 .f32) : FVec Ideal S1x128 .f32 :=
  k0_pay284 (F := Ideal) m0 m1 m2 m3 m4 m5 m6 (k0_pay273 ka va) (k0_pay274 ka va) (k0_pay275 ka va) (k0_pay276 ka va) (k0_pay277 ka va)
    (k0_pay278 ka va) (k0_pay279 ka va) (k0_pay280 ka va) (k0_pay281 gk) (k0_pay282 bk) gv bv wo bq bo

/-- The output block, as the body computes it from the loaded blocks. -/
def outL (x : Vec Ideal S1x2048x256 .f32) (wq : Vec Ideal S256x1024 .f32) (bq : Vec Ideal S1x1024 .f32) (bo : Vec Ideal S1x128 .f32) :
    FVec Ideal S1x2048x128 .f32 :=
  k0_pay1 (F := Ideal) (k0_pay2 (F := Ideal) x) (beffL m0 m1 m2 m3 m4 m5 m6 ka va gk bk gv bv wo bq bo)
    (weffL m0 m1 m2 m3 m4 m5 m6 ka va gk bk gv bv wo wq)

theorem weffL_apply (wq : Vec Ideal S256x1024 .f32) (c : Fin 256) (j : Fin 128) :
    weffL m0 m1 m2 m3 m4 m5 m6 ka va gk bk gv bv wo wq (ix2 c j)
      = (∑ e : Fin 1024, wq (ix2 c e) * mallL m0 m1 m2 m3 m4 m5 m6 ka va gk bk gv bv wo (ix2 e j)) * Cert.Spec.cInvN := by
  unfold weffL k0_pay285
  refine congrArg₂ (· * ·) ?_ rfl
  rw [show dot_S256x1024_S1024x128_S256x128_1_0_0_1_n_n = (⟨[1], [0], [0], [1], [], [], dot_S256x1024_S1024x128_S256x128_1_0_0_1_n_n_wf⟩ : DotDims _ _ _) from rfl]
  exact LibMatmul2.matmul_nn_apply _ none wq _ c j

theorem beffL_apply (bq : Vec Ideal S1x1024 .f32) (bo : Vec Ideal S1x128 .f32) (j : Fin 128) :
    beffL m0 m1 m2 m3 m4 m5 m6 ka va gk bk gv bv wo bq bo (ix2 0 j)
      = ((∑ e : Fin 1024, bq (ix2 0 e) * mallL m0 m1 m2 m3 m4 m5 m6 ka va gk bk gv bv wo (ix2 e j)) + bo (ix2 0 j)) * Cert.Spec.cInvN := by
  unfold beffL k0_pay284
  refine congrArg₂ (· * ·) (congrArg₂ (· + ·) ?_ rfl) rfl
  rw [show dot_S1x1024_S1024x128_S1x128_1_0_0_1_n_n = (⟨[1], [0], [0], [1], [], [], dot_S1x1024_S1024x128_S1x128_1_0_0_1_n_n_wf⟩ : DotDims _ _ _) from rfl]
  exact LibMatmul2.matmul_nn_apply _ none bq _ 0 j

/-- The input block as a 2048 × 256 matrix. -/
theorem xbf_apply (x : Vec Ideal S1x2048x256 .f32) (n : Fin 2048) (c : Fin 256) :
    k0_pay2 (F := Ideal) x (ix2 n c) = x (ix3 0 n c) := by
  unfold k0_pay2
  refine (shapeCast_dropUnit_apply ![2048, 256] x shapeCasts_S1x2048x256_S2048x256 (ix2 n c)).trans ?_
  refine congrArg x ?_
  funext d; match d with | ⟨0, _⟩ => rfl | ⟨1, _⟩ => rfl | ⟨2, _⟩ => rfl

theorem outL_apply (x : Vec Ideal S1x2048x256 .f32) (wq : Vec Ideal S256x1024 .f32) (bq : Vec Ideal S1x1024 .f32) (bo : Vec Ideal S1x128 .f32)
    (n : Fin 2048) (j : Fin 128) :
    outL m0 m1 m2 m3 m4 m5 m6 ka va gk bk gv bv wo x wq bq bo (ix3 0 n j)
      = (∑ c : Fin 256, x (ix3 0 n c)
            * ((∑ e : Fin 1024, wq (ix2 c e) * mallL m0 m1 m2 m3 m4 m5 m6 ka va gk bk gv bv wo (ix2 e j)) * Cert.Spec.cInvN))
        + ((∑ e : Fin 1024, bq (ix2 0 e) * mallL m0 m1 m2 m3 m4 m5 m6 ka va gk bk gv bv wo (ix2 e j)) + bo (ix2 0 j)) * Cert.Spec.cInvN := by
  unfold outL k0_pay1
  refine (shapeCast_addUnit_apply ![2048, 128] _ shapeCasts_S2048x128_S1x2048x128 (ix3 0 n j)).trans ?_
  have e : (fun a : Fin 2 => (ix3 (0 : Fin 1) n j) a.succ) = ix2 n j := by
    funext a; match a with | ⟨0, _⟩ => rfl | ⟨1, _⟩ => rfl
  rw [e]
  refine congrArg₂ (· + ·) ?_ ?_
  · rw [show dot_S2048x256_S256x128_S2048x128_1_0_0_1_n_n = (⟨[1], [0], [0], [1], [], [], dot_S2048x256_S256x128_S2048x128_1_0_0_1_n_n_wf⟩ : DotDims _ _ _) from rfl]
    refine (LibMatmul2.matmul_nn_apply _ none _ _ n j).trans ?_
    refine Finset.sum_congr rfl fun c _ => ?_
    exact congrArg₂ (· * ·) (xbf_apply x n c) (weffL_apply m0 m1 m2 m3 m4 m5 m6 ka va gk bk gv bv wo wq c j)
  · refine (broadcastTo_apply _ broadcasts_S1x128_S2048x128 (ix2 n j) (ix2 0 j) (fun a => match a with
      | ⟨0, _⟩ => rfl
      | ⟨1, _⟩ => rfl)).trans ?_
    exact beffL_apply m0 m1 m2 m3 m4 m5 m6 ka va gk bk gv bv wo bq bo j

end Epilogue

/-! ## The output block -/

theorem ld_x0 (x0 : Vec Ideal S1x2048x256 .f32) (n : Fin 2048) (c : Fin 256) :
    (View.ld x0 (Rect.unit (s := S1x2048x256) ![0, 0, 0] S1x2048x256.size inb_S1x2048x256_S1x2048x256_0_0_0)) (ix3 0 n c) = x0 (ix3 0 n c) := by
  show x0 ((Rect.unit (s := S1x2048x256) ![0, 0, 0] S1x2048x256.size inb_S1x2048x256_S1x2048x256_0_0_0).idx (ix3 0 n c)) = _
  refine congrArg x0 (funext fun a => Fin.ext ?_)
  match a with
  | ⟨0, _⟩ => show 0 + 1 * 0 = 0; omega
  | ⟨1, _⟩ => show 0 + 1 * n.val = n.val; omega
  | ⟨2, _⟩ => show 0 + 1 * c.val = c.val; omega

theorem ld_x3 (x3 : Vec Ideal S256x1024 .f32) (c : Fin 256) (e : Fin 1024) :
    (View.ld x3 (Rect.unit (s := S256x1024) ![0, 0] S256x1024.size inb_S256x1024_S256x1024_0_0)) (ix2 c e) = x3 (ix2 c e) := by
  show x3 ((Rect.unit (s := S256x1024) ![0, 0] S256x1024.size inb_S256x1024_S256x1024_0_0).idx (ix2 c e)) = _
  refine congrArg x3 (funext fun a => Fin.ext ?_)
  match a with
  | ⟨0, _⟩ => show 0 + 1 * c.val = c.val; omega
  | ⟨1, _⟩ => show 0 + 1 * e.val = e.val; omega

theorem ld_x4 (x4 : Vec Ideal S1x1024 .f32) (e : Fin 1024) :
    (View.ld x4 (Rect.unit (s := S1x1024) ![0, 0] S1x1024.size inb_S1x1024_S1x1024_0_0)) (ix2 0 e) = x4 (ix2 0 e) := by
  show x4 ((Rect.unit (s := S1x1024) ![0, 0] S1x1024.size inb_S1x1024_S1x1024_0_0).idx (ix2 0 e)) = _
  refine congrArg x4 (funext fun a => Fin.ext ?_)
  match a with
  | ⟨0, _⟩ => show 0 + 1 * 0 = 0; omega
  | ⟨1, _⟩ => show 0 + 1 * e.val = e.val; omega

theorem ld_x6 (x6 : Vec Ideal S1x128 .f32) (j : Fin 128) :
    (View.ld x6 (Rect.unit (s := S1x128) ![0, 0] S1x128.size inb_S1x128_S1x128_0_0)) (ix2 0 j) = x6 (ix2 0 j) := by
  show x6 ((Rect.unit (s := S1x128) ![0, 0] S1x128.size inb_S1x128_S1x128_0_0).idx (ix2 0 j)) = _
  refine congrArg x6 (funext fun a => Fin.ext ?_)
  match a with
  | ⟨0, _⟩ => show 0 + 1 * 0 = 0; omega
  | ⟨1, _⟩ => show 0 + 1 * j.val = j.val; omega

/-- A family of eight blocks known entry by entry. -/
theorem blk8_apply (m0 m1 m2 m3 m4 m5 m6 m7 : FVec Ideal S128x128 .f32) (f : Fin 8 → Fin 128 → Fin 128 → EReal)
    (h0 : ∀ i j, m0 (ix2 i j) = f ⟨0, by omega⟩ i j) (h1 : ∀ i j, m1 (ix2 i j) = f ⟨1, by omega⟩ i j)
    (h2 : ∀ i j, m2 (ix2 i j) = f ⟨2, by omega⟩ i j) (h3 : ∀ i j, m3 (ix2 i j) = f ⟨3, by omega⟩ i j)
    (h4 : ∀ i j, m4 (ix2 i j) = f ⟨4, by omega⟩ i j) (h5 : ∀ i j, m5 (ix2 i j) = f ⟨5, by omega⟩ i j)
    (h6 : ∀ i j, m6 (ix2 i j) = f ⟨6, by omega⟩ i j) (h7 : ∀ i j, m7 (ix2 i j) = f ⟨7, by omega⟩ i j)
    (q : Fin 8) (i j : Fin 128) : blk8 m0 m1 m2 m3 m4 m5 m6 m7 q (ix2 i j) = f q i j := by
  match q with
  | ⟨0, _⟩ => exact h0 i j
  | ⟨1, _⟩ => exact h1 i j
  | ⟨2, _⟩ => exact h2 i j
  | ⟨3, _⟩ => exact h3 i j
  | ⟨4, _⟩ => exact h4 i j
  | ⟨5, _⟩ => exact h5 i j
  | ⟨6, _⟩ => exact h6 i j
  | ⟨7, _⟩ => exact h7 i j

/-- The output block, as the body computes it: the input block cast to a 2048 × 256 matrix, the effective bias and the scaled
    effective weight from the seven blocks computed before and the eighth head's pieces, the product plus the bias, stored as
    a 1 × 2048 × 128 block. -/
def OUT (m0 m1 m2 m3 m4 m5 m6 : FVec Ideal S128x128 .f32) (ka7 va7 : Vec Ideal S144x2048 .bf16)
    (x0 : Vec Ideal S1x2048x256 .f32) (x3 : Vec Ideal S256x1024 .f32) (x4 : Vec Ideal S1x1024 .f32) (x5 : Vec Ideal S1024x128 .f32)
    (x6 : Vec Ideal S1x128 .f32) (x7 x8 : Vec Ideal S128x8 .f32) (x9 x10 : Vec Ideal S8x128 .f32) : FVec Ideal S1x2048x128 .f32 :=
  k0_pay1 (F := Ideal) (k0_pay2 (F := Ideal) (View.ld x0 (Rect.unit (s := S1x2048x256) ![0, 0, 0] S1x2048x256.size inb_S1x2048x256_S1x2048x256_0_0_0)))
    (k0_pay284 (F := Ideal) m0 m1 m2 m3 m4 m5 m6
      (k0_pay273 (F := Ideal) ka7 va7) (k0_pay274 (F := Ideal) ka7 va7) (k0_pay275 (F := Ideal) ka7 va7) (k0_pay276 (F := Ideal) ka7 va7)
      (k0_pay277 (F := Ideal) ka7 va7) (k0_pay278 (F := Ideal) ka7 va7) (k0_pay279 (F := Ideal) ka7 va7) (k0_pay280 (F := Ideal) ka7 va7)
      (k0_pay281 (F := Ideal) (View.ld x7 (Rect.unit (s := S128x8) ![0, 7] S128x1.size inb_S128x8_S128x1_0_7)))
      (k0_pay282 (F := Ideal) (View.ld x8 (Rect.unit (s := S128x8) ![0, 7] S128x1.size inb_S128x8_S128x1_0_7)))
      (View.ld x9 (Rect.unit (s := S8x128) ![7, 0] S1x128.size inb_S8x128_S1x128_7_0))
      (View.ld x10 (Rect.unit (s := S8x128) ![7, 0] S1x128.size inb_S8x128_S1x128_7_0))
      (View.ld x5 (Rect.unit (s := S1024x128) ![896, 0] S128x128.size inb_S1024x128_S128x128_896_0))
      (View.ld x4 (Rect.unit (s := S1x1024) ![0, 0] S1x1024.size inb_S1x1024_S1x1024_0_0))
      (View.ld x6 (Rect.unit (s := S1x128) ![0, 0] S1x128.size inb_S1x128_S1x128_0_0)))
    (k0_pay285 (F := Ideal) m0 m1 m2 m3 m4 m5 m6
      (k0_pay273 (F := Ideal) ka7 va7) (k0_pay274 (F := Ideal) ka7 va7) (k0_pay275 (F := Ideal) ka7 va7) (k0_pay276 (F := Ideal) ka7 va7)
      (k0_pay277 (F := Ideal) ka7 va7) (k0_pay278 (F := Ideal) ka7 va7) (k0_pay279 (F := Ideal) ka7 va7) (k0_pay280 (F := Ideal) ka7 va7)
      (k0_pay281 (F := Ideal) (View.ld x7 (Rect.unit (s := S128x8) ![0, 7] S128x1.size inb_S128x8_S128x1_0_7)))
      (k0_pay282 (F := Ideal) (View.ld x8 (Rect.unit (s := S128x8) ![0, 7] S128x1.size inb_S128x8_S128x1_0_7)))
      (View.ld x9 (Rect.unit (s := S8x128) ![7, 0] S1x128.size inb_S8x128_S1x128_7_0))
      (View.ld x10 (Rect.unit (s := S8x128) ![7, 0] S1x128.size inb_S8x128_S1x128_7_0))
      (View.ld x5 (Rect.unit (s := S1024x128) ![896, 0] S128x128.size inb_S1024x128_S128x128_896_0))
      (View.ld x3 (Rect.unit (s := S256x1024) ![0, 0] S256x1024.size inb_S256x1024_S256x1024_0_0)))

theorem OUT_eq (m0 m1 m2 m3 m4 m5 m6 : FVec Ideal S128x128 .f32) (ka7 va7 : Vec Ideal S144x2048 .bf16)
    (x0 : Vec Ideal S1x2048x256 .f32) (x3 : Vec Ideal S256x1024 .f32) (x4 : Vec Ideal S1x1024 .f32) (x5 : Vec Ideal S1024x128 .f32)
    (x6 : Vec Ideal S1x128 .f32) (x7 x8 : Vec Ideal S128x8 .f32) (x9 x10 : Vec Ideal S8x128 .f32) :
    OUT m0 m1 m2 m3 m4 m5 m6 ka7 va7 x0 x3 x4 x5 x6 x7 x8 x9 x10
      = outL m0 m1 m2 m3 m4 m5 m6 ka7 va7 (View.ld x7 (Rect.unit (s := S128x8) ![0, 7] S128x1.size inb_S128x8_S128x1_0_7)) (View.ld x8 (Rect.unit (s := S128x8) ![0, 7] S128x1.size inb_S128x8_S128x1_0_7))
          (View.ld x9 (Rect.unit (s := S8x128) ![7, 0] S1x128.size inb_S8x128_S1x128_7_0)) (View.ld x10 (Rect.unit (s := S8x128) ![7, 0] S1x128.size inb_S8x128_S1x128_7_0)) (View.ld x5 (Rect.unit (s := S1024x128) ![896, 0] S128x128.size inb_S1024x128_S128x128_896_0))
          (View.ld x0 (Rect.unit (s := S1x2048x256) ![0, 0, 0] S1x2048x256.size inb_S1x2048x256_S1x2048x256_0_0_0)) (View.ld x3 (Rect.unit (s := S256x1024) ![0, 0] S256x1024.size inb_S256x1024_S256x1024_0_0)) (View.ld x4 (Rect.unit (s := S1x1024) ![0, 0] S1x1024.size inb_S1x1024_S1x1024_0_0)) (View.ld x6 (Rect.unit (s := S1x128) ![0, 0] S1x128.size inb_S1x128_S1x128_0_0)) := rfl

/-- The output block at an entry is the shared statement's kernel row, for any family of matrices whose member 7 is the
    contraction of the eighth head's two loaded matrices and whose members 0 … 6 give the seven blocks computed before. -/
theorem out_apply (m0 m1 m2 m3 m4 m5 m6 : FVec Ideal S128x128 .f32) (ka7 va7 : Vec Ideal S144x2048 .bf16)
    (x0 : Vec Ideal S1x2048x256 .f32) (x3 : Vec Ideal S256x1024 .f32) (x4 : Vec Ideal S1x1024 .f32) (x5 : Vec Ideal S1024x128 .f32)
    (x6 : Vec Ideal S1x128 .f32) (x7 x8 : Vec Ideal S128x8 .f32) (x9 x10 : Vec Ideal S8x128 .f32)
    (S : Fin 8 → Fin 144 → Fin 144 → EReal)
    (hm0 : ∀ i j : Fin 128, m0 (ix2 i j) = Cert.Spec.mpartOf (fun e j => x5 (ix2 e j)) (fun i h => x7 (ix2 i h)) (fun i h => x8 (ix2 i h))
      (fun h k => x9 (ix2 h k)) (fun h k => x10 (ix2 h k)) S ⟨0, by omega⟩ i j)
    (hm1 : ∀ i j : Fin 128, m1 (ix2 i j) = Cert.Spec.mpartOf (fun e j => x5 (ix2 e j)) (fun i h => x7 (ix2 i h)) (fun i h => x8 (ix2 i h))
      (fun h k => x9 (ix2 h k)) (fun h k => x10 (ix2 h k)) S ⟨1, by omega⟩ i j)
    (hm2 : ∀ i j : Fin 128, m2 (ix2 i j) = Cert.Spec.mpartOf (fun e j => x5 (ix2 e j)) (fun i h => x7 (ix2 i h)) (fun i h => x8 (ix2 i h))
      (fun h k => x9 (ix2 h k)) (fun h k => x10 (ix2 h k)) S ⟨2, by omega⟩ i j)
    (hm3 : ∀ i j : Fin 128, m3 (ix2 i j) = Cert.Spec.mpartOf (fun e j => x5 (ix2 e j)) (fun i h => x7 (ix2 i h)) (fun i h => x8 (ix2 i h))
      (fun h k => x9 (ix2 h k)) (fun h k => x10 (ix2 h k)) S ⟨3, by omega⟩ i j)
    (hm4 : ∀ i j : Fin 128, m4 (ix2 i j) = Cert.Spec.mpartOf (fun e j => x5 (ix2 e j)) (fun i h => x7 (ix2 i h)) (fun i h => x8 (ix2 i h))
      (fun h k => x9 (ix2 h k)) (fun h k => x10 (ix2 h k)) S ⟨4, by omega⟩ i j)
    (hm5 : ∀ i j : Fin 128, m5 (ix2 i j) = Cert.Spec.mpartOf (fun e j => x5 (ix2 e j)) (fun i h => x7 (ix2 i h)) (fun i h => x8 (ix2 i h))
      (fun h k => x9 (ix2 h k)) (fun h k => x10 (ix2 h k)) S ⟨5, by omega⟩ i j)
    (hm6 : ∀ i j : Fin 128, m6 (ix2 i j) = Cert.Spec.mpartOf (fun e j => x5 (ix2 e j)) (fun i h => x7 (ix2 i h)) (fun i h => x8 (ix2 i h))
      (fun h k => x9 (ix2 h k)) (fun h k => x10 (ix2 h k)) S ⟨6, by omega⟩ i j)
    (hS7 : ∀ a b : Fin 144, S ⟨7, by omega⟩ a b = ∑ n : Fin 2048, ka7 (ix2 a n) * va7 (ix2 b n))
    (n : Fin 2048) (j : Fin 128) :
    OUT m0 m1 m2 m3 m4 m5 m6 ka7 va7 x0 x3 x4 x5 x6 x7 x8 x9 x10 (ix3 0 n j)
      = Cert.Spec.krowOf (fun n c => x0 (ix3 0 n c)) (fun c e => x3 (ix2 c e)) (fun e => x4 (ix2 0 e)) (fun e j => x5 (ix2 e j))
          (fun j => x6 (ix2 0 j)) (fun i h => x7 (ix2 i h)) (fun i h => x8 (ix2 i h)) (fun h k => x9 (ix2 h k)) (fun h k => x10 (ix2 h k))
          S n j := by
  rw [OUT_eq]
  refine (outL_apply m0 m1 m2 m3 m4 m5 m6 ka7 va7 _ _ _ _ _ _ _ _ _ n j).trans ?_
  have hM : ∀ (e : Fin 1024) (j : Fin 128),
      mallL m0 m1 m2 m3 m4 m5 m6 ka7 va7 (View.ld x7 (Rect.unit (s := S128x8) ![0, 7] S128x1.size inb_S128x8_S128x1_0_7)) (View.ld x8 (Rect.unit (s := S128x8) ![0, 7] S128x1.size inb_S128x8_S128x1_0_7))
          (View.ld x9 (Rect.unit (s := S8x128) ![7, 0] S1x128.size inb_S8x128_S1x128_7_0)) (View.ld x10 (Rect.unit (s := S8x128) ![7, 0] S1x128.size inb_S8x128_S1x128_7_0)) (View.ld x5 (Rect.unit (s := S1024x128) ![896, 0] S128x128.size inb_S1024x128_S128x128_896_0)) (ix2 e j)
        = Cert.Spec.mallOf (fun e j => x5 (ix2 e j)) (fun i h => x7 (ix2 i h)) (fun i h => x8 (ix2 i h)) (fun h k => x9 (ix2 h k))
            (fun h k => x10 (ix2 h k)) S e j := by
    intro e j
    rw [mallL_apply]
    unfold Cert.Spec.mallOf
    exact blk8_apply m0 m1 m2 m3 m4 m5 m6 _
      (fun q i j => Cert.Spec.mpartOf (fun e j => x5 (ix2 e j)) (fun i h => x7 (ix2 i h)) (fun i h => x8 (ix2 i h)) (fun h k => x9 (ix2 h k))
        (fun h k => x10 (ix2 h k)) S q i j)
      hm0 hm1 hm2 hm3 hm4 hm5 hm6 (fun i j => mpart7_apply ka7 va7 x5 x7 x8 x9 x10 S hS7 i j) _ _ j
  unfold Cert.Spec.krowOf Cert.Spec.weffOf Cert.Spec.beffOf
  exact congrArg₂ (· + ·)
    (Finset.sum_congr rfl fun c _ => congrArg₂ (· * ·) (ld_x0 x0 n c)
      (congrArg₂ (· * ·) (Finset.sum_congr rfl fun e _ => congrArg₂ (· * ·) (ld_x3 x3 c e) (hM e j)) rfl))
    (congrArg₂ (· * ·) (congrArg₂ (· + ·) (Finset.sum_congr rfl fun e _ => congrArg₂ (· * ·) (ld_x4 x4 e) (hM e j)) (ld_x6 x6 j)) rfl)

end Cert.KernelIdeal.HeadsB

end
-- ==== Proof.KerRun.lean ====
/-
  The kernel body's run, put together. The body fills two 1152 × 2048 scratch buffers tile by tile (64 stores each:
  for each of the four 512-position tiles, per head a 128-row block of normalised features and a 16-row block holding
  the mean term, the constant one and zeros), reads each head's 144 rows back from both, contracts the two 144-row
  matrices over the 2048 positions, assembles the head's map and multiplies it into the output weight, and finishes with
  the effective weight and bias applied to the input block.

  Here: the stores into each scratch buffer tile it, so once every store's payload is its tile of the one function
  `Spec.scr`, the buffer reads `Spec.scr` everywhere; a head's load of 144 rows is then the head's augmented matrix
  `Spec.aug`, and the contraction of a head's two loads is `Spec.saug` of the head; with the per-head and final steps
  read at an entry, the block the body leaves in its output buffer is `Spec.kout` of the input blocks.
-/
import proofs.«148891_g2000303815147335_pallasbulk_1180_8_alg».proof.Defs
import proofs.«148891_g2000303815147335_pallasbulk_1180_8_alg».proof.Proof.Gen.KernelIdeal.Value
import proofs.«148891_g2000303815147335_pallasbulk_1180_8_alg».proof.Proof.Spec
import proofs.«148891_g2000303815147335_pallasbulk_1180_8_alg».proof.Proof.KerHeadsA
import proofs.«148891_g2000303815147335_pallasbulk_1180_8_alg».proof.Proof.KerHeadsB
import Idealize.ShloMosaic.Lib.Pipeline.Value
import Idealize.ShloMosaic.Lib.Pipeline.FrameBody
import Idealize.ShloMosaic.Lib.ValueIdx
import Idealize.ShloMosaic.Lib.Tactic
import Idealize.ShloMosaic.PureOps.Ideal.Laws

set_option maxRecDepth 16384

noncomputable section

namespace Cert.KernelIdeal.Run

open Cert.KernelIdeal Cert.KernelIdeal.Gen Idealize.ShloMosaic Idealize.ShloMosaic.ValueIdx Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-! ## The two scratch buffers read back as one function each -/

/-- The 64 stores into the first scratch buffer tile it (in blocks of 16 × 512), so they cover it. -/
theorem cover_HS0 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (y : S1152x2048.Idx) :
    ∃ p ∈ kernelRun0_A.sl.HS0_64 (F := Ideal) c arg1 harg1 arg2 harg2 arg3 harg3 x0 x1 x2, y ∈ p.1.set :=
  View.cover_of_tiledBy (s := S1152x2048) (kernelRun0_A.sl.HS0_64 (F := Ideal) c arg1 harg1 arg2 harg2 arg3 harg3 x0 x1 x2) ![16, 512] (by sl_kernel_rfl) y

/-- Likewise the second. -/
theorem cover_HS1 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (y : S1152x2048.Idx) :
    ∃ p ∈ kernelRun0_A.sl.HS1_64 (F := Ideal) c arg1 harg1 arg2 harg2 arg3 harg3 x0 x1 x2, y ∈ p.1.set :=
  View.cover_of_tiledBy (s := S1152x2048) (kernelRun0_A.sl.HS1_64 (F := Ideal) c arg1 harg1 arg2 harg2 arg3 harg3 x0 x1 x2) ![16, 512] (by sl_kernel_rfl) y

/-- What "every store's payload is its tile of `scr`" says of a list of stores. -/
def PiecesAre (L : List (View.Piece (Elt Ideal) S1152x2048 .bf16)) (G : S1152x2048.Idx → EReal) : Prop :=
  ∀ p ∈ L, ∀ x : p.1.shape.Idx, p.2 x = G (p.1.emb x)

/-- When every store's payload is its tile of `scr`, the first scratch buffer reads `scr … 0` everywhere. -/
theorem canon_HS0 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32)
    (hp : PiecesAre (kernelRun0_A.sl.HS0_64 (F := Ideal) c arg1 harg1 arg2 harg2 arg3 harg3 x0 x1 x2) (Cert.Spec.scr x0 x1 x2 0)) (y : S1152x2048.Idx) :
    View.canon (kernelRun0_A.sl.HS0_64 (F := Ideal) c arg1 harg1 arg2 harg2 arg3 harg3 x0 x1 x2) y = Cert.Spec.scr x0 x1 x2 0 y :=
  View.canon_apply_of_pieces (Cert.Spec.scr x0 x1 x2 0) _ (fun p hm x => hp p hm x) y (cover_HS0 c arg1 harg1 arg2 harg2 arg3 harg3 x0 x1 x2 y)

theorem canon_HS1 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32)
    (hp : PiecesAre (kernelRun0_A.sl.HS1_64 (F := Ideal) c arg1 harg1 arg2 harg2 arg3 harg3 x0 x1 x2) (Cert.Spec.scr x0 x1 x2 1)) (y : S1152x2048.Idx) :
    View.canon (kernelRun0_A.sl.HS1_64 (F := Ideal) c arg1 harg1 arg2 harg2 arg3 harg3 x0 x1 x2) y = Cert.Spec.scr x0 x1 x2 1 y :=
  View.canon_apply_of_pieces (Cert.Spec.scr x0 x1 x2 1) _ (fun p hm x => hp p hm x) y (cover_HS1 c arg1 harg1 arg2 harg2 arg3 harg3 x0 x1 x2 y)

/-! ## A head's 144 rows of a scratch buffer -/

/-- Row `144h + a` of `scr` is row `a` of the augmented matrix of chunk `8·buf + h`. -/
theorem scr_row (x0 : Vec Ideal S1x2048x256 .f32) (x1 : Vec Ideal S256x2064 .bf16) (x2 : Vec Ideal S2064x1 .f32)
    (buf : Fin 2) (h : Fin 8) (o : Nat) (ho : o = 144 * h.val) (y : S1152x2048.Idx) (a : Fin 144) (n : Fin 2048)
    (h0 : (y 0).val = o + a.val) (h1 : (y 1).val = n.val) :
    Cert.Spec.scr x0 x1 x2 buf y
      = Cert.Spec.aug (fun n c => x0 (ix3 0 n c)) (fun c f => x1 (ix2 c f)) (fun f => x2 (ix2 f 0)) ⟨8 * buf.val + h.val, by have := buf.isLt; have := h.isLt; omega⟩ a n := by
  subst ho
  have ha := a.isLt
  unfold Cert.Spec.scr
  have e1 : (y 0).val / 144 = h.val := by rw [h0]; omega
  have e2 : (y 0).val % 144 = a.val := by rw [h0]; omega
  congr 1
  · exact Fin.ext (by show 8 * buf.val + (y 0).val / 144 = 8 * buf.val + h.val; rw [e1])
  · exact Fin.ext e2
  · exact Fin.ext h1

/-- A load of 144 rows at row offset `o = 144h` of the first scratch buffer reads head `h`'s augmented key matrix. -/
theorem load0_apply (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 : Memref sig .tc .vmem S1152x2048 .bf16)
    (hp : PiecesAre (kernelRun0_A.sl.HS0_64 (F := Ideal) c arg1 harg1 arg2 harg2 arg3 harg3 x0 x1 x2) (Cert.Spec.scr x0 x1 x2 0))
    (h : Fin 8) (o : Nat) (ho : o = 144 * h.val) (inb : ∀ a, (![o, 0] : Fin 2 → Nat) a + S144x2048.size a ≤ S1152x2048.size a)
    (a : Fin 144) (n : Fin 2048) :
    arg13.view.readCov (kernelRun0_A.sl.HS0_64 (F := Ideal) c arg1 harg1 arg2 harg2 arg3 harg3 x0 x1 x2) (Rect.unit (s := S1152x2048) ![o, 0] S144x2048.size inb).toLoadRect (ix2 a n)
      = Cert.Spec.aug (fun n c => x0 (ix3 0 n c)) (fun c f => x1 (ix2 c f)) (fun f => x2 (ix2 f 0)) ⟨h.val, by have := h.isLt; omega⟩ a n := by
  rw [View.readCov_eq_canon']
  refine (canon_HS0 c arg1 harg1 arg2 harg2 arg3 harg3 x0 x1 x2 hp _).trans ?_
  refine (scr_row x0 x1 x2 0 h o ho _ a n ?_ ?_).trans ?_
  · show o + 1 * a.val = o + a.val; omega
  · show 0 + 1 * n.val = n.val; omega
  · exact congrArg (fun z => Cert.Spec.aug (fun n c => x0 (ix3 0 n c)) (fun c f => x1 (ix2 c f)) (fun f => x2 (ix2 f 0)) z a n) (Fin.ext (by show 8 * 0 + h.val = h.val; omega))

/-- A load of 144 rows at row offset `o = 144h` of the second scratch buffer reads head `h`'s augmented value matrix. -/
theorem load1_apply (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg14 : Memref sig .tc .vmem S1152x2048 .bf16)
    (hp : PiecesAre (kernelRun0_A.sl.HS1_64 (F := Ideal) c arg1 harg1 arg2 harg2 arg3 harg3 x0 x1 x2) (Cert.Spec.scr x0 x1 x2 1))
    (h : Fin 8) (o : Nat) (ho : o = 144 * h.val) (inb : ∀ a, (![o, 0] : Fin 2 → Nat) a + S144x2048.size a ≤ S1152x2048.size a)
    (a : Fin 144) (n : Fin 2048) :
    arg14.view.readCov (kernelRun0_A.sl.HS1_64 (F := Ideal) c arg1 harg1 arg2 harg2 arg3 harg3 x0 x1 x2) (Rect.unit (s := S1152x2048) ![o, 0] S144x2048.size inb).toLoadRect (ix2 a n)
      = Cert.Spec.aug (fun n c => x0 (ix3 0 n c)) (fun c f => x1 (ix2 c f)) (fun f => x2 (ix2 f 0)) ⟨8 + h.val, by have := h.isLt; omega⟩ a n := by
  rw [View.readCov_eq_canon']
  refine (canon_HS1 c arg1 harg1 arg2 harg2 arg3 harg3 x0 x1 x2 hp _).trans ?_
  refine (scr_row x0 x1 x2 1 h o ho _ a n ?_ ?_).trans ?_
  · show o + 1 * a.val = o + a.val; omega
  · show 0 + 1 * n.val = n.val; omega
  · exact congrArg (fun z => Cert.Spec.aug (fun n c => x0 (ix3 0 n c)) (fun c f => x1 (ix2 c f)) (fun f => x2 (ix2 f 0)) z a n) (Fin.ext (by show 8 * 1 + h.val = 8 + h.val; omega))

/-- The contraction over the positions of the 144 rows loaded at row offset `o = 144h` from the two scratch buffers is
    `saug` of head `h`. -/
theorem saug_loads (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1))
    (h : Fin 8) (o : Nat) (ho : o = 144 * h.val) (inb : ∀ a, (![o, 0] : Fin 2 → Nat) a + S144x2048.size a ≤ S1152x2048.size a)
    (a b : Fin 144) :
    Cert.Spec.saug (fun n c => x0 (ix3 0 n c)) (fun c f => x1 (ix2 c f)) (fun f => x2 (ix2 f 0)) h a b
      = ∑ n : Fin 2048, arg13.view.readCov (kernelRun0_A.sl.HS0_64 (F := Ideal) c arg1 harg1 arg2 harg2 arg3 harg3 x0 x1 x2) (Rect.unit (s := S1152x2048) ![o, 0] S144x2048.size inb).toLoadRect (ix2 a n)
          * arg14.view.readCov (kernelRun0_A.sl.HS1_64 (F := Ideal) c arg1 harg1 arg2 harg2 arg3 harg3 x0 x1 x2) (Rect.unit (s := S1152x2048) ![o, 0] S144x2048.size inb).toLoadRect (ix2 b n) := by
  unfold Cert.Spec.saug
  refine Finset.sum_congr rfl fun n _ => ?_
  rw [load0_apply c arg1 harg1 arg2 harg2 arg3 harg3 x0 x1 x2 arg13 hp0 h o ho inb a n, load1_apply c arg1 harg1 arg2 harg2 arg3 harg3 x0 x1 x2 arg14 hp1 h o ho inb b n]

/-! ## The contraction of each head's two loads -/

theorem hS0 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨0, by omega⟩ a b
      = ∑ n : Fin 2048, kernelRun0_A.sl.v1123 (F := Ideal) c arg1 harg1 arg2 harg2 arg3 harg3 arg13 x0 x1 x2 (ix2 a n) * kernelRun0_A.sl.v1124 (F := Ideal) c arg1 harg1 arg2 harg2 arg3 harg3 arg14 x0 x1 x2 (ix2 b n) :=
  saug_loads c arg1 harg1 arg2 harg2 arg3 harg3 x0 x1 x2 arg13 arg14 hp0 hp1 ⟨0, by omega⟩ 0 rfl inb_S1152x2048_S144x2048_0_0 a b

theorem hS1 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨1, by omega⟩ a b
      = ∑ n : Fin 2048, kernelRun0_A.sl.v1172 (F := Ideal) c arg1 harg1 arg2 harg2 arg3 harg3 arg13 x0 x1 x2 (ix2 a n) * kernelRun0_A.sl.v1173 (F := Ideal) c arg1 harg1 arg2 harg2 arg3 harg3 arg14 x0 x1 x2 (ix2 b n) :=
  saug_loads c arg1 harg1 arg2 harg2 arg3 harg3 x0 x1 x2 arg13 arg14 hp0 hp1 ⟨1, by omega⟩ 144 rfl inb_S1152x2048_S144x2048_144_0 a b

theorem hS2 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨2, by omega⟩ a b
      = ∑ n : Fin 2048, kernelRun0_A.sl.v1221 (F := Ideal) c arg1 harg1 arg2 harg2 arg3 harg3 arg13 x0 x1 x2 (ix2 a n) * kernelRun0_A.sl.v1222 (F := Ideal) c arg1 harg1 arg2 harg2 arg3 harg3 arg14 x0 x1 x2 (ix2 b n) :=
  saug_loads c arg1 harg1 arg2 harg2 arg3 harg3 x0 x1 x2 arg13 arg14 hp0 hp1 ⟨2, by omega⟩ 288 rfl inb_S1152x2048_S144x2048_288_0 a b

theorem hS3 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨3, by omega⟩ a b
      = ∑ n : Fin 2048, kernelRun0_A.sl.v1270 (F := Ideal) c arg1 harg1 arg2 harg2 arg3 harg3 arg13 x0 x1 x2 (ix2 a n) * kernelRun0_A.sl.v1271 (F := Ideal) c arg1 harg1 arg2 harg2 arg3 harg3 arg14 x0 x1 x2 (ix2 b n) :=
  saug_loads c arg1 harg1 arg2 harg2 arg3 harg3 x0 x1 x2 arg13 arg14 hp0 hp1 ⟨3, by omega⟩ 432 rfl inb_S1152x2048_S144x2048_432_0 a b

theorem hS4 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨4, by omega⟩ a b
      = ∑ n : Fin 2048, kernelRun0_A.sl.v1319 (F := Ideal) c arg1 harg1 arg2 harg2 arg3 harg3 arg13 x0 x1 x2 (ix2 a n) * kernelRun0_A.sl.v1320 (F := Ideal) c arg1 harg1 arg2 harg2 arg3 harg3 arg14 x0 x1 x2 (ix2 b n) :=
  saug_loads c arg1 harg1 arg2 harg2 arg3 harg3 x0 x1 x2 arg13 arg14 hp0 hp1 ⟨4, by omega⟩ 576 rfl inb_S1152x2048_S144x2048_576_0 a b

theorem hS5 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨5, by omega⟩ a b
      = ∑ n : Fin 2048, kernelRun0_A.sl.v1368 (F := Ideal) c arg1 harg1 arg2 harg2 arg3 harg3 arg13 x0 x1 x2 (ix2 a n) * kernelRun0_A.sl.v1369 (F := Ideal) c arg1 harg1 arg2 harg2 arg3 harg3 arg14 x0 x1 x2 (ix2 b n) :=
  saug_loads c arg1 harg1 arg2 harg2 arg3 harg3 x0 x1 x2 arg13 arg14 hp0 hp1 ⟨5, by omega⟩ 720 rfl inb_S1152x2048_S144x2048_720_0 a b

theorem hS6 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨6, by omega⟩ a b
      = ∑ n : Fin 2048, kernelRun0_A.sl.v1417 (F := Ideal) c arg1 harg1 arg2 harg2 arg3 harg3 arg13 x0 x1 x2 (ix2 a n) * kernelRun0_A.sl.v1418 (F := Ideal) c arg1 harg1 arg2 harg2 arg3 harg3 arg14 x0 x1 x2 (ix2 b n) :=
  saug_loads c arg1 harg1 arg2 harg2 arg3 harg3 x0 x1 x2 arg13 arg14 hp0 hp1 ⟨6, by omega⟩ 864 rfl inb_S1152x2048_S144x2048_864_0 a b

theorem hS7 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) (arg13 arg14 : Memref sig .tc .vmem S1152x2048 .bf16)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) (a b : Fin 144) :
    Cert.Spec.saug (fun n c => x0 (ix3 0 n c)) (fun c f => x1 (ix2 c f)) (fun f => x2 (ix2 f 0)) ⟨7, by omega⟩ a b
      = ∑ n : Fin 2048, kernelRun0_A.sl.v1466 (F := Ideal) c arg1 harg1 arg2 harg2 arg3 harg3 arg13 x0 x1 x2 (ix2 a n) * kernelRun0_A.sl.v1467 (F := Ideal) c arg1 harg1 arg2 harg2 arg3 harg3 arg14 x0 x1 x2 (ix2 b n) :=
  saug_loads c arg1 harg1 arg2 harg2 arg3 harg3 x0 x1 x2 arg13 arg14 hp0 hp1 ⟨7, by omega⟩ 1008 rfl inb_S1152x2048_S144x2048_1008_0 a b

/-! ## The output block -/

/-- The block the body leaves in its output buffer is `kout` of the input blocks: the one covering store's payload is the
    final steps applied to the eight heads' blocks, each head's block is `mpartOf` at `saug` (the contraction of its two
    loads), and the final steps give `krowOf` at `saug`. -/
theorem body_eq_of (c : Dev nD) (i : grid0.Coords) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S1x2048x128 .f32) (harg12 : arg12.IsWhole) (arg13 : Memref sig .tc .vmem S1152x2048 .bf16) (harg13 : arg13.IsWhole) (arg14 : Memref sig .tc .vmem S1152x2048 .bf16) (harg14 : arg14.IsWhole)
    (x0 : Vec Ideal S1x2048x256 .f32) (x1 : Vec Ideal S256x2064 .bf16) (x2 : Vec Ideal S2064x1 .f32) (x3 : Vec Ideal S256x1024 .f32) (x4 : Vec Ideal S1x1024 .f32) (x5 : Vec Ideal S1024x128 .f32) (x6 : Vec Ideal S1x128 .f32) (x7 : Vec Ideal S128x8 .f32) (x8 : Vec Ideal S128x8 .f32) (x9 : Vec Ideal S8x128 .f32) (x10 : Vec Ideal S8x128 .f32)
    (hp0 : PiecesAre (kernelRun0_A.sl.HS0_64 (F := Ideal) c arg1 harg1 arg2 harg2 arg3 harg3 x0 x1 x2) (Cert.Spec.scr x0 x1 x2 0))
    (hp1 : PiecesAre (kernelRun0_A.sl.HS1_64 (F := Ideal) c arg1 harg1 arg2 harg2 arg3 harg3 x0 x1 x2) (Cert.Spec.scr x0 x1 x2 1)) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = Cert.Spec.kout x0 x1 x2 x3 x4 x5 x6 x7 x8 x9 x10 := by
  unfold out0_A_11 kernelRun0_A
  dsimp only
  rw [View.read_writes_junk_eq_canon, View.canon_unit_zero hz3]
  delta kernelRun0_A.sl.r_145 kernelRun0_A.sl.r_144 kernelRun0_A.sl.r_143 kernelRun0_A.sl.r_142 kernelRun0_A.sl.r_141 kernelRun0_A.sl.r_140 kernelRun0_A.sl.r_139 kernelRun0_A.sl.r_138 kernelRun0_A.sl.r_137 kernelRun0_A.sl.r_136 kernelRun0_A.sl.r_135 kernelRun0_A.sl.r_134 kernelRun0_A.sl.r_133 kernelRun0_A.sl.r_132 kernelRun0_A.sl.r_131 kernelRun0_A.sl.r_130 kernelRun0_A.sl.r_129 kernelRun0_A.sl.r_128 kernelRun0_A.sl.r_127 kernelRun0_A.sl.r_126 kernelRun0_A.sl.r_125 kernelRun0_A.sl.r_124 kernelRun0_A.sl.r_123 kernelRun0_A.sl.r_122 kernelRun0_A.sl.r_121 kernelRun0_A.sl.r_120 kernelRun0_A.sl.r_119 kernelRun0_A.sl.r_118 kernelRun0_A.sl.r_117 kernelRun0_A.sl.r_116 kernelRun0_A.sl.r_115 kernelRun0_A.sl.r_114 kernelRun0_A.sl.r_113 kernelRun0_A.sl.r_112 kernelRun0_A.sl.r_111 kernelRun0_A.sl.r_110 kernelRun0_A.sl.r_109 kernelRun0_A.sl.r_108 kernelRun0_A.sl.r_107 kernelRun0_A.sl.r_106 kernelRun0_A.sl.r_105 kernelRun0_A.sl.r_104 kernelRun0_A.sl.r_103 kernelRun0_A.sl.r_102 kernelRun0_A.sl.r_101 kernelRun0_A.sl.r_100 kernelRun0_A.sl.r_99 kernelRun0_A.sl.r_98 kernelRun0_A.sl.r_97 kernelRun0_A.sl.r_96 kernelRun0_A.sl.r_95 kernelRun0_A.sl.r_94 kernelRun0_A.sl.r_93 kernelRun0_A.sl.r_92 kernelRun0_A.sl.r_91 kernelRun0_A.sl.r_90 kernelRun0_A.sl.r_89 kernelRun0_A.sl.r_88 kernelRun0_A.sl.r_87 kernelRun0_A.sl.r_86 kernelRun0_A.sl.r_85 kernelRun0_A.sl.r_84 kernelRun0_A.sl.r
  simp only [View.readAt_eq_ld, harg1.read_unread, harg4.read_unread, harg5.read_unread, harg6.read_unread, harg7.read_unread, harg8.read_unread, harg9.read_unread, harg10.read_unread, harg11.read_unread]
  funext y
  have hy : y = ix3 0 (y 1) (y 2) := by
    funext a
    match a with
    | ⟨0, _⟩ => exact Fin.ext (by have := (y 0).isLt; show (y 0).val = 0; change (y 0).val < 1 at this; omega)
    | ⟨1, _⟩ => rfl
    | ⟨2, _⟩ => rfl
  rw [hy]
  exact HeadsB.out_apply (HeadsA.mpart0 (kernelRun0_A.sl.v1123 (F := Ideal) c arg1 harg1 arg2 harg2 arg3 harg3 arg13 x0 x1 x2) (kernelRun0_A.sl.v1124 (F := Ideal) c arg1 harg1 arg2 harg2 arg3 harg3 arg14 x0 x1 x2) x5 x7 x8 x9 x10)
    (HeadsA.mpart1 (kernelRun0_A.sl.v1172 (F := Ideal) c arg1 harg1 arg2 harg2 arg3 harg3 arg13 x0 x1 x2) (kernelRun0_A.sl.v1173 (F := Ideal) c arg1 harg1 arg2 harg2 arg3 harg3 arg14 x0 x1 x2) x5 x7 x8 x9 x10)
    (HeadsA.mpart2 (kernelRun0_A.sl.v1221 (F := Ideal) c arg1 harg1 arg2 harg2 arg3 harg3 arg13 x0 x1 x2) (kernelRun0_A.sl.v1222 (F := Ideal) c arg1 harg1 arg2 harg2 arg3 harg3 arg14 x0 x1 x2) x5 x7 x8 x9 x10)
    (HeadsA.mpart3 (kernelRun0_A.sl.v1270 (F := Ideal) c arg1 harg1 arg2 harg2 arg3 harg3 arg13 x0 x1 x2) (kernelRun0_A.sl.v1271 (F := Ideal) c arg1 harg1 arg2 harg2 arg3 harg3 arg14 x0 x1 x2) x5 x7 x8 x9 x10)
    (HeadsB.mpart4 (kernelRun0_A.sl.v1319 (F := Ideal) c arg1 harg1 arg2 harg2 arg3 harg3 arg13 x0 x1 x2) (kernelRun0_A.sl.v1320 (F := Ideal) c arg1 harg1 arg2 harg2 arg3 harg3 arg14 x0 x1 x2) x5 x7 x8 x9 x10)
    (HeadsB.mpart5 (kernelRun0_A.sl.v1368 (F := Ideal) c arg1 harg1 arg2 harg2 arg3 harg3 arg13 x0 x1 x2) (kernelRun0_A.sl.v1369 (F := Ideal) c arg1 harg1 arg2 harg2 arg3 harg3 arg14 x0 x1 x2) x5 x7 x8 x9 x10)
    (HeadsB.mpart6 (kernelRun0_A.sl.v1417 (F := Ideal) c arg1 harg1 arg2 harg2 arg3 harg3 arg13 x0 x1 x2) (kernelRun0_A.sl.v1418 (F := Ideal) c arg1 harg1 arg2 harg2 arg3 harg3 arg14 x0 x1 x2) x5 x7 x8 x9 x10)
    (kernelRun0_A.sl.v1466 (F := Ideal) c arg1 harg1 arg2 harg2 arg3 harg3 arg13 x0 x1 x2) (kernelRun0_A.sl.v1467 (F := Ideal) c arg1 harg1 arg2 harg2 arg3 harg3 arg14 x0 x1 x2) x0 x3 x4 x5 x6 x7 x8 x9 x10
    (Cert.Spec.saug (fun n c => x0 (ix3 0 n c)) (fun c f => x1 (ix2 c f)) (fun f => x2 (ix2 f 0)))
    (HeadsA.mpart0_apply _ _ x5 x7 x8 x9 x10 _ (hS0 c arg1 harg1 arg2 harg2 arg3 harg3 x0 x1 x2 arg13 arg14 hp0 hp1))
    (HeadsA.mpart1_apply _ _ x5 x7 x8 x9 x10 _ (hS1 c arg1 harg1 arg2 harg2 arg3 harg3 x0 x1 x2 arg13 arg14 hp0 hp1))
    (HeadsA.mpart2_apply _ _ x5 x7 x8 x9 x10 _ (hS2 c arg1 harg1 arg2 harg2 arg3 harg3 x0 x1 x2 arg13 arg14 hp0 hp1))
    (HeadsA.mpart3_apply _ _ x5 x7 x8 x9 x10 _ (hS3 c arg1 harg1 arg2 harg2 arg3 harg3 x0 x1 x2 arg13 arg14 hp0 hp1))
    (HeadsB.mpart4_apply _ _ x5 x7 x8 x9 x10 _ (hS4 c arg1 harg1 arg2 harg2 arg3 harg3 x0 x1 x2 arg13 arg14 hp0 hp1))
    (HeadsB.mpart5_apply _ _ x5 x7 x8 x9 x10 _ (hS5 c arg1 harg1 arg2 harg2 arg3 harg3 x0 x1 x2 arg13 arg14 hp0 hp1))
    (HeadsB.mpart6_apply _ _ x5 x7 x8 x9 x10 _ (hS6 c arg1 harg1 arg2 harg2 arg3 harg3 x0 x1 x2 arg13 arg14 hp0 hp1))
    (hS7 c arg1 harg1 arg2 harg2 arg3 harg3 x0 x1 x2 arg13 arg14 hp0 hp1) (y 1) (y 2)

end Cert.KernelIdeal.Run

end
-- ==== Proof.KerTileGen.lean ====
/-
  Entry-by-entry reading of the kernel body's per-tile computation, for any 512-position sequence tile starting at
  position `o`: the transposed projection `kvb[f, n] = Σ_c wkvA[c, f] · x[o + n, c] + bkvT[f]`, a 128-row band's sum
  of squares, the sixteen reciprocal deviations `rsqrt (sumsq · (1/128) − mean² + ε)`, a chunk's 128 feature rows
  times its reciprocal deviation, and a chunk's sixteen extra rows (mean over deviation, ones, fourteen rows of
  zeros). The last two, stored at rows `144 · (ch % 8) …` of buffer `ch / 8` and columns `o … o + 511`, are the
  entries of `Cert.Spec.scr` they cover (`featPiece`, `augPiece`).
-/
import proofs.«148891_g2000303815147335_pallasbulk_1180_8_alg».proof.Defs
import proofs.«148891_g2000303815147335_pallasbulk_1180_8_alg».proof.Proof.Gen.KernelIdeal.Value
import proofs.«148891_g2000303815147335_pallasbulk_1180_8_alg».proof.Proof.LibMatmul2
import proofs.«148891_g2000303815147335_pallasbulk_1180_8_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.TileGen

open Cert.KernelIdeal Cert.KernelIdeal.Gen Idealize.ShloMosaic Idealize.ShloMosaic.ValueIdx Idealize.ShloMosaic.Tactic

/-- The three input blocks as plain functions of their coordinates. -/
abbrev Xs (x0 : Vec Ideal S1x2048x256 .f32) : Fin 2048 → Fin 256 → EReal := fun n c => x0 (ix3 0 n c)
abbrev Ws (x1 : Vec Ideal S256x2064 .bf16) : Fin 256 → Fin 2064 → EReal := fun c f => x1 (ix2 c f)
abbrev Bs (x2 : Vec Ideal S2064x1 .f32) : Fin 2064 → EReal := fun f => x2 (ix2 f 0)

/-- Position `n` of the 512-position tile that starts at `o`. -/
def pos (o : Nat) (ho : o + 512 ≤ 2048) (n : Fin 512) : Fin 2048 := ⟨o + n.val, by have := n.isLt; omega⟩

section Reads
variable (arg1 : Memref sig Kind.tc Space.vmem S1x2048x256 EltTy.f32) (harg1 : arg1.IsWhole)
  (arg2 : Memref sig Kind.tc Space.vmem S256x2064 EltTy.bf16) (harg2 : arg2.IsWhole)
  (arg3 : Memref sig Kind.tc Space.vmem S2064x1 EltTy.f32) (harg3 : arg3.IsWhole)
  (x0 : Vec Ideal S1x2048x256 .f32) (x1 : Vec Ideal S256x2064 .bf16) (x2 : Vec Ideal S2064x1 .f32)

/-- A whole block read back through the whole rectangle is the block. -/
theorem rd1 : View.readAt (Elt Ideal) arg1.view (Rect.unit ![0, 0, 0] S1x2048x256.size inb_S1x2048x256_S1x2048x256_0_0_0).toLoadRect (harg1.unread x0) = x0 := by
  rw [View.readAt_eq_ld, harg1.read_unread]
  exact View.ld_unit_zero (by funext a; match a with | ⟨0, _⟩ => rfl | ⟨1, _⟩ => rfl | ⟨2, _⟩ => rfl) _ x0

theorem rd2 : View.readAt (Elt Ideal) arg2.view (Rect.unit ![0, 0] S256x2064.size inb_S256x2064_S256x2064_0_0).toLoadRect (harg2.unread x1) = x1 := by
  rw [View.readAt_eq_ld, harg2.read_unread]
  exact View.ld_unit_zero (by funext a; match a with | ⟨0, _⟩ => rfl | ⟨1, _⟩ => rfl) _ x1

theorem rd3 : View.readAt (Elt Ideal) arg3.view (Rect.unit ![0, 0] S2064x1.size inb_S2064x1_S2064x1_0_0).toLoadRect (harg3.unread x2) = x2 := by
  rw [View.readAt_eq_ld, harg3.read_unread]
  exact View.ld_unit_zero (by funext a; match a with | ⟨0, _⟩ => rfl | ⟨1, _⟩ => rfl) _ x2
end Reads

/-- The input block as a 2048 × 256 matrix. -/
theorem xbf_apply (x0 : Vec Ideal S1x2048x256 .f32) (n : Fin 2048) (c : Fin 256) :
    k0_pay2 (F := Ideal) x0 (ix2 n c) = x0 (ix3 0 n c) := by
  unfold k0_pay2
  show shapeCast S2048x256 x0 shapeCasts_S1x2048x256_S2048x256 (ix2 n c) = _
  exact shapeCast_apply x0 shapeCasts_S1x2048x256_S2048x256 (ix2 n c) (ix3 0 n c) (by
    rw [Shape.rowMajor_val_three, Shape.rowMajor_val_two]
    show (0 * 2048 + n.val) * 256 + c.val = n.val * 256 + c.val
    omega)

/-- The transposed projection of the tile that starts at position `o`, with the bias column added. -/
def kvbV (o : Nat) (v2 : FVec Ideal S2048x256 .bf16) (W : Vec Ideal S256x2064 .bf16) (B : Vec Ideal S2064x1 .f32)
    (hs : S2048x256.Slices ![o, 0] S512x256) : FVec Ideal S2064x512 .f32 :=
  addf (FloatOps.matmul (F := Ideal) (φ₁ := .bf16) (φ₂ := .bf16) dot_S256x2064_S512x256_S2064x512_0_1_1_0_n_n none
      (shapeCast S256x2064 W shapeCasts_S256x2064_S256x2064) (extractStridedSlice S512x256 ![o, 0] v2 hs)
      (constant S2064x512 .f32 0x00000000#32))
    (broadcastTo S2064x512 (shapeCast S2064x1 B shapeCasts_S2064x1_S2064x1) broadcasts_S2064x1_S2064x512)

theorem kvbV_apply (o : Nat) (ho : o + 512 ≤ 2048) (v2 : FVec Ideal S2048x256 .bf16) (W : Vec Ideal S256x2064 .bf16)
    (B : Vec Ideal S2064x1 .f32) (hs : S2048x256.Slices ![o, 0] S512x256) (f : Fin 2064) (n : Fin 512) :
    kvbV o v2 W B hs (ix2 f n) = (∑ c : Fin 256, W (ix2 c f) * v2 (ix2 (pos o ho n) c)) + B (ix2 f 0) := by
  unfold kvbV
  show (FloatOps.matmul (F := Ideal) (φ₁ := .bf16) (φ₂ := .bf16) dot_S256x2064_S512x256_S2064x512_0_1_1_0_n_n none
      (shapeCast S256x2064 W shapeCasts_S256x2064_S256x2064) (extractStridedSlice S512x256 ![o, 0] v2 hs)
      (constant S2064x512 .f32 0x00000000#32) (ix2 f n) : EReal)
    + (broadcastTo S2064x512 (shapeCast S2064x1 B shapeCasts_S2064x1_S2064x1) broadcasts_S2064x1_S2064x512 (ix2 f n) : EReal) = _
  rw [show dot_S256x2064_S512x256_S2064x512_0_1_1_0_n_n = (⟨[0], [1], [1], [0], [], [], dot_S256x2064_S512x256_S2064x512_0_1_1_0_n_n_wf⟩ : DotDims _ _ _) from rfl]
  rw [LibMatmul2.matmul_tt_apply]
  congr 1
  · refine Finset.sum_congr rfl fun c _ => ?_
    rw [shapeCast_self]
    refine congrArg (fun z => W (ix2 c f) * z) ?_
    exact extractStridedSlice_apply ![o, 0] v2 hs (ix2 n c) (ix2 (pos o ho n) c) (fun a => match a with
      | ⟨0, _⟩ => rfl
      | ⟨1, _⟩ => by show c.val = 0 + c.val; omega)
  · rw [shapeCast_self]
    exact broadcastTo_apply B broadcasts_S2064x1_S2064x512 (ix2 f n) (ix2 f 0) (fun a => match a with
      | ⟨0, _⟩ => rfl
      | ⟨1, _⟩ => rfl)

/-- The sum over a 128-row band (rows `o … o+127`) of the squares of a 2064 × 512 block, as a single row. -/
def ssq (v : FVec Ideal S2064x512 .f32) (o : Nat) (hs : S2064x512.Slices ![o, 0] S128x512) : FVec Ideal S1x512 .f32 :=
  shapeCast S1x512 (multiReduction .add [0] S512
    (mulf (extractStridedSlice S128x512 ![o, 0] v hs) (extractStridedSlice S128x512 ![o, 0] v hs))
    0x00000000#32 reduces_S128x512_S512 (.inl rfl) rfl) shapeCasts_S512_S1x512

theorem sum_rows (src : FVec Ideal S128x512 .f32) (h : S128x512.Reduces [0] S512) (hφ : FKind.Formats FTy.f32)
    (hacc : (0x00000000#32 : BitVec 32) = FKind.add.neutral FTy.f32 hφ) (n : Fin 512) :
    multiReduction .add [0] S512 src 0x00000000#32 h hφ hacc (ix1 n) = ∑ i : Fin 128, src (ix2 i n) := by
  refine (Ideal.multiReduction_add_single src _ h hφ hacc (ix1 n)).trans ?_
  refine Finset.sum_congr rfl fun i _ => congrArg src ?_
  funext a; match a with | ⟨0, _⟩ => rfl | ⟨1, _⟩ => rfl

theorem ssq_apply (v : FVec Ideal S2064x512 .f32) (o : Nat) (ho : o + 128 ≤ 2064) (hs : S2064x512.Slices ![o, 0] S128x512) (n : Fin 512) :
    ssq v o hs (ix2 0 n) = ∑ i : Fin 128, v (ix2 ⟨o + i.val, by have := i.isLt; omega⟩ n) * v (ix2 ⟨o + i.val, by have := i.isLt; omega⟩ n) := by
  unfold ssq
  refine (shapeCast_apply _ shapeCasts_S512_S1x512 (ix2 0 n) (ix1 n) (by
    rw [Shape.rowMajor_val_one, Shape.rowMajor_val_two]
    show n.val = 0 * 512 + n.val
    omega)).trans ?_
  refine (sum_rows _ _ _ _ n).trans ?_
  refine Finset.sum_congr rfl fun i _ => ?_
  have e : extractStridedSlice S128x512 ![o, 0] v hs (ix2 i n) = v (ix2 ⟨o + i.val, by have := i.isLt; omega⟩ n) :=
    extractStridedSlice_apply ![o, 0] v hs (ix2 i n) (ix2 ⟨o + i.val, by have := i.isLt; omega⟩ n) (fun a => match a with
      | ⟨0, _⟩ => rfl
      | ⟨1, _⟩ => by show n.val = 0 + n.val; omega)
  exact congrArg₂ (· * ·) e e

/-- Sixteen rows stacked, scaled by 1/128, less the square of `m`, plus epsilon, under the reciprocal square root. -/
def rstdV (m : FVec Ideal S16x512 .f32) (s0 s1 s2 s3 s4 s5 s6 s7 s8 s9 s10 s11 s12 s13 s14 s15 : FVec Ideal S1x512 .f32) : FVec Ideal S16x512 .f32 :=
  rsqrt (addf (subf (mulf (concatenate S16x512 0 [⟨S1x512, s0⟩, ⟨S1x512, s1⟩, ⟨S1x512, s2⟩, ⟨S1x512, s3⟩, ⟨S1x512, s4⟩, ⟨S1x512, s5⟩, ⟨S1x512, s6⟩, ⟨S1x512, s7⟩, ⟨S1x512, s8⟩, ⟨S1x512, s9⟩, ⟨S1x512, s10⟩, ⟨S1x512, s11⟩, ⟨S1x512, s12⟩, ⟨S1x512, s13⟩, ⟨S1x512, s14⟩, ⟨S1x512, s15⟩] concatenates_S1x512_S1x512_S1x512_S1x512_S1x512_S1x512_S1x512_S1x512_S1x512_S1x512_S1x512_S1x512_S1x512_S1x512_S1x512_S1x512_S16x512_d0)
      (broadcast S16x512 (Scalar.ofBits (F := Ideal) .f32 0x3C000000#32))) (mulf m m))
    (broadcast S16x512 (Scalar.ofBits (F := Ideal) .f32 0x3727C5AC#32)))

theorem rstdV_apply (m : FVec Ideal S16x512 .f32) (s0 s1 s2 s3 s4 s5 s6 s7 s8 s9 s10 s11 s12 s13 s14 s15 : FVec Ideal S1x512 .f32) (ch : Fin 16) (n : Fin 512) :
    rstdV m s0 s1 s2 s3 s4 s5 s6 s7 s8 s9 s10 s11 s12 s13 s14 s15 (ix2 ch n)
      = Ideal.rsqrt (((![s0, s1, s2, s3, s4, s5, s6, s7, s8, s9, s10, s11, s12, s13, s14, s15] ch (ix2 0 n)) * Spec.cInvD - m (ix2 ch n) * m (ix2 ch n)) + Spec.cEps) := by
  unfold rstdV
  show Ideal.rsqrt (((concatenate S16x512 0 [⟨S1x512, s0⟩, ⟨S1x512, s1⟩, ⟨S1x512, s2⟩, ⟨S1x512, s3⟩, ⟨S1x512, s4⟩, ⟨S1x512, s5⟩, ⟨S1x512, s6⟩, ⟨S1x512, s7⟩, ⟨S1x512, s8⟩, ⟨S1x512, s9⟩, ⟨S1x512, s10⟩, ⟨S1x512, s11⟩, ⟨S1x512, s12⟩, ⟨S1x512, s13⟩, ⟨S1x512, s14⟩, ⟨S1x512, s15⟩] concatenates_S1x512_S1x512_S1x512_S1x512_S1x512_S1x512_S1x512_S1x512_S1x512_S1x512_S1x512_S1x512_S1x512_S1x512_S1x512_S1x512_S16x512_d0 (ix2 ch n) : EReal)
      * Spec.cInvD - m (ix2 ch n) * m (ix2 ch n)) + Spec.cEps) = _
  refine congrArg (fun z : EReal => Ideal.rsqrt ((z * Spec.cInvD - m (ix2 ch n) * m (ix2 ch n)) + Spec.cEps)) ?_
  exact concatenate_ofFn_apply (t := S16x512) (s₁ := S1x512) 0 ![s0, s1, s2, s3, s4, s5, s6, s7, s8, s9, s10, s11, s12, s13, s14, s15] concatenates_S1x512_S1x512_S1x512_S1x512_S1x512_S1x512_S1x512_S1x512_S1x512_S1x512_S1x512_S1x512_S1x512_S1x512_S1x512_S1x512_S16x512_d0 rfl 1 rfl (ix2 ch n) ch
    (by show ch.val / 1 = ch.val; omega) (ix2 0 n) (by show 0 = ch.val % 1; omega)
    (fun b hb => match b with
      | ⟨0, _⟩ => absurd rfl hb
      | ⟨1, _⟩ => rfl)

/-- Feature rows `o1 … o1+127` of the tile's block, each multiplied by row `o2` of the sixteen scale rows. -/
def featBlk (kvbf : FVec Ideal S2048x512 .bf16) (rbf : FVec Ideal S16x512 .bf16) (o1 o2 : Nat)
    (hs1 : S2048x512.Slices ![o1, 0] S128x512) (hs2 : S16x512.Slices ![o2, 0] S1x512) : FVec Ideal S128x512 .bf16 :=
  shapeCast S128x512 (mulf (extractStridedSlice S128x512 ![o1, 0] kvbf hs1)
    (broadcastTo S128x512 (extractStridedSlice S1x512 ![o2, 0] rbf hs2) broadcasts_S1x512_S128x512)) shapeCasts_S128x512_S128x512

theorem featBlk_apply (kvbf : FVec Ideal S2048x512 .bf16) (rbf : FVec Ideal S16x512 .bf16) (o1 o2 : Nat)
    (h1 : o1 + 128 ≤ 2048) (h2 : o2 < 16)
    (hs1 : S2048x512.Slices ![o1, 0] S128x512) (hs2 : S16x512.Slices ![o2, 0] S1x512) (i : Fin 128) (n : Fin 512) :
    featBlk kvbf rbf o1 o2 hs1 hs2 (ix2 i n) = kvbf (ix2 ⟨o1 + i.val, by have := i.isLt; omega⟩ n) * rbf (ix2 ⟨o2, h2⟩ n) := by
  unfold featBlk
  rw [shapeCast_self]
  show (extractStridedSlice S128x512 ![o1, 0] kvbf hs1 (ix2 i n) : EReal)
    * (broadcastTo S128x512 (extractStridedSlice S1x512 ![o2, 0] rbf hs2) broadcasts_S1x512_S128x512 (ix2 i n) : EReal) = _
  refine congrArg₂ (· * ·) ?_ ?_
  · exact extractStridedSlice_apply ![o1, 0] kvbf hs1 (ix2 i n) (ix2 ⟨o1 + i.val, by have := i.isLt; omega⟩ n) (fun a => match a with
      | ⟨0, _⟩ => rfl
      | ⟨1, _⟩ => by show n.val = 0 + n.val; omega)
  · refine (broadcastTo_apply _ broadcasts_S1x512_S128x512 (ix2 i n) (ix2 0 n) (fun a => match a with
      | ⟨0, _⟩ => rfl
      | ⟨1, _⟩ => rfl)).trans ?_
    exact extractStridedSlice_apply ![o2, 0] rbf hs2 (ix2 0 n) (ix2 ⟨o2, h2⟩ n) (fun a => match a with
      | ⟨0, _⟩ => rfl
      | ⟨1, _⟩ => by show n.val = 0 + n.val; omega)

/-- Row `o2` of the sixteen rows `pbf`, then a row `one`, then fourteen rows `zer`. -/
def augBlk (pbf : FVec Ideal S16x512 .bf16) (one : FVec Ideal S1x512 .bf16) (zer : FVec Ideal S14x512 .bf16) (o2 : Nat)
    (hs2 : S16x512.Slices ![o2, 0] S1x512) : FVec Ideal S16x512 .bf16 :=
  shapeCast S16x512 (concatenate S16x512 0 [⟨S1x512, extractStridedSlice S1x512 ![o2, 0] pbf hs2⟩, ⟨S1x512, one⟩, ⟨S14x512, zer⟩]
    concatenates_S1x512_S1x512_S14x512_S16x512_d0) shapeCasts_S16x512_S16x512

theorem augBlk_apply0 (pbf : FVec Ideal S16x512 .bf16) (one : FVec Ideal S1x512 .bf16) (zer : FVec Ideal S14x512 .bf16) (o2 : Nat)
    (h2 : o2 < 16) (hs2 : S16x512.Slices ![o2, 0] S1x512) (n : Fin 512) :
    augBlk pbf one zer o2 hs2 (ix2 0 n) = pbf (ix2 ⟨o2, h2⟩ n) := by
  unfold augBlk
  rw [shapeCast_self]
  refine (concatenate_apply_piece (t := S16x512) 0 [⟨S1x512, extractStridedSlice S1x512 ![o2, 0] pbf hs2⟩, ⟨S1x512, one⟩, ⟨S14x512, zer⟩] concatenates_S1x512_S1x512_S14x512_S16x512_d0 (ix2 0 n) 0 (by show 0 < 3; omega)
    S1x512 _ rfl rfl 0 rfl (ix2 0 n) (fun b hb => match b with
      | ⟨0, _⟩ => absurd rfl hb
      | ⟨1, _⟩ => rfl) rfl).trans ?_
  exact extractStridedSlice_apply ![o2, 0] pbf hs2 (ix2 0 n) (ix2 ⟨o2, h2⟩ n) (fun a => match a with
      | ⟨0, _⟩ => rfl
      | ⟨1, _⟩ => by show n.val = 0 + n.val; omega)

theorem augBlk_apply1 (pbf : FVec Ideal S16x512 .bf16) (one : FVec Ideal S1x512 .bf16) (zer : FVec Ideal S14x512 .bf16) (o2 : Nat)
    (hs2 : S16x512.Slices ![o2, 0] S1x512) (n : Fin 512) :
    augBlk pbf one zer o2 hs2 (ix2 1 n) = one (ix2 0 n) := by
  unfold augBlk
  rw [shapeCast_self]
  exact concatenate_apply_piece (t := S16x512) 0 [⟨S1x512, extractStridedSlice S1x512 ![o2, 0] pbf hs2⟩, ⟨S1x512, one⟩, ⟨S14x512, zer⟩] concatenates_S1x512_S1x512_S14x512_S16x512_d0 (ix2 1 n) 1 (by show 1 < 3; omega)
    S1x512 _ rfl rfl 1 rfl (ix2 0 n) (fun b hb => match b with
      | ⟨0, _⟩ => absurd rfl hb
      | ⟨1, _⟩ => rfl) rfl

theorem augBlk_apply2 (pbf : FVec Ideal S16x512 .bf16) (one : FVec Ideal S1x512 .bf16) (zer : FVec Ideal S14x512 .bf16) (o2 : Nat)
    (hs2 : S16x512.Slices ![o2, 0] S1x512) (k : Fin 14) (n : Fin 512) :
    augBlk pbf one zer o2 hs2 (ix2 ⟨2 + k.val, by have := k.isLt; omega⟩ n) = zer (ix2 k n) := by
  unfold augBlk
  rw [shapeCast_self]
  exact concatenate_apply_piece (t := S16x512) 0 [⟨S1x512, extractStridedSlice S1x512 ![o2, 0] pbf hs2⟩, ⟨S1x512, one⟩, ⟨S14x512, zer⟩] concatenates_S1x512_S1x512_S14x512_S16x512_d0 (ix2 ⟨2 + k.val, by have := k.isLt; omega⟩ n) 2 (by show 2 < 3; omega)
    S14x512 _ rfl rfl 2 rfl (ix2 k n) (fun b hb => match b with
      | ⟨0, _⟩ => absurd rfl hb
      | ⟨1, _⟩ => rfl) rfl

section Tile

/-- The tile's 2048 feature rows, its sixteen mean rows, the reciprocal deviations and their products with the means,
    all from the tile's transposed projection `kvb`. -/
def kvbfV (kvb : FVec Ideal S2064x512 .f32) : FVec Ideal S2048x512 .bf16 :=
  truncf .bf16 (extractStridedSlice S2048x512 ![0, 0] kvb slices_S2064x512_o0_0_S2048x512) bitsLt_bf16_f32
def mV (kvb : FVec Ideal S2064x512 .f32) : FVec Ideal S16x512 .f32 :=
  extractStridedSlice S16x512 ![2048, 0] kvb slices_S2064x512_o2048_0_S16x512
def rV (kvb : FVec Ideal S2064x512 .f32) : FVec Ideal S16x512 .f32 :=
  rstdV (mV kvb) (ssq kvb 0 slices_S2064x512_o0_0_S128x512) (ssq kvb 128 slices_S2064x512_o128_0_S128x512) (ssq kvb 256 slices_S2064x512_o256_0_S128x512) (ssq kvb 384 slices_S2064x512_o384_0_S128x512) (ssq kvb 512 slices_S2064x512_o512_0_S128x512) (ssq kvb 640 slices_S2064x512_o640_0_S128x512) (ssq kvb 768 slices_S2064x512_o768_0_S128x512) (ssq kvb 896 slices_S2064x512_o896_0_S128x512) (ssq kvb 1024 slices_S2064x512_o1024_0_S128x512) (ssq kvb 1152 slices_S2064x512_o1152_0_S128x512) (ssq kvb 1280 slices_S2064x512_o1280_0_S128x512) (ssq kvb 1408 slices_S2064x512_o1408_0_S128x512) (ssq kvb 1536 slices_S2064x512_o1536_0_S128x512) (ssq kvb 1664 slices_S2064x512_o1664_0_S128x512) (ssq kvb 1792 slices_S2064x512_o1792_0_S128x512) (ssq kvb 1920 slices_S2064x512_o1920_0_S128x512)
def rbfV (kvb : FVec Ideal S2064x512 .f32) : FVec Ideal S16x512 .bf16 := truncf .bf16 (rV kvb) bitsLt_bf16_f32
def pbfV (kvb : FVec Ideal S2064x512 .f32) : FVec Ideal S16x512 .bf16 := truncf .bf16 (mulf (rV kvb) (mV kvb)) bitsLt_bf16_f32

theorem kvbfV_apply (kvb : FVec Ideal S2064x512 .f32) (f : Fin 2048) (n : Fin 512) :
    kvbfV kvb (ix2 f n) = kvb (ix2 ⟨f.val, by have := f.isLt; omega⟩ n) := by
  unfold kvbfV
  show extractStridedSlice S2048x512 ![0, 0] kvb slices_S2064x512_o0_0_S2048x512 (ix2 f n) = _
  exact extractStridedSlice_apply ![0, 0] kvb slices_S2064x512_o0_0_S2048x512 (ix2 f n) (ix2 ⟨f.val, by have := f.isLt; omega⟩ n) (fun a => match a with
    | ⟨0, _⟩ => by show f.val = 0 + f.val; omega
    | ⟨1, _⟩ => by show n.val = 0 + n.val; omega)

theorem mV_apply (kvb : FVec Ideal S2064x512 .f32) (ch : Fin 16) (n : Fin 512) :
    mV kvb (ix2 ch n) = kvb (ix2 ⟨2048 + ch.val, by have := ch.isLt; omega⟩ n) := by
  unfold mV
  exact extractStridedSlice_apply ![2048, 0] kvb slices_S2064x512_o2048_0_S16x512 (ix2 ch n) (ix2 ⟨2048 + ch.val, by have := ch.isLt; omega⟩ n) (fun a => match a with
    | ⟨0, _⟩ => rfl
    | ⟨1, _⟩ => by show n.val = 0 + n.val; omega)

theorem ssq16 (kvb : FVec Ideal S2064x512 .f32) (ch : Fin 16) (n : Fin 512) :
    ![ssq kvb 0 slices_S2064x512_o0_0_S128x512, ssq kvb 128 slices_S2064x512_o128_0_S128x512, ssq kvb 256 slices_S2064x512_o256_0_S128x512, ssq kvb 384 slices_S2064x512_o384_0_S128x512, ssq kvb 512 slices_S2064x512_o512_0_S128x512, ssq kvb 640 slices_S2064x512_o640_0_S128x512, ssq kvb 768 slices_S2064x512_o768_0_S128x512, ssq kvb 896 slices_S2064x512_o896_0_S128x512, ssq kvb 1024 slices_S2064x512_o1024_0_S128x512, ssq kvb 1152 slices_S2064x512_o1152_0_S128x512, ssq kvb 1280 slices_S2064x512_o1280_0_S128x512, ssq kvb 1408 slices_S2064x512_o1408_0_S128x512, ssq kvb 1536 slices_S2064x512_o1536_0_S128x512, ssq kvb 1664 slices_S2064x512_o1664_0_S128x512, ssq kvb 1792 slices_S2064x512_o1792_0_S128x512, ssq kvb 1920 slices_S2064x512_o1920_0_S128x512] ch (ix2 0 n)
      = ∑ i : Fin 128, kvb (ix2 ⟨128 * ch.val + i.val, by have := ch.isLt; have := i.isLt; omega⟩ n)
          * kvb (ix2 ⟨128 * ch.val + i.val, by have := ch.isLt; have := i.isLt; omega⟩ n) := by
  match ch with
  | ⟨0, _⟩ => exact ssq_apply kvb 0 (by omega) slices_S2064x512_o0_0_S128x512 n
  | ⟨1, _⟩ => exact ssq_apply kvb 128 (by omega) slices_S2064x512_o128_0_S128x512 n
  | ⟨2, _⟩ => exact ssq_apply kvb 256 (by omega) slices_S2064x512_o256_0_S128x512 n
  | ⟨3, _⟩ => exact ssq_apply kvb 384 (by omega) slices_S2064x512_o384_0_S128x512 n
  | ⟨4, _⟩ => exact ssq_apply kvb 512 (by omega) slices_S2064x512_o512_0_S128x512 n
  | ⟨5, _⟩ => exact ssq_apply kvb 640 (by omega) slices_S2064x512_o640_0_S128x512 n
  | ⟨6, _⟩ => exact ssq_apply kvb 768 (by omega) slices_S2064x512_o768_0_S128x512 n
  | ⟨7, _⟩ => exact ssq_apply kvb 896 (by omega) slices_S2064x512_o896_0_S128x512 n
  | ⟨8, _⟩ => exact ssq_apply kvb 1024 (by omega) slices_S2064x512_o1024_0_S128x512 n
  | ⟨9, _⟩ => exact ssq_apply kvb 1152 (by omega) slices_S2064x512_o1152_0_S128x512 n
  | ⟨10, _⟩ => exact ssq_apply kvb 1280 (by omega) slices_S2064x512_o1280_0_S128x512 n
  | ⟨11, _⟩ => exact ssq_apply kvb 1408 (by omega) slices_S2064x512_o1408_0_S128x512 n
  | ⟨12, _⟩ => exact ssq_apply kvb 1536 (by omega) slices_S2064x512_o1536_0_S128x512 n
  | ⟨13, _⟩ => exact ssq_apply kvb 1664 (by omega) slices_S2064x512_o1664_0_S128x512 n
  | ⟨14, _⟩ => exact ssq_apply kvb 1792 (by omega) slices_S2064x512_o1792_0_S128x512 n
  | ⟨15, _⟩ => exact ssq_apply kvb 1920 (by omega) slices_S2064x512_o1920_0_S128x512 n
  | ⟨k + 16, h⟩ => exact absurd h (by omega)

variable (x0 : Vec Ideal S1x2048x256 .f32) (x1 : Vec Ideal S256x2064 .bf16) (x2 : Vec Ideal S2064x1 .f32)
  (o : Nat) (ho : o + 512 ≤ 2048) (kvb : FVec Ideal S2064x512 .f32)
  (H1 : ∀ (f : Fin 2064) (n : Fin 512), kvb (ix2 f n) = Spec.kvb (Xs x0) (Ws x1) (Bs x2) f (pos o ho n))
include H1

theorem rV_apply (ch : Fin 16) (n : Fin 512) :
    rV kvb (ix2 ch n) = Spec.rstd (Xs x0) (Ws x1) (Bs x2) ch (pos o ho n) := by
  unfold rV
  rw [rstdV_apply, ssq16, mV_apply]
  unfold Spec.rstd Spec.cmean Spec.feat
  simp only [H1]

end Tile

section Aug
variable (X : Fin 2048 → Fin 256 → EReal) (W : Fin 256 → Fin 2064 → EReal) (B : Fin 2064 → EReal)
  (ch : Fin 16) (a : Fin 144) (n : Fin 2048)

/-- The four kinds of row of a chunk's augmented 144-row matrix. -/
theorem aug_feat (h : a.val < 128) :
    Spec.aug X W B ch a n = Spec.feat X W B ch ⟨a.val, h⟩ n * Spec.rstd X W B ch n := by
  unfold Spec.aug; exact dif_pos h
theorem aug_p (h : a.val = 128) : Spec.aug X W B ch a n = Spec.rstd X W B ch n * Spec.cmean X W B ch n := by
  unfold Spec.aug; rw [dif_neg (by omega), if_pos h]
theorem aug_one (h : a.val = 129) : Spec.aug X W B ch a n = Scalar.ofBits (F := Ideal) .bf16 0x3F80#16 := by
  unfold Spec.aug; rw [dif_neg (by omega), if_neg (by omega), if_pos h]
theorem aug_zero (h : 130 ≤ a.val) : Spec.aug X W B ch a n = Scalar.ofBits (F := Ideal) .bf16 0x0000#16 := by
  unfold Spec.aug; rw [dif_neg (by omega), if_neg (by omega), if_neg (by omega)]
end Aug

/-- An entry of a scratch buffer as an entry of the chunk's augmented matrix it belongs to. -/
theorem scr_eq (x0 : Vec Ideal S1x2048x256 .f32) (x1 : Vec Ideal S256x2064 .bf16) (x2 : Vec Ideal S2064x1 .f32)
    (buf : Fin 2) (y' : S1152x2048.Idx) (ch : Fin 16) (a : Fin 144) (n : Fin 2048)
    (hb : ch.val = 8 * buf.val + (y' 0).val / 144) (ha : a.val = (y' 0).val % 144) (hn : n = y' 1) :
    Spec.scr x0 x1 x2 buf y' = Spec.aug (Xs x0) (Ws x1) (Bs x2) ch a n := by
  have e1 : ch = ⟨8 * buf.val + (y' 0).val / 144, by have := buf.isLt; have h : (y' 0).val < 1152 := (y' 0).isLt; omega⟩ := Fin.ext hb
  have e2 : a = ⟨(y' 0).val % 144, Nat.mod_lt _ (by omega)⟩ := Fin.ext ha
  rw [e1, e2, hn]; rfl

section Pieces
variable (x0 : Vec Ideal S1x2048x256 .f32) (x1 : Vec Ideal S256x2064 .bf16) (x2 : Vec Ideal S2064x1 .f32)
  (o : Nat) (ho : o + 512 ≤ 2048) (kvb : FVec Ideal S2064x512 .f32)
  (H1 : ∀ (f : Fin 2064) (n : Fin 512), kvb (ix2 f n) = Spec.kvb (Xs x0) (Ws x1) (Bs x2) f (pos o ho n))
include H1

/-- A chunk's 128 scaled feature rows over the tile's positions are the matching entries of its augmented matrix. -/
theorem featPiece (ch : Fin 16) (buf : Fin 2) (o1 o2 row : Nat)
    (hbuf : ch.val = 8 * buf.val + ch.val % 8) (ho1 : o1 = 128 * ch.val) (ho2 : o2 = ch.val)
    (hrow : row = 144 * (ch.val % 8))
    (hs1 : S2048x512.Slices ![o1, 0] S128x512) (hs2 : S16x512.Slices ![o2, 0] S1x512)
    (inb : ∀ a, (![row, o] : Fin 2 → Nat) a + S128x512.size a ≤ S1152x2048.size a) (y : S128x512.Idx) :
    featBlk (kvbfV kvb) (rbfV kvb) o1 o2 hs1 hs2 y
      = Spec.scr x0 x1 x2 buf ((Rect.unit (s := S1152x2048) ![row, o] S128x512.size inb).emb y) := by
  subst ho1 ho2 hrow
  obtain ⟨i, n, rfl⟩ : ∃ (i : Fin 128) (n : Fin 512), y = ix2 i n := ⟨y 0, y 1, eq_ix2 y⟩
  have hi : i.val < 128 := i.isLt
  have hc : ch.val < 16 := ch.isLt
  have e1 := featBlk_apply (kvbfV kvb) (rbfV kvb) (128 * ch.val) ch.val (by omega) ch.isLt hs1 hs2 i n
  have e2 : kvbfV kvb (ix2 ⟨128 * ch.val + i.val, by omega⟩ n)
      = Spec.kvb (Xs x0) (Ws x1) (Bs x2) ⟨128 * ch.val + i.val, by omega⟩ (pos o ho n) :=
    (kvbfV_apply kvb _ n).trans (H1 _ n)
  have e3 : rbfV kvb (ix2 ⟨ch.val, ch.isLt⟩ n) = Spec.rstd (Xs x0) (Ws x1) (Bs x2) ch (pos o ho n) :=
    rV_apply x0 x1 x2 o ho kvb H1 ch n
  refine (e1.trans (congrArg₂ (· * ·) e2 e3)).trans (Eq.symm ?_)
  refine (scr_eq x0 x1 x2 buf _ ch ⟨i.val, by omega⟩ (pos o ho n) ?_ ?_ ?_).trans ?_
  · show ch.val = 8 * buf.val + (144 * (ch.val % 8) + 1 * i.val) / 144
    omega
  · show i.val = (144 * (ch.val % 8) + 1 * i.val) % 144
    omega
  · apply Fin.ext
    show o + n.val = o + 1 * n.val
    omega
  · exact aug_feat _ _ _ ch ⟨i.val, by omega⟩ (pos o ho n) hi

/-- A chunk's sixteen extra rows over the tile's positions: mean over deviation, ones, fourteen rows of zeros. -/
theorem augPiece (ch : Fin 16) (buf : Fin 2) (o2 row : Nat)
    (hbuf : ch.val = 8 * buf.val + ch.val % 8) (ho2 : o2 = ch.val)
    (hrow : row = 144 * (ch.val % 8) + 128)
    (one : FVec Ideal S1x512 .bf16) (zer : FVec Ideal S14x512 .bf16)
    (hone : ∀ n : Fin 512, one (ix2 0 n) = Scalar.ofBits (F := Ideal) .bf16 0x3F80#16)
    (hzer : ∀ (k : Fin 14) (n : Fin 512), zer (ix2 k n) = Scalar.ofBits (F := Ideal) .bf16 0x0000#16)
    (hs2 : S16x512.Slices ![o2, 0] S1x512)
    (inb : ∀ a, (![row, o] : Fin 2 → Nat) a + S16x512.size a ≤ S1152x2048.size a) (y : S16x512.Idx) :
    augBlk (pbfV kvb) one zer o2 hs2 y
      = Spec.scr x0 x1 x2 buf ((Rect.unit (s := S1152x2048) ![row, o] S16x512.size inb).emb y) := by
  subst ho2 hrow
  obtain ⟨k, n, rfl⟩ : ∃ (k : Fin 16) (n : Fin 512), y = ix2 k n := ⟨y 0, y 1, eq_ix2 y⟩
  have hc : ch.val < 16 := ch.isLt
  match k with
  | ⟨0, _⟩ =>
    have e1 : augBlk (pbfV kvb) one zer ch.val hs2 (ix2 0 n) = pbfV kvb (ix2 ⟨ch.val, ch.isLt⟩ n) :=
      augBlk_apply0 (pbfV kvb) one zer ch.val ch.isLt hs2 n
    have e2 : pbfV kvb (ix2 ⟨ch.val, ch.isLt⟩ n)
        = Spec.rstd (Xs x0) (Ws x1) (Bs x2) ch (pos o ho n) * Spec.cmean (Xs x0) (Ws x1) (Bs x2) ch (pos o ho n) :=
      congrArg₂ (· * ·) (rV_apply x0 x1 x2 o ho kvb H1 ch n) ((mV_apply kvb ch n).trans (H1 _ n))
    refine (e1.trans e2).trans (Eq.symm ?_)
    refine (scr_eq x0 x1 x2 buf _ ch ⟨128, by omega⟩ (pos o ho n) ?_ ?_ ?_).trans ?_
    · show ch.val = 8 * buf.val + (144 * (ch.val % 8) + 128 + 1 * 0) / 144
      omega
    · show 128 = (144 * (ch.val % 8) + 128 + 1 * 0) % 144
      omega
    · apply Fin.ext
      show o + n.val = o + 1 * n.val
      omega
    · exact aug_p _ _ _ ch ⟨128, by omega⟩ (pos o ho n) rfl
  | ⟨1, _⟩ =>
    have e1 : augBlk (pbfV kvb) one zer ch.val hs2 (ix2 1 n) = one (ix2 0 n) :=
      augBlk_apply1 (pbfV kvb) one zer ch.val hs2 n
    refine (e1.trans (hone n)).trans (Eq.symm ?_)
    refine (scr_eq x0 x1 x2 buf _ ch ⟨129, by omega⟩ (pos o ho n) ?_ ?_ ?_).trans ?_
    · show ch.val = 8 * buf.val + (144 * (ch.val % 8) + 128 + 1 * 1) / 144
      omega
    · show 129 = (144 * (ch.val % 8) + 128 + 1 * 1) % 144
      omega
    · apply Fin.ext
      show o + n.val = o + 1 * n.val
      omega
    · exact aug_one _ _ _ ch ⟨129, by omega⟩ (pos o ho n) rfl
  | ⟨k + 2, hk⟩ =>
    have e1 : augBlk (pbfV kvb) one zer ch.val hs2 (ix2 ⟨2 + (⟨k, by omega⟩ : Fin 14).val, by show 2 + k < 16; omega⟩ n) = zer (ix2 ⟨k, by omega⟩ n) :=
      augBlk_apply2 (pbfV kvb) one zer ch.val hs2 ⟨k, by omega⟩ n
    have e0 : (ix2 (⟨k + 2, hk⟩ : Fin 16) n : S16x512.Idx) = ix2 ⟨2 + (⟨k, by omega⟩ : Fin 14).val, by show 2 + k < 16; omega⟩ n := by
      congr 1; apply Fin.ext; show k + 2 = 2 + k; omega
    rw [e0]
    refine (e1.trans (hzer _ n)).trans (Eq.symm ?_)
    refine (scr_eq x0 x1 x2 buf _ ch ⟨130 + k, by omega⟩ (pos o ho n) ?_ ?_ ?_).trans ?_
    · show ch.val = 8 * buf.val + (144 * (ch.val % 8) + 128 + 1 * (2 + k)) / 144
      omega
    · show 130 + k = (144 * (ch.val % 8) + 128 + 1 * (2 + k)) % 144
      omega
    · apply Fin.ext
      show o + n.val = o + 1 * n.val
      omega
    · exact aug_zero _ _ _ ch ⟨130 + k, by omega⟩ (pos o ho n) (by show 130 ≤ 130 + k; omega)

end Pieces

end Cert.KernelIdeal.TileGen
end
-- ==== Proof.KerTilesB.lean ====
/-
  The kernel body's stores into its two scratch buffers for the 512-position sequence tiles starting at positions
  1024, 1536: each stored piece, read at an entry, is the entry of `Cert.Spec.scr` it covers — for chunk `ch`, in buffer
  `ch / 8` at rows `144 · (ch % 8) …`, the 128 feature rows times the reciprocal deviation, then the row mean over
  deviation, a row of ones and fourteen rows of zeros, at the tile's positions.
-/
import proofs.«148891_g2000303815147335_pallasbulk_1180_8_alg».proof.Proof.KerTileGen

noncomputable section

namespace Cert.KernelIdeal.TilesB

open Cert.KernelIdeal Cert.KernelIdeal.Gen Cert.KernelIdeal.TileGen Idealize.ShloMosaic Idealize.ShloMosaic.ValueIdx

variable (c : Dev nD) (arg1 : Memref sig Kind.tc Space.vmem S1x2048x256 EltTy.f32) (harg1 : arg1.IsWhole)
  (arg2 : Memref sig Kind.tc Space.vmem S256x2064 EltTy.bf16) (harg2 : arg2.IsWhole)
  (arg3 : Memref sig Kind.tc Space.vmem S2064x1 EltTy.f32) (harg3 : arg3.IsWhole)
  (x0 : Vec Ideal S1x2048x256 .f32) (x1 : Vec Ideal S256x2064 .bf16) (x2 : Vec Ideal S2064x1 .f32)

/-! ## The tile of positions 1024 … 1535 -/

/-- The tile's transposed projection is the Spec's `kvb` at positions `1024 … 1535`. -/
theorem tile1024_kvb : (kernelRun0_A.sl.r_41 (F := Ideal) c arg1 harg1 arg2 harg2 arg3 harg3 x0 x1 x2) = kvbV 1024 (k0_pay2 (F := Ideal) x0) x1 x2 slices_S2048x256_o1024_0_S512x256 := by
  have e : (kernelRun0_A.sl.r_41 (F := Ideal) c arg1 harg1 arg2 harg2 arg3 harg3 x0 x1 x2) = kvbV 1024 (k0_pay2 (F := Ideal) (View.readAt (Elt Ideal) arg1.view (Rect.unit ![0, 0, 0] S1x2048x256.size inb_S1x2048x256_S1x2048x256_0_0_0).toLoadRect (harg1.unread x0))) (View.readAt (Elt Ideal) arg2.view (Rect.unit ![0, 0] S256x2064.size inb_S256x2064_S256x2064_0_0).toLoadRect (harg2.unread x1)) (View.readAt (Elt Ideal) arg3.view (Rect.unit ![0, 0] S2064x1.size inb_S2064x1_S2064x1_0_0).toLoadRect (harg3.unread x2)) slices_S2048x256_o1024_0_S512x256 := rfl
  rw [e, rd1, rd2, rd3]

theorem tile1024_H1 (f : Fin 2064) (n : Fin 512) :
    (kernelRun0_A.sl.r_41 (F := Ideal) c arg1 harg1 arg2 harg2 arg3 harg3 x0 x1 x2) (ix2 f n) = Spec.kvb (Xs x0) (Ws x1) (Bs x2) f (pos 1024 (by omega) n) := by
  rw [tile1024_kvb, kvbV_apply 1024 (by omega)]
  unfold Spec.kvb
  simp only [xbf_apply]

theorem piece1_0_1024 (y : S128x512.Idx) :
    (k0_pay155 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 1 ((Rect.unit (s := S1152x2048) ![0, 1024] S128x512.size inb_S1152x2048_S128x512_0_1024).emb y) := by
  have e : (k0_pay155 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1024 8 slices_S2048x512_o1024_0_S128x512 slices_S16x512_o8_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨8, by omega⟩ 1 1024 8 0 (by decide) rfl rfl rfl _ _ _ y

theorem piece1_128_1024 (y : S16x512.Idx) :
    (k0_pay157 (F := Ideal) (kernelRun0_A.sl.r_64 (F := Ideal) c arg1 harg1 arg2 harg2 arg3 harg3 x0 x1 x2)) y = Cert.Spec.scr x0 x1 x2 1 ((Rect.unit (s := S1152x2048) ![128, 1024] S16x512.size inb_S1152x2048_S16x512_128_1024).emb y) := by
  have e : (k0_pay157 (F := Ideal) (kernelRun0_A.sl.r_64 (F := Ideal) c arg1 harg1 arg2 harg2 arg3 harg3 x0 x1 x2)) = augBlk (pbfV (kernelRun0_A.sl.r_41 (F := Ideal) c arg1 harg1 arg2 harg2 arg3 harg3 x0 x1 x2)) (k0_pay134 (F := Ideal)) (k0_pay135 (F := Ideal)) 8 slices_S16x512_o8_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨8, by omega⟩ 1 8 128 (by decide) rfl rfl _ _ (fun _ => rfl) (fun _ _ => rfl) _ _ y

theorem piece1_144_1024 (y : S128x512.Idx) :
    (k0_pay158 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 1 ((Rect.unit (s := S1152x2048) ![144, 1024] S128x512.size inb_S1152x2048_S128x512_144_1024).emb y) := by
  have e : (k0_pay158 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1152 9 slices_S2048x512_o1152_0_S128x512 slices_S16x512_o9_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨9, by omega⟩ 1 1152 9 144 (by decide) rfl rfl rfl _ _ _ y

theorem piece1_272_1024 (y : S16x512.Idx) :
    (k0_pay159 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![272, 1024] S16x512.size inb_S1152x2048_S16x512_272_1024).emb y) := by
  have e : (k0_pay159 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 9 slices_S16x512_o9_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨9, by omega⟩ 1 9 272 (by decide) rfl rfl _ _ (fun _ => rfl) (fun _ _ => rfl) _ _ y

theorem piece1_288_1024 (y : S128x512.Idx) :
    (k0_pay160 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 1 ((Rect.unit (s := S1152x2048) ![288, 1024] S128x512.size inb_S1152x2048_S128x512_288_1024).emb y) := by
  have e : (k0_pay160 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1280 10 slices_S2048x512_o1280_0_S128x512 slices_S16x512_o10_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨10, by omega⟩ 1 1280 10 288 (by decide) rfl rfl rfl _ _ _ y

theorem piece1_416_1024 (y : S16x512.Idx) :
    (k0_pay161 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![416, 1024] S16x512.size inb_S1152x2048_S16x512_416_1024).emb y) := by
  have e : (k0_pay161 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 10 slices_S16x512_o10_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨10, by omega⟩ 1 10 416 (by decide) rfl rfl _ _ (fun _ => rfl) (fun _ _ => rfl) _ _ y

theorem piece1_432_1024 (y : S128x512.Idx) :
    (k0_pay162 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 1 ((Rect.unit (s := S1152x2048) ![432, 1024] S128x512.size inb_S1152x2048_S128x512_432_1024).emb y) := by
  have e : (k0_pay162 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1408 11 slices_S2048x512_o1408_0_S128x512 slices_S16x512_o11_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨11, by omega⟩ 1 1408 11 432 (by decide) rfl rfl rfl _ _ _ y

theorem piece1_560_1024 (y : S16x512.Idx) :
    (k0_pay163 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![560, 1024] S16x512.size inb_S1152x2048_S16x512_560_1024).emb y) := by
  have e : (k0_pay163 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 11 slices_S16x512_o11_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨11, by omega⟩ 1 11 560 (by decide) rfl rfl _ _ (fun _ => rfl) (fun _ _ => rfl) _ _ y

theorem piece1_576_1024 (y : S128x512.Idx) :
    (k0_pay166 (F := Ideal) (kernelRun0_A.sl.r_65 (F := Ideal) c arg1 harg1 arg2 harg2 arg3 harg3 x0 x1 x2) (kernelRun0_A.sl.r_66 (F := Ideal) c arg1 harg1 arg2 harg2 arg3 harg3 x0 x1 x2)) y = Cert.Spec.scr x0 x1 x2 1 ((Rect.unit (s := S1152x2048) ![576, 1024] S128x512.size inb_S1152x2048_S128x512_576_1024).emb y) := by
  have e : (k0_pay166 (F := Ideal) (kernelRun0_A.sl.r_65 (F := Ideal) c arg1 harg1 arg2 harg2 arg3 harg3 x0 x1 x2) (kernelRun0_A.sl.r_66 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1536 12 slices_S2048x512_o1536_0_S128x512 slices_S16x512_o12_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨12, by omega⟩ 1 1536 12 576 (by decide) rfl rfl rfl _ _ _ y

theorem piece1_704_1024 (y : S16x512.Idx) :
    (k0_pay167 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![704, 1024] S16x512.size inb_S1152x2048_S16x512_704_1024).emb y) := by
  have e : (k0_pay167 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 12 slices_S16x512_o12_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨12, by omega⟩ 1 12 704 (by decide) rfl rfl _ _ (fun _ => rfl) (fun _ _ => rfl) _ _ y

theorem piece1_720_1024 (y : S128x512.Idx) :
    (k0_pay168 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 1 ((Rect.unit (s := S1152x2048) ![720, 1024] S128x512.size inb_S1152x2048_S128x512_720_1024).emb y) := by
  have e : (k0_pay168 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1664 13 slices_S2048x512_o1664_0_S128x512 slices_S16x512_o13_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨13, by omega⟩ 1 1664 13 720 (by decide) rfl rfl rfl _ _ _ y

theorem piece1_848_1024 (y : S16x512.Idx) :
    (k0_pay169 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![848, 1024] S16x512.size inb_S1152x2048_S16x512_848_1024).emb y) := by
  have e : (k0_pay169 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 13 slices_S16x512_o13_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨13, by omega⟩ 1 13 848 (by decide) rfl rfl _ _ (fun _ => rfl) (fun _ _ => rfl) _ _ y

theorem piece1_864_1024 (y : S128x512.Idx) :
    (k0_pay170 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 1 ((Rect.unit (s := S1152x2048) ![864, 1024] S128x512.size inb_S1152x2048_S128x512_864_1024).emb y) := by
  have e : (k0_pay170 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1792 14 slices_S2048x512_o1792_0_S128x512 slices_S16x512_o14_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨14, by omega⟩ 1 1792 14 864 (by decide) rfl rfl rfl _ _ _ y

theorem piece1_992_1024 (y : S16x512.Idx) :
    (k0_pay171 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![992, 1024] S16x512.size inb_S1152x2048_S16x512_992_1024).emb y) := by
  have e : (k0_pay171 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 14 slices_S16x512_o14_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨14, by omega⟩ 1 14 992 (by decide) rfl rfl _ _ (fun _ => rfl) (fun _ _ => rfl) _ _ y

theorem piece1_1008_1024 (y : S128x512.Idx) :
    (k0_pay173 (F := Ideal) (kernelRun0_A.sl.r_67 (F := Ideal) c arg1 harg1 arg2 harg2 arg3 harg3 x0 x1 x2)) y = Cert.Spec.scr x0 x1 x2 1 ((Rect.unit (s := S1152x2048) ![1008, 1024] S128x512.size inb_S1152x2048_S128x512_1008_1024).emb y) := by
  have e : (k0_pay173 (F := Ideal) (kernelRun0_A.sl.r_67 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 1920 15 slices_S2048x512_o1920_0_S128x512 slices_S16x512_o15_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨15, by omega⟩ 1 1920 15 1008 (by decide) rfl rfl rfl _ _ _ y

theorem piece1_1136_1024 (y : S16x512.Idx) :
    (k0_pay174 (F := Ideal) (kernelRun0_A.sl.r_60 (F := Ideal) c arg1 harg1 arg2 harg2 arg3 harg3 x0 x1 x2) (k0_pay134 (F := Ideal)) (k0_pay135 (F := Ideal))) y = Cert.Spec.scr x0 x1 x2 1 ((Rect.unit (s := S1152x2048) ![1136, 1024] S16x512.size inb_S1152x2048_S16x512_1136_1024).emb y) := by
  have e : (k0_pay174 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 15 slices_S16x512_o15_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨15, by omega⟩ 1 15 1136 (by decide) rfl rfl _ _ (fun _ => rfl) (fun _ _ => rfl) _ _ y

theorem piece0_0_1024 (y : S128x512.Idx) :
    (k0_pay136 (F := Ideal) (kernelRun0_A.sl.r_41 (F := Ideal) c arg1 harg1 arg2 harg2 arg3 harg3 x0 x1 x2) (kernelRun0_A.sl.r_42 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) y = Cert.Spec.scr x0 x1 x2 0 ((Rect.unit (s := S1152x2048) ![0, 1024] S128x512.size inb_S1152x2048_S128x512_0_1024).emb y) := by
  have e : (k0_pay136 (F := Ideal) (kernelRun0_A.sl.r_41 (F := Ideal) c arg1 harg1 arg2 harg2 arg3 harg3 x0 x1 x2) (kernelRun0_A.sl.r_42 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 0 0 slices_S2048x512_o0_0_S128x512 slices_S16x512_o0_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨0, by omega⟩ 0 0 0 0 (by decide) rfl rfl rfl _ _ _ y

theorem piece0_128_1024 (y : S16x512.Idx) :
    (k0_pay137 (F := Ideal) (kernelRun0_A.sl.r_41 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) y = Cert.Spec.scr x0 x1 x2 0 ((Rect.unit (s := S1152x2048) ![128, 1024] S16x512.size inb_S1152x2048_S16x512_128_1024).emb y) := by
  have e : (k0_pay137 (F := Ideal) (kernelRun0_A.sl.r_41 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) = augBlk (pbfV (kernelRun0_A.sl.r_41 (F := Ideal) c arg1 harg1 arg2 harg2 arg3 harg3 x0 x1 x2)) (k0_pay134 (F := Ideal)) (k0_pay135 (F := Ideal)) 0 slices_S16x512_o0_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨0, by omega⟩ 0 0 128 (by decide) rfl rfl _ _ (fun _ => rfl) (fun _ _ => rfl) _ _ y

theorem piece0_144_1024 (y : S128x512.Idx) :
    (k0_pay138 (F := Ideal) (kernelRun0_A.sl.r_41 (F := Ideal) c arg1 harg1 arg2 harg2 arg3 harg3 x0 x1 x2) (kernelRun0_A.sl.r_42 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) y = Cert.Spec.scr x0 x1 x2 0 ((Rect.unit (s := S1152x2048) ![144, 1024] S128x512.size inb_S1152x2048_S128x512_144_1024).emb y) := by
  have e : (k0_pay138 (F := Ideal) (kernelRun0_A.sl.r_41 (F := Ideal) c arg1 harg1 arg2 harg2 arg3 harg3 x0 x1 x2) (kernelRun0_A.sl.r_42 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 128 1 slices_S2048x512_o128_0_S128x512 slices_S16x512_o1_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨1, by omega⟩ 0 128 1 144 (by decide) rfl rfl rfl _ _ _ y

theorem piece0_272_1024 (y : S16x512.Idx) :
    (k0_pay139 (F := Ideal) (kernelRun0_A.sl.r_41 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) y = Cert.Spec.scr x0 x1 x2 0 ((Rect.unit (s := S1152x2048) ![272, 1024] S16x512.size inb_S1152x2048_S16x512_272_1024).emb y) := by
  have e : (k0_pay139 (F := Ideal) (kernelRun0_A.sl.r_41 (F := Ideal) c arg1 harg1 arg2 harg2 arg3 harg3 x0 x1 x2) (kernelRun0_A.sl.r_43 (F := Ideal) c arg1 harg1 arg2 harg2 arg3 harg3 x0 x1 x2) (kernelRun0_A.sl.r_44 (F := Ideal) c arg1 harg1 arg2 harg2 arg3 harg3 x0 x1 x2) (kernelRun0_A.sl.r_45 (F := Ideal) c arg1 harg1 arg2 harg2 arg3 harg3 x0 x1 x2) (kernelRun0_A.sl.r_46 (F := Ideal) c arg1 harg1 arg2 harg2 arg3 harg3 x0 x1 x2) (kernelRun0_A.sl.r_47 (F := Ideal) c arg1 harg1 arg2 harg2 arg3 harg3 x0 x1 x2) (kernelRun0_A.sl.r_48 (F := Ideal) c arg1 harg1 arg2 harg2 arg3 harg3 x0 x1 x2) (kernelRun0_A.sl.r_49 (F := Ideal) c arg1 harg1 arg2 harg2 arg3 harg3 x0 x1 x2) (kernelRun0_A.sl.r_50 (F := Ideal) c arg1 harg1 arg2 harg2 arg3 harg3 x0 x1 x2) (kernelRun0_A.sl.r_51 (F := Ideal) c arg1 harg1 arg2 harg2 arg3 harg3 x0 x1 x2) (kernelRun0_A.sl.r_52 (F := Ideal) c arg1 harg1 arg2 harg2 arg3 harg3 x0 x1 x2) (kernelRun0_A.sl.r_53 (F := Ideal) c arg1 harg1 arg2 harg2 arg3 harg3 x0 x1 x2) (kernelRun0_A.sl.r_54 (F := Ideal) c arg1 harg1 arg2 harg2 arg3 harg3 x0 x1 x2) (kernelRun0_A.sl.r_55 (F := Ideal) c arg1 harg1 arg2 harg2 arg3 harg3 x0 x1 x2) (kernelRun0_A.sl.r_56 (F := Ideal) c arg1 harg1 arg2 harg2 arg3 harg3 x0 x1 x2) (kernelRun0_A.sl.r_57 (F := Ideal) c arg1 harg1 arg2 harg2 arg3 harg3 x0 x1 x2) (kernelRun0_A.sl.r_58 (F := Ideal) c arg1 harg1 arg2 harg2 arg3 harg3 x0 x1 x2)) = augBlk (pbfV (kernelRun0_A.sl.r_41 (F := Ideal) c arg1 harg1 arg2 harg2 arg3 harg3 x0 x1 x2)) (k0_pay134 (F := Ideal)) (k0_pay135 (F := Ideal)) 1 slices_S16x512_o1_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨1, by omega⟩ 0 1 272 (by decide) rfl rfl _ _ (fun _ => rfl) (fun _ _ => rfl) _ _ y

theorem piece0_288_1024 (y : S128x512.Idx) :
    (k0_pay142 (F := Ideal) (kernelRun0_A.sl.r_61 (F := Ideal) c arg1 harg1 arg2 harg2 arg3 harg3 x0 x1 x2) (kernelRun0_A.sl.r_62 (F := Ideal) c arg1 harg1 arg2 harg2 arg3 harg3 x0 x1 x2)) y = Cert.Spec.scr x0 x1 x2 0 ((Rect.unit (s := S1152x2048) ![288, 1024] S128x512.size inb_S1152x2048_S128x512_288_1024).emb y) := by
  have e : (k0_pay142 (F := Ideal) (kernelRun0_A.sl.r_61 (F := Ideal) c arg1 harg1 arg2 harg2 arg3 harg3 x0 x1 x2) (kernelRun0_A.sl.r_62 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 256 2 slices_S2048x512_o256_0_S128x512 slices_S16x512_o2_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨2, by omega⟩ 0 256 2 288 (by decide) rfl rfl rfl _ _ _ y

theorem piece0_416_1024 (y : S16x512.Idx) :
    (k0_pay143 (F := Ideal) (kernelRun0_A.sl.r_60 (F := Ideal) c arg1 harg1 arg2 harg2 arg3 harg3 x0 x1 x2) (k0_pay134 (F := Ideal)) (k0_pay135 (F := Ideal))) y = Cert.Spec.scr x0 x1 x2 0 ((Rect.unit (s := S1152x2048) ![416, 1024] S16x512.size inb_S1152x2048_S16x512_416_1024).emb y) := by
  have e : (k0_pay143 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 2 slices_S16x512_o2_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨2, by omega⟩ 0 2 416 (by decide) rfl rfl _ _ (fun _ => rfl) (fun _ _ => rfl) _ _ y

theorem piece0_432_1024 (y : S128x512.Idx) :
    (k0_pay144 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 0 ((Rect.unit (s := S1152x2048) ![432, 1024] S128x512.size inb_S1152x2048_S128x512_432_1024).emb y) := by
  have e : (k0_pay144 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 384 3 slices_S2048x512_o384_0_S128x512 slices_S16x512_o3_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨3, by omega⟩ 0 384 3 432 (by decide) rfl rfl rfl _ _ _ y

theorem piece0_560_1024 (y : S16x512.Idx) :
    (k0_pay145 (F := Ideal) (kernelRun0_A.sl.r_60 (F := Ideal) c arg1 harg1 arg2 harg2 arg3 harg3 x0 x1 x2) (k0_pay134 (F := Ideal)) (k0_pay135 (F := Ideal))) y = Cert.Spec.scr x0 x1 x2 0 ((Rect.unit (s := S1152x2048) ![560, 1024] S16x512.size inb_S1152x2048_S16x512_560_1024).emb y) := by
  have e : (k0_pay145 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 3 slices_S16x512_o3_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨3, by omega⟩ 0 3 560 (by decide) rfl rfl _ _ (fun _ => rfl) (fun _ _ => rfl) _ _ y

theorem piece0_576_1024 (y : S128x512.Idx) :
    (k0_pay146 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 0 ((Rect.unit (s := S1152x2048) ![576, 1024] S128x512.size inb_S1152x2048_S128x512_576_1024).emb y) := by
  have e : (k0_pay146 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 512 4 slices_S2048x512_o512_0_S128x512 slices_S16x512_o4_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨4, by omega⟩ 0 512 4 576 (by decide) rfl rfl rfl _ _ _ y

theorem piece0_704_1024 (y : S16x512.Idx) :
    (k0_pay147 (F := Ideal) (kernelRun0_A.sl.r_60 (F := Ideal) c arg1 harg1 arg2 harg2 arg3 harg3 x0 x1 x2) (k0_pay134 (F := Ideal)) (k0_pay135 (F := Ideal))) y = Cert.Spec.scr x0 x1 x2 0 ((Rect.unit (s := S1152x2048) ![704, 1024] S16x512.size inb_S1152x2048_S16x512_704_1024).emb y) := by
  have e : (k0_pay147 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 4 slices_S16x512_o4_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨4, by omega⟩ 0 4 704 (by decide) rfl rfl _ _ (fun _ => rfl) (fun _ _ => rfl) _ _ y

theorem piece0_720_1024 (y : S128x512.Idx) :
    (k0_pay149 (F := Ideal) (kernelRun0_A.sl.r_63 (F := Ideal) c arg1 harg1 arg2 harg2 arg3 harg3 x0 x1 x2)) y = Cert.Spec.scr x0 x1 x2 0 ((Rect.unit (s := S1152x2048) ![720, 1024] S128x512.size inb_S1152x2048_S128x512_720_1024).emb y) := by
  have e : (k0_pay149 (F := Ideal) (kernelRun0_A.sl.r_63 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 640 5 slices_S2048x512_o640_0_S128x512 slices_S16x512_o5_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨5, by omega⟩ 0 640 5 720 (by decide) rfl rfl rfl _ _ _ y

theorem piece0_848_1024 (y : S16x512.Idx) :
    (k0_pay150 (F := Ideal) (kernelRun0_A.sl.r_60 (F := Ideal) c arg1 harg1 arg2 harg2 arg3 harg3 x0 x1 x2) (k0_pay134 (F := Ideal)) (k0_pay135 (F := Ideal))) y = Cert.Spec.scr x0 x1 x2 0 ((Rect.unit (s := S1152x2048) ![848, 1024] S16x512.size inb_S1152x2048_S16x512_848_1024).emb y) := by
  have e : (k0_pay150 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 5 slices_S16x512_o5_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨5, by omega⟩ 0 5 848 (by decide) rfl rfl _ _ (fun _ => rfl) (fun _ _ => rfl) _ _ y

theorem piece0_864_1024 (y : S128x512.Idx) :
    (k0_pay151 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 0 ((Rect.unit (s := S1152x2048) ![864, 1024] S128x512.size inb_S1152x2048_S128x512_864_1024).emb y) := by
  have e : (k0_pay151 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 768 6 slices_S2048x512_o768_0_S128x512 slices_S16x512_o6_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨6, by omega⟩ 0 768 6 864 (by decide) rfl rfl rfl _ _ _ y

theorem piece0_992_1024 (y : S16x512.Idx) :
    (k0_pay152 (F := Ideal) (kernelRun0_A.sl.r_60 (F := Ideal) c arg1 harg1 arg2 harg2 arg3 harg3 x0 x1 x2) (k0_pay134 (F := Ideal)) (k0_pay135 (F := Ideal))) y = Cert.Spec.scr x0 x1 x2 0 ((Rect.unit (s := S1152x2048) ![992, 1024] S16x512.size inb_S1152x2048_S16x512_992_1024).emb y) := by
  have e : (k0_pay152 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 6 slices_S16x512_o6_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨6, by omega⟩ 0 6 992 (by decide) rfl rfl _ _ (fun _ => rfl) (fun _ _ => rfl) _ _ y

theorem piece0_1008_1024 (y : S128x512.Idx) :
    (k0_pay153 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) y = Cert.Spec.scr x0 x1 x2 0 ((Rect.unit (s := S1152x2048) ![1008, 1024] S128x512.size inb_S1152x2048_S128x512_1008_1024).emb y) := by
  have e : (k0_pay153 (F := Ideal) (kernelRun0_A.sl.r_42 (F := Ideal) c arg1 harg1 arg2 harg2 arg3 harg3 x0 x1 x2) (kernelRun0_A.sl.r_59 (F := Ideal) c arg1 harg1 arg2 harg2 arg3 harg3 x0 x1 x2)) = featBlk (kvbfV (kernelRun0_A.sl.r_41 (F := Ideal) c arg1 harg1 arg2 harg2 arg3 harg3 x0 x1 x2)) (rbfV (kernelRun0_A.sl.r_41 (F := Ideal) c arg1 harg1 arg2 harg2 arg3 harg3 x0 x1 x2)) 896 7 slices_S2048x512_o896_0_S128x512 slices_S16x512_o7_0_S1x512 := rfl
  rw [e]
  exact featPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨7, by omega⟩ 0 896 7 1008 (by decide) rfl rfl rfl _ _ _ y

theorem piece0_1136_1024 (y : S16x512.Idx) :
    (k0_pay154 (F := Ideal) (kernelRun0_A.sl.r_60 (F := Ideal) c arg1 harg1 arg2 harg2 arg3 harg3 x0 x1 x2) (k0_pay134 (F := Ideal)) (k0_pay135 (F := Ideal))) y = Cert.Spec.scr x0 x1 x2 0 ((Rect.unit (s := S1152x2048) ![1136, 1024] S16x512.size inb_S1152x2048_S16x512_1136_1024).emb y) := by
  have e : (k0_pay154 (F := Ideal) (kernelRun0_A.sl.r_60 (F := Ideal) c arg1 harg1 arg2 harg2 arg3 harg3 x0 x1 x2) (k0_pay134 (F := Ideal)) (k0_pay135 (F := Ideal))) = augBlk (pbfV (kernelRun0_A.sl.r_41 (F := Ideal) c arg1 harg1 arg2 harg2 arg3 harg3 x0 x1 x2)) (k0_pay134 (F := Ideal)) (k0_pay135 (F := Ideal)) 7 slices_S16x512_o7_0_S1x512 := rfl
  rw [e]
  exact augPiece x0 x1 x2 1024 (by omega) (kernelRun0_A.sl.r_41 (F := Ideal) c arg1 harg1 arg2 harg2 arg3 harg3 x0 x1 x2) (tile1024_H1 c arg1 harg1 arg2 harg2 arg3 harg3 x0 x1 x2) ⟨7, by omega⟩ 0 7 1136 (by decide) rfl rfl _ _ (fun _ => rfl) (fun _ _ => rfl) _ _ y

/-! ## The tile of positions 1536 … 2047 -/

/-- The tile's transposed projection is the Spec's `kvb` at positions `1536 … 2047`. -/
theorem tile1536_kvb : (kernelRun0_A.sl.r_68 (F := Ideal) c arg1 harg1 arg2 harg2 arg3 harg3 x0 x1 x2) = kvbV 1536 (k0_pay2 (F := Ideal) x0) x1 x2 slices_S2048x256_o1536_0_S512x256 := by
  have e : (kernelRun0_A.sl.r_68 (F := Ideal) c arg1 harg1 arg2 harg2 arg3 harg3 x0 x1 x2) = kvbV 1536 (k0_pay2 (F := Ideal) (View.readAt (Elt Ideal) arg1.view (Rect.unit ![0, 0, 0] S1x2048x256.size inb_S1x2048x256_S1x2048x256_0_0_0).toLoadRect (harg1.unread x0))) (View.readAt (Elt Ideal) arg2.view (Rect.unit ![0, 0] S256x2064.size inb_S256x2064_S256x2064_0_0).toLoadRect (harg2.unread x1)) (View.readAt (Elt Ideal) arg3.view (Rect.unit ![0, 0] S2064x1.size inb_S2064x1_S2064x1_0_0).toLoadRect (harg3.unread x2)) slices_S2048x256_o1536_0_S512x256 := rfl
  rw [e, rd1, rd2, rd3]

theorem tile1536_H1 (f : Fin 2064) (n : Fin 512) :
    (kernelRun0_A.sl.r_68 (F := Ideal) c arg1 harg1 arg2 harg2 arg3 harg3 x0 x1 x2) (ix2 f n) = Spec.kvb (Xs x0) (Ws x1) (Bs x2) f (pos 1536 (by omega) n) := by
  rw [tile1536_kvb, kvbV_apply 1536 (by omega)]
  unfold Spec.kvb
  simp only [xbf_apply]

theorem piece1_0_1536 (y : S128x512.Idx) :
    (k0_pay208 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![0, 1536] S128x512.size inb_S1152x2048_S128x512_0_1536).emb y) := by
  have e : (k0_pay208 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1024 8 slices_S2048x512_o1024_0_S128x512 slices_S16x512_o8_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨8, by omega⟩ 1 1024 8 0 (by decide) rfl rfl rfl _ _ _ y

theorem piece1_128_1536 (y : S16x512.Idx) :
    (k0_pay209 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![128, 1536] S16x512.size inb_S1152x2048_S16x512_128_1536).emb y) := by
  have e : (k0_pay209 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 8 slices_S16x512_o8_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨8, by omega⟩ 1 8 128 (by decide) rfl rfl _ _ (fun _ => rfl) (fun _ _ => rfl) _ _ y

theorem piece1_144_1536 (y : S128x512.Idx) :
    (k0_pay210 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![144, 1536] S128x512.size inb_S1152x2048_S128x512_144_1536).emb y) := by
  have e : (k0_pay210 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1152 9 slices_S2048x512_o1152_0_S128x512 slices_S16x512_o9_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨9, by omega⟩ 1 1152 9 144 (by decide) rfl rfl rfl _ _ _ y

theorem piece1_272_1536 (y : S16x512.Idx) :
    (k0_pay212 (F := Ideal) (kernelRun0_A.sl.r_84 (F := Ideal) c arg1 harg1 arg2 harg2 arg3 harg3 x0 x1 x2)) y = Cert.Spec.scr x0 x1 x2 1 ((Rect.unit (s := S1152x2048) ![272, 1536] S16x512.size inb_S1152x2048_S16x512_272_1536).emb y) := by
  have e : (k0_pay212 (F := Ideal) (kernelRun0_A.sl.r_84 (F := Ideal) c arg1 harg1 arg2 harg2 arg3 harg3 x0 x1 x2)) = augBlk (pbfV (kernelRun0_A.sl.r_68 (F := Ideal) c arg1 harg1 arg2 harg2 arg3 harg3 x0 x1 x2)) (kernelRun0_A.sl.r_80 (F := Ideal)) (k0_pay189 (F := Ideal)) 9 slices_S16x512_o9_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨9, by omega⟩ 1 9 272 (by decide) rfl rfl _ _ (fun _ => rfl) (fun _ _ => rfl) _ _ y

theorem piece1_288_1536 (y : S128x512.Idx) :
    (k0_pay213 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![288, 1536] S128x512.size inb_S1152x2048_S128x512_288_1536).emb y) := by
  have e : (k0_pay213 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1280 10 slices_S2048x512_o1280_0_S128x512 slices_S16x512_o10_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨10, by omega⟩ 1 1280 10 288 (by decide) rfl rfl rfl _ _ _ y

theorem piece1_416_1536 (y : S16x512.Idx) :
    (k0_pay214 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![416, 1536] S16x512.size inb_S1152x2048_S16x512_416_1536).emb y) := by
  have e : (k0_pay214 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 10 slices_S16x512_o10_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨10, by omega⟩ 1 10 416 (by decide) rfl rfl _ _ (fun _ => rfl) (fun _ _ => rfl) _ _ y

theorem piece1_432_1536 (y : S128x512.Idx) :
    (k0_pay215 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![432, 1536] S128x512.size inb_S1152x2048_S128x512_432_1536).emb y) := by
  have e : (k0_pay215 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1408 11 slices_S2048x512_o1408_0_S128x512 slices_S16x512_o11_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨11, by omega⟩ 1 1408 11 432 (by decide) rfl rfl rfl _ _ _ y

theorem piece1_560_1536 (y : S16x512.Idx) :
    (k0_pay216 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![560, 1536] S16x512.size inb_S1152x2048_S16x512_560_1536).emb y) := by
  have e : (k0_pay216 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 11 slices_S16x512_o11_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨11, by omega⟩ 1 11 560 (by decide) rfl rfl _ _ (fun _ => rfl) (fun _ _ => rfl) _ _ y

theorem piece1_576_1536 (y : S128x512.Idx) :
    (k0_pay217 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![576, 1536] S128x512.size inb_S1152x2048_S128x512_576_1536).emb y) := by
  have e : (k0_pay217 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1536 12 slices_S2048x512_o1536_0_S128x512 slices_S16x512_o12_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨12, by omega⟩ 1 1536 12 576 (by decide) rfl rfl rfl _ _ _ y

theorem piece1_704_1536 (y : S16x512.Idx) :
    (k0_pay218 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![704, 1536] S16x512.size inb_S1152x2048_S16x512_704_1536).emb y) := by
  have e : (k0_pay218 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 12 slices_S16x512_o12_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨12, by omega⟩ 1 12 704 (by decide) rfl rfl _ _ (fun _ => rfl) (fun _ _ => rfl) _ _ y

theorem piece1_720_1536 (y : S128x512.Idx) :
    (k0_pay221 (F := Ideal) (kernelRun0_A.sl.r_85 (F := Ideal) c arg1 harg1 arg2 harg2 arg3 harg3 x0 x1 x2) (kernelRun0_A.sl.r_86 (F := Ideal) c arg1 harg1 arg2 harg2 arg3 harg3 x0 x1 x2)) y = Cert.Spec.scr x0 x1 x2 1 ((Rect.unit (s := S1152x2048) ![720, 1536] S128x512.size inb_S1152x2048_S128x512_720_1536).emb y) := by
  have e : (k0_pay221 (F := Ideal) (kernelRun0_A.sl.r_85 (F := Ideal) c arg1 harg1 arg2 harg2 arg3 harg3 x0 x1 x2) (kernelRun0_A.sl.r_86 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1664 13 slices_S2048x512_o1664_0_S128x512 slices_S16x512_o13_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨13, by omega⟩ 1 1664 13 720 (by decide) rfl rfl rfl _ _ _ y

theorem piece1_848_1536 (y : S16x512.Idx) :
    (k0_pay222 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![848, 1536] S16x512.size inb_S1152x2048_S16x512_848_1536).emb y) := by
  have e : (k0_pay222 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 13 slices_S16x512_o13_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨13, by omega⟩ 1 13 848 (by decide) rfl rfl _ _ (fun _ => rfl) (fun _ _ => rfl) _ _ y

theorem piece1_864_1536 (y : S128x512.Idx) :
    (k0_pay223 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![864, 1536] S128x512.size inb_S1152x2048_S128x512_864_1536).emb y) := by
  have e : (k0_pay223 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1792 14 slices_S2048x512_o1792_0_S128x512 slices_S16x512_o14_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨14, by omega⟩ 1 1792 14 864 (by decide) rfl rfl rfl _ _ _ y

theorem piece1_992_1536 (y : S16x512.Idx) :
    (k0_pay224 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![992, 1536] S16x512.size inb_S1152x2048_S16x512_992_1536).emb y) := by
  have e : (k0_pay224 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 14 slices_S16x512_o14_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨14, by omega⟩ 1 14 992 (by decide) rfl rfl _ _ (fun _ => rfl) (fun _ _ => rfl) _ _ y

theorem piece1_1008_1536 (y : S128x512.Idx) :
    (k0_pay225 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 1 ((Rect.unit (s := S1152x2048) ![1008, 1536] S128x512.size inb_S1152x2048_S128x512_1008_1536).emb y) := by
  have e : (k0_pay225 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 1920 15 slices_S2048x512_o1920_0_S128x512 slices_S16x512_o15_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨15, by omega⟩ 1 1920 15 1008 (by decide) rfl rfl rfl _ _ _ y

theorem piece1_1136_1536 (y : S16x512.Idx) :
    (k0_pay226 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 1 ((Rect.unit (s := S1152x2048) ![1136, 1536] S16x512.size inb_S1152x2048_S16x512_1136_1536).emb y) := by
  have e : (k0_pay226 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 15 slices_S16x512_o15_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨15, by omega⟩ 1 15 1136 (by decide) rfl rfl _ _ (fun _ => rfl) (fun _ _ => rfl) _ _ y

theorem piece0_0_1536 (y : S128x512.Idx) :
    (k0_pay190 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 0 ((Rect.unit (s := S1152x2048) ![0, 1536] S128x512.size inb_S1152x2048_S128x512_0_1536).emb y) := by
  have e : (k0_pay190 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 0 0 slices_S2048x512_o0_0_S128x512 slices_S16x512_o0_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨0, by omega⟩ 0 0 0 0 (by decide) rfl rfl rfl _ _ _ y

theorem piece0_128_1536 (y : S16x512.Idx) :
    (k0_pay191 (F := Ideal) (kernelRun0_A.sl.r_79 (F := Ideal) c arg1 harg1 arg2 harg2 arg3 harg3 x0 x1 x2) (kernelRun0_A.sl.cst_274 (F := Ideal))) y = Cert.Spec.scr x0 x1 x2 0 ((Rect.unit (s := S1152x2048) ![128, 1536] S16x512.size inb_S1152x2048_S16x512_128_1536).emb y) := by
  have e : (k0_pay191 (F := Ideal) (kernelRun0_A.sl.r_79 (F := Ideal) c arg1 harg1 arg2 harg2 arg3 harg3 x0 x1 x2) (kernelRun0_A.sl.cst_274 (F := Ideal))) = augBlk (pbfV (kernelRun0_A.sl.r_68 (F := Ideal) c arg1 harg1 arg2 harg2 arg3 harg3 x0 x1 x2)) (kernelRun0_A.sl.r_80 (F := Ideal)) (k0_pay189 (F := Ideal)) 0 slices_S16x512_o0_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨0, by omega⟩ 0 0 128 (by decide) rfl rfl _ _ (fun _ => rfl) (fun _ _ => rfl) _ _ y

theorem piece0_144_1536 (y : S128x512.Idx) :
    (k0_pay192 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 0 ((Rect.unit (s := S1152x2048) ![144, 1536] S128x512.size inb_S1152x2048_S128x512_144_1536).emb y) := by
  have e : (k0_pay192 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 128 1 slices_S2048x512_o128_0_S128x512 slices_S16x512_o1_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨1, by omega⟩ 0 128 1 144 (by decide) rfl rfl rfl _ _ _ y

theorem piece0_272_1536 (y : S16x512.Idx) :
    (k0_pay193 (F := Ideal) (kernelRun0_A.sl.r_79 (F := Ideal) c arg1 harg1 arg2 harg2 arg3 harg3 x0 x1 x2) (kernelRun0_A.sl.cst_274 (F := Ideal))) y = Cert.Spec.scr x0 x1 x2 0 ((Rect.unit (s := S1152x2048) ![272, 1536] S16x512.size inb_S1152x2048_S16x512_272_1536).emb y) := by
  have e : (k0_pay193 (F := Ideal) (kernelRun0_A.sl.r_79 (F := Ideal) c arg1 harg1 arg2 harg2 arg3 harg3 x0 x1 x2) (kernelRun0_A.sl.cst_274 (F := Ideal))) = augBlk (pbfV (kernelRun0_A.sl.r_68 (F := Ideal) c arg1 harg1 arg2 harg2 arg3 harg3 x0 x1 x2)) (kernelRun0_A.sl.r_80 (F := Ideal)) (k0_pay189 (F := Ideal)) 1 slices_S16x512_o1_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨1, by omega⟩ 0 1 272 (by decide) rfl rfl _ _ (fun _ => rfl) (fun _ _ => rfl) _ _ y

theorem piece0_288_1536 (y : S128x512.Idx) :
    (k0_pay194 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 0 ((Rect.unit (s := S1152x2048) ![288, 1536] S128x512.size inb_S1152x2048_S128x512_288_1536).emb y) := by
  have e : (k0_pay194 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 256 2 slices_S2048x512_o256_0_S128x512 slices_S16x512_o2_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨2, by omega⟩ 0 256 2 288 (by decide) rfl rfl rfl _ _ _ y

theorem piece0_416_1536 (y : S16x512.Idx) :
    (k0_pay195 (F := Ideal) (kernelRun0_A.sl.r_79 (F := Ideal) c arg1 harg1 arg2 harg2 arg3 harg3 x0 x1 x2) (kernelRun0_A.sl.cst_274 (F := Ideal))) y = Cert.Spec.scr x0 x1 x2 0 ((Rect.unit (s := S1152x2048) ![416, 1536] S16x512.size inb_S1152x2048_S16x512_416_1536).emb y) := by
  have e : (k0_pay195 (F := Ideal) (kernelRun0_A.sl.r_79 (F := Ideal) c arg1 harg1 arg2 harg2 arg3 harg3 x0 x1 x2) (kernelRun0_A.sl.cst_274 (F := Ideal))) = augBlk (pbfV (kernelRun0_A.sl.r_68 (F := Ideal) c arg1 harg1 arg2 harg2 arg3 harg3 x0 x1 x2)) (kernelRun0_A.sl.r_80 (F := Ideal)) (k0_pay189 (F := Ideal)) 2 slices_S16x512_o2_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨2, by omega⟩ 0 2 416 (by decide) rfl rfl _ _ (fun _ => rfl) (fun _ _ => rfl) _ _ y

theorem piece0_432_1536 (y : S128x512.Idx) :
    (k0_pay198 (F := Ideal) (kernelRun0_A.sl.r_81 (F := Ideal) c arg1 harg1 arg2 harg2 arg3 harg3 x0 x1 x2) (kernelRun0_A.sl.r_82 (F := Ideal) c arg1 harg1 arg2 harg2 arg3 harg3 x0 x1 x2)) y = Cert.Spec.scr x0 x1 x2 0 ((Rect.unit (s := S1152x2048) ![432, 1536] S128x512.size inb_S1152x2048_S128x512_432_1536).emb y) := by
  have e : (k0_pay198 (F := Ideal) (kernelRun0_A.sl.r_81 (F := Ideal) c arg1 harg1 arg2 harg2 arg3 harg3 x0 x1 x2) (kernelRun0_A.sl.r_82 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 384 3 slices_S2048x512_o384_0_S128x512 slices_S16x512_o3_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨3, by omega⟩ 0 384 3 432 (by decide) rfl rfl rfl _ _ _ y

theorem piece0_560_1536 (y : S16x512.Idx) :
    (k0_pay199 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 0 ((Rect.unit (s := S1152x2048) ![560, 1536] S16x512.size inb_S1152x2048_S16x512_560_1536).emb y) := by
  have e : (k0_pay199 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 3 slices_S16x512_o3_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨3, by omega⟩ 0 3 560 (by decide) rfl rfl _ _ (fun _ => rfl) (fun _ _ => rfl) _ _ y

theorem piece0_576_1536 (y : S128x512.Idx) :
    (k0_pay200 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 0 ((Rect.unit (s := S1152x2048) ![576, 1536] S128x512.size inb_S1152x2048_S128x512_576_1536).emb y) := by
  have e : (k0_pay200 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 512 4 slices_S2048x512_o512_0_S128x512 slices_S16x512_o4_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨4, by omega⟩ 0 512 4 576 (by decide) rfl rfl rfl _ _ _ y

theorem piece0_704_1536 (y : S16x512.Idx) :
    (k0_pay201 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 0 ((Rect.unit (s := S1152x2048) ![704, 1536] S16x512.size inb_S1152x2048_S16x512_704_1536).emb y) := by
  have e : (k0_pay201 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 4 slices_S16x512_o4_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨4, by omega⟩ 0 4 704 (by decide) rfl rfl _ _ (fun _ => rfl) (fun _ _ => rfl) _ _ y

theorem piece0_720_1536 (y : S128x512.Idx) :
    (k0_pay202 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 0 ((Rect.unit (s := S1152x2048) ![720, 1536] S128x512.size inb_S1152x2048_S128x512_720_1536).emb y) := by
  have e : (k0_pay202 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 640 5 slices_S2048x512_o640_0_S128x512 slices_S16x512_o5_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨5, by omega⟩ 0 640 5 720 (by decide) rfl rfl rfl _ _ _ y

theorem piece0_848_1536 (y : S16x512.Idx) :
    (k0_pay203 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 0 ((Rect.unit (s := S1152x2048) ![848, 1536] S16x512.size inb_S1152x2048_S16x512_848_1536).emb y) := by
  have e : (k0_pay203 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 5 slices_S16x512_o5_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨5, by omega⟩ 0 5 848 (by decide) rfl rfl _ _ (fun _ => rfl) (fun _ _ => rfl) _ _ y

theorem piece0_864_1536 (y : S128x512.Idx) :
    (kernelRun0_A.sl.r_83 (F := Ideal) c arg1 harg1 arg2 harg2 arg3 harg3 x0 x1 x2) y = Cert.Spec.scr x0 x1 x2 0 ((Rect.unit (s := S1152x2048) ![864, 1536] S128x512.size inb_S1152x2048_S128x512_864_1536).emb y) := by
  have e : (kernelRun0_A.sl.r_83 (F := Ideal) c arg1 harg1 arg2 harg2 arg3 harg3 x0 x1 x2) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 768 6 slices_S2048x512_o768_0_S128x512 slices_S16x512_o6_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨6, by omega⟩ 0 768 6 864 (by decide) rfl rfl rfl _ _ _ y

theorem piece0_992_1536 (y : S16x512.Idx) :
    (k0_pay205 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 0 ((Rect.unit (s := S1152x2048) ![992, 1536] S16x512.size inb_S1152x2048_S16x512_992_1536).emb y) := by
  have e : (k0_pay205 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 6 slices_S16x512_o6_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨6, by omega⟩ 0 6 992 (by decide) rfl rfl _ _ (fun _ => rfl) (fun _ _ => rfl) _ _ y

theorem piece0_1008_1536 (y : S128x512.Idx) :
    (k0_pay206 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) y = Cert.Spec.scr x0 x1 x2 0 ((Rect.unit (s := S1152x2048) ![1008, 1536] S128x512.size inb_S1152x2048_S128x512_1008_1536).emb y) := by
  have e : (k0_pay206 (F := Ideal) (kernelRun0_A.sl.r_69 (F := Ideal) c arg1 harg1 arg2 harg2 arg3 harg3 x0 x1 x2) (kernelRun0_A.sl.r_78 (F := Ideal) c arg1 harg1 arg2 harg2 arg3 harg3 x0 x1 x2)) = featBlk (kvbfV (kernelRun0_A.sl.r_68 (F := Ideal) c arg1 harg1 arg2 harg2 arg3 harg3 x0 x1 x2)) (rbfV (kernelRun0_A.sl.r_68 (F := Ideal) c arg1 harg1 arg2 harg2 arg3 harg3 x0 x1 x2)) 896 7 slices_S2048x512_o896_0_S128x512 slices_S16x512_o7_0_S1x512 := rfl
  rw [e]
  exact featPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨7, by omega⟩ 0 896 7 1008 (by decide) rfl rfl rfl _ _ _ y

theorem piece0_1136_1536 (y : S16x512.Idx) :
    (k0_pay207 (F := Ideal) (kernelRun0_A.sl.r_79 (F := Ideal) c arg1 harg1 arg2 harg2 arg3 harg3 x0 x1 x2) (kernelRun0_A.sl.r_80 (F := Ideal)) (k0_pay189 (F := Ideal))) y = Cert.Spec.scr x0 x1 x2 0 ((Rect.unit (s := S1152x2048) ![1136, 1536] S16x512.size inb_S1152x2048_S16x512_1136_1536).emb y) := by
  have e : (k0_pay207 (F := Ideal) (kernelRun0_A.sl.r_79 (F := Ideal) c arg1 harg1 arg2 harg2 arg3 harg3 x0 x1 x2) (kernelRun0_A.sl.r_80 (F := Ideal)) (k0_pay189 (F := Ideal))) = augBlk (pbfV (kernelRun0_A.sl.r_68 (F := Ideal) c arg1 harg1 arg2 harg2 arg3 harg3 x0 x1 x2)) (kernelRun0_A.sl.r_80 (F := Ideal)) (k0_pay189 (F := Ideal)) 7 slices_S16x512_o7_0_S1x512 := rfl
  rw [e]
  exact augPiece x0 x1 x2 1536 (by omega) (kernelRun0_A.sl.r_68 (F := Ideal) c arg1 harg1 arg2 harg2 arg3 harg3 x0 x1 x2) (tile1536_H1 c arg1 harg1 arg2 harg2 arg3 harg3 x0 x1 x2) ⟨7, by omega⟩ 0 7 1136 (by decide) rfl rfl _ _ (fun _ => rfl) (fun _ _ => rfl) _ _ y

end Cert.KernelIdeal.TilesB
end
-- ==== Proof.KerTilesA1.lean ====
/-
  The kernel body's stores into its first scratch buffer for the sequence tile of positions 512 … 1023. For this tile the
  body forms the transposed projection `kvb[f, n] = Σ_c wkvA[c, f] · x[512 + n, c] + bkvT[f]` (2064 rows over the tile's 512
  positions: 2048 key and value features and, in rows 2048 … 2063, the sixteen chunk means), the sum of squares of each
  128-row chunk, the reciprocal deviation `r = rsqrt (sumsq · (1/128) − mean² + ε)` and `p = r · mean`. For key chunk
  `ch = 0 … 7` it stores, in the first buffer at rows `144 · ch …` and columns 512 … 1023, the 128 feature rows times `r`,
  then the row `p`, a row of ones and fourteen rows of zeros. Each stored piece, read at an entry, is shown to be the entry
  of `Cert.Spec.scr` it covers: row `a` of chunk `ch`'s augmented 144-row matrix at position `512 + n`.
-/
import proofs.«148891_g2000303815147335_pallasbulk_1180_8_alg».proof.Proof.KerTileGen

noncomputable section

namespace Cert.KernelIdeal.TilesA1

open Cert.KernelIdeal Cert.KernelIdeal.Gen Cert.KernelIdeal.TileGen Idealize.ShloMosaic Idealize.ShloMosaic.ValueIdx

section Tile1
variable (c : Dev nD) (arg1 : Memref sig Kind.tc Space.vmem S1x2048x256 EltTy.f32) (harg1 : arg1.IsWhole)
  (arg2 : Memref sig Kind.tc Space.vmem S256x2064 EltTy.bf16) (harg2 : arg2.IsWhole)
  (arg3 : Memref sig Kind.tc Space.vmem S2064x1 EltTy.f32) (harg3 : arg3.IsWhole)
  (x0 : Vec Ideal S1x2048x256 .f32) (x1 : Vec Ideal S256x2064 .bf16) (x2 : Vec Ideal S2064x1 .f32)

/-- The tile's transposed projection, from the three input blocks. -/
theorem t1_kvb : (kernelRun0_A.sl.r_19 (F := Ideal) c arg1 harg1 arg2 harg2 arg3 harg3 x0 x1 x2) = kvbV 512 (k0_pay2 (F := Ideal) x0) x1 x2 slices_S2048x256_o512_0_S512x256 := by
  have e : (kernelRun0_A.sl.r_19 (F := Ideal) c arg1 harg1 arg2 harg2 arg3 harg3 x0 x1 x2) = kvbV 512 (k0_pay2 (F := Ideal) (View.readAt (Elt Ideal) arg1.view (Rect.unit ![0, 0, 0] S1x2048x256.size inb_S1x2048x256_S1x2048x256_0_0_0).toLoadRect (harg1.unread x0))) (View.readAt (Elt Ideal) arg2.view (Rect.unit ![0, 0] S256x2064.size inb_S256x2064_S256x2064_0_0).toLoadRect (harg2.unread x1)) (View.readAt (Elt Ideal) arg3.view (Rect.unit ![0, 0] S2064x1.size inb_S2064x1_S2064x1_0_0).toLoadRect (harg3.unread x2)) slices_S2048x256_o512_0_S512x256 := rfl
  rw [e, rd1, rd2, rd3]

/-- … is the shared statement's `kvb` at positions `512 … 1023`. -/
theorem t1_H1 (f : Fin 2064) (n : Fin 512) :
    (kernelRun0_A.sl.r_19 (F := Ideal) c arg1 harg1 arg2 harg2 arg3 harg3 x0 x1 x2) (ix2 f n) = Spec.kvb (Xs x0) (Ws x1) (Bs x2) f (pos 512 (by omega) n) := by
  rw [t1_kvb, kvbV_apply 512 (by omega)]
  unfold Spec.kvb
  simp only [xbf_apply]

/-- Chunk 0's 128 feature rows times its reciprocal deviation, stored at rows 0 … 127 of the first buffer. -/
theorem piece0_0_512 (y : S128x512.Idx) :
    (k0_pay76 (F := Ideal) (kernelRun0_A.sl.r_19 (F := Ideal) c arg1 harg1 arg2 harg2 arg3 harg3 x0 x1 x2) (kernelRun0_A.sl.r_20 (F := Ideal) c arg1 harg1 arg2 harg2 arg3 harg3 x0 x1 x2) (kernelRun0_A.sl.r_21 (F := Ideal) c arg1 harg1 arg2 harg2 arg3 harg3 x0 x1 x2) (kernelRun0_A.sl.r_22 (F := Ideal) c arg1 harg1 arg2 harg2 arg3 harg3 x0 x1 x2) (kernelRun0_A.sl.r_23 (F := Ideal) c arg1 harg1 arg2 harg2 arg3 harg3 x0 x1 x2) (kernelRun0_A.sl.r_24 (F := Ideal) c arg1 harg1 arg2 harg2 arg3 harg3 x0 x1 x2) (kernelRun0_A.sl.r_25 (F := Ideal) c arg1 harg1 arg2 harg2 arg3 harg3 x0 x1 x2) (kernelRun0_A.sl.r_26 (F := Ideal) c arg1 harg1 arg2 harg2 arg3 harg3 x0 x1 x2) (kernelRun0_A.sl.r_27 (F := Ideal) c arg1 harg1 arg2 harg2 arg3 harg3 x0 x1 x2) (kernelRun0_A.sl.r_28 (F := Ideal) c arg1 harg1 arg2 harg2 arg3 harg3 x0 x1 x2) (kernelRun0_A.sl.r_29 (F := Ideal) c arg1 harg1 arg2 harg2 arg3 harg3 x0 x1 x2) (kernelRun0_A.sl.r_30 (F := Ideal) c arg1 harg1 arg2 harg2 arg3 harg3 x0 x1 x2) (kernelRun0_A.sl.r_31 (F := Ideal) c arg1 harg1 arg2 harg2 arg3 harg3 x0 x1 x2) (kernelRun0_A.sl.r_32 (F := Ideal) c arg1 harg1 arg2 harg2 arg3 harg3 x0 x1 x2) (kernelRun0_A.sl.r_33 (F := Ideal) c arg1 harg1 arg2 harg2 arg3 harg3 x0 x1 x2)) y
      = Cert.Spec.scr x0 x1 x2 0 ((Rect.unit (s := S1152x2048) ![0, 512] S128x512.size inb_S1152x2048_S128x512_0_512).emb y) := by
  have e : (k0_pay76 (F := Ideal) (kernelRun0_A.sl.r_19 (F := Ideal) c arg1 harg1 arg2 harg2 arg3 harg3 x0 x1 x2) (kernelRun0_A.sl.r_20 (F := Ideal) c arg1 harg1 arg2 harg2 arg3 harg3 x0 x1 x2) (kernelRun0_A.sl.r_21 (F := Ideal) c arg1 harg1 arg2 harg2 arg3 harg3 x0 x1 x2) (kernelRun0_A.sl.r_22 (F := Ideal) c arg1 harg1 arg2 harg2 arg3 harg3 x0 x1 x2) (kernelRun0_A.sl.r_23 (F := Ideal) c arg1 harg1 arg2 harg2 arg3 harg3 x0 x1 x2) (kernelRun0_A.sl.r_24 (F := Ideal) c arg1 harg1 arg2 harg2 arg3 harg3 x0 x1 x2) (kernelRun0_A.sl.r_25 (F := Ideal) c arg1 harg1 arg2 harg2 arg3 harg3 x0 x1 x2) (kernelRun0_A.sl.r_26 (F := Ideal) c arg1 harg1 arg2 harg2 arg3 harg3 x0 x1 x2) (kernelRun0_A.sl.r_27 (F := Ideal) c arg1 harg1 arg2 harg2 arg3 harg3 x0 x1 x2) (kernelRun0_A.sl.r_28 (F := Ideal) c arg1 harg1 arg2 harg2 arg3 harg3 x0 x1 x2) (kernelRun0_A.sl.r_29 (F := Ideal) c arg1 harg1 arg2 harg2 arg3 harg3 x0 x1 x2) (kernelRun0_A.sl.r_30 (F := Ideal) c arg1 harg1 arg2 harg2 arg3 harg3 x0 x1 x2) (kernelRun0_A.sl.r_31 (F := Ideal) c arg1 harg1 arg2 harg2 arg3 harg3 x0 x1 x2) (kernelRun0_A.sl.r_32 (F := Ideal) c arg1 harg1 arg2 harg2 arg3 harg3 x0 x1 x2) (kernelRun0_A.sl.r_33 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 0 0 slices_S2048x512_o0_0_S128x512 slices_S16x512_o0_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨0, by omega⟩ 0 0 0 0 (by decide) rfl rfl rfl _ _ _ y

/-- Chunk 0's sixteen extra rows (mean over deviation, ones, fourteen rows of zeros), stored at rows 128 … 143 of the first buffer. -/
theorem piece0_128_512 (y : S16x512.Idx) :
    (k0_pay77 (F := Ideal) (kernelRun0_A.sl.r_19 (F := Ideal) c arg1 harg1 arg2 harg2 arg3 harg3 x0 x1 x2) (kernelRun0_A.sl.r_21 (F := Ideal) c arg1 harg1 arg2 harg2 arg3 harg3 x0 x1 x2) (kernelRun0_A.sl.r_22 (F := Ideal) c arg1 harg1 arg2 harg2 arg3 harg3 x0 x1 x2) (kernelRun0_A.sl.r_23 (F := Ideal) c arg1 harg1 arg2 harg2 arg3 harg3 x0 x1 x2) (kernelRun0_A.sl.r_24 (F := Ideal) c arg1 harg1 arg2 harg2 arg3 harg3 x0 x1 x2) (kernelRun0_A.sl.r_25 (F := Ideal) c arg1 harg1 arg2 harg2 arg3 harg3 x0 x1 x2) (kernelRun0_A.sl.r_26 (F := Ideal) c arg1 harg1 arg2 harg2 arg3 harg3 x0 x1 x2) (kernelRun0_A.sl.r_27 (F := Ideal) c arg1 harg1 arg2 harg2 arg3 harg3 x0 x1 x2) (kernelRun0_A.sl.r_28 (F := Ideal) c arg1 harg1 arg2 harg2 arg3 harg3 x0 x1 x2) (kernelRun0_A.sl.r_29 (F := Ideal) c arg1 harg1 arg2 harg2 arg3 harg3 x0 x1 x2) (kernelRun0_A.sl.r_30 (F := Ideal) c arg1 harg1 arg2 harg2 arg3 harg3 x0 x1 x2) (kernelRun0_A.sl.r_31 (F := Ideal) c arg1 harg1 arg2 harg2 arg3 harg3 x0 x1 x2) (kernelRun0_A.sl.r_32 (F := Ideal) c arg1 harg1 arg2 harg2 arg3 harg3 x0 x1 x2) (kernelRun0_A.sl.r_33 (F := Ideal) c arg1 harg1 arg2 harg2 arg3 harg3 x0 x1 x2)) y
      = Cert.Spec.scr x0 x1 x2 0 ((Rect.unit (s := S1152x2048) ![128, 512] S16x512.size inb_S1152x2048_S16x512_128_512).emb y) := by
  have e : (k0_pay77 (F := Ideal) (kernelRun0_A.sl.r_19 (F := Ideal) c arg1 harg1 arg2 harg2 arg3 harg3 x0 x1 x2) (kernelRun0_A.sl.r_21 (F := Ideal) c arg1 harg1 arg2 harg2 arg3 harg3 x0 x1 x2) (kernelRun0_A.sl.r_22 (F := Ideal) c arg1 harg1 arg2 harg2 arg3 harg3 x0 x1 x2) (kernelRun0_A.sl.r_23 (F := Ideal) c arg1 harg1 arg2 harg2 arg3 harg3 x0 x1 x2) (kernelRun0_A.sl.r_24 (F := Ideal) c arg1 harg1 arg2 harg2 arg3 harg3 x0 x1 x2) (kernelRun0_A.sl.r_25 (F := Ideal) c arg1 harg1 arg2 harg2 arg3 harg3 x0 x1 x2) (kernelRun0_A.sl.r_26 (F := Ideal) c arg1 harg1 arg2 harg2 arg3 harg3 x0 x1 x2) (kernelRun0_A.sl.r_27 (F := Ideal) c arg1 harg1 arg2 harg2 arg3 harg3 x0 x1 x2) (kernelRun0_A.sl.r_28 (F := Ideal) c arg1 harg1 arg2 harg2 arg3 harg3 x0 x1 x2) (kernelRun0_A.sl.r_29 (F := Ideal) c arg1 harg1 arg2 harg2 arg3 harg3 x0 x1 x2) (kernelRun0_A.sl.r_30 (F := Ideal) c arg1 harg1 arg2 harg2 arg3 harg3 x0 x1 x2) (kernelRun0_A.sl.r_31 (F := Ideal) c arg1 harg1 arg2 harg2 arg3 harg3 x0 x1 x2) (kernelRun0_A.sl.r_32 (F := Ideal) c arg1 harg1 arg2 harg2 arg3 harg3 x0 x1 x2) (kernelRun0_A.sl.r_33 (F := Ideal) c arg1 harg1 arg2 harg2 arg3 harg3 x0 x1 x2))
      = augBlk (pbfV (kernelRun0_A.sl.r_19 (F := Ideal) c arg1 harg1 arg2 harg2 arg3 harg3 x0 x1 x2)) (k0_pay74 (F := Ideal)) (k0_pay75 (F := Ideal)) 0 slices_S16x512_o0_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨0, by omega⟩ 0 0 128 (by decide) rfl rfl _ _ (fun _ => rfl) (fun _ _ => rfl) _ _ y

/-- Chunk 1's 128 feature rows times its reciprocal deviation, stored at rows 144 … 271 of the first buffer. -/
theorem piece0_144_512 (y : S128x512.Idx) :
    (k0_pay79 (F := Ideal) (kernelRun0_A.sl.r_34 (F := Ideal) c arg1 harg1 arg2 harg2 arg3 harg3 x0 x1 x2) (kernelRun0_A.sl.r_36 (F := Ideal) c arg1 harg1 arg2 harg2 arg3 harg3 x0 x1 x2)) y
      = Cert.Spec.scr x0 x1 x2 0 ((Rect.unit (s := S1152x2048) ![144, 512] S128x512.size inb_S1152x2048_S128x512_144_512).emb y) := by
  have e : (k0_pay79 (F := Ideal) (kernelRun0_A.sl.r_34 (F := Ideal) c arg1 harg1 arg2 harg2 arg3 harg3 x0 x1 x2) (kernelRun0_A.sl.r_36 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 128 1 slices_S2048x512_o128_0_S128x512 slices_S16x512_o1_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨1, by omega⟩ 0 128 1 144 (by decide) rfl rfl rfl _ _ _ y

/-- Chunk 1's sixteen extra rows (mean over deviation, ones, fourteen rows of zeros), stored at rows 272 … 287 of the first buffer. -/
theorem piece0_272_512 (y : S16x512.Idx) :
    (k0_pay80 (F := Ideal) (kernelRun0_A.sl.r_35 (F := Ideal) c arg1 harg1 arg2 harg2 arg3 harg3 x0 x1 x2) (k0_pay74 (F := Ideal)) (k0_pay75 (F := Ideal))) y
      = Cert.Spec.scr x0 x1 x2 0 ((Rect.unit (s := S1152x2048) ![272, 512] S16x512.size inb_S1152x2048_S16x512_272_512).emb y) := by
  have e : (k0_pay80 (F := Ideal) (kernelRun0_A.sl.r_35 (F := Ideal) c arg1 harg1 arg2 harg2 arg3 harg3 x0 x1 x2) (k0_pay74 (F := Ideal)) (k0_pay75 (F := Ideal)))
      = augBlk (pbfV (kernelRun0_A.sl.r_19 (F := Ideal) c arg1 harg1 arg2 harg2 arg3 harg3 x0 x1 x2)) (k0_pay74 (F := Ideal)) (k0_pay75 (F := Ideal)) 1 slices_S16x512_o1_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨1, by omega⟩ 0 1 272 (by decide) rfl rfl _ _ (fun _ => rfl) (fun _ _ => rfl) _ _ y

/-- Chunk 2's 128 feature rows times its reciprocal deviation, stored at rows 288 … 415 of the first buffer. -/
theorem piece0_288_512 (y : S128x512.Idx) :
    (k0_pay81 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y
      = Cert.Spec.scr x0 x1 x2 0 ((Rect.unit (s := S1152x2048) ![288, 512] S128x512.size inb_S1152x2048_S128x512_288_512).emb y) := by
  have e : (k0_pay81 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 256 2 slices_S2048x512_o256_0_S128x512 slices_S16x512_o2_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨2, by omega⟩ 0 256 2 288 (by decide) rfl rfl rfl _ _ _ y

/-- Chunk 2's sixteen extra rows (mean over deviation, ones, fourteen rows of zeros), stored at rows 416 … 431 of the first buffer. -/
theorem piece0_416_512 (y : S16x512.Idx) :
    (k0_pay82 (F := Ideal) (kernelRun0_A.sl.r_35 (F := Ideal) c arg1 harg1 arg2 harg2 arg3 harg3 x0 x1 x2) (k0_pay74 (F := Ideal)) (k0_pay75 (F := Ideal))) y
      = Cert.Spec.scr x0 x1 x2 0 ((Rect.unit (s := S1152x2048) ![416, 512] S16x512.size inb_S1152x2048_S16x512_416_512).emb y) := by
  have e : (k0_pay82 (F := Ideal) (kernelRun0_A.sl.r_35 (F := Ideal) c arg1 harg1 arg2 harg2 arg3 harg3 x0 x1 x2) (k0_pay74 (F := Ideal)) (k0_pay75 (F := Ideal)))
      = augBlk (pbfV (kernelRun0_A.sl.r_19 (F := Ideal) c arg1 harg1 arg2 harg2 arg3 harg3 x0 x1 x2)) (k0_pay74 (F := Ideal)) (k0_pay75 (F := Ideal)) 2 slices_S16x512_o2_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨2, by omega⟩ 0 2 416 (by decide) rfl rfl _ _ (fun _ => rfl) (fun _ _ => rfl) _ _ y

/-- Chunk 3's 128 feature rows times its reciprocal deviation, stored at rows 432 … 559 of the first buffer. -/
theorem piece0_432_512 (y : S128x512.Idx) :
    (k0_pay83 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y
      = Cert.Spec.scr x0 x1 x2 0 ((Rect.unit (s := S1152x2048) ![432, 512] S128x512.size inb_S1152x2048_S128x512_432_512).emb y) := by
  have e : (k0_pay83 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 384 3 slices_S2048x512_o384_0_S128x512 slices_S16x512_o3_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨3, by omega⟩ 0 384 3 432 (by decide) rfl rfl rfl _ _ _ y

/-- Chunk 3's sixteen extra rows (mean over deviation, ones, fourteen rows of zeros), stored at rows 560 … 575 of the first buffer. -/
theorem piece0_560_512 (y : S16x512.Idx) :
    (k0_pay84 (F := Ideal) (kernelRun0_A.sl.r_35 (F := Ideal) c arg1 harg1 arg2 harg2 arg3 harg3 x0 x1 x2) (k0_pay74 (F := Ideal)) (k0_pay75 (F := Ideal))) y
      = Cert.Spec.scr x0 x1 x2 0 ((Rect.unit (s := S1152x2048) ![560, 512] S16x512.size inb_S1152x2048_S16x512_560_512).emb y) := by
  have e : (k0_pay84 (F := Ideal) (kernelRun0_A.sl.r_35 (F := Ideal) c arg1 harg1 arg2 harg2 arg3 harg3 x0 x1 x2) (k0_pay74 (F := Ideal)) (k0_pay75 (F := Ideal)))
      = augBlk (pbfV (kernelRun0_A.sl.r_19 (F := Ideal) c arg1 harg1 arg2 harg2 arg3 harg3 x0 x1 x2)) (k0_pay74 (F := Ideal)) (k0_pay75 (F := Ideal)) 3 slices_S16x512_o3_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨3, by omega⟩ 0 3 560 (by decide) rfl rfl _ _ (fun _ => rfl) (fun _ _ => rfl) _ _ y

/-- Chunk 4's 128 feature rows times its reciprocal deviation, stored at rows 576 … 703 of the first buffer. -/
theorem piece0_576_512 (y : S128x512.Idx) :
    (k0_pay86 (F := Ideal) (kernelRun0_A.sl.r_37 (F := Ideal) c arg1 harg1 arg2 harg2 arg3 harg3 x0 x1 x2)) y
      = Cert.Spec.scr x0 x1 x2 0 ((Rect.unit (s := S1152x2048) ![576, 512] S128x512.size inb_S1152x2048_S128x512_576_512).emb y) := by
  have e : (k0_pay86 (F := Ideal) (kernelRun0_A.sl.r_37 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 512 4 slices_S2048x512_o512_0_S128x512 slices_S16x512_o4_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨4, by omega⟩ 0 512 4 576 (by decide) rfl rfl rfl _ _ _ y

/-- Chunk 4's sixteen extra rows (mean over deviation, ones, fourteen rows of zeros), stored at rows 704 … 719 of the first buffer. -/
theorem piece0_704_512 (y : S16x512.Idx) :
    (k0_pay87 (F := Ideal) (kernelRun0_A.sl.r_35 (F := Ideal) c arg1 harg1 arg2 harg2 arg3 harg3 x0 x1 x2) (k0_pay74 (F := Ideal)) (k0_pay75 (F := Ideal))) y
      = Cert.Spec.scr x0 x1 x2 0 ((Rect.unit (s := S1152x2048) ![704, 512] S16x512.size inb_S1152x2048_S16x512_704_512).emb y) := by
  have e : (k0_pay87 (F := Ideal) (kernelRun0_A.sl.r_35 (F := Ideal) c arg1 harg1 arg2 harg2 arg3 harg3 x0 x1 x2) (k0_pay74 (F := Ideal)) (k0_pay75 (F := Ideal)))
      = augBlk (pbfV (kernelRun0_A.sl.r_19 (F := Ideal) c arg1 harg1 arg2 harg2 arg3 harg3 x0 x1 x2)) (k0_pay74 (F := Ideal)) (k0_pay75 (F := Ideal)) 4 slices_S16x512_o4_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨4, by omega⟩ 0 4 704 (by decide) rfl rfl _ _ (fun _ => rfl) (fun _ _ => rfl) _ _ y

/-- Chunk 5's 128 feature rows times its reciprocal deviation, stored at rows 720 … 847 of the first buffer. -/
theorem piece0_720_512 (y : S128x512.Idx) :
    (k0_pay88 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y
      = Cert.Spec.scr x0 x1 x2 0 ((Rect.unit (s := S1152x2048) ![720, 512] S128x512.size inb_S1152x2048_S128x512_720_512).emb y) := by
  have e : (k0_pay88 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 640 5 slices_S2048x512_o640_0_S128x512 slices_S16x512_o5_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨5, by omega⟩ 0 640 5 720 (by decide) rfl rfl rfl _ _ _ y

/-- Chunk 5's sixteen extra rows (mean over deviation, ones, fourteen rows of zeros), stored at rows 848 … 863 of the first buffer. -/
theorem piece0_848_512 (y : S16x512.Idx) :
    (k0_pay89 (F := Ideal) (kernelRun0_A.sl.r_35 (F := Ideal) c arg1 harg1 arg2 harg2 arg3 harg3 x0 x1 x2) (k0_pay74 (F := Ideal)) (k0_pay75 (F := Ideal))) y
      = Cert.Spec.scr x0 x1 x2 0 ((Rect.unit (s := S1152x2048) ![848, 512] S16x512.size inb_S1152x2048_S16x512_848_512).emb y) := by
  have e : (k0_pay89 (F := Ideal) (kernelRun0_A.sl.r_35 (F := Ideal) c arg1 harg1 arg2 harg2 arg3 harg3 x0 x1 x2) (k0_pay74 (F := Ideal)) (k0_pay75 (F := Ideal)))
      = augBlk (pbfV (kernelRun0_A.sl.r_19 (F := Ideal) c arg1 harg1 arg2 harg2 arg3 harg3 x0 x1 x2)) (k0_pay74 (F := Ideal)) (k0_pay75 (F := Ideal)) 5 slices_S16x512_o5_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨5, by omega⟩ 0 5 848 (by decide) rfl rfl _ _ (fun _ => rfl) (fun _ _ => rfl) _ _ y

/-- Chunk 6's 128 feature rows times its reciprocal deviation, stored at rows 864 … 991 of the first buffer. -/
theorem piece0_864_512 (y : S128x512.Idx) :
    (k0_pay90 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y
      = Cert.Spec.scr x0 x1 x2 0 ((Rect.unit (s := S1152x2048) ![864, 512] S128x512.size inb_S1152x2048_S128x512_864_512).emb y) := by
  have e : (k0_pay90 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 768 6 slices_S2048x512_o768_0_S128x512 slices_S16x512_o6_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨6, by omega⟩ 0 768 6 864 (by decide) rfl rfl rfl _ _ _ y

/-- Chunk 6's sixteen extra rows (mean over deviation, ones, fourteen rows of zeros), stored at rows 992 … 1007 of the first buffer. -/
theorem piece0_992_512 (y : S16x512.Idx) :
    (k0_pay91 (F := Ideal) (kernelRun0_A.sl.r_35 (F := Ideal) c arg1 harg1 arg2 harg2 arg3 harg3 x0 x1 x2) (k0_pay74 (F := Ideal)) (k0_pay75 (F := Ideal))) y
      = Cert.Spec.scr x0 x1 x2 0 ((Rect.unit (s := S1152x2048) ![992, 512] S16x512.size inb_S1152x2048_S16x512_992_512).emb y) := by
  have e : (k0_pay91 (F := Ideal) (kernelRun0_A.sl.r_35 (F := Ideal) c arg1 harg1 arg2 harg2 arg3 harg3 x0 x1 x2) (k0_pay74 (F := Ideal)) (k0_pay75 (F := Ideal)))
      = augBlk (pbfV (kernelRun0_A.sl.r_19 (F := Ideal) c arg1 harg1 arg2 harg2 arg3 harg3 x0 x1 x2)) (k0_pay74 (F := Ideal)) (k0_pay75 (F := Ideal)) 6 slices_S16x512_o6_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨6, by omega⟩ 0 6 992 (by decide) rfl rfl _ _ (fun _ => rfl) (fun _ _ => rfl) _ _ y

/-- Chunk 7's 128 feature rows times its reciprocal deviation, stored at rows 1008 … 1135 of the first buffer. -/
theorem piece0_1008_512 (y : S128x512.Idx) :
    (k0_pay92 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y
      = Cert.Spec.scr x0 x1 x2 0 ((Rect.unit (s := S1152x2048) ![1008, 512] S128x512.size inb_S1152x2048_S128x512_1008_512).emb y) := by
  have e : (k0_pay92 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2))
      = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 896 7 slices_S2048x512_o896_0_S128x512 slices_S16x512_o7_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨7, by omega⟩ 0 896 7 1008 (by decide) rfl rfl rfl _ _ _ y

/-- Chunk 7's sixteen extra rows (mean over deviation, ones, fourteen rows of zeros), stored at rows 1136 … 1151 of the first buffer. -/
theorem piece0_1136_512 (y : S16x512.Idx) :
    (k0_pay94 (F := Ideal) (kernelRun0_A.sl.r_38 (F := Ideal) c arg1 harg1 arg2 harg2 arg3 harg3 x0 x1 x2)) y
      = Cert.Spec.scr x0 x1 x2 0 ((Rect.unit (s := S1152x2048) ![1136, 512] S16x512.size inb_S1152x2048_S16x512_1136_512).emb y) := by
  have e : (k0_pay94 (F := Ideal) (kernelRun0_A.sl.r_38 (F := Ideal) c arg1 harg1 arg2 harg2 arg3 harg3 x0 x1 x2))
      = augBlk (pbfV (kernelRun0_A.sl.r_19 (F := Ideal) c arg1 harg1 arg2 harg2 arg3 harg3 x0 x1 x2)) (k0_pay74 (F := Ideal)) (k0_pay75 (F := Ideal)) 7 slices_S16x512_o7_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨7, by omega⟩ 0 7 1136 (by decide) rfl rfl _ _ (fun _ => rfl) (fun _ _ => rfl) _ _ y

end Tile1

end Cert.KernelIdeal.TilesA1

end
-- ==== Proof.KerTilesA0K.lean ====
/-
  The first sequence tile (positions 0 … 511) of the kernel body's scratch stores, key half: for each of the eight key
  chunks (chunks 0 … 7 of the transposed, mean-augmented projection) the 128 feature rows times the chunk's reciprocal
  deviation, and the sixteen extra rows (mean over deviation, a row of ones, fourteen rows of zeros), stored at rows
  `144 · ch …` and columns 0 … 511 of the first scratch buffer, are the entries of the shared statement's scratch contents
  they cover.
-/
import proofs.«148891_g2000303815147335_pallasbulk_1180_8_alg».proof.Defs
import proofs.«148891_g2000303815147335_pallasbulk_1180_8_alg».proof.Proof.Gen.KernelIdeal.Value
import proofs.«148891_g2000303815147335_pallasbulk_1180_8_alg».proof.Proof.LibMatmul2
import proofs.«148891_g2000303815147335_pallasbulk_1180_8_alg».proof.Proof.Spec
import proofs.«148891_g2000303815147335_pallasbulk_1180_8_alg».proof.Proof.KerTileGen
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.TilesA0K

open Cert.KernelIdeal Cert.KernelIdeal.Gen Cert.KernelIdeal.TileGen Idealize.ShloMosaic Idealize.ShloMosaic.ValueIdx Idealize.ShloMosaic.Tactic

section Tile
variable (c : Dev nD) (arg1 : Memref sig Kind.tc Space.vmem S1x2048x256 EltTy.f32) (harg1 : arg1.IsWhole)
  (arg2 : Memref sig Kind.tc Space.vmem S256x2064 EltTy.bf16) (harg2 : arg2.IsWhole)
  (arg3 : Memref sig Kind.tc Space.vmem S2064x1 EltTy.f32) (harg3 : arg3.IsWhole)
  (x0 : Vec Ideal S1x2048x256 .f32) (x1 : Vec Ideal S256x2064 .bf16) (x2 : Vec Ideal S2064x1 .f32)

/-- The tile's transposed projection, with the three input blocks read back whole. -/
theorem t0_kvb : (kernelRun0_A.sl.r_1 (F := Ideal) c arg1 harg1 arg2 harg2 arg3 harg3 x0 x1 x2) = kvbV 0 (k0_pay2 (F := Ideal) x0) x1 x2 slices_S2048x256_o0_0_S512x256 := by
  have e : (kernelRun0_A.sl.r_1 (F := Ideal) c arg1 harg1 arg2 harg2 arg3 harg3 x0 x1 x2) = kvbV 0 (k0_pay2 (F := Ideal) (View.readAt (Elt Ideal) arg1.view (Rect.unit ![0, 0, 0] S1x2048x256.size inb_S1x2048x256_S1x2048x256_0_0_0).toLoadRect (harg1.unread x0))) (View.readAt (Elt Ideal) arg2.view (Rect.unit ![0, 0] S256x2064.size inb_S256x2064_S256x2064_0_0).toLoadRect (harg2.unread x1)) (View.readAt (Elt Ideal) arg3.view (Rect.unit ![0, 0] S2064x1.size inb_S2064x1_S2064x1_0_0).toLoadRect (harg3.unread x2)) slices_S2048x256_o0_0_S512x256 := rfl
  rw [e, rd1, rd2, rd3]

/-- It is the shared statement's projection at positions 0 … 511. -/
theorem t0_H1 (f : Fin 2064) (n : Fin 512) :
    (kernelRun0_A.sl.r_1 (F := Ideal) c arg1 harg1 arg2 harg2 arg3 harg3 x0 x1 x2) (ix2 f n) = Spec.kvb (Xs x0) (Ws x1) (Bs x2) f (pos 0 (by omega) n) := by
  rw [t0_kvb, kvbV_apply 0 (by omega)]
  unfold Spec.kvb
  simp only [xbf_apply]

/-- Chunk 0's 128 scaled feature rows over positions 0 … 511. -/
theorem piece0_0_0 (y : S128x512.Idx) :
    (k0_pay19 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![0, 0] S128x512.size inb_S1152x2048_S128x512_0_0).emb y) := by
  have e : (k0_pay19 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 0 0 slices_S2048x512_o0_0_S128x512 slices_S16x512_o0_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨0, by omega⟩ 0 0 0 0 (by decide) rfl rfl rfl _ _ _ y

/-- Chunk 0's sixteen extra rows over positions 0 … 511: mean over deviation, ones, fourteen rows of zeros. -/
theorem piece0_128_0 (y : S16x512.Idx) :
    (k0_pay20 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![128, 0] S16x512.size inb_S1152x2048_S16x512_128_0).emb y) := by
  have e : (k0_pay20 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 0 slices_S16x512_o0_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨0, by omega⟩ 0 0 128 (by decide) rfl rfl _ _ (fun _ => rfl) (fun _ _ => rfl) _ _ y

/-- Chunk 1's 128 scaled feature rows over positions 0 … 511. -/
theorem piece0_144_0 (y : S128x512.Idx) :
    (k0_pay21 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![144, 0] S128x512.size inb_S1152x2048_S128x512_144_0).emb y) := by
  have e : (k0_pay21 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 128 1 slices_S2048x512_o128_0_S128x512 slices_S16x512_o1_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨1, by omega⟩ 0 128 1 144 (by decide) rfl rfl rfl _ _ _ y

/-- Chunk 1's sixteen extra rows over positions 0 … 511: mean over deviation, ones, fourteen rows of zeros. -/
theorem piece0_272_0 (y : S16x512.Idx) :
    (k0_pay22 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![272, 0] S16x512.size inb_S1152x2048_S16x512_272_0).emb y) := by
  have e : (k0_pay22 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 1 slices_S16x512_o1_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨1, by omega⟩ 0 1 272 (by decide) rfl rfl _ _ (fun _ => rfl) (fun _ _ => rfl) _ _ y

/-- Chunk 2's 128 scaled feature rows over positions 0 … 511. -/
theorem piece0_288_0 (y : S128x512.Idx) :
    (k0_pay23 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![288, 0] S128x512.size inb_S1152x2048_S128x512_288_0).emb y) := by
  have e : (k0_pay23 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 256 2 slices_S2048x512_o256_0_S128x512 slices_S16x512_o2_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨2, by omega⟩ 0 256 2 288 (by decide) rfl rfl rfl _ _ _ y

/-- Chunk 2's sixteen extra rows over positions 0 … 511: mean over deviation, ones, fourteen rows of zeros. -/
theorem piece0_416_0 (y : S16x512.Idx) :
    (k0_pay24 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![416, 0] S16x512.size inb_S1152x2048_S16x512_416_0).emb y) := by
  have e : (k0_pay24 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 2 slices_S16x512_o2_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨2, by omega⟩ 0 2 416 (by decide) rfl rfl _ _ (fun _ => rfl) (fun _ _ => rfl) _ _ y

/-- Chunk 3's 128 scaled feature rows over positions 0 … 511. -/
theorem piece0_432_0 (y : S128x512.Idx) :
    (k0_pay26 (F := Ideal) (kernelRun0_A.sl.r_14 (F := Ideal) c arg1 harg1 arg2 harg2 arg3 harg3 x0 x1 x2)) y = Cert.Spec.scr x0 x1 x2 0 ((Rect.unit (s := S1152x2048) ![432, 0] S128x512.size inb_S1152x2048_S128x512_432_0).emb y) := by
  have e : (k0_pay26 (F := Ideal) (kernelRun0_A.sl.r_14 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 384 3 slices_S2048x512_o384_0_S128x512 slices_S16x512_o3_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨3, by omega⟩ 0 384 3 432 (by decide) rfl rfl rfl _ _ _ y

/-- Chunk 3's sixteen extra rows over positions 0 … 511: mean over deviation, ones, fourteen rows of zeros. -/
theorem piece0_560_0 (y : S16x512.Idx) :
    (k0_pay27 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![560, 0] S16x512.size inb_S1152x2048_S16x512_560_0).emb y) := by
  have e : (k0_pay27 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 3 slices_S16x512_o3_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨3, by omega⟩ 0 3 560 (by decide) rfl rfl _ _ (fun _ => rfl) (fun _ _ => rfl) _ _ y

/-- Chunk 4's 128 scaled feature rows over positions 0 … 511. -/
theorem piece0_576_0 (y : S128x512.Idx) :
    (k0_pay28 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![576, 0] S128x512.size inb_S1152x2048_S128x512_576_0).emb y) := by
  have e : (k0_pay28 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 512 4 slices_S2048x512_o512_0_S128x512 slices_S16x512_o4_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨4, by omega⟩ 0 512 4 576 (by decide) rfl rfl rfl _ _ _ y

/-- Chunk 4's sixteen extra rows over positions 0 … 511: mean over deviation, ones, fourteen rows of zeros. -/
theorem piece0_704_0 (y : S16x512.Idx) :
    (k0_pay29 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![704, 0] S16x512.size inb_S1152x2048_S16x512_704_0).emb y) := by
  have e : (k0_pay29 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 4 slices_S16x512_o4_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨4, by omega⟩ 0 4 704 (by decide) rfl rfl _ _ (fun _ => rfl) (fun _ _ => rfl) _ _ y

/-- Chunk 5's 128 scaled feature rows over positions 0 … 511. -/
theorem piece0_720_0 (y : S128x512.Idx) :
    (k0_pay30 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![720, 0] S128x512.size inb_S1152x2048_S128x512_720_0).emb y) := by
  have e : (k0_pay30 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 640 5 slices_S2048x512_o640_0_S128x512 slices_S16x512_o5_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨5, by omega⟩ 0 640 5 720 (by decide) rfl rfl rfl _ _ _ y

/-- Chunk 5's sixteen extra rows over positions 0 … 511: mean over deviation, ones, fourteen rows of zeros. -/
theorem piece0_848_0 (y : S16x512.Idx) :
    (k0_pay31 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![848, 0] S16x512.size inb_S1152x2048_S16x512_848_0).emb y) := by
  have e : (k0_pay31 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 5 slices_S16x512_o5_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨5, by omega⟩ 0 5 848 (by decide) rfl rfl _ _ (fun _ => rfl) (fun _ _ => rfl) _ _ y

/-- Chunk 6's 128 scaled feature rows over positions 0 … 511. -/
theorem piece0_864_0 (y : S128x512.Idx) :
    (k0_pay32 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![864, 0] S128x512.size inb_S1152x2048_S128x512_864_0).emb y) := by
  have e : (k0_pay32 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 768 6 slices_S2048x512_o768_0_S128x512 slices_S16x512_o6_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨6, by omega⟩ 0 768 6 864 (by decide) rfl rfl rfl _ _ _ y

/-- Chunk 6's sixteen extra rows over positions 0 … 511: mean over deviation, ones, fourteen rows of zeros. -/
theorem piece0_992_0 (y : S16x512.Idx) :
    (k0_pay34 (F := Ideal) (kernelRun0_A.sl.r_15 (F := Ideal) c arg1 harg1 arg2 harg2 arg3 harg3 x0 x1 x2)) y = Cert.Spec.scr x0 x1 x2 0 ((Rect.unit (s := S1152x2048) ![992, 0] S16x512.size inb_S1152x2048_S16x512_992_0).emb y) := by
  have e : (k0_pay34 (F := Ideal) (kernelRun0_A.sl.r_15 (F := Ideal) c arg1 harg1 arg2 harg2 arg3 harg3 x0 x1 x2)) = augBlk (pbfV (kernelRun0_A.sl.r_1 (F := Ideal) c arg1 harg1 arg2 harg2 arg3 harg3 x0 x1 x2)) (k0_pay17 (F := Ideal)) (k0_pay18 (F := Ideal)) 6 slices_S16x512_o6_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨6, by omega⟩ 0 6 992 (by decide) rfl rfl _ _ (fun _ => rfl) (fun _ _ => rfl) _ _ y

/-- Chunk 7's 128 scaled feature rows over positions 0 … 511. -/
theorem piece0_1008_0 (y : S128x512.Idx) :
    (k0_pay35 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 0 ((Rect.unit (s := S1152x2048) ![1008, 0] S128x512.size inb_S1152x2048_S128x512_1008_0).emb y) := by
  have e : (k0_pay35 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 896 7 slices_S2048x512_o896_0_S128x512 slices_S16x512_o7_0_S1x512 := rfl
  rw [e]
  exact featPiece x0 x1 x2 0 (by omega) (kernelRun0_A.sl.r_1 (F := Ideal) c arg1 harg1 arg2 harg2 arg3 harg3 x0 x1 x2) (t0_H1 c arg1 harg1 arg2 harg2 arg3 harg3 x0 x1 x2) ⟨7, by omega⟩ 0 896 7 1008 (by decide) rfl rfl rfl _ _ _ y

/-- Chunk 7's sixteen extra rows over positions 0 … 511: mean over deviation, ones, fourteen rows of zeros. -/
theorem piece0_1136_0 (y : S16x512.Idx) :
    (k0_pay36 (F := Ideal) (kernelRun0_A.sl.r_13 (F := Ideal) c arg1 harg1 arg2 harg2 arg3 harg3 x0 x1 x2) (k0_pay17 (F := Ideal)) (k0_pay18 (F := Ideal))) y = Cert.Spec.scr x0 x1 x2 0 ((Rect.unit (s := S1152x2048) ![1136, 0] S16x512.size inb_S1152x2048_S16x512_1136_0).emb y) := by
  have e : (k0_pay36 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 7 slices_S16x512_o7_0_S1x512 := rfl
  rw [e]
  exact augPiece x0 x1 x2 0 (by omega) (kernelRun0_A.sl.r_1 (F := Ideal) c arg1 harg1 arg2 harg2 arg3 harg3 x0 x1 x2) (t0_H1 c arg1 harg1 arg2 harg2 arg3 harg3 x0 x1 x2) ⟨7, by omega⟩ 0 7 1136 (by decide) rfl rfl _ _ (fun _ => rfl) (fun _ _ => rfl) _ _ y

end Tile

end Cert.KernelIdeal.TilesA0K

end
-- ==== Proof.KerPieces0.lean ====
/-
  The 64 stores into the body's first scratch buffer (the eight heads' augmented key matrices, 144 rows each, for each of
  the four 512-position tiles a 128-row block and a 16-row block per head): every store's payload, read at an entry of its
  rectangle, is the one function `Spec.scr … 0` at the buffer's entry under it. Each store is one of the per-tile
  statements; here they are gathered over the list of stores in the order the body makes them.
-/
import proofs.«148891_g2000303815147335_pallasbulk_1180_8_alg».proof.Proof.KerRun
import proofs.«148891_g2000303815147335_pallasbulk_1180_8_alg».proof.Proof.KerTilesB
import proofs.«148891_g2000303815147335_pallasbulk_1180_8_alg».proof.Proof.KerTilesA1
import proofs.«148891_g2000303815147335_pallasbulk_1180_8_alg».proof.Proof.KerTilesA0K

set_option maxRecDepth 16384

noncomputable section

namespace Cert.KernelIdeal.Run

open Cert.KernelIdeal Cert.KernelIdeal.Gen Idealize.ShloMosaic Idealize.ShloMosaic.ValueIdx

/-- Every store into scratch buffer 0 holds its tile of `scr … 0`. -/
theorem pieces_HS0 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) : PiecesAre (kernelRun0_A.sl.HS0_64 (F := Ideal) c arg1 harg1 arg2 harg2 arg3 harg3 x0 x1 x2) (Cert.Spec.scr x0 x1 x2 0) := by
  unfold PiecesAre kernelRun0_A.sl.HS0_64
  exact (List.forall_mem_cons.2 ⟨fun x => TilesB.piece0_1136_1536 c arg1 harg1 arg2 harg2 arg3 harg3 x0 x1 x2 x,
    (List.forall_mem_cons.2 ⟨fun x => TilesB.piece0_1008_1536 c arg1 harg1 arg2 harg2 arg3 harg3 x0 x1 x2 x,
    (List.forall_mem_cons.2 ⟨fun x => TilesB.piece0_992_1536 c arg1 harg1 arg2 harg2 arg3 harg3 x0 x1 x2 x,
    (List.forall_mem_cons.2 ⟨fun x => TilesB.piece0_864_1536 c arg1 harg1 arg2 harg2 arg3 harg3 x0 x1 x2 x,
    (List.forall_mem_cons.2 ⟨fun x => TilesB.piece0_848_1536 c arg1 harg1 arg2 harg2 arg3 harg3 x0 x1 x2 x,
    (List.forall_mem_cons.2 ⟨fun x => TilesB.piece0_720_1536 c arg1 harg1 arg2 harg2 arg3 harg3 x0 x1 x2 x,
    (List.forall_mem_cons.2 ⟨fun x => TilesB.piece0_704_1536 c arg1 harg1 arg2 harg2 arg3 harg3 x0 x1 x2 x,
    (List.forall_mem_cons.2 ⟨fun x => TilesB.piece0_576_1536 c arg1 harg1 arg2 harg2 arg3 harg3 x0 x1 x2 x,
    (List.forall_mem_cons.2 ⟨fun x => TilesB.piece0_560_1536 c arg1 harg1 arg2 harg2 arg3 harg3 x0 x1 x2 x,
    (List.forall_mem_cons.2 ⟨fun x => TilesB.piece0_432_1536 c arg1 harg1 arg2 harg2 arg3 harg3 x0 x1 x2 x,
    (List.forall_mem_cons.2 ⟨fun x => TilesB.piece0_416_1536 c arg1 harg1 arg2 harg2 arg3 harg3 x0 x1 x2 x,
    (List.forall_mem_cons.2 ⟨fun x => TilesB.piece0_288_1536 c arg1 harg1 arg2 harg2 arg3 harg3 x0 x1 x2 x,
    (List.forall_mem_cons.2 ⟨fun x => TilesB.piece0_272_1536 c arg1 harg1 arg2 harg2 arg3 harg3 x0 x1 x2 x,
    (List.forall_mem_cons.2 ⟨fun x => TilesB.piece0_144_1536 c arg1 harg1 arg2 harg2 arg3 harg3 x0 x1 x2 x,
    (List.forall_mem_cons.2 ⟨fun x => TilesB.piece0_128_1536 c arg1 harg1 arg2 harg2 arg3 harg3 x0 x1 x2 x,
    (List.forall_mem_cons.2 ⟨fun x => TilesB.piece0_0_1536 c arg1 harg1 arg2 harg2 arg3 harg3 x0 x1 x2 x,
    (List.forall_mem_cons.2 ⟨fun x => TilesB.piece0_1136_1024 c arg1 harg1 arg2 harg2 arg3 harg3 x0 x1 x2 x,
    (List.forall_mem_cons.2 ⟨fun x => TilesB.piece0_1008_1024 c arg1 harg1 arg2 harg2 arg3 harg3 x0 x1 x2 x,
    (List.forall_mem_cons.2 ⟨fun x => TilesB.piece0_992_1024 c arg1 harg1 arg2 harg2 arg3 harg3 x0 x1 x2 x,
    (List.forall_mem_cons.2 ⟨fun x => TilesB.piece0_864_1024 c arg1 harg1 arg2 harg2 arg3 harg3 x0 x1 x2 x,
    (List.forall_mem_cons.2 ⟨fun x => TilesB.piece0_848_1024 c arg1 harg1 arg2 harg2 arg3 harg3 x0 x1 x2 x,
    (List.forall_mem_cons.2 ⟨fun x => TilesB.piece0_720_1024 c arg1 harg1 arg2 harg2 arg3 harg3 x0 x1 x2 x,
    (List.forall_mem_cons.2 ⟨fun x => TilesB.piece0_704_1024 c arg1 harg1 arg2 harg2 arg3 harg3 x0 x1 x2 x,
    (List.forall_mem_cons.2 ⟨fun x => TilesB.piece0_576_1024 c arg1 harg1 arg2 harg2 arg3 harg3 x0 x1 x2 x,
    (List.forall_mem_cons.2 ⟨fun x => TilesB.piece0_560_1024 c arg1 harg1 arg2 harg2 arg3 harg3 x0 x1 x2 x,
    (List.forall_mem_cons.2 ⟨fun x => TilesB.piece0_432_1024 c arg1 harg1 arg2 harg2 arg3 harg3 x0 x1 x2 x,
    (List.forall_mem_cons.2 ⟨fun x => TilesB.piece0_416_1024 c arg1 harg1 arg2 harg2 arg3 harg3 x0 x1 x2 x,
    (List.forall_mem_cons.2 ⟨fun x => TilesB.piece0_288_1024 c arg1 harg1 arg2 harg2 arg3 harg3 x0 x1 x2 x,
    (List.forall_mem_cons.2 ⟨fun x => TilesB.piece0_272_1024 c arg1 harg1 arg2 harg2 arg3 harg3 x0 x1 x2 x,
    (List.forall_mem_cons.2 ⟨fun x => TilesB.piece0_144_1024 c arg1 harg1 arg2 harg2 arg3 harg3 x0 x1 x2 x,
    (List.forall_mem_cons.2 ⟨fun x => TilesB.piece0_128_1024 c arg1 harg1 arg2 harg2 arg3 harg3 x0 x1 x2 x,
    (List.forall_mem_cons.2 ⟨fun x => TilesB.piece0_0_1024 c arg1 harg1 arg2 harg2 arg3 harg3 x0 x1 x2 x,
    (List.forall_mem_cons.2 ⟨fun x => TilesA1.piece0_1136_512 c arg1 harg1 arg2 harg2 arg3 harg3 x0 x1 x2 x,
    (List.forall_mem_cons.2 ⟨fun x => TilesA1.piece0_1008_512 c arg1 harg1 arg2 harg2 arg3 harg3 x0 x1 x2 x,
    (List.forall_mem_cons.2 ⟨fun x => TilesA1.piece0_992_512 c arg1 harg1 arg2 harg2 arg3 harg3 x0 x1 x2 x,
    (List.forall_mem_cons.2 ⟨fun x => TilesA1.piece0_864_512 c arg1 harg1 arg2 harg2 arg3 harg3 x0 x1 x2 x,
    (List.forall_mem_cons.2 ⟨fun x => TilesA1.piece0_848_512 c arg1 harg1 arg2 harg2 arg3 harg3 x0 x1 x2 x,
    (List.forall_mem_cons.2 ⟨fun x => TilesA1.piece0_720_512 c arg1 harg1 arg2 harg2 arg3 harg3 x0 x1 x2 x,
    (List.forall_mem_cons.2 ⟨fun x => TilesA1.piece0_704_512 c arg1 harg1 arg2 harg2 arg3 harg3 x0 x1 x2 x,
    (List.forall_mem_cons.2 ⟨fun x => TilesA1.piece0_576_512 c arg1 harg1 arg2 harg2 arg3 harg3 x0 x1 x2 x,
    (List.forall_mem_cons.2 ⟨fun x => TilesA1.piece0_560_512 c arg1 harg1 arg2 harg2 arg3 harg3 x0 x1 x2 x,
    (List.forall_mem_cons.2 ⟨fun x => TilesA1.piece0_432_512 c arg1 harg1 arg2 harg2 arg3 harg3 x0 x1 x2 x,
    (List.forall_mem_cons.2 ⟨fun x => TilesA1.piece0_416_512 c arg1 harg1 arg2 harg2 arg3 harg3 x0 x1 x2 x,
    (List.forall_mem_cons.2 ⟨fun x => TilesA1.piece0_288_512 c arg1 harg1 arg2 harg2 arg3 harg3 x0 x1 x2 x,
    (List.forall_mem_cons.2 ⟨fun x => TilesA1.piece0_272_512 c arg1 harg1 arg2 harg2 arg3 harg3 x0 x1 x2 x,
    (List.forall_mem_cons.2 ⟨fun x => TilesA1.piece0_144_512 c arg1 harg1 arg2 harg2 arg3 harg3 x0 x1 x2 x,
    (List.forall_mem_cons.2 ⟨fun x => TilesA1.piece0_128_512 c arg1 harg1 arg2 harg2 arg3 harg3 x0 x1 x2 x,
    (List.forall_mem_cons.2 ⟨fun x => TilesA1.piece0_0_512 c arg1 harg1 arg2 harg2 arg3 harg3 x0 x1 x2 x,
    (List.forall_mem_cons.2 ⟨fun x => TilesA0K.piece0_1136_0 c arg1 harg1 arg2 harg2 arg3 harg3 x0 x1 x2 x,
    (List.forall_mem_cons.2 ⟨fun x => TilesA0K.piece0_1008_0 c arg1 harg1 arg2 harg2 arg3 harg3 x0 x1 x2 x,
    (List.forall_mem_cons.2 ⟨fun x => TilesA0K.piece0_992_0 c arg1 harg1 arg2 harg2 arg3 harg3 x0 x1 x2 x,
    (List.forall_mem_cons.2 ⟨fun x => TilesA0K.piece0_864_0 c arg1 harg1 arg2 harg2 arg3 harg3 x0 x1 x2 x,
    (List.forall_mem_cons.2 ⟨fun x => TilesA0K.piece0_848_0 c arg1 harg1 arg2 harg2 arg3 harg3 x0 x1 x2 x,
    (List.forall_mem_cons.2 ⟨fun x => TilesA0K.piece0_720_0 c arg1 harg1 arg2 harg2 arg3 harg3 x0 x1 x2 x,
    (List.forall_mem_cons.2 ⟨fun x => TilesA0K.piece0_704_0 c arg1 harg1 arg2 harg2 arg3 harg3 x0 x1 x2 x,
    (List.forall_mem_cons.2 ⟨fun x => TilesA0K.piece0_576_0 c arg1 harg1 arg2 harg2 arg3 harg3 x0 x1 x2 x,
    (List.forall_mem_cons.2 ⟨fun x => TilesA0K.piece0_560_0 c arg1 harg1 arg2 harg2 arg3 harg3 x0 x1 x2 x,
    (List.forall_mem_cons.2 ⟨fun x => TilesA0K.piece0_432_0 c arg1 harg1 arg2 harg2 arg3 harg3 x0 x1 x2 x,
    (List.forall_mem_cons.2 ⟨fun x => TilesA0K.piece0_416_0 c arg1 harg1 arg2 harg2 arg3 harg3 x0 x1 x2 x,
    (List.forall_mem_cons.2 ⟨fun x => TilesA0K.piece0_288_0 c arg1 harg1 arg2 harg2 arg3 harg3 x0 x1 x2 x,
    (List.forall_mem_cons.2 ⟨fun x => TilesA0K.piece0_272_0 c arg1 harg1 arg2 harg2 arg3 harg3 x0 x1 x2 x,
    (List.forall_mem_cons.2 ⟨fun x => TilesA0K.piece0_144_0 c arg1 harg1 arg2 harg2 arg3 harg3 x0 x1 x2 x,
    (List.forall_mem_cons.2 ⟨fun x => TilesA0K.piece0_128_0 c arg1 harg1 arg2 harg2 arg3 harg3 x0 x1 x2 x,
    (List.forall_mem_cons.2 ⟨fun x => TilesA0K.piece0_0_0 c arg1 harg1 arg2 harg2 arg3 harg3 x0 x1 x2 x,
    (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

end Cert.KernelIdeal.Run

end
-- ==== Proof.KerTilesA1V.lean ====
/-
  The second sequence tile (positions 512 … 1023) of the kernel body's scratch stores, value half: for each of the eight
  value chunks (chunks 8 … 15 of the transposed, mean-augmented projection) the 128 feature rows times the chunk's
  reciprocal deviation, and the sixteen extra rows (mean over deviation, a row of ones, fourteen rows of zeros), stored at
  rows `144 · (ch − 8) …` and columns 512 … 1023 of the second scratch buffer, are the entries of the shared statement's
  scratch contents they cover.
-/
import proofs.«148891_g2000303815147335_pallasbulk_1180_8_alg».proof.Defs
import proofs.«148891_g2000303815147335_pallasbulk_1180_8_alg».proof.Proof.Gen.KernelIdeal.Value
import proofs.«148891_g2000303815147335_pallasbulk_1180_8_alg».proof.Proof.LibMatmul2
import proofs.«148891_g2000303815147335_pallasbulk_1180_8_alg».proof.Proof.Spec
import proofs.«148891_g2000303815147335_pallasbulk_1180_8_alg».proof.Proof.KerTileGen
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.TilesA1V

open Cert.KernelIdeal Cert.KernelIdeal.Gen Cert.KernelIdeal.TileGen Idealize.ShloMosaic Idealize.ShloMosaic.ValueIdx Idealize.ShloMosaic.Tactic

section Tile1
variable (c : Dev nD) (arg1 : Memref sig Kind.tc Space.vmem S1x2048x256 EltTy.f32) (harg1 : arg1.IsWhole)
  (arg2 : Memref sig Kind.tc Space.vmem S256x2064 EltTy.bf16) (harg2 : arg2.IsWhole)
  (arg3 : Memref sig Kind.tc Space.vmem S2064x1 EltTy.f32) (harg3 : arg3.IsWhole)
  (x0 : Vec Ideal S1x2048x256 .f32) (x1 : Vec Ideal S256x2064 .bf16) (x2 : Vec Ideal S2064x1 .f32)

/-- The tile's transposed projection, with the three input blocks read back whole. -/
theorem t1_kvb : (kernelRun0_A.sl.r_19 (F := Ideal) c arg1 harg1 arg2 harg2 arg3 harg3 x0 x1 x2) = kvbV 512 (k0_pay2 (F := Ideal) x0) x1 x2 slices_S2048x256_o512_0_S512x256 := by
  have e : (kernelRun0_A.sl.r_19 (F := Ideal) c arg1 harg1 arg2 harg2 arg3 harg3 x0 x1 x2) = kvbV 512 (k0_pay2 (F := Ideal) (View.readAt (Elt Ideal) arg1.view (Rect.unit ![0, 0, 0] S1x2048x256.size inb_S1x2048x256_S1x2048x256_0_0_0).toLoadRect (harg1.unread x0))) (View.readAt (Elt Ideal) arg2.view (Rect.unit ![0, 0] S256x2064.size inb_S256x2064_S256x2064_0_0).toLoadRect (harg2.unread x1)) (View.readAt (Elt Ideal) arg3.view (Rect.unit ![0, 0] S2064x1.size inb_S2064x1_S2064x1_0_0).toLoadRect (harg3.unread x2)) slices_S2048x256_o512_0_S512x256 := rfl
  rw [e, rd1, rd2, rd3]

/-- It is the shared statement's projection at positions 512 … 1023. -/
theorem t1_H1 (f : Fin 2064) (n : Fin 512) :
    (kernelRun0_A.sl.r_19 (F := Ideal) c arg1 harg1 arg2 harg2 arg3 harg3 x0 x1 x2) (ix2 f n) = Spec.kvb (Xs x0) (Ws x1) (Bs x2) f (pos 512 (by omega) n) := by
  rw [t1_kvb, kvbV_apply 512 (by omega)]
  unfold Spec.kvb
  simp only [xbf_apply]

/-- Chunk 8's 128 scaled feature rows over positions 512 … 1023. -/
theorem piece1_0_512 (y : S128x512.Idx) :
    (k0_pay95 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y = Cert.Spec.scr x0 x1 x2 1 ((Rect.unit (s := S1152x2048) ![0, 512] S128x512.size inb_S1152x2048_S128x512_0_512).emb y) := by
  have e : (k0_pay95 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1024 8 slices_S2048x512_o1024_0_S128x512 slices_S16x512_o8_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨8, by omega⟩ 1 1024 8 0 (by decide) rfl rfl rfl _ _ _ y

/-- Chunk 8's sixteen extra rows over positions 512 … 1023: mean over deviation, ones, fourteen rows of zeros. -/
theorem piece1_128_512 (y : S16x512.Idx) :
    (k0_pay96 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![128, 512] S16x512.size inb_S1152x2048_S16x512_128_512).emb y) := by
  have e : (k0_pay96 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 8 slices_S16x512_o8_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨8, by omega⟩ 1 8 128 (by decide) rfl rfl _ _ (fun _ => rfl) (fun _ _ => rfl) _ _ y

/-- Chunk 9's 128 scaled feature rows over positions 512 … 1023. -/
theorem piece1_144_512 (y : S128x512.Idx) :
    (k0_pay97 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y = Cert.Spec.scr x0 x1 x2 1 ((Rect.unit (s := S1152x2048) ![144, 512] S128x512.size inb_S1152x2048_S128x512_144_512).emb y) := by
  have e : (k0_pay97 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1152 9 slices_S2048x512_o1152_0_S128x512 slices_S16x512_o9_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨9, by omega⟩ 1 1152 9 144 (by decide) rfl rfl rfl _ _ _ y

/-- Chunk 9's sixteen extra rows over positions 512 … 1023: mean over deviation, ones, fourteen rows of zeros. -/
theorem piece1_272_512 (y : S16x512.Idx) :
    (k0_pay98 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![272, 512] S16x512.size inb_S1152x2048_S16x512_272_512).emb y) := by
  have e : (k0_pay98 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 9 slices_S16x512_o9_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨9, by omega⟩ 1 9 272 (by decide) rfl rfl _ _ (fun _ => rfl) (fun _ _ => rfl) _ _ y

/-- Chunk 10's 128 scaled feature rows over positions 512 … 1023. -/
theorem piece1_288_512 (y : S128x512.Idx) :
    (k0_pay99 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y = Cert.Spec.scr x0 x1 x2 1 ((Rect.unit (s := S1152x2048) ![288, 512] S128x512.size inb_S1152x2048_S128x512_288_512).emb y) := by
  have e : (k0_pay99 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1280 10 slices_S2048x512_o1280_0_S128x512 slices_S16x512_o10_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨10, by omega⟩ 1 1280 10 288 (by decide) rfl rfl rfl _ _ _ y

/-- Chunk 10's sixteen extra rows over positions 512 … 1023: mean over deviation, ones, fourteen rows of zeros. -/
theorem piece1_416_512 (y : S16x512.Idx) :
    (k0_pay100 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![416, 512] S16x512.size inb_S1152x2048_S16x512_416_512).emb y) := by
  have e : (k0_pay100 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 10 slices_S16x512_o10_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨10, by omega⟩ 1 10 416 (by decide) rfl rfl _ _ (fun _ => rfl) (fun _ _ => rfl) _ _ y

/-- Chunk 11's 128 scaled feature rows over positions 512 … 1023. -/
theorem piece1_432_512 (y : S128x512.Idx) :
    (k0_pay102 (F := Ideal) (kernelRun0_A.sl.r_34 (F := Ideal) c arg1 harg1 arg2 harg2 arg3 harg3 x0 x1 x2) (kernelRun0_A.sl.r_39 (F := Ideal) c arg1 harg1 arg2 harg2 arg3 harg3 x0 x1 x2)) y = Cert.Spec.scr x0 x1 x2 1 ((Rect.unit (s := S1152x2048) ![432, 512] S128x512.size inb_S1152x2048_S128x512_432_512).emb y) := by
  have e : (k0_pay102 (F := Ideal) (kernelRun0_A.sl.r_34 (F := Ideal) c arg1 harg1 arg2 harg2 arg3 harg3 x0 x1 x2) (kernelRun0_A.sl.r_39 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1408 11 slices_S2048x512_o1408_0_S128x512 slices_S16x512_o11_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨11, by omega⟩ 1 1408 11 432 (by decide) rfl rfl rfl _ _ _ y

/-- Chunk 11's sixteen extra rows over positions 512 … 1023: mean over deviation, ones, fourteen rows of zeros. -/
theorem piece1_560_512 (y : S16x512.Idx) :
    (k0_pay103 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![560, 512] S16x512.size inb_S1152x2048_S16x512_560_512).emb y) := by
  have e : (k0_pay103 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 11 slices_S16x512_o11_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨11, by omega⟩ 1 11 560 (by decide) rfl rfl _ _ (fun _ => rfl) (fun _ _ => rfl) _ _ y

/-- Chunk 12's 128 scaled feature rows over positions 512 … 1023. -/
theorem piece1_576_512 (y : S128x512.Idx) :
    (k0_pay104 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y = Cert.Spec.scr x0 x1 x2 1 ((Rect.unit (s := S1152x2048) ![576, 512] S128x512.size inb_S1152x2048_S128x512_576_512).emb y) := by
  have e : (k0_pay104 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1536 12 slices_S2048x512_o1536_0_S128x512 slices_S16x512_o12_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨12, by omega⟩ 1 1536 12 576 (by decide) rfl rfl rfl _ _ _ y

/-- Chunk 12's sixteen extra rows over positions 512 … 1023: mean over deviation, ones, fourteen rows of zeros. -/
theorem piece1_704_512 (y : S16x512.Idx) :
    (k0_pay105 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![704, 512] S16x512.size inb_S1152x2048_S16x512_704_512).emb y) := by
  have e : (k0_pay105 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 12 slices_S16x512_o12_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨12, by omega⟩ 1 12 704 (by decide) rfl rfl _ _ (fun _ => rfl) (fun _ _ => rfl) _ _ y

/-- Chunk 13's 128 scaled feature rows over positions 512 … 1023. -/
theorem piece1_720_512 (y : S128x512.Idx) :
    (k0_pay106 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y = Cert.Spec.scr x0 x1 x2 1 ((Rect.unit (s := S1152x2048) ![720, 512] S128x512.size inb_S1152x2048_S128x512_720_512).emb y) := by
  have e : (k0_pay106 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1664 13 slices_S2048x512_o1664_0_S128x512 slices_S16x512_o13_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨13, by omega⟩ 1 1664 13 720 (by decide) rfl rfl rfl _ _ _ y

/-- Chunk 13's sixteen extra rows over positions 512 … 1023: mean over deviation, ones, fourteen rows of zeros. -/
theorem piece1_848_512 (y : S16x512.Idx) :
    (k0_pay107 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![848, 512] S16x512.size inb_S1152x2048_S16x512_848_512).emb y) := by
  have e : (k0_pay107 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 13 slices_S16x512_o13_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨13, by omega⟩ 1 13 848 (by decide) rfl rfl _ _ (fun _ => rfl) (fun _ _ => rfl) _ _ y

/-- Chunk 14's 128 scaled feature rows over positions 512 … 1023. -/
theorem piece1_864_512 (y : S128x512.Idx) :
    (k0_pay109 (F := Ideal) (kernelRun0_A.sl.r_40 (F := Ideal) c arg1 harg1 arg2 harg2 arg3 harg3 x0 x1 x2)) y = Cert.Spec.scr x0 x1 x2 1 ((Rect.unit (s := S1152x2048) ![864, 512] S128x512.size inb_S1152x2048_S128x512_864_512).emb y) := by
  have e : (k0_pay109 (F := Ideal) (kernelRun0_A.sl.r_40 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1792 14 slices_S2048x512_o1792_0_S128x512 slices_S16x512_o14_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨14, by omega⟩ 1 1792 14 864 (by decide) rfl rfl rfl _ _ _ y

/-- Chunk 14's sixteen extra rows over positions 512 … 1023: mean over deviation, ones, fourteen rows of zeros. -/
theorem piece1_992_512 (y : S16x512.Idx) :
    (k0_pay110 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![992, 512] S16x512.size inb_S1152x2048_S16x512_992_512).emb y) := by
  have e : (k0_pay110 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 14 slices_S16x512_o14_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨14, by omega⟩ 1 14 992 (by decide) rfl rfl _ _ (fun _ => rfl) (fun _ _ => rfl) _ _ y

/-- Chunk 15's 128 scaled feature rows over positions 512 … 1023. -/
theorem piece1_1008_512 (y : S128x512.Idx) :
    (k0_pay111 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) y = Cert.Spec.scr x0 x1 x2 1 ((Rect.unit (s := S1152x2048) ![1008, 512] S128x512.size inb_S1152x2048_S128x512_1008_512).emb y) := by
  have e : (k0_pay111 (F := Ideal) (kernelRun0_A.sl.r_20 (F := Ideal) c arg1 harg1 arg2 harg2 arg3 harg3 x0 x1 x2) (kernelRun0_A.sl.r_34 (F := Ideal) c arg1 harg1 arg2 harg2 arg3 harg3 x0 x1 x2)) = featBlk (kvbfV (kernelRun0_A.sl.r_19 (F := Ideal) c arg1 harg1 arg2 harg2 arg3 harg3 x0 x1 x2)) (rbfV (kernelRun0_A.sl.r_19 (F := Ideal) c arg1 harg1 arg2 harg2 arg3 harg3 x0 x1 x2)) 1920 15 slices_S2048x512_o1920_0_S128x512 slices_S16x512_o15_0_S1x512 := rfl
  rw [e]
  exact featPiece x0 x1 x2 512 (by omega) (kernelRun0_A.sl.r_19 (F := Ideal) c arg1 harg1 arg2 harg2 arg3 harg3 x0 x1 x2) (t1_H1 c arg1 harg1 arg2 harg2 arg3 harg3 x0 x1 x2) ⟨15, by omega⟩ 1 1920 15 1008 (by decide) rfl rfl rfl _ _ _ y

/-- Chunk 15's sixteen extra rows over positions 512 … 1023: mean over deviation, ones, fourteen rows of zeros. -/
theorem piece1_1136_512 (y : S16x512.Idx) :
    (k0_pay112 (F := Ideal) (kernelRun0_A.sl.r_35 (F := Ideal) c arg1 harg1 arg2 harg2 arg3 harg3 x0 x1 x2) (k0_pay74 (F := Ideal)) (k0_pay75 (F := Ideal))) y = Cert.Spec.scr x0 x1 x2 1 ((Rect.unit (s := S1152x2048) ![1136, 512] S16x512.size inb_S1152x2048_S16x512_1136_512).emb y) := by
  have e : (k0_pay112 (F := Ideal) (kernelRun0_A.sl.r_35 (F := Ideal) c arg1 harg1 arg2 harg2 arg3 harg3 x0 x1 x2) (k0_pay74 (F := Ideal)) (k0_pay75 (F := Ideal))) = augBlk (pbfV (kernelRun0_A.sl.r_19 (F := Ideal) c arg1 harg1 arg2 harg2 arg3 harg3 x0 x1 x2)) (k0_pay74 (F := Ideal)) (k0_pay75 (F := Ideal)) 15 slices_S16x512_o15_0_S1x512 := rfl
  rw [e]
  exact augPiece x0 x1 x2 512 (by omega) (kernelRun0_A.sl.r_19 (F := Ideal) c arg1 harg1 arg2 harg2 arg3 harg3 x0 x1 x2) (t1_H1 c arg1 harg1 arg2 harg2 arg3 harg3 x0 x1 x2) ⟨15, by omega⟩ 1 15 1136 (by decide) rfl rfl _ _ (fun _ => rfl) (fun _ _ => rfl) _ _ y

end Tile1

end Cert.KernelIdeal.TilesA1V

end
-- ==== Proof.KerTilesA0V.lean ====
/-
  The kernel body's stores into its second scratch buffer (the eight heads' value chunks, 8 … 15) for the sequence tile
  of positions 0 … 511: each stored piece, read at an entry, is the entry of `Cert.Spec.scr` it covers — for chunk
  `ch`, at rows `144 · (ch % 8) …`, the 128 feature rows times the reciprocal deviation, then the row holding the mean
  times the reciprocal deviation, a row of ones and fourteen rows of zeros, all at positions `0 + n`.
-/
import proofs.«148891_g2000303815147335_pallasbulk_1180_8_alg».proof.Proof.KerTileGen

noncomputable section

namespace Cert.KernelIdeal.TilesA0V

open Cert.KernelIdeal Cert.KernelIdeal.Gen Cert.KernelIdeal.TileGen Idealize.ShloMosaic Idealize.ShloMosaic.ValueIdx

variable (c : Dev nD) (arg1 : Memref sig Kind.tc Space.vmem S1x2048x256 EltTy.f32) (harg1 : arg1.IsWhole)
  (arg2 : Memref sig Kind.tc Space.vmem S256x2064 EltTy.bf16) (harg2 : arg2.IsWhole)
  (arg3 : Memref sig Kind.tc Space.vmem S2064x1 EltTy.f32) (harg3 : arg3.IsWhole)
  (x0 : Vec Ideal S1x2048x256 .f32) (x1 : Vec Ideal S256x2064 .bf16) (x2 : Vec Ideal S2064x1 .f32)

/-- The tile's transposed projection is the Spec's `kvb` at positions `0 … 511`. -/
theorem tile_kvb : (kernelRun0_A.sl.r_1 (F := Ideal) c arg1 harg1 arg2 harg2 arg3 harg3 x0 x1 x2) = kvbV 0 (k0_pay2 (F := Ideal) x0) x1 x2 slices_S2048x256_o0_0_S512x256 := by
  have e : (kernelRun0_A.sl.r_1 (F := Ideal) c arg1 harg1 arg2 harg2 arg3 harg3 x0 x1 x2) = kvbV 0 (k0_pay2 (F := Ideal) (View.readAt (Elt Ideal) arg1.view (Rect.unit ![0, 0, 0] S1x2048x256.size inb_S1x2048x256_S1x2048x256_0_0_0).toLoadRect (harg1.unread x0))) (View.readAt (Elt Ideal) arg2.view (Rect.unit ![0, 0] S256x2064.size inb_S256x2064_S256x2064_0_0).toLoadRect (harg2.unread x1)) (View.readAt (Elt Ideal) arg3.view (Rect.unit ![0, 0] S2064x1.size inb_S2064x1_S2064x1_0_0).toLoadRect (harg3.unread x2)) slices_S2048x256_o0_0_S512x256 := rfl
  rw [e, rd1, rd2, rd3]

theorem tile_H1 (f : Fin 2064) (n : Fin 512) :
    (kernelRun0_A.sl.r_1 (F := Ideal) c arg1 harg1 arg2 harg2 arg3 harg3 x0 x1 x2) (ix2 f n) = Spec.kvb (Xs x0) (Ws x1) (Bs x2) f (pos 0 (by omega) n) := by
  rw [tile_kvb, kvbV_apply 0 (by omega)]
  unfold Spec.kvb
  simp only [xbf_apply]

theorem piece1_0_0 (y : S128x512.Idx) :
    (k0_pay37 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![0, 0] S128x512.size inb_S1152x2048_S128x512_0_0).emb y) := by
  have e : (k0_pay37 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1024 8 slices_S2048x512_o1024_0_S128x512 slices_S16x512_o8_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨8, by omega⟩ 1 1024 8 0 (by decide) rfl rfl rfl _ _ _ y

theorem piece1_128_0 (y : S16x512.Idx) :
    (k0_pay38 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![128, 0] S16x512.size inb_S1152x2048_S16x512_128_0).emb y) := by
  have e : (k0_pay38 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 8 slices_S16x512_o8_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨8, by omega⟩ 1 8 128 (by decide) rfl rfl _ _ (fun _ => rfl) (fun _ _ => rfl) _ _ y

theorem piece1_144_0 (y : S128x512.Idx) :
    (k0_pay39 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![144, 0] S128x512.size inb_S1152x2048_S128x512_144_0).emb y) := by
  have e : (k0_pay39 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1152 9 slices_S2048x512_o1152_0_S128x512 slices_S16x512_o9_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨9, by omega⟩ 1 1152 9 144 (by decide) rfl rfl rfl _ _ _ y

theorem piece1_272_0 (y : S16x512.Idx) :
    (k0_pay40 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![272, 0] S16x512.size inb_S1152x2048_S16x512_272_0).emb y) := by
  have e : (k0_pay40 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 9 slices_S16x512_o9_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨9, by omega⟩ 1 9 272 (by decide) rfl rfl _ _ (fun _ => rfl) (fun _ _ => rfl) _ _ y

theorem piece1_288_0 (y : S128x512.Idx) :
    (k0_pay41 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![288, 0] S128x512.size inb_S1152x2048_S128x512_288_0).emb y) := by
  have e : (k0_pay41 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1280 10 slices_S2048x512_o1280_0_S128x512 slices_S16x512_o10_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨10, by omega⟩ 1 1280 10 288 (by decide) rfl rfl rfl _ _ _ y

theorem piece1_416_0 (y : S16x512.Idx) :
    (k0_pay42 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![416, 0] S16x512.size inb_S1152x2048_S16x512_416_0).emb y) := by
  have e : (k0_pay42 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 10 slices_S16x512_o10_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨10, by omega⟩ 1 10 416 (by decide) rfl rfl _ _ (fun _ => rfl) (fun _ _ => rfl) _ _ y

theorem piece1_432_0 (y : S128x512.Idx) :
    (k0_pay43 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![432, 0] S128x512.size inb_S1152x2048_S128x512_432_0).emb y) := by
  have e : (k0_pay43 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1408 11 slices_S2048x512_o1408_0_S128x512 slices_S16x512_o11_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨11, by omega⟩ 1 1408 11 432 (by decide) rfl rfl rfl _ _ _ y

theorem piece1_560_0 (y : S16x512.Idx) :
    (k0_pay44 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![560, 0] S16x512.size inb_S1152x2048_S16x512_560_0).emb y) := by
  have e : (k0_pay44 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 11 slices_S16x512_o11_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨11, by omega⟩ 1 11 560 (by decide) rfl rfl _ _ (fun _ => rfl) (fun _ _ => rfl) _ _ y

theorem piece1_576_0 (y : S128x512.Idx) :
    (k0_pay45 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![576, 0] S128x512.size inb_S1152x2048_S128x512_576_0).emb y) := by
  have e : (k0_pay45 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1536 12 slices_S2048x512_o1536_0_S128x512 slices_S16x512_o12_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨12, by omega⟩ 1 1536 12 576 (by decide) rfl rfl rfl _ _ _ y

theorem piece1_704_0 (y : S16x512.Idx) :
    (k0_pay46 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![704, 0] S16x512.size inb_S1152x2048_S16x512_704_0).emb y) := by
  have e : (k0_pay46 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 12 slices_S16x512_o12_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨12, by omega⟩ 1 12 704 (by decide) rfl rfl _ _ (fun _ => rfl) (fun _ _ => rfl) _ _ y

theorem piece1_720_0 (y : S128x512.Idx) :
    (k0_pay48 (F := Ideal) (kernelRun0_A.sl.r_16 (F := Ideal) c arg1 harg1 arg2 harg2 arg3 harg3 x0 x1 x2)) y = Cert.Spec.scr x0 x1 x2 1 ((Rect.unit (s := S1152x2048) ![720, 0] S128x512.size inb_S1152x2048_S128x512_720_0).emb y) := by
  have e : (k0_pay48 (F := Ideal) (kernelRun0_A.sl.r_16 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1664 13 slices_S2048x512_o1664_0_S128x512 slices_S16x512_o13_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨13, by omega⟩ 1 1664 13 720 (by decide) rfl rfl rfl _ _ _ y

theorem piece1_848_0 (y : S16x512.Idx) :
    (k0_pay49 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![848, 0] S16x512.size inb_S1152x2048_S16x512_848_0).emb y) := by
  have e : (k0_pay49 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 13 slices_S16x512_o13_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨13, by omega⟩ 1 13 848 (by decide) rfl rfl _ _ (fun _ => rfl) (fun _ _ => rfl) _ _ y

theorem piece1_864_0 (y : S128x512.Idx) :
    (k0_pay50 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![864, 0] S128x512.size inb_S1152x2048_S128x512_864_0).emb y) := by
  have e : (k0_pay50 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1792 14 slices_S2048x512_o1792_0_S128x512 slices_S16x512_o14_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨14, by omega⟩ 1 1792 14 864 (by decide) rfl rfl rfl _ _ _ y

theorem piece1_992_0 (y : S16x512.Idx) :
    (k0_pay51 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![992, 0] S16x512.size inb_S1152x2048_S16x512_992_0).emb y) := by
  have e : (k0_pay51 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 14 slices_S16x512_o14_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨14, by omega⟩ 1 14 992 (by decide) rfl rfl _ _ (fun _ => rfl) (fun _ _ => rfl) _ _ y

theorem piece1_1008_0 (y : S128x512.Idx) :
    (k0_pay52 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) y = Cert.Spec.scr x0 x1 x2 1 ((Rect.unit (s := S1152x2048) ![1008, 0] S128x512.size inb_S1152x2048_S128x512_1008_0).emb y) := by
  have e : (k0_pay52 (F := Ideal) (kernelRun0_A.sl.r_2 (F := Ideal) c arg1 harg1 arg2 harg2 arg3 harg3 x0 x1 x2) (kernelRun0_A.sl.r_12 (F := Ideal) c arg1 harg1 arg2 harg2 arg3 harg3 x0 x1 x2)) = featBlk (kvbfV (kernelRun0_A.sl.r_1 (F := Ideal) c arg1 harg1 arg2 harg2 arg3 harg3 x0 x1 x2)) (rbfV (kernelRun0_A.sl.r_1 (F := Ideal) c arg1 harg1 arg2 harg2 arg3 harg3 x0 x1 x2)) 1920 15 slices_S2048x512_o1920_0_S128x512 slices_S16x512_o15_0_S1x512 := rfl
  rw [e]
  exact featPiece x0 x1 x2 0 (by omega) (kernelRun0_A.sl.r_1 (F := Ideal) c arg1 harg1 arg2 harg2 arg3 harg3 x0 x1 x2) (tile_H1 c arg1 harg1 arg2 harg2 arg3 harg3 x0 x1 x2) ⟨15, by omega⟩ 1 1920 15 1008 (by decide) rfl rfl rfl _ _ _ y

theorem piece1_1136_0 (y : S16x512.Idx) :
    (k0_pay53 (F := Ideal) (kernelRun0_A.sl.r_13 (F := Ideal) c arg1 harg1 arg2 harg2 arg3 harg3 x0 x1 x2) (k0_pay17 (F := Ideal)) (k0_pay18 (F := Ideal))) y = Cert.Spec.scr x0 x1 x2 1 ((Rect.unit (s := S1152x2048) ![1136, 0] S16x512.size inb_S1152x2048_S16x512_1136_0).emb y) := by
  have e : (k0_pay53 (F := Ideal) (kernelRun0_A.sl.r_13 (F := Ideal) c arg1 harg1 arg2 harg2 arg3 harg3 x0 x1 x2) (k0_pay17 (F := Ideal)) (k0_pay18 (F := Ideal))) = augBlk (pbfV (kernelRun0_A.sl.r_1 (F := Ideal) c arg1 harg1 arg2 harg2 arg3 harg3 x0 x1 x2)) (k0_pay17 (F := Ideal)) (k0_pay18 (F := Ideal)) 15 slices_S16x512_o15_0_S1x512 := rfl
  rw [e]
  exact augPiece x0 x1 x2 0 (by omega) (kernelRun0_A.sl.r_1 (F := Ideal) c arg1 harg1 arg2 harg2 arg3 harg3 x0 x1 x2) (tile_H1 c arg1 harg1 arg2 harg2 arg3 harg3 x0 x1 x2) ⟨15, by omega⟩ 1 15 1136 (by decide) rfl rfl _ _ (fun _ => rfl) (fun _ _ => rfl) _ _ y

end Cert.KernelIdeal.TilesA0V
end
-- ==== Proof.KerPieces1.lean ====
/-
  The 64 stores into the body's second scratch buffer (the eight heads' augmented value matrices, 144 rows each, for each of
  the four 512-position tiles a 128-row block and a 16-row block per head): every store's payload, read at an entry of its
  rectangle, is the one function `Spec.scr … 1` at the buffer's entry under it. Each store is one of the per-tile
  statements; here they are gathered over the list of stores in the order the body makes them.
-/
import proofs.«148891_g2000303815147335_pallasbulk_1180_8_alg».proof.Proof.KerRun
import proofs.«148891_g2000303815147335_pallasbulk_1180_8_alg».proof.Proof.KerTilesB
import proofs.«148891_g2000303815147335_pallasbulk_1180_8_alg».proof.Proof.KerTilesA1V
import proofs.«148891_g2000303815147335_pallasbulk_1180_8_alg».proof.Proof.KerTilesA0V

set_option maxRecDepth 16384

noncomputable section

namespace Cert.KernelIdeal.Run

open Cert.KernelIdeal Cert.KernelIdeal.Gen Idealize.ShloMosaic Idealize.ShloMosaic.ValueIdx

/-- Every store into scratch buffer 1 holds its tile of `scr … 1`. -/
theorem pieces_HS1 (c : Dev nD) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (x0 : Vec Ideal S1x2048x256 .f32) (x1 : Vec Ideal S256x2064 .bf16) (x2 : Vec Ideal S2064x1 .f32) : PiecesAre (kernelRun0_A.sl.HS1_64 (F := Ideal) c arg1 harg1 arg2 harg2 arg3 harg3 x0 x1 x2) (Cert.Spec.scr x0 x1 x2 1) := by
  unfold PiecesAre kernelRun0_A.sl.HS1_64
  exact (List.forall_mem_cons.2 ⟨fun x => TilesB.piece1_1136_1536 c arg1 harg1 arg2 harg2 arg3 harg3 x0 x1 x2 x,
    (List.forall_mem_cons.2 ⟨fun x => TilesB.piece1_1008_1536 c arg1 harg1 arg2 harg2 arg3 harg3 x0 x1 x2 x,
    (List.forall_mem_cons.2 ⟨fun x => TilesB.piece1_992_1536 c arg1 harg1 arg2 harg2 arg3 harg3 x0 x1 x2 x,
    (List.forall_mem_cons.2 ⟨fun x => TilesB.piece1_864_1536 c arg1 harg1 arg2 harg2 arg3 harg3 x0 x1 x2 x,
    (List.forall_mem_cons.2 ⟨fun x => TilesB.piece1_848_1536 c arg1 harg1 arg2 harg2 arg3 harg3 x0 x1 x2 x,
    (List.forall_mem_cons.2 ⟨fun x => TilesB.piece1_720_1536 c arg1 harg1 arg2 harg2 arg3 harg3 x0 x1 x2 x,
    (List.forall_mem_cons.2 ⟨fun x => TilesB.piece1_704_1536 c arg1 harg1 arg2 harg2 arg3 harg3 x0 x1 x2 x,
    (List.forall_mem_cons.2 ⟨fun x => TilesB.piece1_576_1536 c arg1 harg1 arg2 harg2 arg3 harg3 x0 x1 x2 x,
    (List.forall_mem_cons.2 ⟨fun x => TilesB.piece1_560_1536 c arg1 harg1 arg2 harg2 arg3 harg3 x0 x1 x2 x,
    (List.forall_mem_cons.2 ⟨fun x => TilesB.piece1_432_1536 c arg1 harg1 arg2 harg2 arg3 harg3 x0 x1 x2 x,
    (List.forall_mem_cons.2 ⟨fun x => TilesB.piece1_416_1536 c arg1 harg1 arg2 harg2 arg3 harg3 x0 x1 x2 x,
    (List.forall_mem_cons.2 ⟨fun x => TilesB.piece1_288_1536 c arg1 harg1 arg2 harg2 arg3 harg3 x0 x1 x2 x,
    (List.forall_mem_cons.2 ⟨fun x => TilesB.piece1_272_1536 c arg1 harg1 arg2 harg2 arg3 harg3 x0 x1 x2 x,
    (List.forall_mem_cons.2 ⟨fun x => TilesB.piece1_144_1536 c arg1 harg1 arg2 harg2 arg3 harg3 x0 x1 x2 x,
    (List.forall_mem_cons.2 ⟨fun x => TilesB.piece1_128_1536 c arg1 harg1 arg2 harg2 arg3 harg3 x0 x1 x2 x,
    (List.forall_mem_cons.2 ⟨fun x => TilesB.piece1_0_1536 c arg1 harg1 arg2 harg2 arg3 harg3 x0 x1 x2 x,
    (List.forall_mem_cons.2 ⟨fun x => TilesB.piece1_1136_1024 c arg1 harg1 arg2 harg2 arg3 harg3 x0 x1 x2 x,
    (List.forall_mem_cons.2 ⟨fun x => TilesB.piece1_1008_1024 c arg1 harg1 arg2 harg2 arg3 harg3 x0 x1 x2 x,
    (List.forall_mem_cons.2 ⟨fun x => TilesB.piece1_992_1024 c arg1 harg1 arg2 harg2 arg3 harg3 x0 x1 x2 x,
    (List.forall_mem_cons.2 ⟨fun x => TilesB.piece1_864_1024 c arg1 harg1 arg2 harg2 arg3 harg3 x0 x1 x2 x,
    (List.forall_mem_cons.2 ⟨fun x => TilesB.piece1_848_1024 c arg1 harg1 arg2 harg2 arg3 harg3 x0 x1 x2 x,
    (List.forall_mem_cons.2 ⟨fun x => TilesB.piece1_720_1024 c arg1 harg1 arg2 harg2 arg3 harg3 x0 x1 x2 x,
    (List.forall_mem_cons.2 ⟨fun x => TilesB.piece1_704_1024 c arg1 harg1 arg2 harg2 arg3 harg3 x0 x1 x2 x,
    (List.forall_mem_cons.2 ⟨fun x => TilesB.piece1_576_1024 c arg1 harg1 arg2 harg2 arg3 harg3 x0 x1 x2 x,
    (List.forall_mem_cons.2 ⟨fun x => TilesB.piece1_560_1024 c arg1 harg1 arg2 harg2 arg3 harg3 x0 x1 x2 x,
    (List.forall_mem_cons.2 ⟨fun x => TilesB.piece1_432_1024 c arg1 harg1 arg2 harg2 arg3 harg3 x0 x1 x2 x,
    (List.forall_mem_cons.2 ⟨fun x => TilesB.piece1_416_1024 c arg1 harg1 arg2 harg2 arg3 harg3 x0 x1 x2 x,
    (List.forall_mem_cons.2 ⟨fun x => TilesB.piece1_288_1024 c arg1 harg1 arg2 harg2 arg3 harg3 x0 x1 x2 x,
    (List.forall_mem_cons.2 ⟨fun x => TilesB.piece1_272_1024 c arg1 harg1 arg2 harg2 arg3 harg3 x0 x1 x2 x,
    (List.forall_mem_cons.2 ⟨fun x => TilesB.piece1_144_1024 c arg1 harg1 arg2 harg2 arg3 harg3 x0 x1 x2 x,
    (List.forall_mem_cons.2 ⟨fun x => TilesB.piece1_128_1024 c arg1 harg1 arg2 harg2 arg3 harg3 x0 x1 x2 x,
    (List.forall_mem_cons.2 ⟨fun x => TilesB.piece1_0_1024 c arg1 harg1 arg2 harg2 arg3 harg3 x0 x1 x2 x,
    (List.forall_mem_cons.2 ⟨fun x => TilesA1V.piece1_1136_512 c arg1 harg1 arg2 harg2 arg3 harg3 x0 x1 x2 x,
    (List.forall_mem_cons.2 ⟨fun x => TilesA1V.piece1_1008_512 c arg1 harg1 arg2 harg2 arg3 harg3 x0 x1 x2 x,
    (List.forall_mem_cons.2 ⟨fun x => TilesA1V.piece1_992_512 c arg1 harg1 arg2 harg2 arg3 harg3 x0 x1 x2 x,
    (List.forall_mem_cons.2 ⟨fun x => TilesA1V.piece1_864_512 c arg1 harg1 arg2 harg2 arg3 harg3 x0 x1 x2 x,
    (List.forall_mem_cons.2 ⟨fun x => TilesA1V.piece1_848_512 c arg1 harg1 arg2 harg2 arg3 harg3 x0 x1 x2 x,
    (List.forall_mem_cons.2 ⟨fun x => TilesA1V.piece1_720_512 c arg1 harg1 arg2 harg2 arg3 harg3 x0 x1 x2 x,
    (List.forall_mem_cons.2 ⟨fun x => TilesA1V.piece1_704_512 c arg1 harg1 arg2 harg2 arg3 harg3 x0 x1 x2 x,
    (List.forall_mem_cons.2 ⟨fun x => TilesA1V.piece1_576_512 c arg1 harg1 arg2 harg2 arg3 harg3 x0 x1 x2 x,
    (List.forall_mem_cons.2 ⟨fun x => TilesA1V.piece1_560_512 c arg1 harg1 arg2 harg2 arg3 harg3 x0 x1 x2 x,
    (List.forall_mem_cons.2 ⟨fun x => TilesA1V.piece1_432_512 c arg1 harg1 arg2 harg2 arg3 harg3 x0 x1 x2 x,
    (List.forall_mem_cons.2 ⟨fun x => TilesA1V.piece1_416_512 c arg1 harg1 arg2 harg2 arg3 harg3 x0 x1 x2 x,
    (List.forall_mem_cons.2 ⟨fun x => TilesA1V.piece1_288_512 c arg1 harg1 arg2 harg2 arg3 harg3 x0 x1 x2 x,
    (List.forall_mem_cons.2 ⟨fun x => TilesA1V.piece1_272_512 c arg1 harg1 arg2 harg2 arg3 harg3 x0 x1 x2 x,
    (List.forall_mem_cons.2 ⟨fun x => TilesA1V.piece1_144_512 c arg1 harg1 arg2 harg2 arg3 harg3 x0 x1 x2 x,
    (List.forall_mem_cons.2 ⟨fun x => TilesA1V.piece1_128_512 c arg1 harg1 arg2 harg2 arg3 harg3 x0 x1 x2 x,
    (List.forall_mem_cons.2 ⟨fun x => TilesA1V.piece1_0_512 c arg1 harg1 arg2 harg2 arg3 harg3 x0 x1 x2 x,
    (List.forall_mem_cons.2 ⟨fun x => TilesA0V.piece1_1136_0 c arg1 harg1 arg2 harg2 arg3 harg3 x0 x1 x2 x,
    (List.forall_mem_cons.2 ⟨fun x => TilesA0V.piece1_1008_0 c arg1 harg1 arg2 harg2 arg3 harg3 x0 x1 x2 x,
    (List.forall_mem_cons.2 ⟨fun x => TilesA0V.piece1_992_0 c arg1 harg1 arg2 harg2 arg3 harg3 x0 x1 x2 x,
    (List.forall_mem_cons.2 ⟨fun x => TilesA0V.piece1_864_0 c arg1 harg1 arg2 harg2 arg3 harg3 x0 x1 x2 x,
    (List.forall_mem_cons.2 ⟨fun x => TilesA0V.piece1_848_0 c arg1 harg1 arg2 harg2 arg3 harg3 x0 x1 x2 x,
    (List.forall_mem_cons.2 ⟨fun x => TilesA0V.piece1_720_0 c arg1 harg1 arg2 harg2 arg3 harg3 x0 x1 x2 x,
    (List.forall_mem_cons.2 ⟨fun x => TilesA0V.piece1_704_0 c arg1 harg1 arg2 harg2 arg3 harg3 x0 x1 x2 x,
    (List.forall_mem_cons.2 ⟨fun x => TilesA0V.piece1_576_0 c arg1 harg1 arg2 harg2 arg3 harg3 x0 x1 x2 x,
    (List.forall_mem_cons.2 ⟨fun x => TilesA0V.piece1_560_0 c arg1 harg1 arg2 harg2 arg3 harg3 x0 x1 x2 x,
    (List.forall_mem_cons.2 ⟨fun x => TilesA0V.piece1_432_0 c arg1 harg1 arg2 harg2 arg3 harg3 x0 x1 x2 x,
    (List.forall_mem_cons.2 ⟨fun x => TilesA0V.piece1_416_0 c arg1 harg1 arg2 harg2 arg3 harg3 x0 x1 x2 x,
    (List.forall_mem_cons.2 ⟨fun x => TilesA0V.piece1_288_0 c arg1 harg1 arg2 harg2 arg3 harg3 x0 x1 x2 x,
    (List.forall_mem_cons.2 ⟨fun x => TilesA0V.piece1_272_0 c arg1 harg1 arg2 harg2 arg3 harg3 x0 x1 x2 x,
    (List.forall_mem_cons.2 ⟨fun x => TilesA0V.piece1_144_0 c arg1 harg1 arg2 harg2 arg3 harg3 x0 x1 x2 x,
    (List.forall_mem_cons.2 ⟨fun x => TilesA0V.piece1_128_0 c arg1 harg1 arg2 harg2 arg3 harg3 x0 x1 x2 x,
    (List.forall_mem_cons.2 ⟨fun x => TilesA0V.piece1_0_0 c arg1 harg1 arg2 harg2 arg3 harg3 x0 x1 x2 x,
    (fun _ h => absurd h List.not_mem_nil)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

end Cert.KernelIdeal.Run

end
-- ==== Proof.KerBody.lean ====
/-
  The kernel body's output block as a function of its input blocks, with nothing assumed: every store into the two scratch
  buffers holds its tile of `Spec.scr`, so the block the body leaves in its output buffer is `Spec.kout` of the eleven
  input blocks.
-/
import proofs.«148891_g2000303815147335_pallasbulk_1180_8_alg».proof.Proof.KerRun
import proofs.«148891_g2000303815147335_pallasbulk_1180_8_alg».proof.Proof.KerPieces0
import proofs.«148891_g2000303815147335_pallasbulk_1180_8_alg».proof.Proof.KerPieces1

noncomputable section

namespace Cert.KernelIdeal.Run

open Cert.KernelIdeal Cert.KernelIdeal.Gen Idealize.ShloMosaic Idealize.ShloMosaic.ValueIdx

/-- The block the body leaves in its output buffer is `kout` of the input blocks. -/
theorem body_eq (c : Dev nD) (i : grid0.Coords) (arg1 : Memref sig .tc .vmem S1x2048x256 .f32) (harg1 : arg1.IsWhole) (arg2 : Memref sig .tc .vmem S256x2064 .bf16) (harg2 : arg2.IsWhole) (arg3 : Memref sig .tc .vmem S2064x1 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S1x2048x128 .f32) (harg12 : arg12.IsWhole) (arg13 : Memref sig .tc .vmem S1152x2048 .bf16) (harg13 : arg13.IsWhole) (arg14 : Memref sig .tc .vmem S1152x2048 .bf16) (harg14 : arg14.IsWhole)
    (x0 : Vec Ideal S1x2048x256 .f32) (x1 : Vec Ideal S256x2064 .bf16) (x2 : Vec Ideal S2064x1 .f32) (x3 : Vec Ideal S256x1024 .f32) (x4 : Vec Ideal S1x1024 .f32) (x5 : Vec Ideal S1024x128 .f32) (x6 : Vec Ideal S1x128 .f32) (x7 : Vec Ideal S128x8 .f32) (x8 : Vec Ideal S128x8 .f32) (x9 : Vec Ideal S8x128 .f32) (x10 : Vec Ideal S8x128 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = Cert.Spec.kout x0 x1 x2 x3 x4 x5 x6 x7 x8 x9 x10 :=
  body_eq_of c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (pieces_HS0 c arg1 harg1 arg2 harg2 arg3 harg3 x0 x1 x2) (pieces_HS1 c arg1 harg1 arg2 harg2 arg3 harg3 x0 x1 x2)

end Cert.KernelIdeal.Run

end
-- ==== Proof.Bridge.lean ====
/-
  The bridge between the two programs: the result arrays are equal, entry by entry, as extended reals.

  Both programs compute, for a batch row `b`, a sequence position `n` and an output feature `j`,

    out[b, n, j] = ((Σ_h Σ_k (Σ_i q[b, n, 128h + i] · A[b, h, i, k]) · wo[128h + k, j]) + bo[j]) / 2048,

  with `q = x · wq + bq` and `A[b, h] = LN(K_h)ᵀ LN(V_h)` the Gram matrix, over the 2048 positions of the row, of the
  layer-normalized key and value features of head `h`. The reference forms `A` tile by tile with LayerNorm applied entry
  by entry (its first launch) and then applies it (its second launch: `RefValue.refOut`, Proof/RefOutArray.lean); the
  kernel never normalizes an entry: it rescales each key and value row by its reciprocal standard deviation, obtains
  the Gram sums of the rescaled rows together with the correction sums against the rescaled means and the constant one
  in ONE augmented contraction per head, assembles `A` from them (`LibLayerNormFold.gram_fold`, with the variance as
  mean of squares minus squared mean, `LibLayerNormFold.var_eq_meansq_sub_sqmean`, and the mean carried by the
  projection, `LibLayerNormFold.mean_affine`), and folds `wq`, `A`, `wo`, `bo` and the factor 1/2048 into one weight
  and one bias per batch row (`LibLayerNormFold.apply_fold`). Every one of these laws moves a factor across a sum, so it
  holds on the extended reals only for finite entries: this is where the precondition (all inputs finite) is used,
  together with the fact that a variance plus a positive constant is positive, which keeps the reciprocal square roots
  finite.
-/
import proofs.«148891_g2000303815147335_pallasbulk_1180_8_alg».proof.Defs
import proofs.«148891_g2000303815147335_pallasbulk_1180_8_alg».proof.Proof.Gen.KernelIdeal.Value
import proofs.«148891_g2000303815147335_pallasbulk_1180_8_alg».proof.Proof.RefRun
import proofs.«148891_g2000303815147335_pallasbulk_1180_8_alg».proof.Proof.RefOutArray
import proofs.«148891_g2000303815147335_pallasbulk_1180_8_alg».proof.Proof.Gen.Pre_finite_inputs
import proofs.«148891_g2000303815147335_pallasbulk_1180_8_alg».proof.Proof.LibLayerNormFold
import proofs.«148891_g2000303815147335_pallasbulk_1180_8_alg».proof.Proof.Algebra
import proofs.«148891_g2000303815147335_pallasbulk_1180_8_alg».proof.Proof.Finite
import proofs.«148891_g2000303815147335_pallasbulk_1180_8_alg».proof.Proof.RefAmap
import proofs.«148891_g2000303815147335_pallasbulk_1180_8_alg».proof.Proof.KerArray
import proofs.«148891_g2000303815147335_pallasbulk_1180_8_alg».proof.Proof.KerBody

noncomputable section

namespace Cert.Bridge

open Idealize.ShloMosaic Idealize.ShloMosaic.TcCoe Idealize.SL.Sem
open Cert.ReferenceIdeal Cert.ReferenceIdeal.Gen

/-- The reference's result array: the second launch's array function of the launch contents of `x`, `wq`, `bq`,
    `wo`, `bo` (no launch writes an argument) and of the attention-maps array the first launch leaves. -/
theorem ref_side (m' : (ℓ : Loc nD τ sig) → Buf (Elt Ideal) ℓ) (ρ' : Dev nD → PrngReg) (c : Dev nD) :
    (dat1 (V1 m' ρ') c).arrAt 6 cfg1.N
      = Cert.ReferenceIdeal.RefValue.refOut (m' ((c : Thread nD τ).loc main_arg0)) ((dat0 (V0 m' ρ') c).arrAt 9 cfg0.N)
          (m' ((c : Thread nD τ).loc main_arg1)) (m' ((c : Thread nD τ).loc main_arg2))
          (m' ((c : Thread nD τ).loc main_arg7)) (m' ((c : Thread nD τ).loc main_arg8)) := by
  have h0 : V1 m' ρ' c main_arg0 = m' ((c : Thread nD τ).loc main_arg0) :=
    (W1_arr m' ρ' c 0).trans (((dat0 (V0 m' ρ') c).arrAt_in 0 rfl _).trans (A_eq0 (V0 m' ρ') c 0))
  have hA : V1 m' ρ' c main_v0 = (dat0 (V0 m' ρ') c).arrAt 9 cfg0.N := W1_arr m' ρ' c 9
  have h1 : V1 m' ρ' c main_arg1 = m' ((c : Thread nD τ).loc main_arg1) := W1_of_ne m' ρ' c main_arg1 (by decide)
  have h2 : V1 m' ρ' c main_arg2 = m' ((c : Thread nD τ).loc main_arg2) := W1_of_ne m' ρ' c main_arg2 (by decide)
  have h7 : V1 m' ρ' c main_arg7 = m' ((c : Thread nD τ).loc main_arg7) := W1_of_ne m' ρ' c main_arg7 (by decide)
  have h8 : V1 m' ρ' c main_arg8 = m' ((c : Thread nD τ).loc main_arg8) := W1_of_ne m' ρ' c main_arg8 (by decide)
  rw [Cert.ReferenceIdeal.RefValue.final (V1 m' ρ') c, h0, hA, h1, h2, h7, h8]

/-- The remaining equation from the two programs' array values: the reference's first launch leaves the attention
    maps `Spec.amap` of the arguments (`hamap`), the kernel's write-backs leave `Spec.kerOut` of the arguments (`harr`),
    the memories agree on the arguments, every argument entry is a real number, and on real inputs the two
    specifications agree (`Cert.Algebra.main`). -/
theorem core_of
    (hamap : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
      (dat0 V c).arrAt 9 cfg0.N = Cert.Spec.amap (V c main_arg0) (V c main_arg3) (V c main_arg4) (V c main_arg5) (V c main_arg6)
        (V c main_arg9) (V c main_arg10) (V c main_arg11) (V c main_arg12))
    (harr : ∀ (m : (ℓ : Loc Cert.KernelIdeal.nD Cert.KernelIdeal.τ Cert.KernelIdeal.sig) → Buf (Elt Ideal) ℓ) (c : Dev Cert.KernelIdeal.nD),
      (Cert.KernelIdeal.Gen.dats m 0 c).arrAt 11 Cert.KernelIdeal.cfg0.N
        = Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    Cert.ReferenceIdeal.RefValue.refOut (m' ((c.tc : Thread Cert.ReferenceIdeal.nD Cert.ReferenceIdeal.τ).loc Cert.ReferenceIdeal.main_arg0)) ((dat0 (V0 m' ρ') c).arrAt 9 cfg0.N)
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = (Cert.KernelIdeal.Gen.dats m 0 c).arrAt 11 Cert.KernelIdeal.cfg0.N := by
  obtain ⟨a0, a1, a2, a3, a4, a5, a6, a7, a8, a9, a10, a11, a12⟩ := hagree c
  obtain ⟨f0, f1, f2, f3, f4, f5, f6, f7, f8, f9, f10, f11, f12⟩ := Cert.Finite.args_real m hpre c
  have hA : (dat0 (V0 m' ρ') c).arrAt 9 cfg0.N
      = Cert.Spec.amap (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) :=
    hamap (V0 m' ρ') c
  rw [hA, harr m c, a0, a1, a2, a3, a4, a5, a6, a7, a8, a9, a10, a11, a12]
  exact (Cert.Algebra.main _ _ _ _ _ _ _ _ _ _ _ _ _ f0 f1 f2 f3 f4 f5 f6 f7 f8 f9 f10 f11 f12).symm

/-- The remaining equation: the reference's array function, at the attention maps its first launch accumulates, is the
    array the kernel's sixteen write-backs leave — `core_of` at the two programs' array values: the first launch's
    accumulated maps (`AmapArray.amap_final`) and the kernel's write-backs (`ArrayK.array_eq` over the body's block value
    `Run.body_eq`). -/
theorem core
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    Cert.ReferenceIdeal.RefValue.refOut (m' ((c.tc : Thread Cert.ReferenceIdeal.nD Cert.ReferenceIdeal.τ).loc Cert.ReferenceIdeal.main_arg0)) ((dat0 (V0 m' ρ') c).arrAt 9 cfg0.N)
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = (Cert.KernelIdeal.Gen.dats m 0 c).arrAt 11 Cert.KernelIdeal.cfg0.N :=
  core_of Cert.ReferenceIdeal.AmapArray.amap_final
    (fun m c => Cert.KernelIdeal.ArrayK.array_eq m Cert.KernelIdeal.Run.body_eq c) m m' ρ' hpre hagree c

/-- From memories that agree on the thirteen argument arrays, all of them finite, the array the reference's second
    launch leaves in its result is the array the kernel's sixteen write-backs leave in the kernel's result. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    (Cert.ReferenceIdeal.Gen.dat1 (Cert.ReferenceIdeal.Gen.V1 m' ρ') c).arrAt 6 Cert.ReferenceIdeal.cfg1.N
      = (Cert.KernelIdeal.Gen.dats m 0 c).arrAt 11 Cert.KernelIdeal.cfg0.N :=
  (ref_side m' ρ' c).trans (core m m' ρ' hpre hagree c)

end Cert.Bridge

end
-- ==== Proof.lean ====
/-
  The certificate's five claims for the fused Galerkin-attention kernel against its two-pass reference.

  The three frames are the generated frame certificates (each program terminates without a fault and leaves its
  argument arrays unchanged). The idealization rewrote no operation, so `preserves` is `True`. For `algebraic` the
  kernel's run ends with its result array at what its sixteen per-batch-row write-backs leave (the generated value leg),
  the reference's run ends with its result array at what its second launch's write-backs leave (Proof/RefRun.lean), and
  the two arrays are equal entry by entry (Proof/Bridge.lean).
-/
import proofs.«148891_g2000303815147335_pallasbulk_1180_8_alg».proof.Defs
import proofs.«148891_g2000303815147335_pallasbulk_1180_8_alg».proof.Proof.Gen.Kernel
import proofs.«148891_g2000303815147335_pallasbulk_1180_8_alg».proof.Proof.Gen.Kernel.Frame
import proofs.«148891_g2000303815147335_pallasbulk_1180_8_alg».proof.Proof.Gen.KernelIdeal
import proofs.«148891_g2000303815147335_pallasbulk_1180_8_alg».proof.Proof.Gen.KernelIdeal.Frame
import proofs.«148891_g2000303815147335_pallasbulk_1180_8_alg».proof.Proof.Gen.KernelIdeal.Value
import proofs.«148891_g2000303815147335_pallasbulk_1180_8_alg».proof.Proof.Gen.ReferenceIdeal
import proofs.«148891_g2000303815147335_pallasbulk_1180_8_alg».proof.Proof.Gen.ReferenceIdeal.Frame
import proofs.«148891_g2000303815147335_pallasbulk_1180_8_alg».proof.Proof.Gen.Pre_finite_inputs
import proofs.«148891_g2000303815147335_pallasbulk_1180_8_alg».proof.Proof.RefRun
import proofs.«148891_g2000303815147335_pallasbulk_1180_8_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

theorem preserves : Cert.preserves_Kernel_KernelIdeal := trivial

/-- Both idealized programs run to the end; the kernel's result array is named by its value leg, the reference's by its
    run, and the two are one array (`Cert.Bridge.result_eq`). -/
theorem algebraic : Cert.algebraic_KernelIdeal_ReferenceIdeal := by
  intro m ρ m' ρ' hpre hagree
  refine ⟨fun c => (Cert.KernelIdeal.Gen.dats m 0 c).arrAt 11 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.RefValue.run_named (F := Ideal) m' ρ')
  exact Cert.Bridge.result_eq m m' ρ' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
